-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v392) = v0 c
          ∧ r.2.mem ((c.tc : Thread Cert.ReferenceIdeal.nD Cert.ReferenceIdeal.τ).loc Cert.ReferenceIdeal.main_v393) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x600 : Shape := ⟨3, ![32, 64, 600]⟩
abbrev S8x20x300 : Shape := ⟨3, ![8, 20, 300]⟩
abbrev S_ : Shape := ⟨0, ![]⟩

class Facts : Prop where
  bcast_S_S32x64x600 : S_.BroadcastsInDim S32x64x600 (![] : Fin 0 → Fin S32x64x600.rank)
  reducesTo_S32x64x600_S_d0_1_2 : S32x64x600.ReducesTo [0, 1, 2] S_
  h_S_ : 0 < S_.numel
  bcast_S_S8x20x300 : S_.BroadcastsInDim S8x20x300 (![] : Fin 0 → Fin S8x20x300.rank)
  reducesTo_S8x20x300_S_d0_1_2 : S8x20x300.ReducesTo [0, 1, 2] S_

variable [Facts]

def fn {F : FTy → Type} [FloatOps F] (main_arg0 : FVec F S32x64x600 .f32) (main_arg1 : FVec F S32x64x600 .f32) (main_arg2 : FVec F S8x20x300 .f32) : IVec S_ 1 :=
  let main_v0 : FVec F S32x64x600 .f32 := Host.absf main_arg0
  let main_cst : FVec F S_ .f32 := constant S_ .f32 0x7F800000#32
  let main_v1 : FVec F S32x64x600 .f32 := broadcastInDim S32x64x600 ![] bcast_S_S32x64x600 main_cst
  let main_v2 : IVec S32x64x600 1 := cmpf .olt main_v0 main_v1
  let main_c : IVec S_ 1 := constantI S_ 1 1#1
  let main_v3 : IVec S_ 1 := (fun x v => Host.reduce IntOp.andi x v reducesTo_S32x64x600_S_d0_1_2 h_S_) main_v2 main_c
  let main_v4 : FVec F S32x64x600 .f32 := Host.absf main_arg1
  let main_cst_0 : FVec F S_ .f32 := constant S_ .f32 0x7F800000#32
  let main_v5 : FVec F S32x64x600 .f32 := broadcastInDim S32x64x600 ![] bcast_S_S32x64x600 main_cst_0
  let main_v6 : IVec S32x64x600 1 := cmpf .olt main_v4 main_v5
  let main_c_1 : IVec S_ 1 := constantI S_ 1 1#1
  let main_v7 : IVec S_ 1 := (fun x v => Host.reduce IntOp.andi x v reducesTo_S32x64x600_S_d0_1_2 h_S_) main_v6 main_c_1
  let main_v8 : IVec S_ 1 := andi main_v3 main_v7
  let main_v9 : FVec F S8x20x300 .f32 := Host.absf main_arg2
  let main_cst_2 : FVec F S_ .f32 := constant S_ .f32 0x7F800000#32
  let main_v10 : FVec F S8x20x300 .f32 := broadcastInDim S8x20x300 ![] bcast_S_S8x20x300 main_cst_2
  let main_v11 : IVec S8x20x300 1 := cmpf .olt main_v9 main_v10
  let main_c_3 : IVec S_ 1 := constantI S_ 1 1#1
  let main_v12 : IVec S_ 1 := (fun x v => Host.reduce IntOp.andi x v reducesTo_S8x20x300_S_d0_1_2 h_S_) main_v11 main_c_3
  let main_v13 : IVec S_ 1 := andi main_v8 main_v12
  main_v13
-- ==== Kernel.lean ====
abbrev S32x64x600 : Shape := ⟨3, ![32, 64, 600]⟩
abbrev S8x20x300 : Shape := ⟨3, ![8, 20, 300]⟩
abbrev S32x64x300 : Shape := ⟨3, ![32, 64, 300]⟩
abbrev S_ : Shape := ⟨0, ![]⟩
abbrev S32x64x384 : Shape := ⟨3, ![32, 64, 384]⟩
abbrev S32x64x768 : Shape := ⟨3, ![32, 64, 768]⟩
abbrev S8x20x384 : Shape := ⟨3, ![8, 20, 384]⟩
abbrev S32x64x256 : Shape := ⟨3, ![32, 64, 256]⟩
abbrev S1x64x768 : Shape := ⟨3, ![1, 64, 768]⟩
abbrev S1x64x256 : Shape := ⟨3, ![1, 64, 256]⟩
abbrev S64x768 : Shape := ⟨2, ![64, 768]⟩
abbrev S64x384 : Shape := ⟨2, ![64, 384]⟩
abbrev S1x20x384 : Shape := ⟨3, ![1, 20, 384]⟩
abbrev S20x384 : Shape := ⟨2, ![20, 384]⟩
abbrev S1x384 : Shape := ⟨2, ![1, 384]⟩
abbrev S384 : Shape := ⟨1, ![384]⟩
abbrev S384x20 : Shape := ⟨2, ![384, 20]⟩
abbrev S64x20 : Shape := ⟨2, ![64, 20]⟩
abbrev S1x64x384 : Shape := ⟨3, ![1, 64, 384]⟩
abbrev S20x1x384 : Shape := ⟨3, ![20, 1, 384]⟩
abbrev S20x64x384 : Shape := ⟨3, ![20, 64, 384]⟩
abbrev S1280x384 : Shape := ⟨2, ![1280, 384]⟩
abbrev S384x64 : Shape := ⟨2, ![384, 64]⟩
abbrev S1280x64 : Shape := ⟨2, ![1280, 64]⟩
abbrev S20x64x64 : Shape := ⟨3, ![20, 64, 64]⟩
abbrev S20x64 : Shape := ⟨2, ![20, 64]⟩
abbrev S20x64x1 : Shape := ⟨3, ![20, 64, 1]⟩
abbrev S20x1x64 : Shape := ⟨3, ![20, 1, 64]⟩
abbrev S64 : Shape := ⟨1, ![64]⟩
abbrev S64x64 : Shape := ⟨2, ![64, 64]⟩
abbrev S64x1 : Shape := ⟨2, ![64, 1]⟩
abbrev S1x64 : Shape := ⟨2, ![1, 64]⟩
abbrev S64x1x384 : Shape := ⟨3, ![64, 1, 384]⟩
abbrev S64x64x1 : Shape := ⟨3, ![64, 64, 1]⟩
abbrev S64x64x384 : Shape := ⟨3, ![64, 64, 384]⟩
abbrev S64x160 : Shape := ⟨2, ![64, 160]⟩
abbrev S64x96 : Shape := ⟨2, ![64, 96]⟩
abbrev S64x256 : Shape := ⟨2, ![64, 256]⟩
abbrev S32x64x160 : Shape := ⟨3, ![32, 64, 160]⟩

abbrev nBuf : Space → Nat
  | .hbm => 28
  | .vmem => 9
  | .smem => 0
  | _ => 0

abbrev bufTy : (tb : Table) → Fin (tcTables nBuf tb) → BufTy
  | .hbm, ⟨0, _⟩ => ⟨S32x64x600, .f32⟩
  | .hbm, ⟨1, _⟩ => ⟨S32x64x600, .f32⟩
  | .hbm, ⟨2, _⟩ => ⟨S8x20x300, .f32⟩
  | .hbm, ⟨3, _⟩ => ⟨S32x64x300, .f32⟩
  | .hbm, ⟨4, _⟩ => ⟨S_, .i32⟩
  | .hbm, ⟨5, _⟩ => ⟨S_, .f32⟩
  | .hbm, ⟨6, _⟩ => ⟨S32x64x384, .f32⟩
  | .hbm, ⟨7, _⟩ => ⟨S32x64x300, .f32⟩
  | .hbm, ⟨8, _⟩ => ⟨S_, .i32⟩
  | .hbm, ⟨9, _⟩ => ⟨S_, .f32⟩
  | .hbm, ⟨10, _⟩ => ⟨S32x64x384, .f32⟩
  | .hbm, ⟨11, _⟩ => ⟨S32x64x300, .f32⟩
  | .hbm, ⟨12, _⟩ => ⟨S_, .i32⟩
  | .hbm, ⟨13, _⟩ => ⟨S_, .f32⟩
  | .hbm, ⟨14, _⟩ => ⟨S32x64x384, .f32⟩
  | .hbm, ⟨15, _⟩ => ⟨S32x64x300, .f32⟩
  | .hbm, ⟨16, _⟩ => ⟨S_, .i32⟩
  | .hbm, ⟨17, _⟩ => ⟨S_, .f32⟩
  | .hbm, ⟨18, _⟩ => ⟨S32x64x384, .f32⟩
  | .hbm, ⟨19, _⟩ => ⟨S32x64x768, .f32⟩
  | .hbm, ⟨20, _⟩ => ⟨S32x64x768, .f32⟩
  | .hbm, ⟨21, _⟩ => ⟨S_, .i32⟩
  | .hbm, ⟨22, _⟩ => ⟨S_, .f32⟩
  | .hbm, ⟨23, _⟩ => ⟨S8x20x384, .f32⟩
  | .hbm, ⟨24, _⟩ => ⟨S32x64x256, .f32⟩
  | .hbm, ⟨25, _⟩ => ⟨S32x64x256, .f32⟩
  | .hbm, ⟨26, _⟩ => ⟨S32x64x160, .f32⟩
  | .hbm, ⟨27, _⟩ => ⟨S32x64x160, .f32⟩
  | .local _ .vmem, ⟨0, _⟩ => ⟨S1x64x768, .f32⟩
  | .local _ .vmem, ⟨1, _⟩ => ⟨S1x64x768, .f32⟩
  | .local _ .vmem, ⟨2, _⟩ => ⟨S1x64x768, .f32⟩
  | .local _ .vmem, ⟨3, _⟩ => ⟨S1x64x768, .f32⟩
  | .local _ .vmem, ⟨4, _⟩ => ⟨S8x20x384, .f32⟩
  | .local _ .vmem, ⟨5, _⟩ => ⟨S1x64x256, .f32⟩
  | .local _ .vmem, ⟨6, _⟩ => ⟨S1x64x256, .f32⟩
  | .local _ .vmem, ⟨7, _⟩ => ⟨S1x64x256, .f32⟩
  | .local _ .vmem, ⟨8, _⟩ => ⟨S1x64x256, .f32⟩
  | _, _ => ⟨S32x64x600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_call3_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_call4_v0 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x20x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S32x64x600_S32x64x300_0_0_0 : S32x64x600.Slices ![0, 0, 0] S32x64x300
  pads_S32x64x300_S32x64x384_000_000_0840 : S32x64x300.Pads (![0, 0, 0] : Fin 3 → Nat) ![0, 0, 84] ![0, 0, 0] S32x64x384
  h_S_ : 0 < S_.numel
  slices_S32x64x600_S32x64x300_0_0_300 : S32x64x600.Slices ![0, 0, 300] S32x64x300
  concatenates_S32x64x384_S32x64x384_S32x64x768_d2 : Shape.Concatenates [S32x64x384, S32x64x384] S32x64x768 2
  pads_S8x20x300_S8x20x384_000_000_0840 : S8x20x300.Pads (![0, 0, 0] : Fin 3 → Nat) ![0, 0, 84] ![0, 0, 0] S8x20x384
  inb_S1x64x768_S1x64x768_0_0_0 : ∀ a, (![0, 0, 0] : Fin 3 → Nat) a + S1x64x768.size a ≤ S1x64x768.size a
  h_S1x64x768 : 0 < S1x64x768.numel
  shapeCasts_S1x64x768_S64x768 : S1x64x768.ShapeCasts S64x768
  slices_S64x768_o0_0_S64x384 : S64x768.Slices ![0, 0] S64x384
  slices_S64x768_o0_384_S64x384 : S64x768.Slices ![0, 384] S64x384
  inb_S8x20x384_S8x20x384_0_0_0 : ∀ a, (![0, 0, 0] : Fin 3 → Nat) a + S8x20x384.size a ≤ S8x20x384.size a
  h_S8x20x384 : 0 < S8x20x384.numel
  shapeCasts_S8x20x384_S8x20x384 : S8x20x384.ShapeCasts S8x20x384
  slices_S8x20x384_o0_0_0_S1x20x384 : S8x20x384.Slices ![0, 0, 0] S1x20x384
  shapeCasts_S1x20x384_S20x384 : S1x20x384.ShapeCasts S20x384
  slices_S64x384_o63_0_S1x384 : S64x384.Slices ![63, 0] S1x384
  shapeCasts_S1x384_S384 : S1x384.ShapeCasts S384
  shapeCasts_S384_S1x384 : S384.ShapeCasts S1x384
  shapeCasts_S1x384_S1x384 : S1x384.ShapeCasts S1x384
  broadcasts_S1x384_S64x384 : S1x384.Broadcasts S64x384
  transposes_S20x384_p1_0_S384x20 : S20x384.Transposes [1, 0] S384x20
  slices_S8x20x384_o1_0_0_S1x20x384 : S8x20x384.Slices ![1, 0, 0] S1x20x384
  slices_S64x384_o0_0_S1x384 : S64x384.Slices ![0, 0] S1x384
  slices_S8x20x384_o2_0_0_S1x20x384 : S8x20x384.Slices ![2, 0, 0] S1x20x384
  shapeCasts_S64x384_S1x64x384 : S64x384.ShapeCasts S1x64x384
  shapeCasts_S20x384_S20x1x384 : S20x384.ShapeCasts S20x1x384
  broadcasts_S1x64x384_S20x64x384 : S1x64x384.Broadcasts S20x64x384
  broadcasts_S20x1x384_S20x64x384 : S20x1x384.Broadcasts S20x64x384
  shapeCasts_S20x64x384_S1280x384 : S20x64x384.ShapeCasts S1280x384
  transposes_S64x384_p1_0_S384x64 : S64x384.Transposes [1, 0] S384x64
  shapeCasts_S1280x64_S20x64x64 : S1280x64.ShapeCasts S20x64x64
  transposes_S64x20_p1_0_S20x64 : S64x20.Transposes [1, 0] S20x64
  shapeCasts_S20x64_S20x64x1 : S20x64.ShapeCasts S20x64x1
  shapeCasts_S20x64_S20x1x64 : S20x64.ShapeCasts S20x1x64
  broadcasts_S20x64x1_S20x64x64 : S20x64x1.Broadcasts S20x64x64
  broadcasts_S20x1x64_S20x64x64 : S20x1x64.Broadcasts S20x64x64
  reduces_S20x64x64_S20x64 : S20x64x64.Reduces [2] S20x64
  reduces_S20x64x64_S20x64_2 : S20x64x64.Reduces [1] S20x64
  transposes_S20x64_p1_0_S64x20 : S20x64.Transposes [1, 0] S64x20
  slices_S8x20x384_o3_0_0_S1x20x384 : S8x20x384.Slices ![3, 0, 0] S1x20x384
  reduces_S64x384_S64 : S64x384.Reduces [1] S64
  shapeCasts_S64_S64x1 : S64.ShapeCasts S64x1
  shapeCasts_S64_S1x64 : S64.ShapeCasts S1x64
  broadcasts_S64x1_S64x64 : S64x1.Broadcasts S64x64
  broadcasts_S1x64_S64x64 : S1x64.Broadcasts S64x64
  slices_S8x20x384_o4_0_0_S1x20x384 : S8x20x384.Slices ![4, 0, 0] S1x20x384
  reduces_S64x64_S64 : S64x64.Reduces [0] S64
  broadcasts_S64x1_S64x384 : S64x1.Broadcasts S64x384
  reduces_S64x64_S64_2 : S64x64.Reduces [1] S64
  slices_S8x20x384_o5_0_0_S1x20x384 : S8x20x384.Slices ![5, 0, 0] S1x20x384
  slices_S8x20x384_o6_0_0_S1x20x384 : S8x20x384.Slices ![6, 0, 0] S1x20x384
  transposes_S64x64_p1_0_S64x64 : S64x64.Transposes [1, 0] S64x64
  shapeCasts_S64x384_S64x1x384 : S64x384.ShapeCasts S64x1x384
  shapeCasts_S64x64_S64x64x1 : S64x64.ShapeCasts S64x64x1
  broadcasts_S64x1x384_S64x64x384 : S64x1x384.Broadcasts S64x64x384
  broadcasts_S64x64x1_S64x64x384 : S64x64x1.Broadcasts S64x64x384
  reduces_S64x64x384_S64x384 : S64x64x384.Reduces [0] S64x384
  slices_S8x20x384_o7_0_0_S1x20x384 : S8x20x384.Slices ![7, 0, 0] S1x20x384
  concatenates_S64x20_S64x20_S64x20_S64x20_S64x20_S64x20_S64x20_S64x20_S64x160_d1 : Shape.Concatenates [S64x20, S64x20, S64x20, S64x20, S64x20, S64x20, S64x20, S64x20] S64x160 1
  concatenates_S64x160_S64x96_S64x256_d1 : Shape.Concatenates [S64x160, S64x96] S64x256 1
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  slices_S32x64x256_S32x64x160_0_0_0 : S32x64x256.Slices ![0, 0, 0] S32x64x160
  dot_S64x384_S384x20_S64x20_1_0_0_1_n_n_wf : DotDims.WF S64x384 S384x20 S64x20 [1] [0] [0] [1] [] []
  dot_S1280x384_S384x64_S1280x64_1_0_0_1_n_n_wf : DotDims.WF S1280x384 S384x64 S1280x64 [1] [0] [0] [1] [] []
  dot_S64x384_S384x64_S64x64_1_0_0_1_n_n_wf : DotDims.WF S64x384 S384x64 S64x64 [1] [0] [0] [1] [] []
  dot_S64x64_S64x384_S64x384_0_0_1_1_n_n_wf : DotDims.WF S64x64 S64x384 S64x384 [0] [0] [1] [1] [] []
  dot_S64x64_S64x384_S64x384_1_0_0_1_n_n_wf : DotDims.WF S64x64 S64x384 S64x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x768.size a ≤ S32x64x768.size a
  hwx0_0 : ∀ i : grid0.Coords, EltTy.bits .f32 = 32 ∨ (Rect.block (s := S32x64x768) S1x64x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x768.size a ≤ S32x64x768.size a
  hwx0_1 : ∀ i : grid0.Coords, EltTy.bits .f32 = 32 ∨ (Rect.block (s := S32x64x768) S1x64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x20x384.size a ≤ S8x20x384.size a
  hwx0_2 : ∀ i : grid0.Coords, EltTy.bits .f32 = 32 ∨ (Rect.block (s := S8x20x384) S8x20x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x256.size a ≤ S32x64x256.size a
  hwx0_3 : ∀ i : grid0.Coords, EltTy.bits .f32 = 32 ∨ (Rect.block (s := S32x64x256) S1x64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x256.size a ≤ S32x64x256.size a
  hwx0_4 : ∀ i : grid0.Coords, EltTy.bits .f32 = 32 ∨ (Rect.block (s := S32x64x256) S1x64x256.size (cc0_transform_4 i) (hinb0_4 i)).WholeWords (EltTy.packing .f32)

variable [Facts₀]

def dot_S64x384_S384x20_S64x20_1_0_0_1_n_n : DotDims S64x384 S384x20 S64x20 where
  lhsContracting := [1]
  rhsContracting := [0]
  lhsNonContracting := [0]
  rhsNonContracting := [1]
  lhsBatch := []
  rhsBatch := []
  wf := dot_S64x384_S384x20_S64x20_1_0_0_1_n_n_wf
def dot_S1280x384_S384x64_S1280x64_1_0_0_1_n_n : DotDims S1280x384 S384x64 S1280x64 where
  lhsContracting := [1]
  rhsContracting := [0]
  lhsNonContracting := [0]
  rhsNonContracting := [1]
  lhsBatch := []
  rhsBatch := []
  wf := dot_S1280x384_S384x64_S1280x64_1_0_0_1_n_n_wf
def dot_S64x384_S384x64_S64x64_1_0_0_1_n_n : DotDims S64x384 S384x64 S64x64 where
  lhsContracting := [1]
  rhsContracting := [0]
  lhsNonContracting := [0]
  rhsNonContracting := [1]
  lhsBatch := []
  rhsBatch := []
  wf := dot_S64x384_S384x64_S64x64_1_0_0_1_n_n_wf
def dot_S64x64_S64x384_S64x384_0_0_1_1_n_n : DotDims S64x64 S64x384 S64x384 where
  lhsContracting := [0]
  rhsContracting := [0]
  lhsNonContracting := [1]
  rhsNonContracting := [1]
  lhsBatch := []
  rhsBatch := []
  wf := dot_S64x64_S64x384_S64x384_0_0_1_1_n_n_wf
def dot_S64x64_S64x384_S64x384_1_0_0_1_n_n : DotDims S64x64 S64x384 S64x384 where
  lhsContracting := [1]
  rhsContracting := [0]
  lhsNonContracting := [0]
  rhsNonContracting := [1]
  lhsBatch := []
  rhsBatch := []
  wf := dot_S64x64_S64x384_S64x384_1_0_0_1_n_n_wf

abbrev win0_0 : Pipeline.Window sig grid0 :=
  Pipeline.Window.ofSpec (Memref.whole main_v8) S1x64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x64x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S8x20x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S1x64x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S1x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x64x600 : Shape := ⟨3, ![32, 64, 600]⟩
abbrev S8x20x300 : Shape := ⟨3, ![8, 20, 300]⟩
abbrev S32x64x300 : Shape := ⟨3, ![32, 64, 300]⟩
abbrev S1x20x300 : Shape := ⟨3, ![1, 20, 300]⟩
abbrev S20x300 : Shape := ⟨2, ![20, 300]⟩
abbrev S32x1x300 : Shape := ⟨3, ![32, 1, 300]⟩
abbrev S32x300 : Shape := ⟨2, ![32, 300]⟩
abbrev S32x1x64x300 : Shape := ⟨4, ![32, 1, 64, 300]⟩
abbrev S1x20x1x300 : Shape := ⟨4, ![1, 20, 1, 300]⟩
abbrev S32x20x64x300 : Shape := ⟨4, ![32, 20, 64, 300]⟩
abbrev S_ : Shape := ⟨0, ![]⟩
abbrev S32x20x64 : Shape := ⟨3, ![32, 20, 64]⟩
abbrev S32x64x20 : Shape := ⟨3, ![32, 64, 20]⟩
abbrev S32x20x64x64 : Shape := ⟨4, ![32, 20, 64, 64]⟩
abbrev S32x20x64x1 : Shape := ⟨4, ![32, 20, 64, 1]⟩
abbrev S32x20x1x64 : Shape := ⟨4, ![32, 20, 1, 64]⟩
abbrev S32x64x64x20 : Shape := ⟨4, ![32, 64, 64, 20]⟩
abbrev S32x64 : Shape := ⟨2, ![32, 64]⟩
abbrev S32x64x64 : Shape := ⟨3, ![32, 64, 64]⟩
abbrev S32x64x1 : Shape := ⟨3, ![32, 64, 1]⟩
abbrev S32x1x64 : Shape := ⟨3, ![32, 1, 64]⟩
abbrev S32x64x1x300 : Shape := ⟨4, ![32, 64, 1, 300]⟩
abbrev S32x64x64x1 : Shape := ⟨4, ![32, 64, 64, 1]⟩
abbrev S32x64x64x300 : Shape := ⟨4, ![32, 64, 64, 300]⟩
abbrev S32x64x160 : Shape := ⟨3, ![32, 64, 160]⟩

abbrev nBuf : Space → Nat
  | .hbm => 541
  | .vmem => 0
  | .smem => 0
  | _ => 0

abbrev hbmTy0_0 (i : Nat) : BufTy := match i % 128 with
  | 0 => ⟨S32x64x600, .f32⟩
  | 1 => ⟨S32x64x600, .f32⟩
  | 2 => ⟨S8x20x300, .f32⟩
  | 3 => ⟨S32x64x300, .f32⟩
  | 4 => ⟨S32x64x300, .f32⟩
  | 5 => ⟨S32x64x300, .f32⟩
  | 6 => ⟨S32x64x300, .f32⟩
  | 7 => ⟨S1x20x300, .f32⟩
  | 8 => ⟨S20x300, .f32⟩
  | 9 => ⟨S32x1x300, .f32⟩
  | 10 => ⟨S32x300, .f32⟩
  | 11 => ⟨S32x1x300, .f32⟩
  | 12 => ⟨S32x64x300, .f32⟩
  | 13 => ⟨S32x1x64x300, .f32⟩
  | 14 => ⟨S1x20x1x300, .f32⟩
  | 15 => ⟨S32x20x64x300, .f32⟩
  | 16 => ⟨S32x20x64x300, .f32⟩
  | 17 => ⟨S32x20x64x300, .f32⟩
  | 18 => ⟨S32x1x64x300, .f32⟩
  | 19 => ⟨S1x20x1x300, .f32⟩
  | 20 => ⟨S32x20x64x300, .f32⟩
  | 21 => ⟨S32x20x64x300, .f32⟩
  | 22 => ⟨S32x20x64x300, .f32⟩
  | 23 => ⟨S32x20x64x300, .f32⟩
  | 24 => ⟨S_, .f32⟩
  | 25 => ⟨S32x20x64, .f32⟩
  | 26 => ⟨S32x20x64x300, .f32⟩
  | 27 => ⟨S_, .f32⟩
  | 28 => ⟨S32x20x64, .f32⟩
  | 29 => ⟨S32x20x64, .f32⟩
  | 30 => ⟨S32x20x64x300, .f32⟩
  | 31 => ⟨S_, .f32⟩
  | 32 => ⟨S32x20x64, .f32⟩
  | 33 => ⟨S32x20x64, .f32⟩
  | 34 => ⟨S32x20x64, .f32⟩
  | 35 => ⟨S_, .f32⟩
  | 36 => ⟨S32x20x64, .f32⟩
  | 37 => ⟨S32x20x64, .f32⟩
  | 38 => ⟨S32x20x64, .f32⟩
  | 39 => ⟨S32x64x20, .f32⟩
  | 40 => ⟨S1x20x300, .f32⟩
  | 41 => ⟨S20x300, .f32⟩
  | 42 => ⟨S32x1x300, .f32⟩
  | 43 => ⟨S32x300, .f32⟩
  | 44 => ⟨S32x1x300, .f32⟩
  | 45 => ⟨S32x64x300, .f32⟩
  | 46 => ⟨S32x1x64x300, .f32⟩
  | 47 => ⟨S1x20x1x300, .f32⟩
  | 48 => ⟨S32x20x64x300, .f32⟩
  | 49 => ⟨S32x20x64x300, .f32⟩
  | 50 => ⟨S32x20x64x300, .f32⟩
  | 51 => ⟨S32x1x64x300, .f32⟩
  | 52 => ⟨S1x20x1x300, .f32⟩
  | 53 => ⟨S32x20x64x300, .f32⟩
  | 54 => ⟨S32x20x64x300, .f32⟩
  | 55 => ⟨S32x20x64x300, .f32⟩
  | 56 => ⟨S32x20x64x300, .f32⟩
  | 57 => ⟨S_, .f32⟩
  | 58 => ⟨S32x20x64, .f32⟩
  | 59 => ⟨S32x20x64x300, .f32⟩
  | 60 => ⟨S_, .f32⟩
  | 61 => ⟨S32x20x64, .f32⟩
  | 62 => ⟨S32x20x64, .f32⟩
  | 63 => ⟨S32x20x64x300, .f32⟩
  | 64 => ⟨S_, .f32⟩
  | 65 => ⟨S32x20x64, .f32⟩
  | 66 => ⟨S32x20x64, .f32⟩
  | 67 => ⟨S32x20x64, .f32⟩
  | 68 => ⟨S_, .f32⟩
  | 69 => ⟨S32x20x64, .f32⟩
  | 70 => ⟨S32x20x64, .f32⟩
  | 71 => ⟨S32x20x64, .f32⟩
  | 72 => ⟨S32x64x20, .f32⟩
  | 73 => ⟨S1x20x300, .f32⟩
  | 74 => ⟨S20x300, .f32⟩
  | 75 => ⟨S32x1x300, .f32⟩
  | 76 => ⟨S32x300, .f32⟩
  | 77 => ⟨S32x1x300, .f32⟩
  | 78 => ⟨S32x64x300, .f32⟩
  | 79 => ⟨S32x1x64x300, .f32⟩
  | 80 => ⟨S1x20x1x300, .f32⟩
  | 81 => ⟨S32x20x64x300, .f32⟩
  | 82 => ⟨S32x20x64x300, .f32⟩
  | 83 => ⟨S32x20x64x300, .f32⟩
  | 84 => ⟨S32x1x64x300, .f32⟩
  | 85 => ⟨S1x20x1x300, .f32⟩
  | 86 => ⟨S32x20x64x300, .f32⟩
  | 87 => ⟨S32x20x64x300, .f32⟩
  | 88 => ⟨S32x20x64x300, .f32⟩
  | 89 => ⟨S32x20x64x300, .f32⟩
  | 90 => ⟨S_, .f32⟩
  | 91 => ⟨S32x20x64, .f32⟩
  | 92 => ⟨S32x20x64x300, .f32⟩
  | 93 => ⟨S_, .f32⟩
  | 94 => ⟨S32x20x64, .f32⟩
  | 95 => ⟨S32x20x64, .f32⟩
  | 96 => ⟨S32x20x64x300, .f32⟩
  | 97 => ⟨S_, .f32⟩
  | 98 => ⟨S32x20x64, .f32⟩
  | 99 => ⟨S32x20x64, .f32⟩
  | 100 => ⟨S32x20x64, .f32⟩
  | 101 => ⟨S_, .f32⟩
  | 102 => ⟨S32x20x64, .f32⟩
  | 103 => ⟨S32x20x64, .f32⟩
  | 104 => ⟨S32x20x64, .f32⟩
  | 105 => ⟨S32x64x20, .f32⟩
  | 106 => ⟨S1x20x300, .f32⟩
  | 107 => ⟨S20x300, .f32⟩
  | 108 => ⟨S32x1x300, .f32⟩
  | 109 => ⟨S32x300, .f32⟩
  | 110 => ⟨S32x1x300, .f32⟩
  | 111 => ⟨S32x64x300, .f32⟩
  | 112 => ⟨S32x1x64x300, .f32⟩
  | 113 => ⟨S1x20x1x300, .f32⟩
  | 114 => ⟨S32x20x64x300, .f32⟩
  | 115 => ⟨S32x20x64x300, .f32⟩
  | 116 => ⟨S32x20x64x300, .f32⟩
  | 117 => ⟨S32x1x64x300, .f32⟩
  | 118 => ⟨S1x20x1x300, .f32⟩
  | 119 => ⟨S32x20x64x300, .f32⟩
  | 120 => ⟨S32x20x64x300, .f32⟩
  | 121 => ⟨S32x20x64x300, .f32⟩
  | 122 => ⟨S32x20x64x300, .f32⟩
  | 123 => ⟨S_, .f32⟩
  | 124 => ⟨S32x20x64, .f32⟩
  | 125 => ⟨S32x20x64x300, .f32⟩
  | 126 => ⟨S_, .f32⟩
  | 127 => ⟨S32x20x64, .f32⟩
  | _ => ⟨S32x64x600, .f32⟩

abbrev hbmTy0_1 (i : Nat) : BufTy := match i % 128 with
  | 0 => ⟨S32x20x64, .f32⟩
  | 1 => ⟨S32x20x64x300, .f32⟩
  | 2 => ⟨S_, .f32⟩
  | 3 => ⟨S32x20x64, .f32⟩
  | 4 => ⟨S32x20x64, .f32⟩
  | 5 => ⟨S32x20x64, .f32⟩
  | 6 => ⟨S_, .f32⟩
  | 7 => ⟨S32x20x64, .f32⟩
  | 8 => ⟨S32x20x64, .f32⟩
  | 9 => ⟨S32x20x64, .f32⟩
  | 10 => ⟨S32x64x20, .f32⟩
  | 11 => ⟨S1x20x300, .f32⟩
  | 12 => ⟨S20x300, .f32⟩
  | 13 => ⟨S32x1x64x300, .f32⟩
  | 14 => ⟨S1x20x1x300, .f32⟩
  | 15 => ⟨S32x20x64x300, .f32⟩
  | 16 => ⟨S32x20x64x300, .f32⟩
  | 17 => ⟨S32x20x64x300, .f32⟩
  | 18 => ⟨S32x1x64x300, .f32⟩
  | 19 => ⟨S1x20x1x300, .f32⟩
  | 20 => ⟨S32x20x64x300, .f32⟩
  | 21 => ⟨S32x20x64x300, .f32⟩
  | 22 => ⟨S32x20x64x300, .f32⟩
  | 23 => ⟨S32x20x64x64, .f32⟩
  | 24 => ⟨S32x20x64x300, .f32⟩
  | 25 => ⟨S_, .f32⟩
  | 26 => ⟨S32x20x64, .f32⟩
  | 27 => ⟨S32x20x64, .f32⟩
  | 28 => ⟨S32x20x64x1, .f32⟩
  | 29 => ⟨S32x20x64x300, .f32⟩
  | 30 => ⟨S_, .f32⟩
  | 31 => ⟨S32x20x64, .f32⟩
  | 32 => ⟨S32x20x64, .f32⟩
  | 33 => ⟨S32x20x1x64, .f32⟩
  | 34 => ⟨S32x20x64x64, .f32⟩
  | 35 => ⟨S32x20x64x64, .f32⟩
  | 36 => ⟨S32x20x64x64, .f32⟩
  | 37 => ⟨S32x20x64x64, .f32⟩
  | 38 => ⟨S32x64x64x20, .f32⟩
  | 39 => ⟨S_, .f32⟩
  | 40 => ⟨S32x64x20, .f32⟩
  | 41 => ⟨S_, .f32⟩
  | 42 => ⟨S32x64x20, .f32⟩
  | 43 => ⟨S1x20x300, .f32⟩
  | 44 => ⟨S20x300, .f32⟩
  | 45 => ⟨S32x1x64x300, .f32⟩
  | 46 => ⟨S1x20x1x300, .f32⟩
  | 47 => ⟨S32x20x64x300, .f32⟩
  | 48 => ⟨S32x20x64x300, .f32⟩
  | 49 => ⟨S32x20x64x300, .f32⟩
  | 50 => ⟨S32x1x64x300, .f32⟩
  | 51 => ⟨S1x20x1x300, .f32⟩
  | 52 => ⟨S32x20x64x300, .f32⟩
  | 53 => ⟨S32x20x64x300, .f32⟩
  | 54 => ⟨S32x20x64x300, .f32⟩
  | 55 => ⟨S32x20x64x64, .f32⟩
  | 56 => ⟨S32x20x64x300, .f32⟩
  | 57 => ⟨S_, .f32⟩
  | 58 => ⟨S32x20x64, .f32⟩
  | 59 => ⟨S32x20x64, .f32⟩
  | 60 => ⟨S32x20x64x1, .f32⟩
  | 61 => ⟨S32x20x64x300, .f32⟩
  | 62 => ⟨S_, .f32⟩
  | 63 => ⟨S32x20x64, .f32⟩
  | 64 => ⟨S32x20x64, .f32⟩
  | 65 => ⟨S32x20x1x64, .f32⟩
  | 66 => ⟨S32x20x64x64, .f32⟩
  | 67 => ⟨S32x20x64x64, .f32⟩
  | 68 => ⟨S32x20x64x64, .f32⟩
  | 69 => ⟨S32x20x64x64, .f32⟩
  | 70 => ⟨S32x64x64x20, .f32⟩
  | 71 => ⟨S_, .f32⟩
  | 72 => ⟨S32x64x20, .f32⟩
  | 73 => ⟨S_, .f32⟩
  | 74 => ⟨S32x64x20, .f32⟩
  | 75 => ⟨S1x20x300, .f32⟩
  | 76 => ⟨S20x300, .f32⟩
  | 77 => ⟨S32x64x300, .f32⟩
  | 78 => ⟨S_, .f32⟩
  | 79 => ⟨S32x64, .f32⟩
  | 80 => ⟨S32x64, .f32⟩
  | 81 => ⟨S32x64x300, .f32⟩
  | 82 => ⟨S_, .f32⟩
  | 83 => ⟨S32x64, .f32⟩
  | 84 => ⟨S32x64, .f32⟩
  | 85 => ⟨S32x64x64, .f32⟩
  | 86 => ⟨S32x64x1, .f32⟩
  | 87 => ⟨S32x1x64, .f32⟩
  | 88 => ⟨S32x64x64, .f32⟩
  | 89 => ⟨S32x64x64, .f32⟩
  | 90 => ⟨S32x64x64, .f32⟩
  | 91 => ⟨S32x64x64, .f32⟩
  | 92 => ⟨S32x64x300, .f32⟩
  | 93 => ⟨S_, .f32⟩
  | 94 => ⟨S32x64, .f32⟩
  | 95 => ⟨S32x64x1, .f32⟩
  | 96 => ⟨S32x64x300, .f32⟩
  | 97 => ⟨S32x64x300, .f32⟩
  | 98 => ⟨S32x64x300, .f32⟩
  | 99 => ⟨S_, .f32⟩
  | 100 => ⟨S32x64, .f32⟩
  | 101 => ⟨S32x64x1, .f32⟩
  | 102 => ⟨S32x64x300, .f32⟩
  | 103 => ⟨S32x64x300, .f32⟩
  | 104 => ⟨S32x1x64x300, .f32⟩
  | 105 => ⟨S1x20x1x300, .f32⟩
  | 106 => ⟨S32x20x64x300, .f32⟩
  | 107 => ⟨S32x20x64x300, .f32⟩
  | 108 => ⟨S32x20x64x300, .f32⟩
  | 109 => ⟨S32x1x64x300, .f32⟩
  | 110 => ⟨S1x20x1x300, .f32⟩
  | 111 => ⟨S32x20x64x300, .f32⟩
  | 112 => ⟨S32x20x64x300, .f32⟩
  | 113 => ⟨S32x20x64x300, .f32⟩
  | 114 => ⟨S32x20x64x300, .f32⟩
  | 115 => ⟨S_, .f32⟩
  | 116 => ⟨S32x20x64, .f32⟩
  | 117 => ⟨S32x20x64x300, .f32⟩
  | 118 => ⟨S_, .f32⟩
  | 119 => ⟨S32x20x64, .f32⟩
  | 120 => ⟨S32x20x64, .f32⟩
  | 121 => ⟨S32x20x64x300, .f32⟩
  | 122 => ⟨S_, .f32⟩
  | 123 => ⟨S32x20x64, .f32⟩
  | 124 => ⟨S32x20x64, .f32⟩
  | 125 => ⟨S32x20x64, .f32⟩
  | 126 => ⟨S_, .f32⟩
  | 127 => ⟨S32x20x64, .f32⟩
  | _ => ⟨S32x64x600, .f32⟩

abbrev hbmTy0_2 (i : Nat) : BufTy := match i % 128 with
  | 0 => ⟨S32x20x64, .f32⟩
  | 1 => ⟨S32x20x64, .f32⟩
  | 2 => ⟨S32x64x20, .f32⟩
  | 3 => ⟨S32x1x64x300, .f32⟩
  | 4 => ⟨S1x20x1x300, .f32⟩
  | 5 => ⟨S32x20x64x300, .f32⟩
  | 6 => ⟨S32x20x64x300, .f32⟩
  | 7 => ⟨S32x20x64x300, .f32⟩
  | 8 => ⟨S32x1x64x300, .f32⟩
  | 9 => ⟨S1x20x1x300, .f32⟩
  | 10 => ⟨S32x20x64x300, .f32⟩
  | 11 => ⟨S32x20x64x300, .f32⟩
  | 12 => ⟨S32x20x64x300, .f32⟩
  | 13 => ⟨S32x20x64x300, .f32⟩
  | 14 => ⟨S_, .f32⟩
  | 15 => ⟨S32x20x64, .f32⟩
  | 16 => ⟨S32x20x64x300, .f32⟩
  | 17 => ⟨S_, .f32⟩
  | 18 => ⟨S32x20x64, .f32⟩
  | 19 => ⟨S32x20x64, .f32⟩
  | 20 => ⟨S32x20x64x300, .f32⟩
  | 21 => ⟨S_, .f32⟩
  | 22 => ⟨S32x20x64, .f32⟩
  | 23 => ⟨S32x20x64, .f32⟩
  | 24 => ⟨S32x20x64, .f32⟩
  | 25 => ⟨S_, .f32⟩
  | 26 => ⟨S32x20x64, .f32⟩
  | 27 => ⟨S32x20x64, .f32⟩
  | 28 => ⟨S32x20x64, .f32⟩
  | 29 => ⟨S32x64x20, .f32⟩
  | 30 => ⟨S1x20x300, .f32⟩
  | 31 => ⟨S20x300, .f32⟩
  | 32 => ⟨S32x64x300, .f32⟩
  | 33 => ⟨S_, .f32⟩
  | 34 => ⟨S32x64, .f32⟩
  | 35 => ⟨S32x64, .f32⟩
  | 36 => ⟨S32x64x300, .f32⟩
  | 37 => ⟨S_, .f32⟩
  | 38 => ⟨S32x64, .f32⟩
  | 39 => ⟨S32x64, .f32⟩
  | 40 => ⟨S32x64x64, .f32⟩
  | 41 => ⟨S32x64x1, .f32⟩
  | 42 => ⟨S32x1x64, .f32⟩
  | 43 => ⟨S32x64x64, .f32⟩
  | 44 => ⟨S32x64x64, .f32⟩
  | 45 => ⟨S32x64x64, .f32⟩
  | 46 => ⟨S32x64x64, .f32⟩
  | 47 => ⟨S32x64x300, .f32⟩
  | 48 => ⟨S_, .f32⟩
  | 49 => ⟨S32x64, .f32⟩
  | 50 => ⟨S32x64x1, .f32⟩
  | 51 => ⟨S32x64x300, .f32⟩
  | 52 => ⟨S32x64x300, .f32⟩
  | 53 => ⟨S32x64x300, .f32⟩
  | 54 => ⟨S_, .f32⟩
  | 55 => ⟨S32x64, .f32⟩
  | 56 => ⟨S32x64x1, .f32⟩
  | 57 => ⟨S32x64x300, .f32⟩
  | 58 => ⟨S32x64x300, .f32⟩
  | 59 => ⟨S32x1x64x300, .f32⟩
  | 60 => ⟨S1x20x1x300, .f32⟩
  | 61 => ⟨S32x20x64x300, .f32⟩
  | 62 => ⟨S32x20x64x300, .f32⟩
  | 63 => ⟨S32x20x64x300, .f32⟩
  | 64 => ⟨S32x1x64x300, .f32⟩
  | 65 => ⟨S1x20x1x300, .f32⟩
  | 66 => ⟨S32x20x64x300, .f32⟩
  | 67 => ⟨S32x20x64x300, .f32⟩
  | 68 => ⟨S32x20x64x300, .f32⟩
  | 69 => ⟨S32x20x64x300, .f32⟩
  | 70 => ⟨S_, .f32⟩
  | 71 => ⟨S32x20x64, .f32⟩
  | 72 => ⟨S32x20x64x300, .f32⟩
  | 73 => ⟨S_, .f32⟩
  | 74 => ⟨S32x20x64, .f32⟩
  | 75 => ⟨S32x20x64, .f32⟩
  | 76 => ⟨S32x20x64x300, .f32⟩
  | 77 => ⟨S_, .f32⟩
  | 78 => ⟨S32x20x64, .f32⟩
  | 79 => ⟨S32x20x64, .f32⟩
  | 80 => ⟨S32x20x64, .f32⟩
  | 81 => ⟨S_, .f32⟩
  | 82 => ⟨S32x20x64, .f32⟩
  | 83 => ⟨S32x20x64, .f32⟩
  | 84 => ⟨S32x20x64, .f32⟩
  | 85 => ⟨S32x64x20, .f32⟩
  | 86 => ⟨S32x1x64x300, .f32⟩
  | 87 => ⟨S1x20x1x300, .f32⟩
  | 88 => ⟨S32x20x64x300, .f32⟩
  | 89 => ⟨S32x20x64x300, .f32⟩
  | 90 => ⟨S32x20x64x300, .f32⟩
  | 91 => ⟨S32x1x64x300, .f32⟩
  | 92 => ⟨S1x20x1x300, .f32⟩
  | 93 => ⟨S32x20x64x300, .f32⟩
  | 94 => ⟨S32x20x64x300, .f32⟩
  | 95 => ⟨S32x20x64x300, .f32⟩
  | 96 => ⟨S32x20x64x300, .f32⟩
  | 97 => ⟨S_, .f32⟩
  | 98 => ⟨S32x20x64, .f32⟩
  | 99 => ⟨S32x20x64x300, .f32⟩
  | 100 => ⟨S_, .f32⟩
  | 101 => ⟨S32x20x64, .f32⟩
  | 102 => ⟨S32x20x64, .f32⟩
  | 103 => ⟨S32x20x64x300, .f32⟩
  | 104 => ⟨S_, .f32⟩
  | 105 => ⟨S32x20x64, .f32⟩
  | 106 => ⟨S32x20x64, .f32⟩
  | 107 => ⟨S32x20x64, .f32⟩
  | 108 => ⟨S_, .f32⟩
  | 109 => ⟨S32x20x64, .f32⟩
  | 110 => ⟨S32x20x64, .f32⟩
  | 111 => ⟨S32x20x64, .f32⟩
  | 112 => ⟨S32x64x20, .f32⟩
  | 113 => ⟨S1x20x300, .f32⟩
  | 114 => ⟨S20x300, .f32⟩
  | 115 => ⟨S32x64x300, .f32⟩
  | 116 => ⟨S_, .f32⟩
  | 117 => ⟨S32x64, .f32⟩
  | 118 => ⟨S32x64, .f32⟩
  | 119 => ⟨S32x64x300, .f32⟩
  | 120 => ⟨S_, .f32⟩
  | 121 => ⟨S32x64, .f32⟩
  | 122 => ⟨S32x64, .f32⟩
  | 123 => ⟨S32x64x64, .f32⟩
  | 124 => ⟨S32x64x1, .f32⟩
  | 125 => ⟨S32x1x64, .f32⟩
  | 126 => ⟨S32x64x64, .f32⟩
  | 127 => ⟨S32x64x64, .f32⟩
  | _ => ⟨S32x64x600, .f32⟩

abbrev hbmTy0_3 (i : Nat) : BufTy := match i % 128 with
  | 0 => ⟨S32x64x64, .f32⟩
  | 1 => ⟨S32x64x64, .f32⟩
  | 2 => ⟨S32x64x1x300, .f32⟩
  | 3 => ⟨S32x64x64x1, .f32⟩
  | 4 => ⟨S32x64x64x300, .f32⟩
  | 5 => ⟨S32x64x64x300, .f32⟩
  | 6 => ⟨S32x64x64x300, .f32⟩
  | 7 => ⟨S_, .f32⟩
  | 8 => ⟨S32x64x300, .f32⟩
  | 9 => ⟨S32x1x64x300, .f32⟩
  | 10 => ⟨S32x64x64x1, .f32⟩
  | 11 => ⟨S32x64x64x300, .f32⟩
  | 12 => ⟨S32x64x64x300, .f32⟩
  | 13 => ⟨S32x64x64x300, .f32⟩
  | 14 => ⟨S_, .f32⟩
  | 15 => ⟨S32x64x300, .f32⟩
  | 16 => ⟨S32x1x64x300, .f32⟩
  | 17 => ⟨S1x20x1x300, .f32⟩
  | 18 => ⟨S32x20x64x300, .f32⟩
  | 19 => ⟨S32x20x64x300, .f32⟩
  | 20 => ⟨S32x20x64x300, .f32⟩
  | 21 => ⟨S32x1x64x300, .f32⟩
  | 22 => ⟨S1x20x1x300, .f32⟩
  | 23 => ⟨S32x20x64x300, .f32⟩
  | 24 => ⟨S32x20x64x300, .f32⟩
  | 25 => ⟨S32x20x64x300, .f32⟩
  | 26 => ⟨S32x20x64x300, .f32⟩
  | 27 => ⟨S_, .f32⟩
  | 28 => ⟨S32x20x64, .f32⟩
  | 29 => ⟨S32x20x64x300, .f32⟩
  | 30 => ⟨S_, .f32⟩
  | 31 => ⟨S32x20x64, .f32⟩
  | 32 => ⟨S32x20x64, .f32⟩
  | 33 => ⟨S32x20x64x300, .f32⟩
  | 34 => ⟨S_, .f32⟩
  | 35 => ⟨S32x20x64, .f32⟩
  | 36 => ⟨S32x20x64, .f32⟩
  | 37 => ⟨S32x20x64, .f32⟩
  | 38 => ⟨S_, .f32⟩
  | 39 => ⟨S32x20x64, .f32⟩
  | 40 => ⟨S32x20x64, .f32⟩
  | 41 => ⟨S32x20x64, .f32⟩
  | 42 => ⟨S32x64x20, .f32⟩
  | 43 => ⟨S32x1x64x300, .f32⟩
  | 44 => ⟨S1x20x1x300, .f32⟩
  | 45 => ⟨S32x20x64x300, .f32⟩
  | 46 => ⟨S32x20x64x300, .f32⟩
  | 47 => ⟨S32x20x64x300, .f32⟩
  | 48 => ⟨S32x1x64x300, .f32⟩
  | 49 => ⟨S1x20x1x300, .f32⟩
  | 50 => ⟨S32x20x64x300, .f32⟩
  | 51 => ⟨S32x20x64x300, .f32⟩
  | 52 => ⟨S32x20x64x300, .f32⟩
  | 53 => ⟨S32x20x64x300, .f32⟩
  | 54 => ⟨S_, .f32⟩
  | 55 => ⟨S32x20x64, .f32⟩
  | 56 => ⟨S32x20x64x300, .f32⟩
  | 57 => ⟨S_, .f32⟩
  | 58 => ⟨S32x20x64, .f32⟩
  | 59 => ⟨S32x20x64, .f32⟩
  | 60 => ⟨S32x20x64x300, .f32⟩
  | 61 => ⟨S_, .f32⟩
  | 62 => ⟨S32x20x64, .f32⟩
  | 63 => ⟨S32x20x64, .f32⟩
  | 64 => ⟨S32x20x64, .f32⟩
  | 65 => ⟨S_, .f32⟩
  | 66 => ⟨S32x20x64, .f32⟩
  | 67 => ⟨S32x20x64, .f32⟩
  | 68 => ⟨S32x20x64, .f32⟩
  | 69 => ⟨S32x64x20, .f32⟩
  | 70 => ⟨S1x20x300, .f32⟩
  | 71 => ⟨S20x300, .f32⟩
  | 72 => ⟨S32x64x300, .f32⟩
  | 73 => ⟨S_, .f32⟩
  | 74 => ⟨S32x64, .f32⟩
  | 75 => ⟨S32x64, .f32⟩
  | 76 => ⟨S32x64x300, .f32⟩
  | 77 => ⟨S_, .f32⟩
  | 78 => ⟨S32x64, .f32⟩
  | 79 => ⟨S32x64, .f32⟩
  | 80 => ⟨S32x64x64, .f32⟩
  | 81 => ⟨S32x64x1, .f32⟩
  | 82 => ⟨S32x1x64, .f32⟩
  | 83 => ⟨S32x64x64, .f32⟩
  | 84 => ⟨S32x64x64, .f32⟩
  | 85 => ⟨S32x64x64, .f32⟩
  | 86 => ⟨S32x64x64, .f32⟩
  | 87 => ⟨S32x64x1x300, .f32⟩
  | 88 => ⟨S32x64x64x1, .f32⟩
  | 89 => ⟨S32x64x64x300, .f32⟩
  | 90 => ⟨S32x64x64x300, .f32⟩
  | 91 => ⟨S32x64x64x300, .f32⟩
  | 92 => ⟨S_, .f32⟩
  | 93 => ⟨S32x64x300, .f32⟩
  | 94 => ⟨S32x1x64x300, .f32⟩
  | 95 => ⟨S32x64x64x1, .f32⟩
  | 96 => ⟨S32x64x64x300, .f32⟩
  | 97 => ⟨S32x64x64x300, .f32⟩
  | 98 => ⟨S32x64x64x300, .f32⟩
  | 99 => ⟨S_, .f32⟩
  | 100 => ⟨S32x64x300, .f32⟩
  | 101 => ⟨S32x1x64x300, .f32⟩
  | 102 => ⟨S1x20x1x300, .f32⟩
  | 103 => ⟨S32x20x64x300, .f32⟩
  | 104 => ⟨S32x20x64x300, .f32⟩
  | 105 => ⟨S32x20x64x300, .f32⟩
  | 106 => ⟨S32x1x64x300, .f32⟩
  | 107 => ⟨S1x20x1x300, .f32⟩
  | 108 => ⟨S32x20x64x300, .f32⟩
  | 109 => ⟨S32x20x64x300, .f32⟩
  | 110 => ⟨S32x20x64x300, .f32⟩
  | 111 => ⟨S32x20x64x300, .f32⟩
  | 112 => ⟨S_, .f32⟩
  | 113 => ⟨S32x20x64, .f32⟩
  | 114 => ⟨S32x20x64x300, .f32⟩
  | 115 => ⟨S_, .f32⟩
  | 116 => ⟨S32x20x64, .f32⟩
  | 117 => ⟨S32x20x64, .f32⟩
  | 118 => ⟨S32x20x64x300, .f32⟩
  | 119 => ⟨S_, .f32⟩
  | 120 => ⟨S32x20x64, .f32⟩
  | 121 => ⟨S32x20x64, .f32⟩
  | 122 => ⟨S32x20x64, .f32⟩
  | 123 => ⟨S_, .f32⟩
  | 124 => ⟨S32x20x64, .f32⟩
  | 125 => ⟨S32x20x64, .f32⟩
  | 126 => ⟨S32x20x64, .f32⟩
  | 127 => ⟨S32x64x20, .f32⟩
  | _ => ⟨S32x64x600, .f32⟩

abbrev hbmTy0_4 (i : Nat) : BufTy := match i % 128 with
  | 0 => ⟨S32x1x64x300, .f32⟩
  | 1 => ⟨S1x20x1x300, .f32⟩
  | 2 => ⟨S32x20x64x300, .f32⟩
  | 3 => ⟨S32x20x64x300, .f32⟩
  | 4 => ⟨S32x20x64x300, .f32⟩
  | 5 => ⟨S32x1x64x300, .f32⟩
  | 6 => ⟨S1x20x1x300, .f32⟩
  | 7 => ⟨S32x20x64x300, .f32⟩
  | 8 => ⟨S32x20x64x300, .f32⟩
  | 9 => ⟨S32x20x64x300, .f32⟩
  | 10 => ⟨S32x20x64x300, .f32⟩
  | 11 => ⟨S_, .f32⟩
  | 12 => ⟨S32x20x64, .f32⟩
  | 13 => ⟨S32x20x64x300, .f32⟩
  | 14 => ⟨S_, .f32⟩
  | 15 => ⟨S32x20x64, .f32⟩
  | 16 => ⟨S32x20x64, .f32⟩
  | 17 => ⟨S32x20x64x300, .f32⟩
  | 18 => ⟨S_, .f32⟩
  | 19 => ⟨S32x20x64, .f32⟩
  | 20 => ⟨S32x20x64, .f32⟩
  | 21 => ⟨S32x20x64, .f32⟩
  | 22 => ⟨S_, .f32⟩
  | 23 => ⟨S32x20x64, .f32⟩
  | 24 => ⟨S32x20x64, .f32⟩
  | 25 => ⟨S32x20x64, .f32⟩
  | 26 => ⟨S32x64x20, .f32⟩
  | 27 => ⟨S32x64x160, .f32⟩
  | 28 => ⟨S32x64x160, .f32⟩
  | _ => ⟨S32x64x600, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x64x600, .f32⟩

abbrev bufTy : (tb : Table) → Fin (tcTables nBuf tb) → BufTy
  | .hbm, ⟨i, _⟩ => hbmTy i
  | _, _ => ⟨S32x64x600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_v22 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_1 : Ref sig .tc := ⟨.hbm, 57, rfl⟩
abbrev main_v46 : Ref sig .tc := ⟨.hbm, 58, rfl⟩
abbrev main_call2_v0 : Ref sig .tc := ⟨.hbm, 59, rfl⟩
abbrev main_call2_cst : Ref sig .tc := ⟨.hbm, 60, rfl⟩
abbrev main_call2_v1 : Ref sig .tc := ⟨.hbm, 61, rfl⟩
abbrev main_v47 : Ref sig .tc := ⟨.hbm, 62, rfl⟩
abbrev main_call3_v0 : Ref sig .tc := ⟨.hbm, 63, rfl⟩
abbrev main_call3_cst : Ref sig .tc := ⟨.hbm, 64, rfl⟩
abbrev main_call3_v1 : Ref sig .tc := ⟨.hbm, 65, rfl⟩
abbrev main_v48 : Ref sig .tc := ⟨.hbm, 66, rfl⟩
abbrev main_v49 : Ref sig .tc := ⟨.hbm, 67, rfl⟩
abbrev main_cst_2 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_3 : Ref sig .tc := ⟨.hbm, 90, rfl⟩
abbrev main_v71 : Ref sig .tc := ⟨.hbm, 91, rfl⟩
abbrev main_call4_v0 : Ref sig .tc := ⟨.hbm, 92, rfl⟩
abbrev main_call4_cst : Ref sig .tc := ⟨.hbm, 93, rfl⟩
abbrev main_call4_v1 : Ref sig .tc := ⟨.hbm, 94, rfl⟩
abbrev main_v72 : Ref sig .tc := ⟨.hbm, 95, rfl⟩
abbrev main_call5_v0 : Ref sig .tc := ⟨.hbm, 96, rfl⟩
abbrev main_call5_cst : Ref sig .tc := ⟨.hbm, 97, rfl⟩
abbrev main_call5_v1 : Ref sig .tc := ⟨.hbm, 98, rfl⟩
abbrev main_v73 : Ref sig .tc := ⟨.hbm, 99, rfl⟩
abbrev main_v74 : Ref sig .tc := ⟨.hbm, 100, rfl⟩
abbrev main_cst_4 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_5 : Ref sig .tc := ⟨.hbm, 123, rfl⟩
abbrev main_v96 : Ref sig .tc := ⟨.hbm, 124, rfl⟩
abbrev main_call6_v0 : Ref sig .tc := ⟨.hbm, 125, rfl⟩
abbrev main_call6_cst : Ref sig .tc := ⟨.hbm, 126, rfl⟩
abbrev main_call6_v1 : Ref sig .tc := ⟨.hbm, 127, rfl⟩
abbrev main_v97 : Ref sig .tc := ⟨.hbm, 128, rfl⟩
abbrev main_call7_v0 : Ref sig .tc := ⟨.hbm, 129, rfl⟩
abbrev main_call7_cst : Ref sig .tc := ⟨.hbm, 130, rfl⟩
abbrev main_call7_v1 : Ref sig .tc := ⟨.hbm, 131, rfl⟩
abbrev main_v98 : Ref sig .tc := ⟨.hbm, 132, rfl⟩
abbrev main_v99 : Ref sig .tc := ⟨.hbm, 133, rfl⟩
abbrev main_cst_6 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_call8_v0 : Ref sig .tc := ⟨.hbm, 152, rfl⟩
abbrev main_call8_cst : Ref sig .tc := ⟨.hbm, 153, rfl⟩
abbrev main_call8_v1 : Ref sig .tc := ⟨.hbm, 154, rfl⟩
abbrev main_v117 : Ref sig .tc := ⟨.hbm, 155, rfl⟩
abbrev main_v118 : Ref sig .tc := ⟨.hbm, 156, rfl⟩
abbrev main_call9_v0 : Ref sig .tc := ⟨.hbm, 157, rfl⟩
abbrev main_call9_cst : Ref sig .tc := ⟨.hbm, 158, rfl⟩
abbrev main_call9_v1 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_7 : Ref sig .tc := ⟨.hbm, 167, rfl⟩
abbrev main_v126 : Ref sig .tc := ⟨.hbm, 168, rfl⟩
abbrev main_cst_8 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_call10_v0 : Ref sig .tc := ⟨.hbm, 184, rfl⟩
abbrev main_call10_cst : Ref sig .tc := ⟨.hbm, 185, rfl⟩
abbrev main_call10_v1 : Ref sig .tc := ⟨.hbm, 186, rfl⟩
abbrev main_v141 : Ref sig .tc := ⟨.hbm, 187, rfl⟩
abbrev main_v142 : Ref sig .tc := ⟨.hbm, 188, rfl⟩
abbrev main_call11_v0 : Ref sig .tc := ⟨.hbm, 189, rfl⟩
abbrev main_call11_cst : Ref sig .tc := ⟨.hbm, 190, rfl⟩
abbrev main_call11_v1 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_cst_9 : Ref sig .tc := ⟨.hbm, 199, rfl⟩
abbrev main_v150 : Ref sig .tc := ⟨.hbm, 200, rfl⟩
abbrev main_cst_10 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_call12_v0 : Ref sig .tc := ⟨.hbm, 205, rfl⟩
abbrev main_call12_cst : Ref sig .tc := ⟨.hbm, 206, rfl⟩
abbrev main_call12_v1 : Ref sig .tc := ⟨.hbm, 207, rfl⟩
abbrev main_v154 : Ref sig .tc := ⟨.hbm, 208, rfl⟩
abbrev main_call13_v0 : Ref sig .tc := ⟨.hbm, 209, rfl⟩
abbrev main_call13_cst : Ref sig .tc := ⟨.hbm, 210, rfl⟩
abbrev main_call13_v1 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_cst_11 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_cst_12 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_cst_13 : Ref sig .tc := ⟨.hbm, 243, rfl⟩
abbrev main_v184 : Ref sig .tc := ⟨.hbm, 244, rfl⟩
abbrev main_call14_v0 : Ref sig .tc := ⟨.hbm, 245, rfl⟩
abbrev main_call14_cst : Ref sig .tc := ⟨.hbm, 246, rfl⟩
abbrev main_call14_v1 : Ref sig .tc := ⟨.hbm, 247, rfl⟩
abbrev main_v185 : Ref sig .tc := ⟨.hbm, 248, rfl⟩
abbrev main_call15_v0 : Ref sig .tc := ⟨.hbm, 249, rfl⟩
abbrev main_call15_cst : Ref sig .tc := ⟨.hbm, 250, rfl⟩
abbrev main_call15_v1 : Ref sig .tc := ⟨.hbm, 251, rfl⟩
abbrev main_v186 : Ref sig .tc := ⟨.hbm, 252, rfl⟩
abbrev main_v187 : Ref sig .tc := ⟨.hbm, 253, rfl⟩
abbrev main_cst_14 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_cst_15 : Ref sig .tc := ⟨.hbm, 270, rfl⟩
abbrev main_v203 : Ref sig .tc := ⟨.hbm, 271, rfl⟩
abbrev main_call16_v0 : Ref sig .tc := ⟨.hbm, 272, rfl⟩
abbrev main_call16_cst : Ref sig .tc := ⟨.hbm, 273, rfl⟩
abbrev main_call16_v1 : Ref sig .tc := ⟨.hbm, 274, rfl⟩
abbrev main_v204 : Ref sig .tc := ⟨.hbm, 275, rfl⟩
abbrev main_call17_v0 : Ref sig .tc := ⟨.hbm, 276, rfl⟩
abbrev main_call17_cst : Ref sig .tc := ⟨.hbm, 277, rfl⟩
abbrev main_call17_v1 : Ref sig .tc := ⟨.hbm, 278, rfl⟩
abbrev main_v205 : Ref sig .tc := ⟨.hbm, 279, rfl⟩
abbrev main_v206 : Ref sig .tc := ⟨.hbm, 280, rfl⟩
abbrev main_cst_16 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_call18_v0 : Ref sig .tc := ⟨.hbm, 288, rfl⟩
abbrev main_call18_cst : Ref sig .tc := ⟨.hbm, 289, rfl⟩
abbrev main_call18_v1 : Ref sig .tc := ⟨.hbm, 290, rfl⟩
abbrev main_v213 : Ref sig .tc := ⟨.hbm, 291, rfl⟩
abbrev main_call19_v0 : Ref sig .tc := ⟨.hbm, 292, rfl⟩
abbrev main_call19_cst : Ref sig .tc := ⟨.hbm, 293, rfl⟩
abbrev main_call19_v1 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_cst_17 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_cst_18 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_cst_19 : Ref sig .tc := ⟨.hbm, 326, rfl⟩
abbrev main_v243 : Ref sig .tc := ⟨.hbm, 327, rfl⟩
abbrev main_call20_v0 : Ref sig .tc := ⟨.hbm, 328, rfl⟩
abbrev main_call20_cst : Ref sig .tc := ⟨.hbm, 329, rfl⟩
abbrev main_call20_v1 : Ref sig .tc := ⟨.hbm, 330, rfl⟩
abbrev main_v244 : Ref sig .tc := ⟨.hbm, 331, rfl⟩
abbrev main_call21_v0 : Ref sig .tc := ⟨.hbm, 332, rfl⟩
abbrev main_call21_cst : Ref sig .tc := ⟨.hbm, 333, rfl⟩
abbrev main_call21_v1 : Ref sig .tc := ⟨.hbm, 334, rfl⟩
abbrev main_v245 : Ref sig .tc := ⟨.hbm, 335, rfl⟩
abbrev main_v246 : Ref sig .tc := ⟨.hbm, 336, rfl⟩
abbrev main_cst_20 : Ref sig .tc := ⟨.hbm, 337, rfl⟩
abbrev main_v247 : Ref sig .tc := ⟨.hbm, 338, rfl⟩
abbrev main_v248 : Ref sig .tc := ⟨.hbm, 339, rfl⟩
abbrev main_v249 : Ref sig .tc := ⟨.hbm, 340, rfl⟩
abbrev main_v250 : Ref sig .tc := ⟨.hbm, 341, rfl⟩
abbrev main_v251 : Ref sig .tc := ⟨.hbm, 342, rfl⟩
abbrev main_v252 : Ref sig .tc := ⟨.hbm, 343, rfl⟩
abbrev main_v253 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_v257 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_v261 : Ref sig .tc := ⟨.hbm, 352, rfl⟩
abbrev main_cst_21 : Ref sig .tc := ⟨.hbm, 353, rfl⟩
abbrev main_v262 : Ref sig .tc := ⟨.hbm, 354, rfl⟩
abbrev main_call22_v0 : Ref sig .tc := ⟨.hbm, 355, rfl⟩
abbrev main_call22_cst : Ref sig .tc := ⟨.hbm, 356, rfl⟩
abbrev main_call22_v1 : Ref sig .tc := ⟨.hbm, 357, rfl⟩
abbrev main_v263 : Ref sig .tc := ⟨.hbm, 358, rfl⟩
abbrev main_call23_v0 : Ref sig .tc := ⟨.hbm, 359, rfl⟩
abbrev main_call23_cst : Ref sig .tc := ⟨.hbm, 360, rfl⟩
abbrev main_call23_v1 : Ref sig .tc := ⟨.hbm, 361, rfl⟩
abbrev main_v264 : Ref sig .tc := ⟨.hbm, 362, rfl⟩
abbrev main_v265 : Ref sig .tc := ⟨.hbm, 363, rfl⟩
abbrev main_cst_22 : Ref sig .tc := ⟨.hbm, 364, rfl⟩
abbrev main_v266 : Ref sig .tc := ⟨.hbm, 365, rfl⟩
abbrev main_v267 : Ref sig .tc := ⟨.hbm, 366, rfl⟩
abbrev main_v268 : Ref sig .tc := ⟨.hbm, 367, rfl⟩
abbrev main_v269 : Ref sig .tc := ⟨.hbm, 368, rfl⟩
abbrev main_v270 : Ref sig .tc := ⟨.hbm, 369, rfl⟩
abbrev main_v271 : Ref sig .tc := ⟨.hbm, 370, rfl⟩
abbrev main_call24_v0 : Ref sig .tc := ⟨.hbm, 371, rfl⟩
abbrev main_call24_cst : Ref sig .tc := ⟨.hbm, 372, rfl⟩
abbrev main_call24_v1 : Ref sig .tc := ⟨.hbm, 373, rfl⟩
abbrev main_v272 : Ref sig .tc := ⟨.hbm, 374, rfl⟩
abbrev main_call25_v0 : Ref sig .tc := ⟨.hbm, 375, rfl⟩
abbrev main_call25_cst : Ref sig .tc := ⟨.hbm, 376, rfl⟩
abbrev main_call25_v1 : Ref sig .tc := ⟨.hbm, 377, rfl⟩
abbrev main_v273 : Ref sig .tc := ⟨.hbm, 378, rfl⟩
abbrev main_v274 : Ref sig .tc := ⟨.hbm, 379, rfl⟩
abbrev main_v275 : Ref sig .tc := ⟨.hbm, 380, rfl⟩
abbrev main_v276 : Ref sig .tc := ⟨.hbm, 381, rfl⟩
abbrev main_v277 : Ref sig .tc := ⟨.hbm, 382, rfl⟩
abbrev main_v278 : Ref sig .tc := ⟨.hbm, 383, rfl⟩
abbrev main_v279 : Ref sig .tc := ⟨.hbm, 384, rfl⟩
abbrev main_v280 : Ref sig .tc := ⟨.hbm, 385, rfl⟩
abbrev main_v281 : Ref sig .tc := ⟨.hbm, 386, rfl⟩
abbrev main_v282 : Ref sig .tc := ⟨.hbm, 387, rfl⟩
abbrev main_v283 : Ref sig .tc := ⟨.hbm, 388, rfl⟩
abbrev main_v284 : Ref sig .tc := ⟨.hbm, 389, rfl⟩
abbrev main_v285 : Ref sig .tc := ⟨.hbm, 390, rfl⟩
abbrev main_cst_23 : Ref sig .tc := ⟨.hbm, 391, rfl⟩
abbrev main_v286 : Ref sig .tc := ⟨.hbm, 392, rfl⟩
abbrev main_v287 : Ref sig .tc := ⟨.hbm, 393, rfl⟩
abbrev main_v288 : Ref sig .tc := ⟨.hbm, 394, rfl⟩
abbrev main_v289 : Ref sig .tc := ⟨.hbm, 395, rfl⟩
abbrev main_v290 : Ref sig .tc := ⟨.hbm, 396, rfl⟩
abbrev main_v291 : Ref sig .tc := ⟨.hbm, 397, rfl⟩
abbrev main_cst_24 : Ref sig .tc := ⟨.hbm, 398, rfl⟩
abbrev main_v292 : Ref sig .tc := ⟨.hbm, 399, rfl⟩
abbrev main_v293 : Ref sig .tc := ⟨.hbm, 400, rfl⟩
abbrev main_v294 : Ref sig .tc := ⟨.hbm, 401, rfl⟩
abbrev main_v295 : Ref sig .tc := ⟨.hbm, 402, rfl⟩
abbrev main_v296 : Ref sig .tc := ⟨.hbm, 403, rfl⟩
abbrev main_v297 : Ref sig .tc := ⟨.hbm, 404, rfl⟩
abbrev main_v298 : Ref sig .tc := ⟨.hbm, 405, rfl⟩
abbrev main_v299 : Ref sig .tc := ⟨.hbm, 406, rfl⟩
abbrev main_v300 : Ref sig .tc := ⟨.hbm, 407, rfl⟩
abbrev main_v301 : Ref sig .tc := ⟨.hbm, 408, rfl⟩
abbrev main_v302 : Ref sig .tc := ⟨.hbm, 409, rfl⟩
abbrev main_v303 : Ref sig .tc := ⟨.hbm, 410, rfl⟩
abbrev main_cst_25 : Ref sig .tc := ⟨.hbm, 411, rfl⟩
abbrev main_v304 : Ref sig .tc := ⟨.hbm, 412, rfl⟩
abbrev main_call26_v0 : Ref sig .tc := ⟨.hbm, 413, rfl⟩
abbrev main_call26_cst : Ref sig .tc := ⟨.hbm, 414, rfl⟩
abbrev main_call26_v1 : Ref sig .tc := ⟨.hbm, 415, rfl⟩
abbrev main_v305 : Ref sig .tc := ⟨.hbm, 416, rfl⟩
abbrev main_call27_v0 : Ref sig .tc := ⟨.hbm, 417, rfl⟩
abbrev main_call27_cst : Ref sig .tc := ⟨.hbm, 418, rfl⟩
abbrev main_call27_v1 : Ref sig .tc := ⟨.hbm, 419, rfl⟩
abbrev main_v306 : Ref sig .tc := ⟨.hbm, 420, rfl⟩
abbrev main_v307 : Ref sig .tc := ⟨.hbm, 421, rfl⟩
abbrev main_cst_26 : Ref sig .tc := ⟨.hbm, 422, rfl⟩
abbrev main_v308 : Ref sig .tc := ⟨.hbm, 423, rfl⟩
abbrev main_v309 : Ref sig .tc := ⟨.hbm, 424, rfl⟩
abbrev main_v310 : Ref sig .tc := ⟨.hbm, 425, rfl⟩
abbrev main_v311 : Ref sig .tc := ⟨.hbm, 426, rfl⟩
abbrev main_v312 : Ref sig .tc := ⟨.hbm, 427, rfl⟩
abbrev main_v313 : Ref sig .tc := ⟨.hbm, 428, rfl⟩
abbrev main_v314 : Ref sig .tc := ⟨.hbm, 429, rfl⟩
abbrev main_v315 : Ref sig .tc := ⟨.hbm, 430, rfl⟩
abbrev main_v316 : Ref sig .tc := ⟨.hbm, 431, rfl⟩
abbrev main_v317 : Ref sig .tc := ⟨.hbm, 432, rfl⟩
abbrev main_v318 : Ref sig .tc := ⟨.hbm, 433, rfl⟩
abbrev main_v319 : Ref sig .tc := ⟨.hbm, 434, rfl⟩
abbrev main_v320 : Ref sig .tc := ⟨.hbm, 435, rfl⟩
abbrev main_v321 : Ref sig .tc := ⟨.hbm, 436, rfl⟩
abbrev main_v322 : Ref sig .tc := ⟨.hbm, 437, rfl⟩
abbrev main_cst_27 : Ref sig .tc := ⟨.hbm, 438, rfl⟩
abbrev main_v323 : Ref sig .tc := ⟨.hbm, 439, rfl⟩
abbrev main_call28_v0 : Ref sig .tc := ⟨.hbm, 440, rfl⟩
abbrev main_call28_cst : Ref sig .tc := ⟨.hbm, 441, rfl⟩
abbrev main_call28_v1 : Ref sig .tc := ⟨.hbm, 442, rfl⟩
abbrev main_v324 : Ref sig .tc := ⟨.hbm, 443, rfl⟩
abbrev main_call29_v0 : Ref sig .tc := ⟨.hbm, 444, rfl⟩
abbrev main_call29_cst : Ref sig .tc := ⟨.hbm, 445, rfl⟩
abbrev main_call29_v1 : Ref sig .tc := ⟨.hbm, 446, rfl⟩
abbrev main_v325 : Ref sig .tc := ⟨.hbm, 447, rfl⟩
abbrev main_v326 : Ref sig .tc := ⟨.hbm, 448, rfl⟩
abbrev main_cst_28 : Ref sig .tc := ⟨.hbm, 449, rfl⟩
abbrev main_v327 : Ref sig .tc := ⟨.hbm, 450, rfl⟩
abbrev main_v328 : Ref sig .tc := ⟨.hbm, 451, rfl⟩
abbrev main_v329 : Ref sig .tc := ⟨.hbm, 452, rfl⟩
abbrev main_v330 : Ref sig .tc := ⟨.hbm, 453, rfl⟩
abbrev main_v331 : Ref sig .tc := ⟨.hbm, 454, rfl⟩
abbrev main_v332 : Ref sig .tc := ⟨.hbm, 455, rfl⟩
abbrev main_call30_v0 : Ref sig .tc := ⟨.hbm, 456, rfl⟩
abbrev main_call30_cst : Ref sig .tc := ⟨.hbm, 457, rfl⟩
abbrev main_call30_v1 : Ref sig .tc := ⟨.hbm, 458, rfl⟩
abbrev main_v333 : Ref sig .tc := ⟨.hbm, 459, rfl⟩
abbrev main_call31_v0 : Ref sig .tc := ⟨.hbm, 460, rfl⟩
abbrev main_call31_cst : Ref sig .tc := ⟨.hbm, 461, rfl⟩
abbrev main_call31_v1 : Ref sig .tc := ⟨.hbm, 462, rfl⟩
abbrev main_v334 : Ref sig .tc := ⟨.hbm, 463, rfl⟩
abbrev main_v335 : Ref sig .tc := ⟨.hbm, 464, rfl⟩
abbrev main_v336 : Ref sig .tc := ⟨.hbm, 465, rfl⟩
abbrev main_v337 : Ref sig .tc := ⟨.hbm, 466, rfl⟩
abbrev main_v338 : Ref sig .tc := ⟨.hbm, 467, rfl⟩
abbrev main_v339 : Ref sig .tc := ⟨.hbm, 468, rfl⟩
abbrev main_v340 : Ref sig .tc := ⟨.hbm, 469, rfl⟩
abbrev main_v341 : Ref sig .tc := ⟨.hbm, 470, rfl⟩
abbrev main_v342 : Ref sig .tc := ⟨.hbm, 471, rfl⟩
abbrev main_v343 : Ref sig .tc := ⟨.hbm, 472, rfl⟩
abbrev main_v344 : Ref sig .tc := ⟨.hbm, 473, rfl⟩
abbrev main_v345 : Ref sig .tc := ⟨.hbm, 474, rfl⟩
abbrev main_v346 : Ref sig .tc := ⟨.hbm, 475, rfl⟩
abbrev main_cst_29 : Ref sig .tc := ⟨.hbm, 476, rfl⟩
abbrev main_v347 : Ref sig .tc := ⟨.hbm, 477, rfl⟩
abbrev main_v348 : Ref sig .tc := ⟨.hbm, 478, rfl⟩
abbrev main_v349 : Ref sig .tc := ⟨.hbm, 479, rfl⟩
abbrev main_v350 : Ref sig .tc := ⟨.hbm, 480, rfl⟩
abbrev main_v351 : Ref sig .tc := ⟨.hbm, 481, rfl⟩
abbrev main_v352 : Ref sig .tc := ⟨.hbm, 482, rfl⟩
abbrev main_cst_30 : Ref sig .tc := ⟨.hbm, 483, rfl⟩
abbrev main_v353 : Ref sig .tc := ⟨.hbm, 484, rfl⟩
abbrev main_v354 : Ref sig .tc := ⟨.hbm, 485, rfl⟩
abbrev main_v355 : Ref sig .tc := ⟨.hbm, 486, rfl⟩
abbrev main_v356 : Ref sig .tc := ⟨.hbm, 487, rfl⟩
abbrev main_v357 : Ref sig .tc := ⟨.hbm, 488, rfl⟩
abbrev main_v358 : Ref sig .tc := ⟨.hbm, 489, rfl⟩
abbrev main_v359 : Ref sig .tc := ⟨.hbm, 490, rfl⟩
abbrev main_v360 : Ref sig .tc := ⟨.hbm, 491, rfl⟩
abbrev main_v361 : Ref sig .tc := ⟨.hbm, 492, rfl⟩
abbrev main_v362 : Ref sig .tc := ⟨.hbm, 493, rfl⟩
abbrev main_v363 : Ref sig .tc := ⟨.hbm, 494, rfl⟩
abbrev main_v364 : Ref sig .tc := ⟨.hbm, 495, rfl⟩
abbrev main_cst_31 : Ref sig .tc := ⟨.hbm, 496, rfl⟩
abbrev main_v365 : Ref sig .tc := ⟨.hbm, 497, rfl⟩
abbrev main_call32_v0 : Ref sig .tc := ⟨.hbm, 498, rfl⟩
abbrev main_call32_cst : Ref sig .tc := ⟨.hbm, 499, rfl⟩
abbrev main_call32_v1 : Ref sig .tc := ⟨.hbm, 500, rfl⟩
abbrev main_v366 : Ref sig .tc := ⟨.hbm, 501, rfl⟩
abbrev main_call33_v0 : Ref sig .tc := ⟨.hbm, 502, rfl⟩
abbrev main_call33_cst : Ref sig .tc := ⟨.hbm, 503, rfl⟩
abbrev main_call33_v1 : Ref sig .tc := ⟨.hbm, 504, rfl⟩
abbrev main_v367 : Ref sig .tc := ⟨.hbm, 505, rfl⟩
abbrev main_v368 : Ref sig .tc := ⟨.hbm, 506, rfl⟩
abbrev main_cst_32 : Ref sig .tc := ⟨.hbm, 507, rfl⟩
abbrev main_v369 : Ref sig .tc := ⟨.hbm, 508, rfl⟩
abbrev main_v370 : Ref sig .tc := ⟨.hbm, 509, rfl⟩
abbrev main_v371 : Ref sig .tc := ⟨.hbm, 510, rfl⟩
abbrev main_v372 : Ref sig .tc := ⟨.hbm, 511, rfl⟩
abbrev main_v373 : Ref sig .tc := ⟨.hbm, 512, rfl⟩
abbrev main_v374 : Ref sig .tc := ⟨.hbm, 513, rfl⟩
abbrev main_v375 : Ref sig .tc := ⟨.hbm, 514, rfl⟩
abbrev main_v376 : Ref sig .tc := ⟨.hbm, 515, rfl⟩
abbrev main_v377 : Ref sig .tc := ⟨.hbm, 516, rfl⟩
abbrev main_v378 : Ref sig .tc := ⟨.hbm, 517, rfl⟩
abbrev main_v379 : Ref sig .tc := ⟨.hbm, 518, rfl⟩
abbrev main_v380 : Ref sig .tc := ⟨.hbm, 519, rfl⟩
abbrev main_v381 : Ref sig .tc := ⟨.hbm, 520, rfl⟩
abbrev main_v382 : Ref sig .tc := ⟨.hbm, 521, rfl⟩
abbrev main_v383 : Ref sig .tc := ⟨.hbm, 522, rfl⟩
abbrev main_cst_33 : Ref sig .tc := ⟨.hbm, 523, rfl⟩
abbrev main_v384 : Ref sig .tc := ⟨.hbm, 524, rfl⟩
abbrev main_call34_v0 : Ref sig .tc := ⟨.hbm, 525, rfl⟩
abbrev main_call34_cst : Ref sig .tc := ⟨.hbm, 526, rfl⟩
abbrev main_call34_v1 : Ref sig .tc := ⟨.hbm, 527, rfl⟩
abbrev main_v385 : Ref sig .tc := ⟨.hbm, 528, rfl⟩
abbrev main_call35_v0 : Ref sig .tc := ⟨.hbm, 529, rfl⟩
abbrev main_call35_cst : Ref sig .tc := ⟨.hbm, 530, rfl⟩
abbrev main_call35_v1 : Ref sig .tc := ⟨.hbm, 531, rfl⟩
abbrev main_v386 : Ref sig .tc := ⟨.hbm, 532, rfl⟩
abbrev main_v387 : Ref sig .tc := ⟨.hbm, 533, rfl⟩
abbrev main_cst_34 : Ref sig .tc := ⟨.hbm, 534, rfl⟩
abbrev main_v388 : Ref sig .tc := ⟨.hbm, 535, rfl⟩
abbrev main_v389 : Ref sig .tc := ⟨.hbm, 536, rfl⟩
abbrev main_v390 : Ref sig .tc := ⟨.hbm, 537, rfl⟩
abbrev main_v391 : Ref sig .tc := ⟨.hbm, 538, rfl⟩
abbrev main_v392 : Ref sig .tc := ⟨.hbm, 539, rfl⟩
abbrev main_v393 : Ref sig .tc := ⟨.hbm, 540, rfl⟩

abbrev nD : Nat := 1
abbrev τ : Topo := Topo.v7x

variable {F : FTy → Type} [FloatOps F]

class Facts₀ : Prop where
  slices_S32x64x600_S32x64x300_0_0_0 : S32x64x600.Slices ![0, 0, 0] S32x64x300
  slices_S32x64x600_S32x64x300_0_0_300 : S32x64x600.Slices ![0, 0, 300] S32x64x300
  slices_S8x20x300_S1x20x300_0_0_0 : S8x20x300.Slices ![0, 0, 0] S1x20x300
  shapeCasts_S1x20x300_S20x300 : S1x20x300.ShapeCasts S20x300
  slices_S32x64x300_S32x1x300_0_63_0 : S32x64x300.Slices ![0, 63, 0] S32x1x300
  shapeCasts_S32x1x300_S32x300 : S32x1x300.ShapeCasts S32x300
  bcast_S32x300_S32x1x300_0_2 : S32x300.BroadcastsInDim S32x1x300 (![0, 2] : Fin 2 → Fin S32x1x300.rank)
  bcast_S32x1x300_S32x64x300_0_1_2 : S32x1x300.BroadcastsInDim S32x64x300 (![0, 1, 2] : Fin 3 → Fin S32x64x300.rank)
  bcast_S32x64x300_S32x1x64x300_0_2_3 : S32x64x300.BroadcastsInDim S32x1x64x300 (![0, 2, 3] : Fin 3 → Fin S32x1x64x300.rank)
  bcast_S20x300_S1x20x1x300_1_3 : S20x300.BroadcastsInDim S1x20x1x300 (![1, 3] : Fin 2 → Fin S1x20x1x300.rank)
  bcast_S32x1x64x300_S32x20x64x300_0_1_2_3 : S32x1x64x300.BroadcastsInDim S32x20x64x300 (![0, 1, 2, 3] : Fin 4 → Fin S32x20x64x300.rank)
  bcast_S1x20x1x300_S32x20x64x300_0_1_2_3 : S1x20x1x300.BroadcastsInDim S32x20x64x300 (![0, 1, 2, 3] : Fin 4 → Fin S32x20x64x300.rank)
  reducesTo_S32x20x64x300_S32x20x64_d3 : S32x20x64x300.ReducesTo [3] S32x20x64
  h_S_ : 0 < S_.numel
  bcast_S_S32x20x64 : S_.BroadcastsInDim S32x20x64 (![] : Fin 0 → Fin S32x20x64.rank)
  transposes_S32x20x64_S32x64x20_0_2_1 : S32x20x64.Transposes [0, 2, 1] S32x64x20
  slices_S8x20x300_S1x20x300_1_0_0 : S8x20x300.Slices ![1, 0, 0] S1x20x300
  slices_S32x64x300_S32x1x300_0_0_0 : S32x64x300.Slices ![0, 0, 0] S32x1x300
  slices_S8x20x300_S1x20x300_2_0_0 : S8x20x300.Slices ![2, 0, 0] S1x20x300
  bcast_S32x20x64_S32x20x64x1_0_1_2 : S32x20x64.BroadcastsInDim S32x20x64x1 (![0, 1, 2] : Fin 3 → Fin S32x20x64x1.rank)
  bcast_S32x20x64_S32x20x1x64_0_1_3 : S32x20x64.BroadcastsInDim S32x20x1x64 (![0, 1, 3] : Fin 3 → Fin S32x20x1x64.rank)
  bcast_S32x20x64x1_S32x20x64x64_0_1_2_3 : S32x20x64x1.BroadcastsInDim S32x20x64x64 (![0, 1, 2, 3] : Fin 4 → Fin S32x20x64x64.rank)
  bcast_S32x20x1x64_S32x20x64x64_0_1_2_3 : S32x20x1x64.BroadcastsInDim S32x20x64x64 (![0, 1, 2, 3] : Fin 4 → Fin S32x20x64x64.rank)
  transposes_S32x20x64x64_S32x64x64x20_0_2_3_1 : S32x20x64x64.Transposes [0, 2, 3, 1] S32x64x64x20
  reducesTo_S32x64x64x20_S32x64x20_d2 : S32x64x64x20.ReducesTo [2] S32x64x20
  reducesTo_S32x64x64x20_S32x64x20_d1 : S32x64x64x20.ReducesTo [1] S32x64x20
  slices_S8x20x300_S1x20x300_3_0_0 : S8x20x300.Slices ![3, 0, 0] S1x20x300
  slices_S8x20x300_S1x20x300_4_0_0 : S8x20x300.Slices ![4, 0, 0] S1x20x300
  reducesTo_S32x64x300_S32x64_d2 : S32x64x300.ReducesTo [2] S32x64
  bcast_S32x64_S32x64x1_0_1 : S32x64.BroadcastsInDim S32x64x1 (![0, 1] : Fin 2 → Fin S32x64x1.rank)
  bcast_S32x64_S32x1x64_0_2 : S32x64.BroadcastsInDim S32x1x64 (![0, 2] : Fin 2 → Fin S32x1x64.rank)
  bcast_S32x64x1_S32x64x64_0_1_2 : S32x64x1.BroadcastsInDim S32x64x64 (![0, 1, 2] : Fin 3 → Fin S32x64x64.rank)
  bcast_S32x1x64_S32x64x64_0_1_2 : S32x1x64.BroadcastsInDim S32x64x64 (![0, 1, 2] : Fin 3 → Fin S32x64x64.rank)
  reducesTo_S32x64x64_S32x64_d1 : S32x64x64.ReducesTo [1] S32x64
  bcast_S32x64x1_S32x64x300_0_1_2 : S32x64x1.BroadcastsInDim S32x64x300 (![0, 1, 2] : Fin 3 → Fin S32x64x300.rank)
  reducesTo_S32x64x64_S32x64_d2 : S32x64x64.ReducesTo [2] S32x64
  slices_S8x20x300_S1x20x300_5_0_0 : S8x20x300.Slices ![5, 0, 0] S1x20x300
  slices_S8x20x300_S1x20x300_6_0_0 : S8x20x300.Slices ![6, 0, 0] S1x20x300
  bcast_S32x64x300_S32x64x1x300_0_1_3 : S32x64x300.BroadcastsInDim S32x64x1x300 (![0, 1, 3] : Fin 3 → Fin S32x64x1x300.rank)
  bcast_S32x64x64_S32x64x64x1_0_1_2 : S32x64x64.BroadcastsInDim S32x64x64x1 (![0, 1, 2] : Fin 3 → Fin S32x64x64x1.rank)
  bcast_S32x64x1x300_S32x64x64x300_0_1_2_3 : S32x64x1x300.BroadcastsInDim S32x64x64x300 (![0, 1, 2, 3] : Fin 4 → Fin S32x64x64x300.rank)
  bcast_S32x64x64x1_S32x64x64x300_0_1_2_3 : S32x64x64x1.BroadcastsInDim S32x64x64x300 (![0, 1, 2, 3] : Fin 4 → Fin S32x64x64x300.rank)
  reducesTo_S32x64x64x300_S32x64x300_d1 : S32x64x64x300.ReducesTo [1] S32x64x300
  bcast_S32x1x64x300_S32x64x64x300_0_1_2_3 : S32x1x64x300.BroadcastsInDim S32x64x64x300 (![0, 1, 2, 3] : Fin 4 → Fin S32x64x64x300.rank)
  reducesTo_S32x64x64x300_S32x64x300_d2 : S32x64x64x300.ReducesTo [2] S32x64x300
  slices_S8x20x300_S1x20x300_7_0_0 : S8x20x300.Slices ![7, 0, 0] S1x20x300
  concatenates_S32x64x20_S32x64x20_S32x64x20_S32x64x20_S32x64x20_S32x64x20_S32x64x20_S32x64x20_S32x64x160_d2 : Shape.Concatenates [S32x64x20, S32x64x20, S32x64x20, S32x64x20, S32x64x20, S32x64x20, S32x64x20, S32x64x20] S32x64x160 2
  dot_S32x20x64x300_S32x20x64x300_S32x20x64x64_3_3_2_2_01_01_wf : DotDims.WF S32x20x64x300 S32x20x64x300 S32x20x64x64 [3] [3] [2] [2] [0, 1] [0, 1]
  dot_S32x64x300_S32x64x300_S32x64x64_2_2_1_1_0_0_wf : DotDims.WF S32x64x300 S32x64x300 S32x64x64 [2] [2] [1] [1] [0] [0]
  dot_S32x64x64_S32x64x300_S32x64x300_1_1_2_2_0_0_wf : DotDims.WF S32x64x64 S32x64x300 S32x64x300 [1] [1] [2] [2] [0] [0]
  dot_S32x64x64_S32x64x300_S32x64x300_2_1_1_2_0_0_wf : DotDims.WF S32x64x64 S32x64x300 S32x64x300 [2] [1] [1] [2] [0] [0]

variable [Facts₀]

def dot_S32x20x64x300_S32x20x64x300_S32x20x64x64_3_3_2_2_01_01 : DotDims S32x20x64x300 S32x20x64x300 S32x20x64x64 where
  lhsContracting := [3]
  rhsContracting := [3]
  lhsNonContracting := [2]
  rhsNonContracting := [2]
  lhsBatch := [0, 1]
  rhsBatch := [0, 1]
  wf := dot_S32x20x64x300_S32x20x64x300_S32x20x64x64_3_3_2_2_01_01_wf
def dot_S32x64x300_S32x64x300_S32x64x64_2_2_1_1_0_0 : DotDims S32x64x300 S32x64x300 S32x64x64 where
  lhsContracting := [2]
  rhsContracting := [2]
  lhsNonContracting := [1]
  rhsNonContracting := [1]
  lhsBatch := [0]
  rhsBatch := [0]
  wf := dot_S32x64x300_S32x64x300_S32x64x64_2_2_1_1_0_0_wf
def dot_S32x64x64_S32x64x300_S32x64x300_1_1_2_2_0_0 : DotDims S32x64x64 S32x64x300 S32x64x300 where
  lhsContracting := [1]
  rhsContracting := [1]
  lhsNonContracting := [2]
  rhsNonContracting := [2]
  lhsBatch := [0]
  rhsBatch := [0]
  wf := dot_S32x64x64_S32x64x300_S32x64x300_1_1_2_2_0_0_wf
def dot_S32x64x64_S32x64x300_S32x64x300_2_1_1_2_0_0 : DotDims S32x64x64 S32x64x300 S32x64x300 where
  lhsContracting := [2]
  rhsContracting := [1]
  lhsNonContracting := [1]
  rhsNonContracting := [2]
  lhsBatch := [0]
  rhsBatch := [0]
  wf := dot_S32x64x64_S32x64x300_S32x64x300_2_1_1_2_0_0_wf

class Facts : Prop extends Facts₀ where

variable [Facts]
-- ==== Proof.KDefs.lean ====
/-
  The matching kernel's body, regrouped by what its operations compute.  One grid point handles one
  batch entry: from the two input blocks (64 rows of 768 = two direction halves of 384 lanes each, the
  last 84 lanes of each half zero padding) and the squared weights it forms sixteen 64x20 pieces, each
  a cosine between weighted rows:
    * `mpK x y w`    — at (s, l): the cosine of rows `x s` and `y s` under the weights `w l`,
                        numerator sum_h (x s h * y s h) * w l h, the two squared norms likewise,
                        the product of the norms floored at 1e-8;
    * `mxK x y w`    — at (l, s, t): the cosine of row `x s` against row `y t` under `w l`, no floor;
                        `ppK` / `pqK` take its maximum over t / over s;
    * `csK x y`      — at (s, t): the plain cosine of row `x s` and row `y t`;
    * `meanP` / `meanQ` — the cosine-weighted mean of the rows of one side, per row of the other;
    * `maxV x c`     — at (t, h): the maximum over s of x s h * c s t;
    * `rowRep`, `wBlk`, `half0`, `half1`, `wsq`, `assemble` — the layout steps around them.
  Everything here is written with the same vector operations, in the same order, as the printed body,
  so that the printed body's result is this regrouping by unfolding alone.
-/
import proofs.«111495_j13082470383656_2_alg».proof.KernelIdeal

noncomputable section

namespace Cert.KernelIdeal.MP

open Idealize.ShloMosaic Cert.KernelIdeal Cert.KernelIdeal.Facts₀ Cert.KernelIdeal.Facts

variable {F : FTy → Type} [FloatOps F] [Cert.KernelIdeal.Facts]

/-- One input block as a 64 x 768 matrix. -/
def blk2 (v : Vec F S1x64x768 .f32) : FVec F S64x768 .f32 := shapeCast S64x768 v shapeCasts_S1x64x768_S64x768
/-- Its forward half (lanes 0..383). -/
def half0 (v : Vec F S1x64x768 .f32) : FVec F S64x384 .f32 :=
  extractStridedSlice S64x384 ![0, 0] (blk2 v) slices_S64x768_o0_0_S64x384
/-- Its backward half (lanes 384..767). -/
def half1 (v : Vec F S1x64x768 .f32) : FVec F S64x384 .f32 :=
  extractStridedSlice S64x384 ![0, 384] (blk2 v) slices_S64x768_o0_384_S64x384
/-- The weights squared, entry by entry. -/
def wsq (v : Vec F S8x20x384 .f32) : FVec F S8x20x384 .f32 :=
  mulf (shapeCast S8x20x384 v shapeCasts_S8x20x384_S8x20x384) (shapeCast S8x20x384 v shapeCasts_S8x20x384_S8x20x384)

/-- Row `o 0` of `y`, repeated on all 64 rows. -/
def rowRep (o : Fin 2 → Nat) (hs : S64x384.Slices o S1x384) (y : FVec F S64x384 .f32) : FVec F S64x384 .f32 :=
  broadcastTo S64x384 (shapeCast S1x384 (shapeCast S1x384 (shapeCast S384 (extractStridedSlice S1x384 o y hs)
    shapeCasts_S1x384_S384) shapeCasts_S384_S1x384) shapeCasts_S1x384_S1x384) broadcasts_S1x384_S64x384

/-- Perspective block `o 0` of the squared weights, a 20 x 384 matrix. -/
def wBlk (o : Fin 3 → Nat) (hs : S8x20x384.Slices o S1x20x384) (w2 : FVec F S8x20x384 .f32) : FVec F S20x384 .f32 :=
  shapeCast S20x384 (extractStridedSlice S1x20x384 o w2 hs) shapeCasts_S1x20x384_S20x384

/-- At (s, l): sum over h of a s h * w l h. -/
def wsum (a : FVec F S64x384 .f32) (w : FVec F S20x384 .f32) : FVec F S64x20 .f32 :=
  matmul dot_S64x384_S384x20_S64x20_1_0_0_1_n_n none a (transpose S384x20 [1, 0] w transposes_S20x384_p1_0_S384x20)
    (constant S64x20 .f32 0x00000000#32)

/-- The weighted cosine of matching rows, floored denominator. -/
def mpK (x y : FVec F S64x384 .f32) (w : FVec F S20x384 .f32) : FVec F S64x20 .f32 :=
  divf (wsum (mulf x y) w)
    (maximumf (mulf (sqrt (wsum (mulf x x) w)) (sqrt (wsum (mulf y y) w))) (broadcast S64x20 (Scalar.ofBits .f32 0x322BCC77#32)))

/-- The weighted cosine of every row of `x` against every row of `y`, per perspective. -/
def mxK (x y : FVec F S64x384 .f32) (w : FVec F S20x384 .f32) : FVec F S20x64x64 .f32 :=
  divf
    (shapeCast S20x64x64
      (matmul dot_S1280x384_S384x64_S1280x64_1_0_0_1_n_n none
        (shapeCast S1280x384
          (mulf (broadcastTo S20x64x384 (shapeCast S1x64x384 x shapeCasts_S64x384_S1x64x384) broadcasts_S1x64x384_S20x64x384)
                (broadcastTo S20x64x384 (shapeCast S20x1x384 w shapeCasts_S20x384_S20x1x384) broadcasts_S20x1x384_S20x64x384))
          shapeCasts_S20x64x384_S1280x384)
        (transpose S384x64 [1, 0] y transposes_S64x384_p1_0_S384x64)
        (constant S1280x64 .f32 0x00000000#32))
      shapeCasts_S1280x64_S20x64x64)
    (mulf
      (broadcastTo S20x64x64 (shapeCast S20x64x1 (transpose S20x64 [1, 0] (sqrt (wsum (mulf x x) w)) transposes_S64x20_p1_0_S20x64)
        shapeCasts_S20x64_S20x64x1) broadcasts_S20x64x1_S20x64x64)
      (broadcastTo S20x64x64 (shapeCast S20x1x64 (transpose S20x64 [1, 0] (sqrt (wsum (mulf y y) w)) transposes_S64x20_p1_0_S20x64)
        shapeCasts_S20x64_S20x1x64) broadcasts_S20x1x64_S20x64x64))

/-- Maximum over the rows of the second side. -/
def ppK (c : FVec F S20x64x64 .f32) : FVec F S64x20 .f32 :=
  transpose S64x20 [1, 0] (multiReduction .maximumf [2] S20x64 c 0xFF800000#32 reduces_S20x64x64_S20x64 (.inl rfl) rfl)
    transposes_S20x64_p1_0_S64x20
/-- Maximum over the rows of the first side. -/
def pqK (c : FVec F S20x64x64 .f32) : FVec F S64x20 .f32 :=
  transpose S64x20 [1, 0] (multiReduction .maximumf [1] S20x64 c 0xFF800000#32 reduces_S20x64x64_S20x64_2 (.inl rfl) rfl)
    transposes_S20x64_p1_0_S64x20

/-- The norm of each row. -/
def rowNorm (x : FVec F S64x384 .f32) : FVec F S64 .f32 :=
  sqrt (multiReduction .add [1] S64 (mulf x x) 0x00000000#32 reduces_S64x384_S64 (.inl rfl) rfl)

/-- The plain cosine of every row of `x` against every row of `y`. -/
def csK (x y : FVec F S64x384 .f32) : FVec F S64x64 .f32 :=
  divf
    (matmul dot_S64x384_S384x64_S64x64_1_0_0_1_n_n none x (transpose S384x64 [1, 0] y transposes_S64x384_p1_0_S384x64)
      (constant S64x64 .f32 0x00000000#32))
    (mulf (broadcastTo S64x64 (shapeCast S64x1 (rowNorm x) shapeCasts_S64_S64x1) broadcasts_S64x1_S64x64)
          (broadcastTo S64x64 (shapeCast S1x64 (rowNorm y) shapeCasts_S64_S1x64) broadcasts_S1x64_S64x64))

/-- At (t, h): sum over s of c s t * x s h, over the sum over s of c s t. -/
def meanP (c : FVec F S64x64 .f32) (x : FVec F S64x384 .f32) : FVec F S64x384 .f32 :=
  divf (matmul dot_S64x64_S64x384_S64x384_0_0_1_1_n_n none c x (constant S64x384 .f32 0x00000000#32))
    (broadcastTo S64x384 (shapeCast S64x1 (multiReduction .add [0] S64 c 0x00000000#32 reduces_S64x64_S64 (.inl rfl) rfl)
      shapeCasts_S64_S64x1) broadcasts_S64x1_S64x384)
/-- At (s, h): sum over t of c s t * y t h, over the sum over t of c s t. -/
def meanQ (c : FVec F S64x64 .f32) (y : FVec F S64x384 .f32) : FVec F S64x384 .f32 :=
  divf (matmul dot_S64x64_S64x384_S64x384_1_0_0_1_n_n none c y (constant S64x384 .f32 0x00000000#32))
    (broadcastTo S64x384 (shapeCast S64x1 (multiReduction .add [1] S64 c 0x00000000#32 reduces_S64x64_S64_2 (.inl rfl) rfl)
      shapeCasts_S64_S64x1) broadcasts_S64x1_S64x384)

/-- At (t, h): the maximum over s of x s h * c s t. -/
def maxV (x : FVec F S64x384 .f32) (c : FVec F S64x64 .f32) : FVec F S64x384 .f32 :=
  multiReduction .maximumf [0] S64x384
    (mulf (broadcastTo S64x64x384 (shapeCast S64x1x384 x shapeCasts_S64x384_S64x1x384) broadcasts_S64x1x384_S64x64x384)
          (broadcastTo S64x64x384 (shapeCast S64x64x1 c shapeCasts_S64x64_S64x64x1) broadcasts_S64x64x1_S64x64x384))
    0xFF800000#32 reduces_S64x64x384_S64x384 (.inl rfl) rfl
/-- The cosine matrix transposed. -/
def cT (c : FVec F S64x64 .f32) : FVec F S64x64 .f32 := transpose S64x64 [1, 0] c transposes_S64x64_p1_0_S64x64

/-- Eight 64x20 pieces side by side, 96 zero lanes after them, as one 1x64x256 block. -/
def assemble (a0 a1 a2 a3 a4 a5 a6 a7 : FVec F S64x20 .f32) : FVec F S1x64x256 .f32 :=
  shapeCast S1x64x256
    (concatenate S64x256 1
      [⟨S64x160, concatenate S64x160 1 [⟨S64x20, a0⟩, ⟨S64x20, a1⟩, ⟨S64x20, a2⟩, ⟨S64x20, a3⟩, ⟨S64x20, a4⟩, ⟨S64x20, a5⟩, ⟨S64x20, a6⟩, ⟨S64x20, a7⟩]
          concatenates_S64x20_S64x20_S64x20_S64x20_S64x20_S64x20_S64x20_S64x20_S64x160_d1⟩,
       ⟨S64x96, broadcast S64x96 (Scalar.sitofp .f32 0#32)⟩]
      concatenates_S64x160_S64x96_S64x256_d1)
    shapeCasts_S64x256_S1x64x256

/-- The first result block from the halves `pf pb qf qb` and the squared weights `W`. -/
def outPof (pf pb qf qb : FVec F S64x384 .f32) (W : FVec F S8x20x384 .f32) : FVec F S1x64x256 .f32 :=
  assemble
    (mpK pf (rowRep ![63, 0] slices_S64x384_o63_0_S1x384 qf) (wBlk ![0, 0, 0] slices_S8x20x384_o0_0_0_S1x20x384 W))
    (mpK pb (rowRep ![0, 0] slices_S64x384_o0_0_S1x384 qb) (wBlk ![1, 0, 0] slices_S8x20x384_o1_0_0_S1x20x384 W))
    (ppK (mxK pf qf (wBlk ![2, 0, 0] slices_S8x20x384_o2_0_0_S1x20x384 W)))
    (ppK (mxK pb qb (wBlk ![3, 0, 0] slices_S8x20x384_o3_0_0_S1x20x384 W)))
    (mpK pf (meanQ (csK pf qf) qf) (wBlk ![4, 0, 0] slices_S8x20x384_o4_0_0_S1x20x384 W))
    (mpK pb (meanQ (csK pb qb) qb) (wBlk ![5, 0, 0] slices_S8x20x384_o5_0_0_S1x20x384 W))
    (mpK pf (maxV qf (cT (csK pf qf))) (wBlk ![6, 0, 0] slices_S8x20x384_o6_0_0_S1x20x384 W))
    (mpK pb (maxV qb (cT (csK pb qb))) (wBlk ![7, 0, 0] slices_S8x20x384_o7_0_0_S1x20x384 W))

/-- The second result block. -/
def outQof (pf pb qf qb : FVec F S64x384 .f32) (W : FVec F S8x20x384 .f32) : FVec F S1x64x256 .f32 :=
  assemble
    (mpK qf (rowRep ![63, 0] slices_S64x384_o63_0_S1x384 pf) (wBlk ![0, 0, 0] slices_S8x20x384_o0_0_0_S1x20x384 W))
    (mpK qb (rowRep ![0, 0] slices_S64x384_o0_0_S1x384 pb) (wBlk ![1, 0, 0] slices_S8x20x384_o1_0_0_S1x20x384 W))
    (pqK (mxK pf qf (wBlk ![2, 0, 0] slices_S8x20x384_o2_0_0_S1x20x384 W)))
    (pqK (mxK pb qb (wBlk ![3, 0, 0] slices_S8x20x384_o3_0_0_S1x20x384 W)))
    (mpK qf (meanP (csK pf qf) pf) (wBlk ![4, 0, 0] slices_S8x20x384_o4_0_0_S1x20x384 W))
    (mpK qb (meanP (csK pb qb) pb) (wBlk ![5, 0, 0] slices_S8x20x384_o5_0_0_S1x20x384 W))
    (mpK qf (maxV pf (csK pf qf)) (wBlk ![6, 0, 0] slices_S8x20x384_o6_0_0_S1x20x384 W))
    (mpK qb (maxV pb (csK pb qb)) (wBlk ![7, 0, 0] slices_S8x20x384_o7_0_0_S1x20x384 W))

/-- The two result blocks from the three loaded blocks. -/
def outP (x0 x1 : Vec F S1x64x768 .f32) (x2 : Vec F S8x20x384 .f32) : FVec F S1x64x256 .f32 :=
  outPof (half0 x0) (half1 x0) (half0 x1) (half1 x1) (wsq x2)
def outQ (x0 x1 : Vec F S1x64x768 .f32) (x2 : Vec F S8x20x384 .f32) : FVec F S1x64x256 .f32 :=
  outQof (half0 x0) (half1 x0) (half0 x1) (half1 x1) (wsq x2)

end Cert.KernelIdeal.MP

end
-- ==== Proof.KShape.lean ====
/-
  The printed body's two stored values are the regrouped ones: the positional cut of the body into
  payloads and the grouping by meaning unfold to the same sequence of vector operations.
-/
import proofs.«111495_j13082470383656_2_alg».proof.Proof.KDefs
import proofs.«111495_j13082470383656_2_alg».proof.Proof.Gen.KernelIdeal.Frame

set_option maxRecDepth 65536

noncomputable section

namespace Cert.KernelIdeal.MP

open Idealize.ShloMosaic Cert.KernelIdeal Cert.KernelIdeal.Gen

variable {F : FTy → Type} [FloatOps F] [Cert.KernelIdeal.Facts]

theorem out0_3_eq (x0 x1 : Vec F S1x64x768 .f32) (x2 : Vec F S8x20x384 .f32) :
    Gen.out0_3 x0 x1 x2 = View.canon [⟨r0_2, outP (View.ld x0 r0_0) (View.ld x1 r0_0) (View.ld x2 r0_1)⟩] := rfl

theorem out0_4_eq (x0 x1 : Vec F S1x64x768 .f32) (x2 : Vec F S8x20x384 .f32) :
    Gen.out0_4 x0 x1 x2 = View.canon [⟨r0_2, outQ (View.ld x0 r0_0) (View.ld x1 r0_0) (View.ld x2 r0_1)⟩] := rfl

end Cert.KernelIdeal.MP

end
-- ==== Proof.KArr.lean ====
/-
  The kernel program's run with its two results named.  Grid point t handles batch entry t: its input blocks
  are entry t of the two padded inputs and the whole padded weight array, and it writes back entry t of each
  result array.  So each 32x64x256 result array ends holding, at (b, s, j), the regrouped body's value at (s, j)
  computed from entry b of the inputs; the host slice after the region keeps lanes 0..159.
-/
import proofs.«111495_j13082470383656_2_alg».proof.Proof.KShape
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.MP

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl

/-- Batch entry `b` of a 32 x 64 x n array, as a 1 x 64 x n block. -/
def ent {n : ℕ} (A : (⟨3, ![32, 64, n]⟩ : Shape).Idx → EReal) (b : Fin 32) : (⟨3, ![1, 64, n]⟩ : Shape).Idx → EReal :=
  fun y => A (ix3 b (y 1) (y 2))

/-- What the first result array ends holding, from the padded inputs `A`, `B` and the padded weights `W`. -/
def GP (A B : FVec Ideal S32x64x768 .f32) (W : FVec Ideal S8x20x384 .f32) : FVec Ideal S32x64x256 .f32 :=
  fun i => outP (F := Ideal) (ent A ⟨(i 0).val, (i 0).isLt⟩) (ent B ⟨(i 0).val, (i 0).isLt⟩) W (ix3 (0 : Fin 1) ⟨(i 1).val, (i 1).isLt⟩ ⟨(i 2).val, (i 2).isLt⟩)
/-- The second result array likewise. -/
def GQ (A B : FVec Ideal S32x64x768 .f32) (W : FVec Ideal S8x20x384 .f32) : FVec Ideal S32x64x256 .f32 :=
  fun i => outQ (F := Ideal) (ent A ⟨(i 0).val, (i 0).isLt⟩) (ent B ⟨(i 0).val, (i 0).isLt⟩) W (ix3 (0 : Fin 1) ⟨(i 1).val, (i 1).isLt⟩ ⟨(i 2).val, (i 2).isLt⟩)

/-- The printed index maps over the grid: the four batched windows sit at block (t, 0, 0), the weights at (0, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

theorem tlt (t : Fin cfg0.N) : t.val < 32 := by have := t.isLt; have h : cfg0.N = 32 := N_0; omega

/-- Window 0's block at point t is entry t of the first padded input. -/
theorem iblk0_eq (c : Dev nD) (t : Fin cfg0.N) :
    (iblk m c 0 t : Vec Ideal S1x64x768 .f32) = ent (V m c main_v8 : S32x64x768.Idx → EReal) ⟨t.val, tlt t⟩ := by
  obtain ⟨⟨e0, e1, e2⟩, -⟩ := idx_facts t
  funext y
  unfold iblk ent
  rw [View.read_apply]
  show V m c main_v8 _ = V m c main_v8 _
  congr 1
  funext a
  apply Fin.ext
  match a with
  | ⟨0, _⟩ => show win0_0.index t (0 : Fin 3) * 1 + 1 * (y 0).val = t.val; have : (y 0).val < 1 := (y 0).isLt; omega
  | ⟨1, _⟩ => show win0_0.index t (1 : Fin 3) * 64 + 1 * (y 1).val = (y 1).val; omega
  | ⟨2, _⟩ => show win0_0.index t (2 : Fin 3) * 768 + 1 * (y 2).val = (y 2).val; omega

/-- Window 1's block at point t is entry t of the second padded input. -/
theorem iblk1_eq (c : Dev nD) (t : Fin cfg0.N) :
    (iblk m c 1 t : Vec Ideal S1x64x768 .f32) = ent (V m c main_v9 : S32x64x768.Idx → EReal) ⟨t.val, tlt t⟩ := by
  obtain ⟨-, ⟨e0, e1, e2⟩, -⟩ := idx_facts t
  funext y
  unfold iblk ent
  rw [View.read_apply]
  show V m c main_v9 _ = V m c main_v9 _
  congr 1
  funext a
  apply Fin.ext
  match a with
  | ⟨0, _⟩ => show win0_1.index t (0 : Fin 3) * 1 + 1 * (y 0).val = t.val; have : (y 0).val < 1 := (y 0).isLt; omega
  | ⟨1, _⟩ => show win0_1.index t (1 : Fin 3) * 64 + 1 * (y 1).val = (y 1).val; omega
  | ⟨2, _⟩ => show win0_1.index t (2 : Fin 3) * 768 + 1 * (y 2).val = (y 2).val; omega

/-- Window 2's block at every point is the whole padded weight array. -/
theorem iblk2_eq (c : Dev nD) (t : Fin cfg0.N) :
    (iblk m c 2 t : Vec Ideal S8x20x384 .f32) = (V m c main_v10 : S8x20x384.Idx → EReal) := by
  obtain ⟨-, -, ⟨e0, e1, e2⟩, -⟩ := idx_facts t
  funext y
  unfold iblk
  rw [View.read_apply]
  show V m c main_v10 _ = V m c main_v10 _
  congr 1
  funext a
  apply Fin.ext
  match a with
  | ⟨0, _⟩ => show win0_2.index t (0 : Fin 3) * 8 + 1 * (y 0).val = (y 0).val; omega
  | ⟨1, _⟩ => show win0_2.index t (1 : Fin 3) * 20 + 1 * (y 1).val = (y 1).val; omega
  | ⟨2, _⟩ => show win0_2.index t (2 : Fin 3) * 384 + 1 * (y 2).val = (y 2).val; omega

/-- What point t writes back to the first result array is block t of `GP` of the arrays as the region finds them. -/
theorem flushedP_eq (c : Dev nD) (t : Fin cfg0.N) :
    (dats m 0 c).flushed 3 t = ((cfg0.win 3).blk t).view.read (Elt Ideal)
      (GP (V m c main_v8) (V m c main_v9) (V m c main_v10)) := by
  show (cfg0.win 3).cut (grid0.coords t) ((dats m 0 c).after 3 t) = _
  rw [after0_3, out0_3_eq, View.canon_unit_zero hz3]
  simp only [View.ld_unit_zero (S := S1x64x768) hz3, View.ld_unit_zero (S := S8x20x384) hz3]
  rw [iblk0_eq, iblk1_eq, iblk2_eq]
  obtain ⟨-, -, -, ⟨e0, e1, e2⟩, -⟩ := idx_facts t
  funext y
  show outP (F := Ideal) _ _ _ y = GP _ _ _ (((cfg0.win 3).blk t).view.emb y)
  unfold GP
  have h0 : ((((cfg0.win 3).blk t).view.emb y) 0).val = t.val := by
    show win0_3.index t (0 : Fin 3) * 1 + 1 * (y 0).val = t.val; have : (y 0).val < 1 := (y 0).isLt; omega
  have h1 : ((((cfg0.win 3).blk t).view.emb y) 1).val = (y 1).val := by
    show win0_3.index t (1 : Fin 3) * 64 + 1 * (y 1).val = (y 1).val; omega
  have h2 : ((((cfg0.win 3).blk t).view.emb y) 2).val = (y 2).val := by
    show win0_3.index t (2 : Fin 3) * 256 + 1 * (y 2).val = (y 2).val; omega
  have hy : y = ix3 (0 : Fin 1) ⟨(y 1).val, (y 1).isLt⟩ ⟨(y 2).val, (y 2).isLt⟩ := by
    funext a; apply Fin.ext
    match a with
    | ⟨0, _⟩ => show (y 0).val = 0; have : (y 0).val < 1 := (y 0).isLt; omega
    | ⟨1, _⟩ => rfl
    | ⟨2, _⟩ => rfl
  have hb : (⟨((((cfg0.win 3).blk t).view.emb y) 0).val, ((((cfg0.win 3).blk t).view.emb y) 0).isLt⟩ : Fin 32) = ⟨t.val, tlt t⟩ := Fin.ext h0
  have hs : (⟨((((cfg0.win 3).blk t).view.emb y) 1).val, ((((cfg0.win 3).blk t).view.emb y) 1).isLt⟩ : Fin 64) = ⟨(y 1).val, (y 1).isLt⟩ := Fin.ext h1
  have hj : (⟨((((cfg0.win 3).blk t).view.emb y) 2).val, ((((cfg0.win 3).blk t).view.emb y) 2).isLt⟩ : Fin 256) = ⟨(y 2).val, (y 2).isLt⟩ := Fin.ext h2
  rw [hb, hs, hj]
  exact congrArg _ hy

/-- What point t writes back to the second result array is block t of `GQ`. -/
theorem flushedQ_eq (c : Dev nD) (t : Fin cfg0.N) :
    (dats m 0 c).flushed 4 t = ((cfg0.win 4).blk t).view.read (Elt Ideal)
      (GQ (V m c main_v8) (V m c main_v9) (V m c main_v10)) := by
  show (cfg0.win 4).cut (grid0.coords t) ((dats m 0 c).after 4 t) = _
  rw [after0_4, out0_4_eq, View.canon_unit_zero hz3]
  simp only [View.ld_unit_zero (S := S1x64x768) hz3, View.ld_unit_zero (S := S8x20x384) hz3]
  rw [iblk0_eq, iblk1_eq, iblk2_eq]
  obtain ⟨-, -, -, -, ⟨e0, e1, e2⟩⟩ := idx_facts t
  funext y
  show outQ (F := Ideal) _ _ _ y = GQ _ _ _ (((cfg0.win 4).blk t).view.emb y)
  unfold GQ
  have h0 : ((((cfg0.win 4).blk t).view.emb y) 0).val = t.val := by
    show win0_4.index t (0 : Fin 3) * 1 + 1 * (y 0).val = t.val; have : (y 0).val < 1 := (y 0).isLt; omega
  have h1 : ((((cfg0.win 4).blk t).view.emb y) 1).val = (y 1).val := by
    show win0_4.index t (1 : Fin 3) * 64 + 1 * (y 1).val = (y 1).val; omega
  have h2 : ((((cfg0.win 4).blk t).view.emb y) 2).val = (y 2).val := by
    show win0_4.index t (2 : Fin 3) * 256 + 1 * (y 2).val = (y 2).val; omega
  have hy : y = ix3 (0 : Fin 1) ⟨(y 1).val, (y 1).isLt⟩ ⟨(y 2).val, (y 2).isLt⟩ := by
    funext a; apply Fin.ext
    match a with
    | ⟨0, _⟩ => show (y 0).val = 0; have : (y 0).val < 1 := (y 0).isLt; omega
    | ⟨1, _⟩ => rfl
    | ⟨2, _⟩ => rfl
  have hb : (⟨((((cfg0.win 4).blk t).view.emb y) 0).val, ((((cfg0.win 4).blk t).view.emb y) 0).isLt⟩ : Fin 32) = ⟨t.val, tlt t⟩ := Fin.ext h0
  have hs : (⟨((((cfg0.win 4).blk t).view.emb y) 1).val, ((((cfg0.win 4).blk t).view.emb y) 1).isLt⟩ : Fin 64) = ⟨(y 1).val, (y 1).isLt⟩ := Fin.ext h1
  have hj : (⟨((((cfg0.win 4).blk t).view.emb y) 2).val, ((((cfg0.win 4).blk t).view.emb y) 2).isLt⟩ : Fin 256) = ⟨(y 2).val, (y 2).isLt⟩ := Fin.ext h2
  rw [hb, hs, hj]
  exact congrArg _ hy

/-- An index of a result array is in point t's block iff each coordinate is in the block's range on its axis. -/
theorem mem_blk3 (t : Fin cfg0.N) (i : S32x64x256.Idx) :
    i ∈ ((cfg0.win 3).blk t).view.set ↔ ∀ a : Fin 3, win0_3.index t a * S1x64x256.size a ≤ (i a).val ∧ (i a).val < win0_3.index t a * S1x64x256.size a + S1x64x256.size a := by
  show i ∈ ((View.whole main_v11_0).slice (win0_3.rect t)).set ↔ _
  rw [View.set_slice_whole, Rect.mem_set_unit]
  exact Iff.rfl
theorem mem_blk4 (t : Fin cfg0.N) (i : S32x64x256.Idx) :
    i ∈ ((cfg0.win 4).blk t).view.set ↔ ∀ a : Fin 3, win0_4.index t a * S1x64x256.size a ≤ (i a).val ∧ (i a).val < win0_4.index t a * S1x64x256.size a + S1x64x256.size a := by
  show i ∈ ((View.whole main_v11_1).slice (win0_4.rect t)).set ↔ _
  rw [View.set_slice_whole, Rect.mem_set_unit]
  exact Iff.rfl

/-- Every index (b, s, j) of a result array lies in the block of point b. -/
theorem coverP (i : S32x64x256.Idx) : ∃ t : Fin cfg0.N, (cfg0.win 3).flush t = true ∧ i ∈ ((cfg0.win 3).blk t).view.set := by
  have hN : cfg0.N = 32 := N_0
  have hi0 : (i 0).val < 32 := (i 0).isLt
  have hi1 : (i 1).val < 64 := (i 1).isLt
  have hi2 : (i 2).val < 256 := (i 2).isLt
  have hlt : (i 0).val < cfg0.N := by rw [hN]; exact hi0
  refine ⟨⟨(i 0).val, hlt⟩, flush0_3 _, ?_⟩
  rw [mem_blk3]
  obtain ⟨-, -, -, ⟨e0, e1, e2⟩, -⟩ := idx_facts ⟨(i 0).val, hlt⟩
  have e0' : win0_3.index ⟨(i 0).val, hlt⟩ (0 : Fin 3) = (i 0).val := e0
  intro a
  match a with
  | ⟨0, _⟩ => show win0_3.index _ (0 : Fin 3) * 1 ≤ (i 0).val ∧ (i 0).val < win0_3.index _ (0 : Fin 3) * 1 + 1; rw [e0']; omega
  | ⟨1, _⟩ => show win0_3.index _ (1 : Fin 3) * 64 ≤ (i 1).val ∧ (i 1).val < win0_3.index _ (1 : Fin 3) * 64 + 64; rw [e1]; omega
  | ⟨2, _⟩ => show win0_3.index _ (2 : Fin 3) * 256 ≤ (i 2).val ∧ (i 2).val < win0_3.index _ (2 : Fin 3) * 256 + 256; rw [e2]; omega
theorem coverQ (i : S32x64x256.Idx) : ∃ t : Fin cfg0.N, (cfg0.win 4).flush t = true ∧ i ∈ ((cfg0.win 4).blk t).view.set := by
  have hN : cfg0.N = 32 := N_0
  have hi0 : (i 0).val < 32 := (i 0).isLt
  have hi1 : (i 1).val < 64 := (i 1).isLt
  have hi2 : (i 2).val < 256 := (i 2).isLt
  have hlt : (i 0).val < cfg0.N := by rw [hN]; exact hi0
  refine ⟨⟨(i 0).val, hlt⟩, flush0_4 _, ?_⟩
  rw [mem_blk4]
  obtain ⟨-, -, -, -, ⟨e0, e1, e2⟩⟩ := idx_facts ⟨(i 0).val, hlt⟩
  have e0' : win0_4.index ⟨(i 0).val, hlt⟩ (0 : Fin 3) = (i 0).val := e0
  intro a
  match a with
  | ⟨0, _⟩ => show win0_4.index _ (0 : Fin 3) * 1 ≤ (i 0).val ∧ (i 0).val < win0_4.index _ (0 : Fin 3) * 1 + 1; rw [e0']; omega
  | ⟨1, _⟩ => show win0_4.index _ (1 : Fin 3) * 64 ≤ (i 1).val ∧ (i 1).val < win0_4.index _ (1 : Fin 3) * 64 + 64; rw [e1]; omega
  | ⟨2, _⟩ => show win0_4.index _ (2 : Fin 3) * 256 ≤ (i 2).val ∧ (i 2).val < win0_4.index _ (2 : Fin 3) * 256 + 256; rw [e2]; omega

/-- The result arrays after the region. -/
theorem finalP (c : Dev nD) : (dats m 0 c).arrAt 3 cfg0.N = GP (V m c main_v8) (V m c main_v9) (V m c main_v10) :=
  (dats m 0 c).arrAt_eq_of_cover 3 _ (fun t _ => flushedP_eq m c t) coverP
theorem finalQ (c : Dev nD) : (dats m 0 c).arrAt 4 cfg0.N = GQ (V m c main_v8) (V m c main_v9) (V m c main_v10) :=
  (dats m 0 c).arrAt_eq_of_cover 4 _ (fun t _ => flushedQ_eq m c t) coverQ

/-- The host slice after the region, of the first result array. -/
theorem tailP (c : Dev nD) :
    Pipeline.afterTail₀ cfgs (dats m) 0 (V0 m) [hostOps1] c main_v12
      = extractStridedSlice S32x64x160 ![0, 0, 0] (GP (V m c main_v8) (V m c main_v9) (V m c main_v10)) Facts₀.slices_S32x64x256_S32x64x160_0_0_0 := by
  unfold Pipeline.afterTail₀
  show StableHlo.after hostOps1 _ (Proc.devRef .tc main_v12) = _
  after_results
  exact congrArg (fun X => extractStridedSlice S32x64x160 ![0, 0, 0] X Facts₀.slices_S32x64x256_S32x64x160_0_0_0)
    ((Pipeline.withArrays_arr spec0 launch0.win.arr_inj c (V0 m c) (fun w => (dats m 0 c).arrAt w cfg0.N) 3).trans (finalP m c))

/-- The host slice after the region, of the second result array. -/
theorem tailQ (c : Dev nD) :
    Pipeline.afterTail₀ cfgs (dats m) 0 (V0 m) [hostOps1] c main_v13
      = extractStridedSlice S32x64x160 ![0, 0, 0] (GQ (V m c main_v8) (V m c main_v9) (V m c main_v10)) Facts₀.slices_S32x64x256_S32x64x160_0_0_0 := by
  unfold Pipeline.afterTail₀
  show StableHlo.after hostOps1 _ (Proc.devRef .tc main_v13) = _
  after_results
  exact congrArg (fun X => extractStridedSlice S32x64x160 ![0, 0, 0] X Facts₀.slices_S32x64x256_S32x64x160_0_0_0)
    ((Pipeline.withArrays_arr spec0 launch0.win.arr_inj c (V0 m c) (fun w => (dats m 0 c).arrAt w cfg0.N) 4).trans (finalQ m c))

/-- The first result of the kernel program on core c, as a function of the arrays the region finds. -/
def KP (c : Dev nD) : FVec Ideal S32x64x160 .f32 :=
  extractStridedSlice S32x64x160 ![0, 0, 0] (GP (V m c main_v8) (V m c main_v9) (V m c main_v10)) Facts₀.slices_S32x64x256_S32x64x160_0_0_0
/-- The second result. -/
def KQ (c : Dev nD) : FVec Ideal S32x64x160 .f32 :=
  extractStridedSlice S32x64x160 ![0, 0, 0] (GQ (V m c main_v8) (V m c main_v9) (V m c main_v10)) Facts₀.slices_S32x64x256_S32x64x160_0_0_0

/-- The run of the kernel program at the exact instance: it terminates without a fault, its two results at
    `KP` and `KQ`, its arguments unchanged. -/
theorem runK : θ_run defs (onTc (τ := τ) (main (F := Ideal))) ⟨m, fun _ => 0, ρ⟩ fun r => ∀ c : Dev nD,
      r.2.mem ((c.tc : Thread nD τ).loc main_v12) = KP m c
      ∧ r.2.mem ((c.tc : Thread nD τ).loc main_v13) = KQ m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans (tailP m c),
     ((h c).2 main_v13 (Pipeline.mem_restRefs_of main_v13 (by decide) (by decide))).trans (tailQ m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.MP

end
-- ==== Proof.KPre.lean ====
/-
  The arrays the kernel region finds: each padded input is the two 300-lane halves of an argument, each followed
  by 84 zeros, side by side (768 lanes); the padded weights are the weights followed by 84 zeros per row.
-/
import proofs.«111495_j13082470383656_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.MP

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- A 300-lane array followed by 84 lanes of the value the host converts the integer 0 to. -/
def padH (x : FVec Ideal S32x64x300 .f32) : FVec Ideal S32x64x384 .f32 :=
  pad S32x64x384 ![0, 0, 0] ![0, 0, 84] ![0, 0, 0] x (sitofp (F := Ideal) .f32 (constantI S_ 32 0#32)) pads_S32x64x300_S32x64x384_000_000_0840 h_S_

theorem V8_eq (c : Dev nD) : (V m c main_v8 : S32x64x768.Idx → EReal)
    = concatenate S32x64x768 2
        [⟨S32x64x384, padH (extractStridedSlice S32x64x300 ![0, 0, 0] (m ((c.tc : Thread nD τ).loc main_arg0)) slices_S32x64x600_S32x64x300_0_0_0)⟩,
         ⟨S32x64x384, padH (extractStridedSlice S32x64x300 ![0, 0, 300] (m ((c.tc : Thread nD τ).loc main_arg0)) slices_S32x64x600_S32x64x300_0_0_300)⟩]
        concatenates_S32x64x384_S32x64x384_S32x64x768_d2 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9,
    List.flatten_cons, List.flatten_nil, List.append_nil, List.cons_append, List.nil_append]
  after_results
  rfl

theorem V9_eq (c : Dev nD) : (V m c main_v9 : S32x64x768.Idx → EReal)
    = concatenate S32x64x768 2
        [⟨S32x64x384, padH (extractStridedSlice S32x64x300 ![0, 0, 0] (m ((c.tc : Thread nD τ).loc main_arg1)) slices_S32x64x600_S32x64x300_0_0_0)⟩,
         ⟨S32x64x384, padH (extractStridedSlice S32x64x300 ![0, 0, 300] (m ((c.tc : Thread nD τ).loc main_arg1)) slices_S32x64x600_S32x64x300_0_0_300)⟩]
        concatenates_S32x64x384_S32x64x384_S32x64x768_d2 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9,
    List.flatten_cons, List.flatten_nil, List.append_nil, List.cons_append, List.nil_append]
  after_results
  rfl

theorem V10_eq (c : Dev nD) : (V m c main_v10 : S8x20x384.Idx → EReal)
    = pad S8x20x384 ![0, 0, 0] ![0, 0, 84] ![0, 0, 0] (m ((c.tc : Thread nD τ).loc main_arg2)) (sitofp (F := Ideal) .f32 (constantI S_ 32 0#32))
        pads_S8x20x300_S8x20x384_000_000_0840 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9,
    List.flatten_cons, List.flatten_nil, List.append_nil, List.cons_append, List.nil_append]
  after_results
  rfl

/-- The first argument as the kernel program is launched with it, on core c. -/
abbrev arg0 (c : Dev nD) : S32x64x600.Idx → EReal := m ((c.tc : Thread nD τ).loc main_arg0)
/-- The second argument. -/
abbrev arg1 (c : Dev nD) : S32x64x600.Idx → EReal := m ((c.tc : Thread nD τ).loc main_arg1)
/-- The weights. -/
abbrev arg2 (c : Dev nD) : S8x20x300.Idx → EReal := m ((c.tc : Thread nD τ).loc main_arg2)

/-- The padding value, the integer 0 converted by the host, is the extended real 0. -/
theorem kb_pre_padValue :
    (sitofp (F := Ideal) .f32 (constantI S_ 32 0#32)) (Shape.Idx.first h_S_) = (0 : EReal) := by
  show (((0#32 : BitVec 32).toInt : ℝ) : EReal) = 0
  simp

/-- A padded row: the first 300 lanes are the operand's, the last 84 are zero. -/
theorem kb_pre_padH_apply (x : FVec Ideal S32x64x300 .f32) (b : Fin 32) (s : Fin 64) (h : Fin 384) :
    padH x (ix3 b s h) = if hh : h.val < 300 then x (ix3 b s ⟨h.val, hh⟩) else 0 := by
  unfold padH
  by_cases hh : h.val < 300
  · rw [dif_pos hh]
    exact pad_apply_of_inside _ _ _ x _ pads_S32x64x300_S32x64x384_000_000_0840 h_S_ (ix3 b s h) (ix3 b s ⟨h.val, hh⟩)
      (fun a => match a with
        | ⟨0, _⟩ => by show b.val = 0 + b.val * (0 + 1); omega
        | ⟨1, _⟩ => by show s.val = 0 + s.val * (0 + 1); omega
        | ⟨2, _⟩ => by show h.val = 0 + h.val * (0 + 1); omega)
  · rw [dif_neg hh]
    refine (pad_apply_of_not_inside _ _ _ x _ pads_S32x64x300_S32x64x384_000_000_0840 h_S_ (ix3 b s h) (2 : Fin 3) ?_).trans
      kb_pre_padValue
    show ¬(0 ≤ h.val ∧ (h.val - 0) % (0 + 1) = 0 ∧ (h.val - 0) / (0 + 1) < 300)
    omega

/-- Lane h < 384 of the first padded input: lane h of the argument's forward half, or zero from lane 300 on. -/
theorem V8_lo (c : Dev nD) (b : Fin 32) (s : Fin 64) (h : Fin 384) :
    (V m c main_v8 : S32x64x768.Idx → EReal) (ix3 b s ⟨h.val, by omega⟩)
      = if hh : h.val < 300 then arg0 m c (ix3 b s ⟨h.val, by omega⟩) else 0 := by
  rw [V8_eq]
  refine (concatenate_pair_apply_left (t := S32x64x768) (s₁ := S32x64x384) (s₂ := S32x64x384) 2 _ _
    concatenates_S32x64x384_S32x64x384_S32x64x768_d2
    (ix3 b s (⟨h.val, by omega⟩ : Fin 768)) rfl (ix3 b s h)
    (fun a => match a with
      | ⟨0, _⟩ => rfl
      | ⟨1, _⟩ => rfl
      | ⟨2, _⟩ => rfl)).trans ?_
  refine (kb_pre_padH_apply _ b s h).trans ?_
  by_cases hh : h.val < 300
  · rw [dif_pos hh, dif_pos hh]
    exact extractStridedSlice_apply (s := S32x64x600) (t := S32x64x300) ![0, 0, 0] _ slices_S32x64x600_S32x64x300_0_0_0
      (ix3 b s (⟨h.val, hh⟩ : Fin 300)) (ix3 b s (⟨h.val, by omega⟩ : Fin 600))
      (fun a => match a with
        | ⟨0, _⟩ => by show b.val = 0 + b.val; omega
        | ⟨1, _⟩ => by show s.val = 0 + s.val; omega
        | ⟨2, _⟩ => by show h.val = 0 + h.val; omega)
  · rw [dif_neg hh, dif_neg hh]
/-- Lane 384 + h of the first padded input: lane 300 + h of the argument (its backward half), or zero from lane 300 on. -/
theorem V8_hi (c : Dev nD) (b : Fin 32) (s : Fin 64) (h : Fin 384) :
    (V m c main_v8 : S32x64x768.Idx → EReal) (ix3 b s ⟨384 + h.val, by omega⟩)
      = if hh : h.val < 300 then arg0 m c (ix3 b s ⟨300 + h.val, by omega⟩) else 0 := by
  rw [V8_eq]
  refine (concatenate_pair_apply_right (t := S32x64x768) (s₁ := S32x64x384) (s₂ := S32x64x384) 2 _ _
    concatenates_S32x64x384_S32x64x384_S32x64x768_d2
    (ix3 b s (⟨384 + h.val, by omega⟩ : Fin 768)) rfl rfl (ix3 b s h)
    (fun a ha => match a, ha with
      | ⟨0, _⟩, _ => rfl
      | ⟨1, _⟩, _ => rfl
      | ⟨2, _⟩, ha => absurd rfl ha)
    (by show h.val + 384 = 384 + h.val; omega)).trans ?_
  refine (kb_pre_padH_apply _ b s h).trans ?_
  by_cases hh : h.val < 300
  · rw [dif_pos hh, dif_pos hh]
    exact extractStridedSlice_apply (s := S32x64x600) (t := S32x64x300) ![0, 0, 300] _ slices_S32x64x600_S32x64x300_0_0_300
      (ix3 b s (⟨h.val, hh⟩ : Fin 300)) (ix3 b s (⟨300 + h.val, by omega⟩ : Fin 600))
      (fun a => match a with
        | ⟨0, _⟩ => by show b.val = 0 + b.val; omega
        | ⟨1, _⟩ => by show s.val = 0 + s.val; omega
        | ⟨2, _⟩ => by show 300 + h.val = 300 + h.val; omega)
  · rw [dif_neg hh, dif_neg hh]
theorem V9_lo (c : Dev nD) (b : Fin 32) (s : Fin 64) (h : Fin 384) :
    (V m c main_v9 : S32x64x768.Idx → EReal) (ix3 b s ⟨h.val, by omega⟩)
      = if hh : h.val < 300 then arg1 m c (ix3 b s ⟨h.val, by omega⟩) else 0 := by
  rw [V9_eq]
  refine (concatenate_pair_apply_left (t := S32x64x768) (s₁ := S32x64x384) (s₂ := S32x64x384) 2 _ _
    concatenates_S32x64x384_S32x64x384_S32x64x768_d2
    (ix3 b s (⟨h.val, by omega⟩ : Fin 768)) rfl (ix3 b s h)
    (fun a => match a with
      | ⟨0, _⟩ => rfl
      | ⟨1, _⟩ => rfl
      | ⟨2, _⟩ => rfl)).trans ?_
  refine (kb_pre_padH_apply _ b s h).trans ?_
  by_cases hh : h.val < 300
  · rw [dif_pos hh, dif_pos hh]
    exact extractStridedSlice_apply (s := S32x64x600) (t := S32x64x300) ![0, 0, 0] _ slices_S32x64x600_S32x64x300_0_0_0
      (ix3 b s (⟨h.val, hh⟩ : Fin 300)) (ix3 b s (⟨h.val, by omega⟩ : Fin 600))
      (fun a => match a with
        | ⟨0, _⟩ => by show b.val = 0 + b.val; omega
        | ⟨1, _⟩ => by show s.val = 0 + s.val; omega
        | ⟨2, _⟩ => by show h.val = 0 + h.val; omega)
  · rw [dif_neg hh, dif_neg hh]
theorem V9_hi (c : Dev nD) (b : Fin 32) (s : Fin 64) (h : Fin 384) :
    (V m c main_v9 : S32x64x768.Idx → EReal) (ix3 b s ⟨384 + h.val, by omega⟩)
      = if hh : h.val < 300 then arg1 m c (ix3 b s ⟨300 + h.val, by omega⟩) else 0 := by
  rw [V9_eq]
  refine (concatenate_pair_apply_right (t := S32x64x768) (s₁ := S32x64x384) (s₂ := S32x64x384) 2 _ _
    concatenates_S32x64x384_S32x64x384_S32x64x768_d2
    (ix3 b s (⟨384 + h.val, by omega⟩ : Fin 768)) rfl rfl (ix3 b s h)
    (fun a ha => match a, ha with
      | ⟨0, _⟩, _ => rfl
      | ⟨1, _⟩, _ => rfl
      | ⟨2, _⟩, ha => absurd rfl ha)
    (by show h.val + 384 = 384 + h.val; omega)).trans ?_
  refine (kb_pre_padH_apply _ b s h).trans ?_
  by_cases hh : h.val < 300
  · rw [dif_pos hh, dif_pos hh]
    exact extractStridedSlice_apply (s := S32x64x600) (t := S32x64x300) ![0, 0, 300] _ slices_S32x64x600_S32x64x300_0_0_300
      (ix3 b s (⟨h.val, hh⟩ : Fin 300)) (ix3 b s (⟨300 + h.val, by omega⟩ : Fin 600))
      (fun a => match a with
        | ⟨0, _⟩ => by show b.val = 0 + b.val; omega
        | ⟨1, _⟩ => by show s.val = 0 + s.val; omega
        | ⟨2, _⟩ => by show 300 + h.val = 300 + h.val; omega)
  · rw [dif_neg hh, dif_neg hh]
/-- The padded weights: the weights, or zero from lane 300 on. -/
theorem V10_apply (c : Dev nD) (k : Fin 8) (l : Fin 20) (h : Fin 384) :
    (V m c main_v10 : S8x20x384.Idx → EReal) (ix3 k l h)
      = if hh : h.val < 300 then arg2 m c (ix3 k l ⟨h.val, hh⟩) else 0 := by
  rw [V10_eq]
  by_cases hh : h.val < 300
  · rw [dif_pos hh]
    exact pad_apply_of_inside _ _ _ _ _ pads_S8x20x300_S8x20x384_000_000_0840 h_S_ (ix3 k l h) (ix3 k l ⟨h.val, hh⟩)
      (fun a => match a with
        | ⟨0, _⟩ => by show k.val = 0 + k.val * (0 + 1); omega
        | ⟨1, _⟩ => by show l.val = 0 + l.val * (0 + 1); omega
        | ⟨2, _⟩ => by show h.val = 0 + h.val * (0 + 1); omega)
  · rw [dif_neg hh]
    refine (pad_apply_of_not_inside _ _ _ _ _ pads_S8x20x300_S8x20x384_000_000_0840 h_S_ (ix3 k l h) (2 : Fin 3) ?_).trans
      kb_pre_padValue
    show ¬(0 ≤ h.val ∧ (h.val - 0) % (0 + 1) = 0 ∧ (h.val - 0) / (0 + 1) < 300)
    omega

end Cert.KernelIdeal.MP

end
-- ==== Proof.Spec.lean ====
/-
  The mathematics both programs compute, on plain functions of row, lane and perspective indices.

  For one batch entry there are four 64-row matrices `pf pb qf qb` (the forward and backward halves of
  the two inputs) and eight 20-row weight matrices.  Every result entry is a cosine `n / (√a · √b)`
  of two weighted rows — with the denominator floored at 1e-8 (`cosG`) or not (`cos0`):
    * matching rows `x s`, `y s` under a perspective's weights (`mpKf`, `mpRf`);
    * every row `x s` against every row `y t` (`mxKf`, `mxRf`), then the maximum over `t` (`ppf`) or over `s` (`pqf`);
    * the second vector may itself be built from the plain cosine matrix `csf x y`: its weighted mean
      of the other side's rows (`meanPf`, `meanQf`) or the maximum of the weighted rows (`maxPf`, `maxQf`).
  The kernel weights a PRODUCT of two entries by the SQUARED weight, `(x·y)·w²`, over 384 lanes of which
  the last 84 are zero padding; the reference multiplies two WEIGHTED entries, `(x·w)·(y·w)`, over 300 lanes.
  The `…Kf` forms are the kernel's, the `…Rf` forms the reference's; the others are common to both.
-/
import Idealize.ShloMosaic.PureOps.Ideal
import Idealize.ShloMosaic.Lib.ValueIdx

noncomputable section

namespace Cert.MP

open Idealize.ShloMosaic

/-- The floor of a cosine's denominator: the extended real the f32 word of 1e-8 denotes. -/
def eps : EReal := Ideal.ofBits .f32 0x322BCC77#32

/-- `n / max (√a · √b) eps`. -/
def cosG (n a b : EReal) : EReal := Ideal.div n (max (Ideal.sqrt a * Ideal.sqrt b) eps)
/-- `n / (√a · √b)`. -/
def cos0 (n a b : EReal) : EReal := Ideal.div n (Ideal.sqrt a * Ideal.sqrt b)

/-- The maximum of a finite family, `⊥` for the empty one. -/
def vmax {ι : Type} [Fintype ι] (f : ι → EReal) : EReal := (Finset.univ : Finset ι).fold max ⊥ f

/-- 64 rows of `n` lanes. -/
abbrev Rows (n : ℕ) := Fin 64 → Fin n → EReal
/-- 20 perspectives of `n` lanes. -/
abbrev Wts (n : ℕ) := Fin 20 → Fin n → EReal
/-- A 64 x 64 matrix. -/
abbrev Sq := Fin 64 → Fin 64 → EReal

variable {n : ℕ}

/-- Matching rows, the kernel's arrangement: products of entries weighted by `w2` (the squared weights). -/
def mpKf (x y : Rows n) (w2 : Wts n) : Fin 64 → Fin 20 → EReal := fun s l =>
  cosG (∑ h, (x s h * y s h) * w2 l h) (∑ h, (x s h * x s h) * w2 l h) (∑ h, (y s h * y s h) * w2 l h)
/-- Matching rows, the reference's arrangement: products of weighted entries. -/
def mpRf (x y : Rows n) (w : Wts n) : Fin 64 → Fin 20 → EReal := fun s l =>
  cosG (∑ h, (x s h * w l h) * (y s h * w l h)) (∑ h, (x s h * w l h) * (x s h * w l h)) (∑ h, (y s h * w l h) * (y s h * w l h))

/-- Every row against every row, the kernel's arrangement; at (l, s, t). -/
def mxKf (x y : Rows n) (w2 : Wts n) : Fin 20 → Fin 64 → Fin 64 → EReal := fun l s t =>
  cos0 (∑ h, (x s h * w2 l h) * y t h) (∑ h, (x s h * x s h) * w2 l h) (∑ h, (y t h * y t h) * w2 l h)
/-- Every row against every row, the reference's arrangement; at (l, s, t). -/
def mxRf (x y : Rows n) (w : Wts n) : Fin 20 → Fin 64 → Fin 64 → EReal := fun l s t =>
  cos0 (∑ h, (x s h * w l h) * (y t h * w l h)) (∑ h, (x s h * w l h) * (x s h * w l h)) (∑ h, (y t h * w l h) * (y t h * w l h))

/-- Maximum over the second side's rows; at (s, l). -/
def ppf (c : Fin 20 → Fin 64 → Fin 64 → EReal) : Fin 64 → Fin 20 → EReal := fun s l => vmax fun t => c l s t
/-- Maximum over the first side's rows; at (t, l). -/
def pqf (c : Fin 20 → Fin 64 → Fin 64 → EReal) : Fin 64 → Fin 20 → EReal := fun t l => vmax fun s => c l s t

/-- The plain cosine of row `x s` and row `y t`. -/
def csf (x y : Rows n) : Sq := fun s t => cos0 (∑ h, x s h * y t h) (∑ h, x s h * x s h) (∑ h, y t h * y t h)

/-- At (t, h): the `c`-weighted mean over s of `x s h`. -/
def meanPf (c : Sq) (x : Rows n) : Rows n := fun t h => Ideal.div (∑ s, c s t * x s h) (∑ s, c s t)
/-- At (s, h): the `c`-weighted mean over t of `y t h`. -/
def meanQf (c : Sq) (y : Rows n) : Rows n := fun s h => Ideal.div (∑ t, c s t * y t h) (∑ t, c s t)
/-- At (t, h): the maximum over s of `x s h * c s t`. -/
def maxPf (x : Rows n) (c : Sq) : Rows n := fun t h => vmax fun s => x s h * c s t
/-- At (s, h): the maximum over t of `y t h * c s t`. -/
def maxQf (y : Rows n) (c : Sq) : Rows n := fun s h => vmax fun t => y t h * c s t

/-- Row `r` on every row. -/
def rowf (r : Fin 64) (y : Rows n) : Rows n := fun _ h => y r h

/-- One batch entry's data: the four half matrices and the eight weight matrices. -/
structure Ins (n : ℕ) where
  pf : Rows n
  pb : Rows n
  qf : Rows n
  qb : Rows n
  w : Fin 8 → Wts n

/-- The eight pieces of the first result, kernel's arrangement (`I.w` the SQUARED weights). -/
def pieceKP (I : Ins n) : Fin 8 → Fin 64 → Fin 20 → EReal
  | ⟨0, _⟩ => mpKf I.pf (rowf 63 I.qf) (I.w 0)
  | ⟨1, _⟩ => mpKf I.pb (rowf 0 I.qb) (I.w 1)
  | ⟨2, _⟩ => ppf (mxKf I.pf I.qf (I.w 2))
  | ⟨3, _⟩ => ppf (mxKf I.pb I.qb (I.w 3))
  | ⟨4, _⟩ => mpKf I.pf (meanQf (csf I.pf I.qf) I.qf) (I.w 4)
  | ⟨5, _⟩ => mpKf I.pb (meanQf (csf I.pb I.qb) I.qb) (I.w 5)
  | ⟨6, _⟩ => mpKf I.pf (maxQf I.qf (csf I.pf I.qf)) (I.w 6)
  | ⟨7, _⟩ => mpKf I.pb (maxQf I.qb (csf I.pb I.qb)) (I.w 7)
  | ⟨_ + 8, h⟩ => absurd h (by omega)
/-- The eight pieces of the second result, kernel's arrangement. -/
def pieceKQ (I : Ins n) : Fin 8 → Fin 64 → Fin 20 → EReal
  | ⟨0, _⟩ => mpKf I.qf (rowf 63 I.pf) (I.w 0)
  | ⟨1, _⟩ => mpKf I.qb (rowf 0 I.pb) (I.w 1)
  | ⟨2, _⟩ => pqf (mxKf I.pf I.qf (I.w 2))
  | ⟨3, _⟩ => pqf (mxKf I.pb I.qb (I.w 3))
  | ⟨4, _⟩ => mpKf I.qf (meanPf (csf I.pf I.qf) I.pf) (I.w 4)
  | ⟨5, _⟩ => mpKf I.qb (meanPf (csf I.pb I.qb) I.pb) (I.w 5)
  | ⟨6, _⟩ => mpKf I.qf (maxPf I.pf (csf I.pf I.qf)) (I.w 6)
  | ⟨7, _⟩ => mpKf I.qb (maxPf I.pb (csf I.pb I.qb)) (I.w 7)
  | ⟨_ + 8, h⟩ => absurd h (by omega)
/-- The eight pieces of the first result, reference's arrangement (`I.w` the weights themselves). -/
def pieceRP (I : Ins n) : Fin 8 → Fin 64 → Fin 20 → EReal
  | ⟨0, _⟩ => mpRf I.pf (rowf 63 I.qf) (I.w 0)
  | ⟨1, _⟩ => mpRf I.pb (rowf 0 I.qb) (I.w 1)
  | ⟨2, _⟩ => ppf (mxRf I.pf I.qf (I.w 2))
  | ⟨3, _⟩ => ppf (mxRf I.pb I.qb (I.w 3))
  | ⟨4, _⟩ => mpRf I.pf (meanQf (csf I.pf I.qf) I.qf) (I.w 4)
  | ⟨5, _⟩ => mpRf I.pb (meanQf (csf I.pb I.qb) I.qb) (I.w 5)
  | ⟨6, _⟩ => mpRf I.pf (maxQf I.qf (csf I.pf I.qf)) (I.w 6)
  | ⟨7, _⟩ => mpRf I.pb (maxQf I.qb (csf I.pb I.qb)) (I.w 7)
  | ⟨_ + 8, h⟩ => absurd h (by omega)
/-- The eight pieces of the second result, reference's arrangement. -/
def pieceRQ (I : Ins n) : Fin 8 → Fin 64 → Fin 20 → EReal
  | ⟨0, _⟩ => mpRf I.qf (rowf 63 I.pf) (I.w 0)
  | ⟨1, _⟩ => mpRf I.qb (rowf 0 I.pb) (I.w 1)
  | ⟨2, _⟩ => pqf (mxRf I.pf I.qf (I.w 2))
  | ⟨3, _⟩ => pqf (mxRf I.pb I.qb (I.w 3))
  | ⟨4, _⟩ => mpRf I.qf (meanPf (csf I.pf I.qf) I.pf) (I.w 4)
  | ⟨5, _⟩ => mpRf I.qb (meanPf (csf I.pb I.qb) I.pb) (I.w 5)
  | ⟨6, _⟩ => mpRf I.qf (maxPf I.pf (csf I.pf I.qf)) (I.w 6)
  | ⟨7, _⟩ => mpRf I.qb (maxPf I.pb (csf I.pb I.qb)) (I.w 7)
  | ⟨_ + 8, h⟩ => absurd h (by omega)

/-- A 384-lane row family is a 300-lane one followed by zeros. -/
def PadOf (x' : Fin 384 → EReal) (x : Fin 300 → EReal) : Prop :=
  (∀ h : Fin 300, x' ⟨h.val, by omega⟩ = x h) ∧ ∀ h : Fin 384, 300 ≤ h.val → x' h = 0

/-- The kernel's data for a batch entry is the reference's, zero padded, the weights then squared. -/
structure Padded (I' : Ins 384) (I : Ins 300) (W' : Fin 8 → Wts 384) : Prop where
  pf : ∀ s, PadOf (I'.pf s) (I.pf s)
  pb : ∀ s, PadOf (I'.pb s) (I.pb s)
  qf : ∀ s, PadOf (I'.qf s) (I.qf s)
  qb : ∀ s, PadOf (I'.qb s) (I.qb s)
  w : ∀ k l, PadOf (W' k l) (I.w k l)
  sq : ∀ k l h, I'.w k l h = W' k l h * W' k l h

end Cert.MP

end
-- ==== Proof.KReadA.lean ====
/-
  The kernel's blocks read at an index, at the exact instance: each regrouped block of vector operations
  (Proof/KDefs.lean) is, entry by entry, the corresponding function of Proof/Spec.lean applied to its
  operands read entry by entry.
-/
import proofs.«111495_j13082470383656_2_alg».proof.Proof.KDefs
import proofs.«111495_j13082470383656_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MP

open Idealize.ShloMosaic Idealize.ShloMosaic.ValueIdx Cert.KernelIdeal Cert.KernelIdeal.Facts₀ Cert.KernelIdeal.Facts Cert.MP

variable [Cert.KernelIdeal.Facts]

/-! ## Sums, casts and broadcasts read at coordinates -/

/-- The sum of each row of a matrix from the zero word, read at row i: the finite sum of that row's entries. -/
theorem ka_laneSum_apply {a b : ℕ} (src : FVec Ideal ⟨2, ![a, b]⟩ .f32) (h : (⟨2, ![a, b]⟩ : Shape).Reduces [1] ⟨1, ![a]⟩)
    (hacc : (0x00000000#32 : BitVec 32) = 0x00000000#32) (i : Fin a) :
    multiReduction (F := Ideal) .add [1] ⟨1, ![a]⟩ src 0x00000000#32 h (.inl rfl) hacc (ix1 i) = ∑ k : Fin b, src (ix2 i k) := by
  refine (Ideal.multiReduction_add_single src 0x00000000#32 h (.inl rfl) hacc (ix1 i)).trans ?_
  refine Finset.sum_congr rfl fun k _ => congrArg src ?_
  funext d
  match d with
  | ⟨0, _⟩ => rfl
  | ⟨1, _⟩ => rfl

/-- The sum of each column of a matrix from the zero word, read at column j: the finite sum of that column's entries. -/
theorem ka_colSum_apply {a b : ℕ} (src : FVec Ideal ⟨2, ![a, b]⟩ .f32) (h : (⟨2, ![a, b]⟩ : Shape).Reduces [0] ⟨1, ![b]⟩)
    (hacc : (0x00000000#32 : BitVec 32) = 0x00000000#32) (j : Fin b) :
    multiReduction (F := Ideal) .add [0] ⟨1, ![b]⟩ src 0x00000000#32 h (.inl rfl) hacc (ix1 j) = ∑ k : Fin a, src (ix2 k j) := by
  refine (Ideal.multiReduction_add_single src 0x00000000#32 h (.inl rfl) hacc (ix1 j)).trans ?_
  refine Finset.sum_congr rfl fun k _ => congrArg src ?_
  funext d
  match d with
  | ⟨0, _⟩ => rfl
  | ⟨1, _⟩ => rfl

/-- A vector cast to a one-column matrix reads, at (i, u), the vector at i. -/
theorem ka_cast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at (p, c), the column's entry of row p. -/
theorem ka_bcast_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A matrix cast to a stack of one-row matrices reads, at (i, u, k), the matrix at (i, k). -/
theorem ka_cast_ac_a1c_apply {α : Type} {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A matrix cast to a stack of one-column matrices reads, at (i, j, u), the matrix at (i, j). -/
theorem ka_cast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- One matrix broadcast over a stack reads, at (p, q, r), the matrix at (q, r). -/
theorem ka_bcast_1bc_abc_apply {α : Type} {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl
  | ⟨2, _⟩ =>
    show r.val = if c = 1 then 0 else r.val
    split
    · have := r.isLt; omega
    · rfl

/-- A stack of one-row matrices broadcast along the rows reads, at (p, q, r), the stack at (p, 0, r). -/
theorem ka_bcast_a1c_abc_apply {α : Type} {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]
  | ⟨2, _⟩ =>
    show r.val = if c = 1 then 0 else r.val
    split
    · have := r.isLt; omega
    · rfl

/-- A stack of one-column matrices broadcast along the columns reads, at (p, q, r), the stack at (p, q, 0). -/
theorem ka_bcast_ab1_abc_apply {α : Type} {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show (0 : ℕ) = if (1 : ℕ) = 1 then 0 else r.val
    rw [if_pos rfl]

/-- Row l * 64 + s of the 1280 stacked rows. -/
abbrev ka_row (l : Fin 20) (s : Fin 64) : Fin 1280 := ⟨l.val * 64 + s.val, by have := l.isLt; have := s.isLt; omega⟩

/-- The 20 x 64 x 384 stack flattened to 1280 rows reads, at (l * 64 + s, h), the stack at (l, s, h). -/
theorem ka_flat_apply {α : Type} (P : S20x64x384.Idx → α) (hc : S20x64x384.ShapeCasts S1280x384)
    (l : Fin 20) (s : Fin 64) (h : Fin 384) :
    shapeCast S1280x384 P hc (ix2 (ka_row l s) h) = P (ix3 l s h) :=
  shapeCast_apply P hc _ _ (by
    rw [Shape.rowMajor_val_three, Shape.rowMajor_val_two]
    rfl)

/-- The 1280 x 64 product regrouped as 20 x 64 x 64 reads, at (l, s, t), the product at (l * 64 + s, t). -/
theorem ka_unflat_apply {α : Type} (M : S1280x64.Idx → α) (hc : S1280x64.ShapeCasts S20x64x64)
    (l : Fin 20) (s t : Fin 64) :
    shapeCast S20x64x64 M hc (ix3 l s t) = M (ix2 (ka_row l s) t) :=
  shapeCast_apply M hc _ _ (by
    rw [Shape.rowMajor_val_three, Shape.rowMajor_val_two]
    rfl)

/-- The weighted row sums: the product of `a` with `w` transposed, into the zero splat, read at (s, l). -/
theorem ka_wsum_apply (a : FVec Ideal S64x384 .f32) (w : FVec Ideal S20x384 .f32) (s : Fin 64) (l : Fin 20) :
    wsum a w (ix2 s l) = ∑ h : Fin 384, a (ix2 s h) * w (ix2 l h) := by
  unfold wsum
  show FloatOps.matmul _ none a _ _ (ix2 s l) = _
  rw [Ideal.matmul_constant_zero_apply,
    ← Equiv.sum_comp (contrEquiv1 dot_S64x384_S384x20_S64x20_1_0_0_1_n_n 384 rfl rfl).symm]
  refine Finset.sum_congr rfl fun h _ => ?_
  have hk := contrEquiv1_symm_val dot_S64x384_S384x20_S64x20_1_0_0_1_n_n 384 rfl rfl h
  have el : dot_S64x384_S384x20_S64x20_1_0_0_1_n_n.lhsIdx (ix2 s l)
      ((contrEquiv1 dot_S64x384_S384x20_S64x20_1_0_0_1_n_n 384 rfl rfl).symm h) = ix2 s h :=
    funext fun ax => Fin.ext (by
      match ax with
      | ⟨0, _⟩ => rfl
      | ⟨1, _⟩ => exact hk)
  have er : dot_S64x384_S384x20_S64x20_1_0_0_1_n_n.rhsIdx (ix2 s l)
      ((contrEquiv1 dot_S64x384_S384x20_S64x20_1_0_0_1_n_n 384 rfl rfl).symm h) = ix2 h l :=
    funext fun ax => Fin.ext (by
      match ax with
      | ⟨0, _⟩ => exact hk
      | ⟨1, _⟩ => rfl)
  rw [el, er, transpose_ix2_apply]

/-- The norm of each row, read at row s. -/
theorem ka_rowNorm_apply (x : FVec Ideal S64x384 .f32) (s : Fin 64) :
    rowNorm x (ix1 s) = Ideal.sqrt (∑ h : Fin 384, x (ix2 s h) * x (ix2 s h)) := by
  show Ideal.sqrt (multiReduction (F := Ideal) .add [1] S64 (mulf x x) 0x00000000#32 reduces_S64x384_S64 (.inl rfl) rfl (ix1 s)) = _
  exact congrArg Ideal.sqrt (ka_laneSum_apply (mulf x x) reduces_S64x384_S64 rfl s)

/-- Every row of x against every row of y: the product of x with y transposed, into the zero splat. -/
theorem ka_xyT_apply (x y : FVec Ideal S64x384 .f32) (s t : Fin 64) :
    matmul dot_S64x384_S384x64_S64x64_1_0_0_1_n_n none x (transpose S384x64 [1, 0] y transposes_S64x384_p1_0_S384x64)
      (constant (F := Ideal) S64x64 .f32 0x00000000#32) (ix2 s t) = ∑ h : Fin 384, x (ix2 s h) * y (ix2 t h) := by
  show FloatOps.matmul _ none x _ _ (ix2 s t) = _
  rw [Ideal.matmul_constant_zero_apply,
    ← Equiv.sum_comp (contrEquiv1 dot_S64x384_S384x64_S64x64_1_0_0_1_n_n 384 rfl rfl).symm]
  refine Finset.sum_congr rfl fun h _ => ?_
  have hk := contrEquiv1_symm_val dot_S64x384_S384x64_S64x64_1_0_0_1_n_n 384 rfl rfl h
  have el : dot_S64x384_S384x64_S64x64_1_0_0_1_n_n.lhsIdx (ix2 s t)
      ((contrEquiv1 dot_S64x384_S384x64_S64x64_1_0_0_1_n_n 384 rfl rfl).symm h) = ix2 s h :=
    funext fun ax => Fin.ext (by
      match ax with
      | ⟨0, _⟩ => rfl
      | ⟨1, _⟩ => exact hk)
  have er : dot_S64x384_S384x64_S64x64_1_0_0_1_n_n.rhsIdx (ix2 s t)
      ((contrEquiv1 dot_S64x384_S384x64_S64x64_1_0_0_1_n_n 384 rfl rfl).symm h) = ix2 h t :=
    funext fun ax => Fin.ext (by
      match ax with
      | ⟨0, _⟩ => exact hk
      | ⟨1, _⟩ => rfl)
  rw [el, er, transpose_ix2_apply]

/-- The 1280-row product with y transposed, into the zero splat, read at (r, t). -/
theorem ka_AyT_apply (A : FVec Ideal S1280x384 .f32) (y : FVec Ideal S64x384 .f32) (r : Fin 1280) (t : Fin 64) :
    matmul dot_S1280x384_S384x64_S1280x64_1_0_0_1_n_n none A (transpose S384x64 [1, 0] y transposes_S64x384_p1_0_S384x64)
      (constant (F := Ideal) S1280x64 .f32 0x00000000#32) (ix2 r t) = ∑ h : Fin 384, A (ix2 r h) * y (ix2 t h) := by
  show FloatOps.matmul _ none A _ _ (ix2 r t) = _
  rw [Ideal.matmul_constant_zero_apply,
    ← Equiv.sum_comp (contrEquiv1 dot_S1280x384_S384x64_S1280x64_1_0_0_1_n_n 384 rfl rfl).symm]
  refine Finset.sum_congr rfl fun h _ => ?_
  have hk := contrEquiv1_symm_val dot_S1280x384_S384x64_S1280x64_1_0_0_1_n_n 384 rfl rfl h
  have el : dot_S1280x384_S384x64_S1280x64_1_0_0_1_n_n.lhsIdx (ix2 r t)
      ((contrEquiv1 dot_S1280x384_S384x64_S1280x64_1_0_0_1_n_n 384 rfl rfl).symm h) = ix2 r h :=
    funext fun ax => Fin.ext (by
      match ax with
      | ⟨0, _⟩ => rfl
      | ⟨1, _⟩ => exact hk)
  have er : dot_S1280x384_S384x64_S1280x64_1_0_0_1_n_n.rhsIdx (ix2 r t)
      ((contrEquiv1 dot_S1280x384_S384x64_S1280x64_1_0_0_1_n_n 384 rfl rfl).symm h) = ix2 h t :=
    funext fun ax => Fin.ext (by
      match ax with
      | ⟨0, _⟩ => exact hk
      | ⟨1, _⟩ => rfl)
  rw [el, er, transpose_ix2_apply]

/-! ## The blocks -/

theorem mpK_apply (x y : FVec Ideal S64x384 .f32) (w : FVec Ideal S20x384 .f32) (s : Fin 64) (l : Fin 20) :
    mpK x y w (ix2 s l) = mpKf (fun s h => x (ix2 s h)) (fun s h => y (ix2 s h)) (fun l h => w (ix2 l h)) s l := by
  show Ideal.div (wsum (mulf x y) w (ix2 s l))
      (max (Ideal.sqrt (wsum (mulf x x) w (ix2 s l)) * Ideal.sqrt (wsum (mulf y y) w (ix2 s l)))
        (Ideal.ofBits .f32 0x322BCC77#32)) = _
  rw [ka_wsum_apply, ka_wsum_apply, ka_wsum_apply]
  rfl

theorem mxK_apply (x y : FVec Ideal S64x384 .f32) (w : FVec Ideal S20x384 .f32) (l : Fin 20) (s t : Fin 64) :
    mxK x y w (ix3 l s t) = mxKf (fun s h => x (ix2 s h)) (fun s h => y (ix2 s h)) (fun l h => w (ix2 l h)) l s t := by
  show Ideal.div
      (shapeCast S20x64x64
        (matmul dot_S1280x384_S384x64_S1280x64_1_0_0_1_n_n none
          (shapeCast S1280x384
            (mulf (broadcastTo S20x64x384 (shapeCast S1x64x384 x shapeCasts_S64x384_S1x64x384) broadcasts_S1x64x384_S20x64x384)
                  (broadcastTo S20x64x384 (shapeCast S20x1x384 w shapeCasts_S20x384_S20x1x384) broadcasts_S20x1x384_S20x64x384))
            shapeCasts_S20x64x384_S1280x384)
          (transpose S384x64 [1, 0] y transposes_S64x384_p1_0_S384x64)
          (constant (F := Ideal) S1280x64 .f32 0x00000000#32))
        shapeCasts_S1280x64_S20x64x64 (ix3 l s t))
      (broadcastTo S20x64x64 (shapeCast S20x64x1 (transpose S20x64 [1, 0] (sqrt (wsum (mulf x x) w)) transposes_S64x20_p1_0_S20x64)
          shapeCasts_S20x64_S20x64x1) broadcasts_S20x64x1_S20x64x64 (ix3 l s t)
        * broadcastTo S20x64x64 (shapeCast S20x1x64 (transpose S20x64 [1, 0] (sqrt (wsum (mulf y y) w)) transposes_S64x20_p1_0_S20x64)
          shapeCasts_S20x64_S20x1x64) broadcasts_S20x1x64_S20x64x64 (ix3 l s t)) = _
  rw [ka_unflat_apply, ka_AyT_apply, ka_bcast_ab1_abc_apply, ka_cast_ab_ab1_apply, transpose_ix2_apply,
    ka_bcast_a1c_abc_apply, ka_cast_ac_a1c_apply, transpose_ix2_apply]
  show Ideal.div _ (Ideal.sqrt (wsum (mulf x x) w (ix2 s l)) * Ideal.sqrt (wsum (mulf y y) w (ix2 t l))) = _
  rw [ka_wsum_apply, ka_wsum_apply]
  refine congrArg (fun n => Ideal.div n _) (Finset.sum_congr rfl fun h _ => ?_)
  rw [ka_flat_apply]
  show (broadcastTo S20x64x384 (shapeCast S1x64x384 x shapeCasts_S64x384_S1x64x384) broadcasts_S1x64x384_S20x64x384 (ix3 l s h)
      * broadcastTo S20x64x384 (shapeCast S20x1x384 w shapeCasts_S20x384_S20x1x384) broadcasts_S20x1x384_S20x64x384 (ix3 l s h))
      * y (ix2 t h) = _
  rw [ka_bcast_1bc_abc_apply, shapeCast_ab_1ab_apply, ka_bcast_a1c_abc_apply, ka_cast_ac_a1c_apply]

theorem csK_apply (x y : FVec Ideal S64x384 .f32) (s t : Fin 64) :
    csK x y (ix2 s t) = csf (fun s h => x (ix2 s h)) (fun s h => y (ix2 s h)) s t := by
  show Ideal.div
      (matmul dot_S64x384_S384x64_S64x64_1_0_0_1_n_n none x (transpose S384x64 [1, 0] y transposes_S64x384_p1_0_S384x64)
        (constant (F := Ideal) S64x64 .f32 0x00000000#32) (ix2 s t))
      (broadcastTo S64x64 (shapeCast S64x1 (rowNorm x) shapeCasts_S64_S64x1) broadcasts_S64x1_S64x64 (ix2 s t)
        * broadcastTo S64x64 (shapeCast S1x64 (rowNorm y) shapeCasts_S64_S1x64) broadcasts_S1x64_S64x64 (ix2 s t)) = _
  rw [ka_xyT_apply, ka_bcast_a1_ab_apply, ka_cast_a_a1_apply, broadcastTo_1b_ab_apply, shapeCast_a_1a_apply,
    ka_rowNorm_apply, ka_rowNorm_apply]
  rfl

theorem meanP_apply (c : FVec Ideal S64x64 .f32) (x : FVec Ideal S64x384 .f32) (t : Fin 64) (h : Fin 384) :
    meanP c x (ix2 t h) = meanPf (fun s t => c (ix2 s t)) (fun s h => x (ix2 s h)) t h := by
  have hm : matmul dot_S64x64_S64x384_S64x384_0_0_1_1_n_n none c x (constant (F := Ideal) S64x384 .f32 0x00000000#32) (ix2 t h)
      = ∑ s : Fin 64, c (ix2 s t) * x (ix2 s h) := by
    show FloatOps.matmul _ none c x _ (ix2 t h) = _
    rw [Ideal.matmul_constant_zero_apply,
      ← Equiv.sum_comp (contrEquiv1 dot_S64x64_S64x384_S64x384_0_0_1_1_n_n 64 rfl rfl).symm]
    refine Finset.sum_congr rfl fun s _ => ?_
    have hk := contrEquiv1_symm_val dot_S64x64_S64x384_S64x384_0_0_1_1_n_n 64 rfl rfl s
    have el : dot_S64x64_S64x384_S64x384_0_0_1_1_n_n.lhsIdx (ix2 t h)
        ((contrEquiv1 dot_S64x64_S64x384_S64x384_0_0_1_1_n_n 64 rfl rfl).symm s) = ix2 s t :=
      funext fun ax => Fin.ext (by
        match ax with
        | ⟨0, _⟩ => exact hk
        | ⟨1, _⟩ => rfl)
    have er : dot_S64x64_S64x384_S64x384_0_0_1_1_n_n.rhsIdx (ix2 t h)
        ((contrEquiv1 dot_S64x64_S64x384_S64x384_0_0_1_1_n_n 64 rfl rfl).symm s) = ix2 s h :=
      funext fun ax => Fin.ext (by
        match ax with
        | ⟨0, _⟩ => exact hk
        | ⟨1, _⟩ => rfl)
    rw [el, er]
  show Ideal.div
      (matmul dot_S64x64_S64x384_S64x384_0_0_1_1_n_n none c x (constant (F := Ideal) S64x384 .f32 0x00000000#32) (ix2 t h))
      (broadcastTo S64x384 (shapeCast S64x1 (multiReduction (F := Ideal) .add [0] S64 c 0x00000000#32 reduces_S64x64_S64 (.inl rfl) rfl)
        shapeCasts_S64_S64x1) broadcasts_S64x1_S64x384 (ix2 t h)) = _
  rw [hm, ka_bcast_a1_ab_apply, ka_cast_a_a1_apply]
  refine congrArg (Ideal.div _) ?_
  exact ka_colSum_apply c reduces_S64x64_S64 rfl t

theorem meanQ_apply (c : FVec Ideal S64x64 .f32) (y : FVec Ideal S64x384 .f32) (s : Fin 64) (h : Fin 384) :
    meanQ c y (ix2 s h) = meanQf (fun s t => c (ix2 s t)) (fun s h => y (ix2 s h)) s h := by
  have hm : matmul dot_S64x64_S64x384_S64x384_1_0_0_1_n_n none c y (constant (F := Ideal) S64x384 .f32 0x00000000#32) (ix2 s h)
      = ∑ t : Fin 64, c (ix2 s t) * y (ix2 t h) := by
    show FloatOps.matmul _ none c y _ (ix2 s h) = _
    rw [Ideal.matmul_constant_zero_apply,
      ← Equiv.sum_comp (contrEquiv1 dot_S64x64_S64x384_S64x384_1_0_0_1_n_n 64 rfl rfl).symm]
    refine Finset.sum_congr rfl fun t _ => ?_
    have hk := contrEquiv1_symm_val dot_S64x64_S64x384_S64x384_1_0_0_1_n_n 64 rfl rfl t
    have el : dot_S64x64_S64x384_S64x384_1_0_0_1_n_n.lhsIdx (ix2 s h)
        ((contrEquiv1 dot_S64x64_S64x384_S64x384_1_0_0_1_n_n 64 rfl rfl).symm t) = ix2 s t :=
      funext fun ax => Fin.ext (by
        match ax with
        | ⟨0, _⟩ => rfl
        | ⟨1, _⟩ => exact hk)
    have er : dot_S64x64_S64x384_S64x384_1_0_0_1_n_n.rhsIdx (ix2 s h)
        ((contrEquiv1 dot_S64x64_S64x384_S64x384_1_0_0_1_n_n 64 rfl rfl).symm t) = ix2 t h :=
      funext fun ax => Fin.ext (by
        match ax with
        | ⟨0, _⟩ => exact hk
        | ⟨1, _⟩ => rfl)
    rw [el, er]
  show Ideal.div
      (matmul dot_S64x64_S64x384_S64x384_1_0_0_1_n_n none c y (constant (F := Ideal) S64x384 .f32 0x00000000#32) (ix2 s h))
      (broadcastTo S64x384 (shapeCast S64x1 (multiReduction (F := Ideal) .add [1] S64 c 0x00000000#32 reduces_S64x64_S64_2 (.inl rfl) rfl)
        shapeCasts_S64_S64x1) broadcasts_S64x1_S64x384 (ix2 s h)) = _
  rw [hm, ka_bcast_a1_ab_apply, ka_cast_a_a1_apply]
  refine congrArg (Ideal.div _) ?_
  exact ka_laneSum_apply c reduces_S64x64_S64_2 rfl s

end Cert.KernelIdeal.MP

end
-- ==== Proof.KReadB.lean ====
/-
  The kernel's blocks read at an index, at the exact instance: each regrouped block of vector operations
  (Proof/KDefs.lean) is, entry by entry, the corresponding function of Proof/Spec.lean applied to its
  operands read entry by entry.
-/
import proofs.«111495_j13082470383656_2_alg».proof.Proof.KDefs
import proofs.«111495_j13082470383656_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MP

open Idealize.ShloMosaic Idealize.ShloMosaic.ValueIdx Cert.KernelIdeal Cert.KernelIdeal.Facts₀ Cert.KernelIdeal.Facts Cert.MP

variable [Cert.KernelIdeal.Facts]

/-- The f32 word of minus infinity denotes the least extended real. -/
theorem kb_ofBits_negInf : Ideal.ofBits .f32 0xFF800000#32 = (⊥ : EReal) := by
  simp [Ideal.ofBits, Ideal.ieee]

/-- A maximum reduction over one axis, started from minus infinity, is the maximum of the family
    obtained by inserting the reduced coordinate. -/
theorem kb_maxRed {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j
      = vmax (fun k : Fin (s.size a) => src (h.lift j k)) := by
  refine (Ideal.multiReduction_maximumf_single src 0xFF800000#32 h hφ hacc j).trans ?_
  show (Finset.univ : Finset (Fin (s.size a))).fold max (Ideal.ofBits .f32 0xFF800000#32) (src ∘ h.lift j) = _
  rw [kb_ofBits_negInf]
  rfl

/-- Eight 64x20 pieces side by side: lane `20 * k + l` of the row is lane `l` of piece `k`. -/
theorem kb_cat8 (a0 a1 a2 a3 a4 a5 a6 a7 : FVec Ideal S64x20 .f32) (s : Fin 64) (k : Fin 8) (l : Fin 20)
    (j : Fin 160) (hj : j.val = 20 * k.val + l.val) :
    concatenate S64x160 1 [⟨S64x20, a0⟩, ⟨S64x20, a1⟩, ⟨S64x20, a2⟩, ⟨S64x20, a3⟩, ⟨S64x20, a4⟩, ⟨S64x20, a5⟩, ⟨S64x20, a6⟩, ⟨S64x20, a7⟩]
        concatenates_S64x20_S64x20_S64x20_S64x20_S64x20_S64x20_S64x20_S64x20_S64x160_d1 (ix2 s j)
      = (![a0, a1, a2, a3, a4, a5, a6, a7] k) (ix2 s l) := by
  match k, hj with
  | ⟨0, _⟩, hj =>
    have hj' : j.val = 20 * 0 + l.val := hj
    exact concatenate_apply_piece (t := S64x160) 1 [⟨S64x20, a0⟩, ⟨S64x20, a1⟩, ⟨S64x20, a2⟩, ⟨S64x20, a3⟩, ⟨S64x20, a4⟩, ⟨S64x20, a5⟩, ⟨S64x20, a6⟩, ⟨S64x20, a7⟩]
      concatenates_S64x20_S64x20_S64x20_S64x20_S64x20_S64x20_S64x20_S64x20_S64x160_d1
      (ix2 s j) 0 (by simp) S64x20 a0 rfl rfl 0 rfl (ix2 s l)
      (fun b hb => match b, hb with
        | ⟨0, _⟩, _ => rfl
        | ⟨1, _⟩, hb => absurd rfl hb)
      (by show 0 + l.val = j.val; omega)
  | ⟨1, _⟩, hj =>
    have hj' : j.val = 20 * 1 + l.val := hj
    exact concatenate_apply_piece (t := S64x160) 1 [⟨S64x20, a0⟩, ⟨S64x20, a1⟩, ⟨S64x20, a2⟩, ⟨S64x20, a3⟩, ⟨S64x20, a4⟩, ⟨S64x20, a5⟩, ⟨S64x20, a6⟩, ⟨S64x20, a7⟩]
      concatenates_S64x20_S64x20_S64x20_S64x20_S64x20_S64x20_S64x20_S64x20_S64x160_d1
      (ix2 s j) 1 (by simp) S64x20 a1 rfl rfl 20 rfl (ix2 s l)
      (fun b hb => match b, hb with
        | ⟨0, _⟩, _ => rfl
        | ⟨1, _⟩, hb => absurd rfl hb)
      (by show 20 + l.val = j.val; omega)
  | ⟨2, _⟩, hj =>
    have hj' : j.val = 20 * 2 + l.val := hj
    exact concatenate_apply_piece (t := S64x160) 1 [⟨S64x20, a0⟩, ⟨S64x20, a1⟩, ⟨S64x20, a2⟩, ⟨S64x20, a3⟩, ⟨S64x20, a4⟩, ⟨S64x20, a5⟩, ⟨S64x20, a6⟩, ⟨S64x20, a7⟩]
      concatenates_S64x20_S64x20_S64x20_S64x20_S64x20_S64x20_S64x20_S64x20_S64x160_d1
      (ix2 s j) 2 (by simp) S64x20 a2 rfl rfl 40 rfl (ix2 s l)
      (fun b hb => match b, hb with
        | ⟨0, _⟩, _ => rfl
        | ⟨1, _⟩, hb => absurd rfl hb)
      (by show 40 + l.val = j.val; omega)
  | ⟨3, _⟩, hj =>
    have hj' : j.val = 20 * 3 + l.val := hj
    exact concatenate_apply_piece (t := S64x160) 1 [⟨S64x20, a0⟩, ⟨S64x20, a1⟩, ⟨S64x20, a2⟩, ⟨S64x20, a3⟩, ⟨S64x20, a4⟩, ⟨S64x20, a5⟩, ⟨S64x20, a6⟩, ⟨S64x20, a7⟩]
      concatenates_S64x20_S64x20_S64x20_S64x20_S64x20_S64x20_S64x20_S64x20_S64x160_d1
      (ix2 s j) 3 (by simp) S64x20 a3 rfl rfl 60 rfl (ix2 s l)
      (fun b hb => match b, hb with
        | ⟨0, _⟩, _ => rfl
        | ⟨1, _⟩, hb => absurd rfl hb)
      (by show 60 + l.val = j.val; omega)
  | ⟨4, _⟩, hj =>
    have hj' : j.val = 20 * 4 + l.val := hj
    exact concatenate_apply_piece (t := S64x160) 1 [⟨S64x20, a0⟩, ⟨S64x20, a1⟩, ⟨S64x20, a2⟩, ⟨S64x20, a3⟩, ⟨S64x20, a4⟩, ⟨S64x20, a5⟩, ⟨S64x20, a6⟩, ⟨S64x20, a7⟩]
      concatenates_S64x20_S64x20_S64x20_S64x20_S64x20_S64x20_S64x20_S64x20_S64x160_d1
      (ix2 s j) 4 (by simp) S64x20 a4 rfl rfl 80 rfl (ix2 s l)
      (fun b hb => match b, hb with
        | ⟨0, _⟩, _ => rfl
        | ⟨1, _⟩, hb => absurd rfl hb)
      (by show 80 + l.val = j.val; omega)
  | ⟨5, _⟩, hj =>
    have hj' : j.val = 20 * 5 + l.val := hj
    exact concatenate_apply_piece (t := S64x160) 1 [⟨S64x20, a0⟩, ⟨S64x20, a1⟩, ⟨S64x20, a2⟩, ⟨S64x20, a3⟩, ⟨S64x20, a4⟩, ⟨S64x20, a5⟩, ⟨S64x20, a6⟩, ⟨S64x20, a7⟩]
      concatenates_S64x20_S64x20_S64x20_S64x20_S64x20_S64x20_S64x20_S64x20_S64x160_d1
      (ix2 s j) 5 (by simp) S64x20 a5 rfl rfl 100 rfl (ix2 s l)
      (fun b hb => match b, hb with
        | ⟨0, _⟩, _ => rfl
        | ⟨1, _⟩, hb => absurd rfl hb)
      (by show 100 + l.val = j.val; omega)
  | ⟨6, _⟩, hj =>
    have hj' : j.val = 20 * 6 + l.val := hj
    exact concatenate_apply_piece (t := S64x160) 1 [⟨S64x20, a0⟩, ⟨S64x20, a1⟩, ⟨S64x20, a2⟩, ⟨S64x20, a3⟩, ⟨S64x20, a4⟩, ⟨S64x20, a5⟩, ⟨S64x20, a6⟩, ⟨S64x20, a7⟩]
      concatenates_S64x20_S64x20_S64x20_S64x20_S64x20_S64x20_S64x20_S64x20_S64x160_d1
      (ix2 s j) 6 (by simp) S64x20 a6 rfl rfl 120 rfl (ix2 s l)
      (fun b hb => match b, hb with
        | ⟨0, _⟩, _ => rfl
        | ⟨1, _⟩, hb => absurd rfl hb)
      (by show 120 + l.val = j.val; omega)
  | ⟨7, _⟩, hj =>
    have hj' : j.val = 20 * 7 + l.val := hj
    exact concatenate_apply_piece (t := S64x160) 1 [⟨S64x20, a0⟩, ⟨S64x20, a1⟩, ⟨S64x20, a2⟩, ⟨S64x20, a3⟩, ⟨S64x20, a4⟩, ⟨S64x20, a5⟩, ⟨S64x20, a6⟩, ⟨S64x20, a7⟩]
      concatenates_S64x20_S64x20_S64x20_S64x20_S64x20_S64x20_S64x20_S64x20_S64x160_d1
      (ix2 s j) 7 (by simp) S64x20 a7 rfl rfl 140 rfl (ix2 s l)
      (fun b hb => match b, hb with
        | ⟨0, _⟩, _ => rfl
        | ⟨1, _⟩, hb => absurd rfl hb)
      (by show 140 + l.val = j.val; omega)

theorem ppK_apply (c : FVec Ideal S20x64x64 .f32) (s : Fin 64) (l : Fin 20) :
    ppK c (ix2 s l) = ppf (fun l s t => c (ix3 l s t)) s l := by
  unfold ppK
  refine (transpose_ix2_apply _ transposes_S20x64_p1_0_S64x20 s l).trans ?_
  refine (kb_maxRed c reduces_S20x64x64_S20x64 _ _ (ix2 l s)).trans ?_
  show vmax (fun k : Fin 64 => c (reduces_S20x64x64_S20x64.lift (ix2 l s) k)) = vmax (fun t : Fin 64 => c (ix3 l s t))
  refine congrArg vmax (funext fun k => congrArg c (funext fun a => Fin.ext ?_))
  match a with
  | ⟨0, _⟩ => rfl
  | ⟨1, _⟩ => rfl
  | ⟨2, _⟩ => rfl

theorem pqK_apply (c : FVec Ideal S20x64x64 .f32) (t : Fin 64) (l : Fin 20) :
    pqK c (ix2 t l) = pqf (fun l s t => c (ix3 l s t)) t l := by
  unfold pqK
  refine (transpose_ix2_apply _ transposes_S20x64_p1_0_S64x20 t l).trans ?_
  refine (kb_maxRed c reduces_S20x64x64_S20x64_2 _ _ (ix2 l t)).trans ?_
  show vmax (fun k : Fin 64 => c (reduces_S20x64x64_S20x64_2.lift (ix2 l t) k)) = vmax (fun s : Fin 64 => c (ix3 l s t))
  refine congrArg vmax (funext fun k => congrArg c (funext fun a => Fin.ext ?_))
  match a with
  | ⟨0, _⟩ => rfl
  | ⟨1, _⟩ => rfl
  | ⟨2, _⟩ => rfl

theorem maxV_apply (x : FVec Ideal S64x384 .f32) (c : FVec Ideal S64x64 .f32) (t : Fin 64) (h : Fin 384) :
    maxV x c (ix2 t h) = maxPf (fun s h => x (ix2 s h)) (fun s t => c (ix2 s t)) t h := by
  unfold maxV
  refine (kb_maxRed _ reduces_S64x64x384_S64x384 _ _ (ix2 t h)).trans ?_
  show vmax (fun k : Fin 64 => _) = vmax (fun s : Fin 64 => x (ix2 s h) * c (ix2 s t))
  refine congrArg vmax (funext fun k => ?_)
  have hi : reduces_S64x64x384_S64x384.lift (ix2 t h) k = ix3 k t h := funext fun a => Fin.ext (by
    match a with
    | ⟨0, _⟩ => rfl
    | ⟨1, _⟩ => rfl
    | ⟨2, _⟩ => rfl)
  rw [hi, mulf_apply]
  congr 1
  · refine (broadcastTo_apply _ broadcasts_S64x1x384_S64x64x384 (ix3 k t h) (ix3 k (0 : Fin 1) h) (fun a => match a with
      | ⟨0, _⟩ => rfl
      | ⟨1, _⟩ => rfl
      | ⟨2, _⟩ => rfl)).trans ?_
    exact shapeCast_apply x shapeCasts_S64x384_S64x1x384 (ix3 k (0 : Fin 1) h) (ix2 k h) (by
      rw [Shape.rowMajor_val_three, Shape.rowMajor_val_two]
      show k.val * 384 + h.val = (k.val * 1 + 0) * 384 + h.val
      omega)
  · refine (broadcastTo_apply _ broadcasts_S64x64x1_S64x64x384 (ix3 k t h) (ix3 k t (0 : Fin 1)) (fun a => match a with
      | ⟨0, _⟩ => rfl
      | ⟨1, _⟩ => rfl
      | ⟨2, _⟩ => rfl)).trans ?_
    exact shapeCast_apply c shapeCasts_S64x64_S64x64x1 (ix3 k t (0 : Fin 1)) (ix2 k t) (by
      rw [Shape.rowMajor_val_three, Shape.rowMajor_val_two]
      show k.val * 64 + t.val = (k.val * 64 + t.val) * 1 + 0
      omega)

theorem cT_apply (c : FVec Ideal S64x64 .f32) (t s : Fin 64) : cT c (ix2 t s) = c (ix2 s t) := by
  unfold cT
  exact transpose_ix2_apply c transposes_S64x64_p1_0_S64x64 t s

theorem rowRep63_apply (y : FVec Ideal S64x384 .f32) (s : Fin 64) (h : Fin 384) :
    rowRep ![63, 0] slices_S64x384_o63_0_S1x384 y (ix2 s h) = y (ix2 (63 : Fin 64) h) := by
  unfold rowRep
  refine (broadcastTo_1b_ab_apply _ broadcasts_S1x384_S64x384 s h).trans ?_
  rw [shapeCast_self, shapeCast_shapeCast]
  exact slice2_axis0_apply 63 y slices_S64x384_o63_0_S1x384 (0 : Fin 1) h (63 : Fin 64) rfl

theorem rowRep0_apply (y : FVec Ideal S64x384 .f32) (s : Fin 64) (h : Fin 384) :
    rowRep ![0, 0] slices_S64x384_o0_0_S1x384 y (ix2 s h) = y (ix2 (0 : Fin 64) h) := by
  unfold rowRep
  refine (broadcastTo_1b_ab_apply _ broadcasts_S1x384_S64x384 s h).trans ?_
  rw [shapeCast_self, shapeCast_shapeCast]
  exact slice2_axis0_apply 0 y slices_S64x384_o0_0_S1x384 (0 : Fin 1) h (0 : Fin 64) rfl

theorem wBlk_apply (o : Fin 3 → Nat) (hs : S8x20x384.Slices o S1x20x384) (w2 : FVec Ideal S8x20x384 .f32)
    (k : Fin 8) (hk : o 0 = k.val) (h1 : o 1 = 0) (h2 : o 2 = 0) (l : Fin 20) (h : Fin 384) :
    wBlk o hs w2 (ix2 l h) = w2 (ix3 k l h) := by
  unfold wBlk
  refine (shapeCast_1ab_ab_apply _ shapeCasts_S1x20x384_S20x384 l h).trans ?_
  exact extractStridedSlice_apply o w2 hs (ix3 (0 : Fin 1) l h) (ix3 k l h) (fun a => match a with
    | ⟨0, _⟩ => by show k.val = o 0 + 0; omega
    | ⟨1, _⟩ => by show l.val = o 1 + l.val; omega
    | ⟨2, _⟩ => by show h.val = o 2 + h.val; omega)

theorem half0_apply (v : FVec Ideal S1x64x768 .f32) (s : Fin 64) (h : Fin 384) :
    half0 v (ix2 s h) = v (ix3 (0 : Fin 1) s ⟨h.val, by omega⟩) := by
  unfold half0 blk2
  refine (slice2_axis1_apply 0 _ slices_S64x768_o0_0_S64x384 s h ⟨h.val, by omega⟩ (Nat.zero_add _).symm).trans ?_
  exact shapeCast_1ab_ab_apply v shapeCasts_S1x64x768_S64x768 s _

theorem half1_apply (v : FVec Ideal S1x64x768 .f32) (s : Fin 64) (h : Fin 384) :
    half1 v (ix2 s h) = v (ix3 (0 : Fin 1) s ⟨384 + h.val, by omega⟩) := by
  unfold half1 blk2
  refine (slice2_axis1_apply 384 _ slices_S64x768_o0_384_S64x384 s h ⟨384 + h.val, by omega⟩ rfl).trans ?_
  exact shapeCast_1ab_ab_apply v shapeCasts_S1x64x768_S64x768 s _

theorem wsq_apply (v : FVec Ideal S8x20x384 .f32) (k : Fin 8) (l : Fin 20) (h : Fin 384) :
    wsq v (ix3 k l h) = v (ix3 k l h) * v (ix3 k l h) := by
  unfold wsq
  rw [shapeCast_self]
  rfl

theorem assemble_apply (a0 a1 a2 a3 a4 a5 a6 a7 : FVec Ideal S64x20 .f32) (s : Fin 64) (k : Fin 8) (l : Fin 20)
    (j : Fin 256) (hj : j.val = 20 * k.val + l.val) :
    assemble a0 a1 a2 a3 a4 a5 a6 a7 (ix3 (0 : Fin 1) s j) = (![a0, a1, a2, a3, a4, a5, a6, a7] k) (ix2 s l) := by
  have hlt : j.val < 160 := by have := k.isLt; have := l.isLt; omega
  unfold assemble
  refine (shapeCast_ab_1ab_apply _ shapeCasts_S64x256_S1x64x256 (0 : Fin 1) s j).trans ?_
  refine (concatenate_pair_apply_left _ _ _ concatenates_S64x160_S64x96_S64x256_d1 (ix2 s j) rfl (ix2 s ⟨j.val, hlt⟩)
    (fun b => match b with
      | ⟨0, _⟩ => rfl
      | ⟨1, _⟩ => rfl)).trans ?_
  exact kb_cat8 a0 a1 a2 a3 a4 a5 a6 a7 s k l ⟨j.val, hlt⟩ hj

end Cert.KernelIdeal.MP

end
-- ==== Proof.KPieces.lean ====
/-
  The kernel's two result blocks, entry by entry: lane 20·k + l of row s is piece k of the Spec's kernel-arranged
  pieces at (s, l), of the block's data read entry by entry.
-/
import proofs.«111495_j13082470383656_2_alg».proof.Proof.KReadA
import proofs.«111495_j13082470383656_2_alg».proof.Proof.KReadB

noncomputable section

namespace Cert.KernelIdeal.MP

open Idealize.ShloMosaic Idealize.ShloMosaic.ValueIdx Cert.KernelIdeal Cert.MP

variable [Cert.KernelIdeal.Facts]

/-- The data of one batch entry as the kernel body holds it: the four 64 x 384 halves and the squared weights. -/
def insK (pf pb qf qb : FVec Ideal S64x384 .f32) (W : FVec Ideal S8x20x384 .f32) : Ins 384 where
  pf := fun s h => pf (ix2 s h)
  pb := fun s h => pb (ix2 s h)
  qf := fun s h => qf (ix2 s h)
  qb := fun s h => qb (ix2 s h)
  w := fun k l h => W (ix3 k l h)

/-! ## The blocks' reads with their operands named entry by entry -/

/-- The matching-rows block with its three operands named entry by entry. -/
theorem kp_mpK_of {x y : FVec Ideal S64x384 .f32} {w : FVec Ideal S20x384 .f32} {X Y : Rows 384} {Wt : Wts 384}
    (s : Fin 64) (l : Fin 20)
    (hx : ∀ s h, x (ix2 s h) = X s h) (hy : ∀ s h, y (ix2 s h) = Y s h) (hw : ∀ l h, w (ix2 l h) = Wt l h) :
    mpK x y w (ix2 s l) = mpKf X Y Wt s l := by
  rw [mpK_apply, show (fun s h => x (ix2 s h)) = X from funext fun s => funext fun h => hx s h,
    show (fun s h => y (ix2 s h)) = Y from funext fun s => funext fun h => hy s h,
    show (fun l h => w (ix2 l h)) = Wt from funext fun l => funext fun h => hw l h]

/-- The every-row-against-every-row block with its three operands named entry by entry. -/
theorem kp_mxK_of {x y : FVec Ideal S64x384 .f32} {w : FVec Ideal S20x384 .f32} {X Y : Rows 384} {Wt : Wts 384}
    (l : Fin 20) (s t : Fin 64)
    (hx : ∀ s h, x (ix2 s h) = X s h) (hy : ∀ s h, y (ix2 s h) = Y s h) (hw : ∀ l h, w (ix2 l h) = Wt l h) :
    mxK x y w (ix3 l s t) = mxKf X Y Wt l s t := by
  rw [mxK_apply, show (fun s h => x (ix2 s h)) = X from funext fun s => funext fun h => hx s h,
    show (fun s h => y (ix2 s h)) = Y from funext fun s => funext fun h => hy s h,
    show (fun l h => w (ix2 l h)) = Wt from funext fun l => funext fun h => hw l h]

/-- The maximum over the second side's rows, of a stack named entry by entry. -/
theorem kp_ppK_of {c : FVec Ideal S20x64x64 .f32} {C : Fin 20 → Fin 64 → Fin 64 → EReal} (s : Fin 64) (l : Fin 20)
    (hc : ∀ l s t, c (ix3 l s t) = C l s t) : ppK c (ix2 s l) = ppf C s l := by
  rw [ppK_apply, show (fun l s t => c (ix3 l s t)) = C from funext fun l => funext fun s => funext fun t => hc l s t]

/-- The maximum over the first side's rows, of a stack named entry by entry. -/
theorem kp_pqK_of {c : FVec Ideal S20x64x64 .f32} {C : Fin 20 → Fin 64 → Fin 64 → EReal} (t : Fin 64) (l : Fin 20)
    (hc : ∀ l s t, c (ix3 l s t) = C l s t) : pqK c (ix2 t l) = pqf C t l := by
  rw [pqK_apply, show (fun l s t => c (ix3 l s t)) = C from funext fun l => funext fun s => funext fun t => hc l s t]

/-- The plain cosine matrix entry by entry. -/
theorem kp_csK_of {x y : FVec Ideal S64x384 .f32} {X Y : Rows 384} (s t : Fin 64)
    (hx : ∀ s h, x (ix2 s h) = X s h) (hy : ∀ s h, y (ix2 s h) = Y s h) :
    csK x y (ix2 s t) = csf X Y s t := by
  rw [csK_apply, show (fun s h => x (ix2 s h)) = X from funext fun s => funext fun h => hx s h,
    show (fun s h => y (ix2 s h)) = Y from funext fun s => funext fun h => hy s h]

/-- The weighted mean over the first side's rows, its operands named entry by entry. -/
theorem kp_meanP_of {c : FVec Ideal S64x64 .f32} {x : FVec Ideal S64x384 .f32} {C : Sq} {X : Rows 384} (t : Fin 64) (h : Fin 384)
    (hc : ∀ s t, c (ix2 s t) = C s t) (hx : ∀ s h, x (ix2 s h) = X s h) :
    meanP c x (ix2 t h) = meanPf C X t h := by
  rw [meanP_apply, show (fun s t => c (ix2 s t)) = C from funext fun s => funext fun t => hc s t,
    show (fun s h => x (ix2 s h)) = X from funext fun s => funext fun h => hx s h]

/-- The weighted mean over the second side's rows, its operands named entry by entry. -/
theorem kp_meanQ_of {c : FVec Ideal S64x64 .f32} {y : FVec Ideal S64x384 .f32} {C : Sq} {Y : Rows 384} (s : Fin 64) (h : Fin 384)
    (hc : ∀ s t, c (ix2 s t) = C s t) (hy : ∀ s h, y (ix2 s h) = Y s h) :
    meanQ c y (ix2 s h) = meanQf C Y s h := by
  rw [meanQ_apply, show (fun s t => c (ix2 s t)) = C from funext fun s => funext fun t => hc s t,
    show (fun s h => y (ix2 s h)) = Y from funext fun s => funext fun h => hy s h]

/-- The maximum over s of x s h * c s t, its operands named entry by entry. -/
theorem kp_maxV_of {x : FVec Ideal S64x384 .f32} {c : FVec Ideal S64x64 .f32} {X : Rows 384} {C : Sq} (t : Fin 64) (h : Fin 384)
    (hx : ∀ s h, x (ix2 s h) = X s h) (hc : ∀ s t, c (ix2 s t) = C s t) :
    maxV x c (ix2 t h) = maxPf X C t h := by
  rw [maxV_apply, show (fun s h => x (ix2 s h)) = X from funext fun s => funext fun h => hx s h,
    show (fun s t => c (ix2 s t)) = C from funext fun s => funext fun t => hc s t]

/-- With the matrix transposed, that maximum is the one over t of y t h * c s t. -/
theorem kp_maxVT_of {y : FVec Ideal S64x384 .f32} {c : FVec Ideal S64x64 .f32} {Y : Rows 384} {C : Sq} (s : Fin 64) (h : Fin 384)
    (hy : ∀ s h, y (ix2 s h) = Y s h) (hc : ∀ s t, c (ix2 s t) = C s t) :
    maxV y (cT c) (ix2 s h) = maxQf Y C s h :=
  kp_maxV_of (C := fun t s => C s t) s h hy (fun t s => (cT_apply c t s).trans (hc s t))

/-- Entry k of a list of eight blocks, read at (s, l), from what each block is there. -/
theorem kp_pick (a0 a1 a2 a3 a4 a5 a6 a7 : FVec Ideal S64x20 .f32) (P : Fin 8 → Fin 64 → Fin 20 → EReal) (s : Fin 64) (l : Fin 20)
    (h0 : a0 (ix2 s l) = P 0 s l) (h1 : a1 (ix2 s l) = P 1 s l) (h2 : a2 (ix2 s l) = P 2 s l) (h3 : a3 (ix2 s l) = P 3 s l)
    (h4 : a4 (ix2 s l) = P 4 s l) (h5 : a5 (ix2 s l) = P 5 s l) (h6 : a6 (ix2 s l) = P 6 s l) (h7 : a7 (ix2 s l) = P 7 s l)
    (k : Fin 8) : (![a0, a1, a2, a3, a4, a5, a6, a7] k) (ix2 s l) = P k s l := by
  match k with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7
  | ⟨_ + 8, h⟩ => exact absurd h (by omega)

theorem outPof_apply (pf pb qf qb : FVec Ideal S64x384 .f32) (W : FVec Ideal S8x20x384 .f32) (s : Fin 64) (k : Fin 8) (l : Fin 20)
    (j : Fin 256) (hj : j.val = 20 * k.val + l.val) :
    outPof pf pb qf qb W (ix3 (0 : Fin 1) s j) = pieceKP (insK pf pb qf qb W) k s l := by
  unfold outPof
  rw [assemble_apply _ _ _ _ _ _ _ _ s k l j hj]
  refine kp_pick _ _ _ _ _ _ _ _ (pieceKP (insK pf pb qf qb W)) s l ?_ ?_ ?_ ?_ ?_ ?_ ?_ ?_ k
  · exact kp_mpK_of s l (fun _ _ => rfl) (rowRep63_apply qf) (wBlk_apply _ _ W (0 : Fin 8) rfl rfl rfl)
  · exact kp_mpK_of s l (fun _ _ => rfl) (rowRep0_apply qb) (wBlk_apply _ _ W (1 : Fin 8) rfl rfl rfl)
  · exact kp_ppK_of s l fun l s t => kp_mxK_of l s t (fun _ _ => rfl) (fun _ _ => rfl) (wBlk_apply _ _ W (2 : Fin 8) rfl rfl rfl)
  · exact kp_ppK_of s l fun l s t => kp_mxK_of l s t (fun _ _ => rfl) (fun _ _ => rfl) (wBlk_apply _ _ W (3 : Fin 8) rfl rfl rfl)
  · exact kp_mpK_of s l (fun _ _ => rfl) (fun s h => kp_meanQ_of s h (fun s t => kp_csK_of (x := pf) (y := qf) s t (fun _ _ => rfl) (fun _ _ => rfl)) (fun _ _ => rfl)) (wBlk_apply _ _ W (4 : Fin 8) rfl rfl rfl)
  · exact kp_mpK_of s l (fun _ _ => rfl) (fun s h => kp_meanQ_of s h (fun s t => kp_csK_of (x := pb) (y := qb) s t (fun _ _ => rfl) (fun _ _ => rfl)) (fun _ _ => rfl)) (wBlk_apply _ _ W (5 : Fin 8) rfl rfl rfl)
  · exact kp_mpK_of s l (fun _ _ => rfl) (fun s h => kp_maxVT_of s h (fun _ _ => rfl) (fun s t => kp_csK_of (x := pf) (y := qf) s t (fun _ _ => rfl) (fun _ _ => rfl))) (wBlk_apply _ _ W (6 : Fin 8) rfl rfl rfl)
  · exact kp_mpK_of s l (fun _ _ => rfl) (fun s h => kp_maxVT_of s h (fun _ _ => rfl) (fun s t => kp_csK_of (x := pb) (y := qb) s t (fun _ _ => rfl) (fun _ _ => rfl))) (wBlk_apply _ _ W (7 : Fin 8) rfl rfl rfl)

theorem outQof_apply (pf pb qf qb : FVec Ideal S64x384 .f32) (W : FVec Ideal S8x20x384 .f32) (s : Fin 64) (k : Fin 8) (l : Fin 20)
    (j : Fin 256) (hj : j.val = 20 * k.val + l.val) :
    outQof pf pb qf qb W (ix3 (0 : Fin 1) s j) = pieceKQ (insK pf pb qf qb W) k s l := by
  unfold outQof
  rw [assemble_apply _ _ _ _ _ _ _ _ s k l j hj]
  refine kp_pick _ _ _ _ _ _ _ _ (pieceKQ (insK pf pb qf qb W)) s l ?_ ?_ ?_ ?_ ?_ ?_ ?_ ?_ k
  · exact kp_mpK_of s l (fun _ _ => rfl) (rowRep63_apply pf) (wBlk_apply _ _ W (0 : Fin 8) rfl rfl rfl)
  · exact kp_mpK_of s l (fun _ _ => rfl) (rowRep0_apply pb) (wBlk_apply _ _ W (1 : Fin 8) rfl rfl rfl)
  · exact kp_pqK_of s l fun l s t => kp_mxK_of l s t (fun _ _ => rfl) (fun _ _ => rfl) (wBlk_apply _ _ W (2 : Fin 8) rfl rfl rfl)
  · exact kp_pqK_of s l fun l s t => kp_mxK_of l s t (fun _ _ => rfl) (fun _ _ => rfl) (wBlk_apply _ _ W (3 : Fin 8) rfl rfl rfl)
  · exact kp_mpK_of s l (fun _ _ => rfl) (fun s h => kp_meanP_of s h (fun s t => kp_csK_of (x := pf) (y := qf) s t (fun _ _ => rfl) (fun _ _ => rfl)) (fun _ _ => rfl)) (wBlk_apply _ _ W (4 : Fin 8) rfl rfl rfl)
  · exact kp_mpK_of s l (fun _ _ => rfl) (fun s h => kp_meanP_of s h (fun s t => kp_csK_of (x := pb) (y := qb) s t (fun _ _ => rfl) (fun _ _ => rfl)) (fun _ _ => rfl)) (wBlk_apply _ _ W (5 : Fin 8) rfl rfl rfl)
  · exact kp_mpK_of s l (fun _ _ => rfl) (fun s h => kp_maxV_of s h (fun _ _ => rfl) (fun s t => kp_csK_of (x := pf) (y := qf) s t (fun _ _ => rfl) (fun _ _ => rfl))) (wBlk_apply _ _ W (6 : Fin 8) rfl rfl rfl)
  · exact kp_mpK_of s l (fun _ _ => rfl) (fun s h => kp_maxV_of s h (fun _ _ => rfl) (fun s t => kp_csK_of (x := pb) (y := qb) s t (fun _ _ => rfl) (fun _ _ => rfl))) (wBlk_apply _ _ W (7 : Fin 8) rfl rfl rfl)

end Cert.KernelIdeal.MP

end
-- ==== Proof.RDefs.lean ====
/-
  The reference program's operations, regrouped by what they compute, batch entry by batch entry
  (32 entries; rows of 300 lanes; 20 perspectives):
    * `scl X w`      — at (b, l, s, h): X b s h * w l h, a row scaled by a perspective's weights;
    * `mpR X Y w`    — at (b, s, l): the cosine of the scaled rows `X b s` and `Y b s`, the product
                        of their norms floored at 1e-8;
    * `mxR X Y w`    — at (b, s, t, l): the cosine of scaled row `X b s` against scaled row `Y b t`;
                        `ppR` / `pqR` its maximum over t / over s;
    * `csR X Y`      — at (b, s, t): the plain cosine of rows `X b s` and `Y b t`;
    * `meanPR` / `meanQR`, `maxPR` / `maxQR` — the cosine-weighted mean / the maximum of the
                        cosine-weighted rows of one side, per row of the other;
    * `rowRepR`, `wBlkR`, `halfR0`, `halfR1`, `concat8R` — the layout steps around them.
  Written with the same host operations, in the same order, as the printed program.
-/
import proofs.«111495_j13082470383656_2_alg».proof.ReferenceIdeal

noncomputable section

namespace Cert.ReferenceIdeal.MP

open Idealize.ShloMosaic Cert.ReferenceIdeal Cert.ReferenceIdeal.Facts₀ Cert.ReferenceIdeal.Facts

variable {F : FTy → Type} [FloatOps F] [Cert.ReferenceIdeal.Facts]

/-- The forward half (lanes 0..299) of an input. -/
def halfR0 (x : FVec F S32x64x600 .f32) : FVec F S32x64x300 .f32 :=
  extractStridedSlice S32x64x300 ![0, 0, 0] x slices_S32x64x600_S32x64x300_0_0_0
/-- The backward half (lanes 300..599). -/
def halfR1 (x : FVec F S32x64x600 .f32) : FVec F S32x64x300 .f32 :=
  extractStridedSlice S32x64x300 ![0, 0, 300] x slices_S32x64x600_S32x64x300_0_0_300

/-- Perspective block `o 0` of the weights. -/
def wBlkR (o : Fin 3 → Nat) (hs : S8x20x300.Slices o S1x20x300) (W : FVec F S8x20x300 .f32) : FVec F S20x300 .f32 :=
  shapeCast _ (extractStridedSlice S1x20x300 o W hs) shapeCasts_S1x20x300_S20x300

/-- Row `o 1` of every batch entry of `Y`, repeated on all 64 rows. -/
def rowRepR (o : Fin 3 → Nat) (hs : S32x64x300.Slices o S32x1x300) (Y : FVec F S32x64x300 .f32) : FVec F S32x64x300 .f32 :=
  broadcastInDim S32x64x300 ![0, 1, 2] bcast_S32x1x300_S32x64x300_0_1_2
    (broadcastInDim S32x1x300 ![0, 2] bcast_S32x300_S32x1x300_0_2
      (shapeCast _ (extractStridedSlice S32x1x300 o Y hs) shapeCasts_S32x1x300_S32x300))

/-- At (b, l, s, h): X b s h * w l h. -/
def scl (X : FVec F S32x64x300 .f32) (w : FVec F S20x300 .f32) : FVec F S32x20x64x300 .f32 :=
  mulf
    (broadcastInDim S32x20x64x300 ![0, 1, 2, 3] bcast_S32x1x64x300_S32x20x64x300_0_1_2_3
      (broadcastInDim S32x1x64x300 ![0, 2, 3] bcast_S32x64x300_S32x1x64x300_0_2_3 X))
    (broadcastInDim S32x20x64x300 ![0, 1, 2, 3] bcast_S1x20x1x300_S32x20x64x300_0_1_2_3
      (broadcastInDim S1x20x1x300 ![1, 3] bcast_S20x300_S1x20x1x300_1_3 w))

/-- The norm along the lanes of a scaled array. -/
def nrm (A : FVec F S32x20x64x300 .f32) : FVec F S32x20x64 .f32 :=
  Host.sqrt (Host.reduceAdd (mulf A A) (constant S_ .f32 0x00000000#32) reducesTo_S32x20x64x300_S32x20x64_d3 h_S_)

/-- The weighted cosine of matching rows, floored denominator. -/
def mpR (X Y : FVec F S32x64x300 .f32) (w : FVec F S20x300 .f32) : FVec F S32x64x20 .f32 :=
  transpose S32x64x20 [0, 2, 1]
    (Host.divf
      (Host.reduceAdd (mulf (scl X w) (scl Y w)) (constant S_ .f32 0x00000000#32) reducesTo_S32x20x64x300_S32x20x64_d3 h_S_)
      (maximumf (mulf (nrm (scl X w)) (nrm (scl Y w)))
        (broadcastInDim S32x20x64 ![] bcast_S_S32x20x64 (constant S_ .f32 0x322BCC77#32))))
    transposes_S32x20x64_S32x64x20_0_2_1

/-- The weighted cosine of every row of `X` against every row of `Y`, per perspective; at (b, s, t, l). -/
def mxR (X Y : FVec F S32x64x300 .f32) (w : FVec F S20x300 .f32) : FVec F S32x64x64x20 .f32 :=
  transpose S32x64x64x20 [0, 2, 3, 1]
    (Host.divf
      (Host.dotGeneral dot_S32x20x64x300_S32x20x64x300_S32x20x64x64_3_3_2_2_01_01 none (scl X w) (scl Y w))
      (mulf
        (broadcastInDim S32x20x64x64 ![0, 1, 2, 3] bcast_S32x20x64x1_S32x20x64x64_0_1_2_3
          (broadcastInDim S32x20x64x1 ![0, 1, 2] bcast_S32x20x64_S32x20x64x1_0_1_2 (nrm (scl X w))))
        (broadcastInDim S32x20x64x64 ![0, 1, 2, 3] bcast_S32x20x1x64_S32x20x64x64_0_1_2_3
          (broadcastInDim S32x20x1x64 ![0, 1, 3] bcast_S32x20x64_S32x20x1x64_0_1_3 (nrm (scl Y w))))))
    transposes_S32x20x64x64_S32x64x64x20_0_2_3_1

/-- Maximum over the rows of the second side. -/
def ppR (c : FVec F S32x64x64x20 .f32) : FVec F S32x64x20 .f32 :=
  Host.reduce FloatOps.maximumf c (constant S_ .f32 0xFF800000#32) reducesTo_S32x64x64x20_S32x64x20_d2 h_S_
/-- Maximum over the rows of the first side. -/
def pqR (c : FVec F S32x64x64x20 .f32) : FVec F S32x64x20 .f32 :=
  Host.reduce FloatOps.maximumf c (constant S_ .f32 0xFF800000#32) reducesTo_S32x64x64x20_S32x64x20_d1 h_S_

/-- The norm of each row. -/
def nrm0 (X : FVec F S32x64x300 .f32) : FVec F S32x64 .f32 :=
  Host.sqrt (Host.reduceAdd (mulf X X) (constant S_ .f32 0x00000000#32) reducesTo_S32x64x300_S32x64_d2 h_S_)

/-- The plain cosine of every row of `X` against every row of `Y`; at (b, s, t). -/
def csR (X Y : FVec F S32x64x300 .f32) : FVec F S32x64x64 .f32 :=
  Host.divf
    (Host.dotGeneral dot_S32x64x300_S32x64x300_S32x64x64_2_2_1_1_0_0 none X Y)
    (mulf
      (broadcastInDim S32x64x64 ![0, 1, 2] bcast_S32x64x1_S32x64x64_0_1_2
        (broadcastInDim S32x64x1 ![0, 1] bcast_S32x64_S32x64x1_0_1 (nrm0 X)))
      (broadcastInDim S32x64x64 ![0, 1, 2] bcast_S32x1x64_S32x64x64_0_1_2
        (broadcastInDim S32x1x64 ![0, 2] bcast_S32x64_S32x1x64_0_2 (nrm0 Y))))

/-- At (b, t, h): sum over s of c b s t * X b s h, over the sum over s of c b s t. -/
def meanPR (c : FVec F S32x64x64 .f32) (X : FVec F S32x64x300 .f32) : FVec F S32x64x300 .f32 :=
  Host.divf
    (Host.dotGeneral dot_S32x64x64_S32x64x300_S32x64x300_1_1_2_2_0_0 none c X)
    (broadcastInDim S32x64x300 ![0, 1, 2] bcast_S32x64x1_S32x64x300_0_1_2
      (broadcastInDim S32x64x1 ![0, 1] bcast_S32x64_S32x64x1_0_1
        (Host.reduceAdd c (constant S_ .f32 0x00000000#32) reducesTo_S32x64x64_S32x64_d1 h_S_)))
/-- At (b, s, h): sum over t of c b s t * Y b t h, over the sum over t of c b s t. -/
def meanQR (c : FVec F S32x64x64 .f32) (Y : FVec F S32x64x300 .f32) : FVec F S32x64x300 .f32 :=
  Host.divf
    (Host.dotGeneral dot_S32x64x64_S32x64x300_S32x64x300_2_1_1_2_0_0 none c Y)
    (broadcastInDim S32x64x300 ![0, 1, 2] bcast_S32x64x1_S32x64x300_0_1_2
      (broadcastInDim S32x64x1 ![0, 1] bcast_S32x64_S32x64x1_0_1
        (Host.reduceAdd c (constant S_ .f32 0x00000000#32) reducesTo_S32x64x64_S32x64_d2 h_S_)))

/-- At (b, t, h): the maximum over s of X b s h * c b s t. -/
def maxPR (X : FVec F S32x64x300 .f32) (c : FVec F S32x64x64 .f32) : FVec F S32x64x300 .f32 :=
  Host.reduce FloatOps.maximumf
    (mulf
      (broadcastInDim S32x64x64x300 ![0, 1, 2, 3] bcast_S32x64x1x300_S32x64x64x300_0_1_2_3
        (broadcastInDim S32x64x1x300 ![0, 1, 3] bcast_S32x64x300_S32x64x1x300_0_1_3 X))
      (broadcastInDim S32x64x64x300 ![0, 1, 2, 3] bcast_S32x64x64x1_S32x64x64x300_0_1_2_3
        (broadcastInDim S32x64x64x1 ![0, 1, 2] bcast_S32x64x64_S32x64x64x1_0_1_2 c)))
    (constant S_ .f32 0xFF800000#32) reducesTo_S32x64x64x300_S32x64x300_d1 h_S_
/-- At (b, s, h): the maximum over t of Y b t h * c b s t. -/
def maxQR (Y : FVec F S32x64x300 .f32) (c : FVec F S32x64x64 .f32) : FVec F S32x64x300 .f32 :=
  Host.reduce FloatOps.maximumf
    (mulf
      (broadcastInDim S32x64x64x300 ![0, 1, 2, 3] bcast_S32x1x64x300_S32x64x64x300_0_1_2_3
        (broadcastInDim S32x1x64x300 ![0, 2, 3] bcast_S32x64x300_S32x1x64x300_0_2_3 Y))
      (broadcastInDim S32x64x64x300 ![0, 1, 2, 3] bcast_S32x64x64x1_S32x64x64x300_0_1_2_3
        (broadcastInDim S32x64x64x1 ![0, 1, 2] bcast_S32x64x64_S32x64x64x1_0_1_2 c)))
    (constant S_ .f32 0xFF800000#32) reducesTo_S32x64x64x300_S32x64x300_d2 h_S_

/-- Eight pieces side by side along the last axis. -/
def concat8R (a0 a1 a2 a3 a4 a5 a6 a7 : FVec F S32x64x20 .f32) : FVec F S32x64x160 .f32 :=
  concatenate S32x64x160 2 [⟨S32x64x20, a0⟩, ⟨S32x64x20, a1⟩, ⟨S32x64x20, a2⟩, ⟨S32x64x20, a3⟩, ⟨S32x64x20, a4⟩, ⟨S32x64x20, a5⟩, ⟨S32x64x20, a6⟩, ⟨S32x64x20, a7⟩]
    concatenates_S32x64x20_S32x64x20_S32x64x20_S32x64x20_S32x64x20_S32x64x20_S32x64x20_S32x64x20_S32x64x160_d2

/-- The first result from the halves and the weights. -/
def refPof (pf pb qf qb : FVec F S32x64x300 .f32) (W : FVec F S8x20x300 .f32) : FVec F S32x64x160 .f32 :=
  concat8R
    (mpR pf (rowRepR ![0, 63, 0] slices_S32x64x300_S32x1x300_0_63_0 qf) (wBlkR ![0, 0, 0] slices_S8x20x300_S1x20x300_0_0_0 W))
    (mpR pb (rowRepR ![0, 0, 0] slices_S32x64x300_S32x1x300_0_0_0 qb) (wBlkR ![1, 0, 0] slices_S8x20x300_S1x20x300_1_0_0 W))
    (ppR (mxR pf qf (wBlkR ![2, 0, 0] slices_S8x20x300_S1x20x300_2_0_0 W)))
    (ppR (mxR pb qb (wBlkR ![3, 0, 0] slices_S8x20x300_S1x20x300_3_0_0 W)))
    (mpR pf (meanQR (csR pf qf) qf) (wBlkR ![4, 0, 0] slices_S8x20x300_S1x20x300_4_0_0 W))
    (mpR pb (meanQR (csR pb qb) qb) (wBlkR ![5, 0, 0] slices_S8x20x300_S1x20x300_5_0_0 W))
    (mpR pf (maxQR qf (csR pf qf)) (wBlkR ![6, 0, 0] slices_S8x20x300_S1x20x300_6_0_0 W))
    (mpR pb (maxQR qb (csR pb qb)) (wBlkR ![7, 0, 0] slices_S8x20x300_S1x20x300_7_0_0 W))

/-- The second result. -/
def refQof (pf pb qf qb : FVec F S32x64x300 .f32) (W : FVec F S8x20x300 .f32) : FVec F S32x64x160 .f32 :=
  concat8R
    (mpR qf (rowRepR ![0, 63, 0] slices_S32x64x300_S32x1x300_0_63_0 pf) (wBlkR ![0, 0, 0] slices_S8x20x300_S1x20x300_0_0_0 W))
    (mpR qb (rowRepR ![0, 0, 0] slices_S32x64x300_S32x1x300_0_0_0 pb) (wBlkR ![1, 0, 0] slices_S8x20x300_S1x20x300_1_0_0 W))
    (pqR (mxR pf qf (wBlkR ![2, 0, 0] slices_S8x20x300_S1x20x300_2_0_0 W)))
    (pqR (mxR pb qb (wBlkR ![3, 0, 0] slices_S8x20x300_S1x20x300_3_0_0 W)))
    (mpR qf (meanPR (csR pf qf) pf) (wBlkR ![4, 0, 0] slices_S8x20x300_S1x20x300_4_0_0 W))
    (mpR qb (meanPR (csR pb qb) pb) (wBlkR ![5, 0, 0] slices_S8x20x300_S1x20x300_5_0_0 W))
    (mpR qf (maxPR pf (csR pf qf)) (wBlkR ![6, 0, 0] slices_S8x20x300_S1x20x300_6_0_0 W))
    (mpR qb (maxPR pb (csR pb qb)) (wBlkR ![7, 0, 0] slices_S8x20x300_S1x20x300_7_0_0 W))

def refP (x0 x1 : FVec F S32x64x600 .f32) (x2 : FVec F S8x20x300 .f32) : FVec F S32x64x160 .f32 :=
  refPof (halfR0 x0) (halfR1 x0) (halfR0 x1) (halfR1 x1) x2
def refQ (x0 x1 : FVec F S32x64x600 .f32) (x2 : FVec F S8x20x300 .f32) : FVec F S32x64x160 .f32 :=
  refQof (halfR0 x0) (halfR1 x0) (halfR0 x1) (halfR1 x1) x2

end Cert.ReferenceIdeal.MP

end
-- ==== Proof.RReadA.lean ====
/-
  The reference's blocks read at an index, at the exact instance: each regrouped block of host operations
  (Proof/RDefs.lean), read at batch entry `b`, is the corresponding function of Proof/Spec.lean applied to
  its operands' batch entry `b`.
-/
import proofs.«111495_j13082470383656_2_alg».proof.Proof.RDefs
import proofs.«111495_j13082470383656_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.MP

open Idealize.ShloMosaic Idealize.ShloMosaic.ValueIdx Cert.ReferenceIdeal Cert.ReferenceIdeal.Facts₀ Cert.ReferenceIdeal.Facts Cert.MP

variable [Cert.ReferenceIdeal.Facts]

/-- A scaled entry: at (b, l, s, h) the row entry `X b s h` times the weight `w l h`. -/
theorem ra_scl_apply (X : FVec Ideal S32x64x300 .f32) (w : FVec Ideal S20x300 .f32) (b : Fin 32) (l : Fin 20) (s : Fin 64) (h : Fin 300) :
    scl X w (ix4 b l s h) = X (ix3 b s h) * w (ix2 l h) := by
  unfold scl
  rw [mulf_apply]
  congr 1
  · refine (broadcastInDim_apply _ bcast_S32x1x64x300_S32x20x64x300_0_1_2_3 _ (ix4 b l s h) (ix4 b (0 : Fin 1) s h) (fun a => match a with
      | ⟨0, _⟩ => by show b.val = if (32 : Nat) = 1 then 0 else b.val; rw [if_neg (by decide)]
      | ⟨1, _⟩ => by show 0 = if (1 : Nat) = 1 then 0 else l.val; rw [if_pos rfl]
      | ⟨2, _⟩ => by show s.val = if (64 : Nat) = 1 then 0 else s.val; rw [if_neg (by decide)]
      | ⟨3, _⟩ => by show h.val = if (300 : Nat) = 1 then 0 else h.val; rw [if_neg (by decide)])).trans ?_
    exact broadcastInDim_apply _ bcast_S32x64x300_S32x1x64x300_0_2_3 X (ix4 b (0 : Fin 1) s h) (ix3 b s h) (fun a => match a with
      | ⟨0, _⟩ => by show b.val = if (32 : Nat) = 1 then 0 else b.val; rw [if_neg (by decide)]
      | ⟨1, _⟩ => by show s.val = if (64 : Nat) = 1 then 0 else s.val; rw [if_neg (by decide)]
      | ⟨2, _⟩ => by show h.val = if (300 : Nat) = 1 then 0 else h.val; rw [if_neg (by decide)])
  · refine (broadcastInDim_apply _ bcast_S1x20x1x300_S32x20x64x300_0_1_2_3 _ (ix4 b l s h) (ix4 (0 : Fin 1) l (0 : Fin 1) h) (fun a => match a with
      | ⟨0, _⟩ => by show 0 = if (1 : Nat) = 1 then 0 else b.val; rw [if_pos rfl]
      | ⟨1, _⟩ => by show l.val = if (20 : Nat) = 1 then 0 else l.val; rw [if_neg (by decide)]
      | ⟨2, _⟩ => by show 0 = if (1 : Nat) = 1 then 0 else s.val; rw [if_pos rfl]
      | ⟨3, _⟩ => by show h.val = if (300 : Nat) = 1 then 0 else h.val; rw [if_neg (by decide)])).trans ?_
    exact broadcastInDim_apply _ bcast_S20x300_S1x20x1x300_1_3 w (ix4 (0 : Fin 1) l (0 : Fin 1) h) (ix2 l h) (fun a => match a with
      | ⟨0, _⟩ => by show l.val = if (20 : Nat) = 1 then 0 else l.val; rw [if_neg (by decide)]
      | ⟨1, _⟩ => by show h.val = if (300 : Nat) = 1 then 0 else h.val; rw [if_neg (by decide)])

/-- The sum over the lanes of a rank-4 array, started from the zero word: at (b, l, s) the plain finite sum of the entries. -/
theorem ra_sum4_apply (A : FVec Ideal S32x20x64x300 .f32) (b : Fin 32) (l : Fin 20) (s : Fin 64) :
    Host.reduceAdd A (constant S_ .f32 0x00000000#32) reducesTo_S32x20x64x300_S32x20x64_d3 h_S_ (ix3 b l s)
      = ∑ h : Fin 300, A (ix4 b l s h) := by
  simp only [Host.reduceAdd, Ideal.hostReduceAdd_def]
  rw [Ideal.hostReduceAdd_single reducesTo_S32x20x64x300_S32x20x64_d3 (by decide)]
  rw [constant_apply, Ideal.ofBits_zero_f32, zero_add]
  refine Finset.sum_congr rfl fun k _ => congrArg A (funext fun a => Fin.ext (by
    match a with | ⟨0, _⟩ => rfl | ⟨1, _⟩ => rfl | ⟨2, _⟩ => rfl | ⟨3, _⟩ => rfl))

/-- The norm of a scaled row: the square root of the sum of the squared scaled entries. -/
theorem ra_nrm_scl_apply (X : FVec Ideal S32x64x300 .f32) (w : FVec Ideal S20x300 .f32) (b : Fin 32) (l : Fin 20) (s : Fin 64) :
    nrm (scl X w) (ix3 b l s)
      = Ideal.sqrt (∑ h : Fin 300, (X (ix3 b s h) * w (ix2 l h)) * (X (ix3 b s h) * w (ix2 l h))) := by
  unfold nrm
  show FloatOps.hostUnary .sqrt (Host.reduceAdd _ _ _ _ (ix3 b l s)) = _
  rw [Ideal.hostUnary_sqrt_def, ra_sum4_apply]
  simp only [mulf_apply, ra_scl_apply]

/-- The broadcast floor: the word of 1e-8 read anywhere is `eps`. -/
theorem ra_eps_apply (j : S32x20x64.Idx) :
    broadcastInDim S32x20x64 ![] bcast_S_S32x20x64 (constant (F := Ideal) S_ .f32 0x322BCC77#32) j = eps :=
  (broadcastInDim_apply _ bcast_S_S32x20x64 _ j ix0 (fun a => a.elim0)).trans rfl

/-- The host quotient at an index is the exact division of the entries. -/
theorem ra_hdiv_apply {sh : Shape} (a c : FVec Ideal sh .f32) (i : sh.Idx) : Host.divf a c i = Ideal.div (a i) (c i) := rfl

theorem mpR_apply (X Y : FVec Ideal S32x64x300 .f32) (w : FVec Ideal S20x300 .f32) (b : Fin 32) (s : Fin 64) (l : Fin 20) :
    mpR X Y w (ix3 b s l) = mpRf (fun s h => X (ix3 b s h)) (fun s h => Y (ix3 b s h)) (fun l h => w (ix2 l h)) s l := by
  unfold mpR
  refine (transpose_apply [0, 2, 1] _ transposes_S32x20x64_S32x64x20_0_2_1 (ix3 b s l) (ix3 b l s) (fun c => match c with
    | ⟨0, _⟩ => rfl
    | ⟨1, _⟩ => rfl
    | ⟨2, _⟩ => rfl)).trans ?_
  rw [ra_hdiv_apply, maximumf_apply, mulf_apply, ra_sum4_apply, ra_nrm_scl_apply, ra_nrm_scl_apply, ra_eps_apply]
  simp only [mulf_apply, ra_scl_apply]
  rfl

theorem ra_lhs_cs_0 (i : S32x64x64.Idx) (q : dot_S32x64x300_S32x64x300_S32x64x64_2_2_1_1_0_0.contr.Idx) :
    (dot_S32x64x300_S32x64x300_S32x64x64_2_2_1_1_0_0.lhsIdx i q 0).val = (i 0).val := by
  unfold DotDims.lhsIdx
  rw [dif_pos (show (0 : Fin S32x64x300.rank) ∈ dot_S32x64x300_S32x64x300_S32x64x64_2_2_1_1_0_0.lhsBatch from (by decide : (0 : Fin S32x64x300.rank) ∈ ([0] : List (Fin S32x64x300.rank))))]
  rfl
theorem ra_lhs_cs_1 (i : S32x64x64.Idx) (q : dot_S32x64x300_S32x64x300_S32x64x64_2_2_1_1_0_0.contr.Idx) :
    (dot_S32x64x300_S32x64x300_S32x64x64_2_2_1_1_0_0.lhsIdx i q 1).val = (i 1).val := by
  unfold DotDims.lhsIdx
  rw [dif_neg (show ¬(1 : Fin S32x64x300.rank) ∈ dot_S32x64x300_S32x64x300_S32x64x64_2_2_1_1_0_0.lhsBatch from (by decide : ¬(1 : Fin S32x64x300.rank) ∈ ([0] : List (Fin S32x64x300.rank)))), dif_pos (show (1 : Fin S32x64x300.rank) ∈ dot_S32x64x300_S32x64x300_S32x64x64_2_2_1_1_0_0.lhsNonContracting from (by decide : (1 : Fin S32x64x300.rank) ∈ ([1] : List (Fin S32x64x300.rank))))]
  rfl
theorem ra_rhs_cs_0 (i : S32x64x64.Idx) (q : dot_S32x64x300_S32x64x300_S32x64x64_2_2_1_1_0_0.contr.Idx) :
    (dot_S32x64x300_S32x64x300_S32x64x64_2_2_1_1_0_0.rhsIdx i q 0).val = (i 0).val := by
  unfold DotDims.rhsIdx
  rw [dif_pos (show (0 : Fin S32x64x300.rank) ∈ dot_S32x64x300_S32x64x300_S32x64x64_2_2_1_1_0_0.rhsBatch from (by decide : (0 : Fin S32x64x300.rank) ∈ ([0] : List (Fin S32x64x300.rank))))]
  rfl
theorem ra_rhs_cs_1 (i : S32x64x64.Idx) (q : dot_S32x64x300_S32x64x300_S32x64x64_2_2_1_1_0_0.contr.Idx) :
    (dot_S32x64x300_S32x64x300_S32x64x64_2_2_1_1_0_0.rhsIdx i q 1).val = (i 2).val := by
  unfold DotDims.rhsIdx
  rw [dif_neg (show ¬(1 : Fin S32x64x300.rank) ∈ dot_S32x64x300_S32x64x300_S32x64x64_2_2_1_1_0_0.rhsBatch from (by decide : ¬(1 : Fin S32x64x300.rank) ∈ ([0] : List (Fin S32x64x300.rank)))), dif_pos (show (1 : Fin S32x64x300.rank) ∈ dot_S32x64x300_S32x64x300_S32x64x64_2_2_1_1_0_0.rhsNonContracting from (by decide : (1 : Fin S32x64x300.rank) ∈ ([1] : List (Fin S32x64x300.rank))))]
  rfl
/-- The plain row-by-row product: at (b, s, t) the sum over the lanes of `X b s k * Y b t k`. -/
theorem ra_dot_cs_apply (X Y : FVec Ideal S32x64x300 .f32) (b : Fin 32) (s t : Fin 64) :
    Host.dotGeneral dot_S32x64x300_S32x64x300_S32x64x64_2_2_1_1_0_0 none X Y (ix3 b s t)
      = ∑ k : Fin 300, X (ix3 b s k) * Y (ix3 b t k) := by
  simp only [Host.dotGeneral]
  rw [Ideal.dotGeneral_apply, ← Equiv.sum_comp (ValueIdx.contrEquiv1 dot_S32x64x300_S32x64x300_S32x64x64_2_2_1_1_0_0 300 rfl rfl).symm]
  refine Finset.sum_congr rfl fun k _ => ?_
  have hk := ValueIdx.contrEquiv1_symm_val dot_S32x64x300_S32x64x300_S32x64x64_2_2_1_1_0_0 300 rfl rfl k
  have el : dot_S32x64x300_S32x64x300_S32x64x64_2_2_1_1_0_0.lhsIdx (ix3 b s t) ((ValueIdx.contrEquiv1 dot_S32x64x300_S32x64x300_S32x64x64_2_2_1_1_0_0 300 rfl rfl).symm k) = ix3 b s k := funext fun a => Fin.ext (by
    match a with
    | ⟨0, _⟩ => exact ra_lhs_cs_0 _ _
    | ⟨1, _⟩ => exact ra_lhs_cs_1 _ _
    | ⟨2, _⟩ => exact (dot_S32x64x300_S32x64x300_S32x64x64_2_2_1_1_0_0.lhsIdx_val_of_single rfl _ _).trans hk)
  have er : dot_S32x64x300_S32x64x300_S32x64x64_2_2_1_1_0_0.rhsIdx (ix3 b s t) ((ValueIdx.contrEquiv1 dot_S32x64x300_S32x64x300_S32x64x64_2_2_1_1_0_0 300 rfl rfl).symm k) = ix3 b t k := funext fun a => Fin.ext (by
    match a with
    | ⟨0, _⟩ => exact ra_rhs_cs_0 _ _
    | ⟨1, _⟩ => exact ra_rhs_cs_1 _ _
    | ⟨2, _⟩ => exact (dot_S32x64x300_S32x64x300_S32x64x64_2_2_1_1_0_0.rhsIdx_val_of_single rfl _ _).trans hk)
  rw [el, er]

/-- The sum over the lanes of a rank-3 array, started from the zero word: at (b, s) the plain finite sum. -/
theorem ra_sum3_apply (A : FVec Ideal S32x64x300 .f32) (b : Fin 32) (s : Fin 64) :
    Host.reduceAdd A (constant S_ .f32 0x00000000#32) reducesTo_S32x64x300_S32x64_d2 h_S_ (ix2 b s)
      = ∑ k : Fin 300, A (ix3 b s k) := by
  simp only [Host.reduceAdd, Ideal.hostReduceAdd_def]
  rw [Ideal.hostReduceAdd_single reducesTo_S32x64x300_S32x64_d2 (by decide)]
  rw [constant_apply, Ideal.ofBits_zero_f32, zero_add]
  refine Finset.sum_congr rfl fun k _ => congrArg A (funext fun a => Fin.ext (by
    match a with | ⟨0, _⟩ => rfl | ⟨1, _⟩ => rfl | ⟨2, _⟩ => rfl))

/-- The norm of a row: the square root of the sum of its squared entries. -/
theorem ra_nrm0_apply (X : FVec Ideal S32x64x300 .f32) (b : Fin 32) (s : Fin 64) :
    nrm0 X (ix2 b s) = Ideal.sqrt (∑ h : Fin 300, X (ix3 b s h) * X (ix3 b s h)) := by
  unfold nrm0
  show FloatOps.hostUnary .sqrt (Host.reduceAdd _ _ _ _ (ix2 b s)) = _
  rw [Ideal.hostUnary_sqrt_def, ra_sum3_apply]
  simp only [mulf_apply]

/-- A per-row value spread along the columns: at (b, s, t) it is the value of row s. -/
theorem ra_bcRow3_apply (v : FVec Ideal S32x64 .f32) (b : Fin 32) (s t : Fin 64) :
    broadcastInDim S32x64x64 ![0, 1, 2] bcast_S32x64x1_S32x64x64_0_1_2
      (broadcastInDim S32x64x1 ![0, 1] bcast_S32x64_S32x64x1_0_1 v) (ix3 b s t) = v (ix2 b s) := by
  refine (broadcastInDim_apply _ bcast_S32x64x1_S32x64x64_0_1_2 _ (ix3 b s t) (ix3 b s (0 : Fin 1)) (fun a => match a with
      | ⟨0, _⟩ => by show (b).val = if (32 : Nat) = 1 then 0 else (b).val; rw [if_neg (by decide)]
      | ⟨1, _⟩ => by show (s).val = if (64 : Nat) = 1 then 0 else (s).val; rw [if_neg (by decide)]
      | ⟨2, _⟩ => by show 0 = if (1 : Nat) = 1 then 0 else (t).val; rw [if_pos rfl])).trans ?_
  exact broadcastInDim_apply _ bcast_S32x64_S32x64x1_0_1 v (ix3 b s (0 : Fin 1)) (ix2 b s) (fun a => match a with
      | ⟨0, _⟩ => by show (b).val = if (32 : Nat) = 1 then 0 else (b).val; rw [if_neg (by decide)]
      | ⟨1, _⟩ => by show (s).val = if (64 : Nat) = 1 then 0 else (s).val; rw [if_neg (by decide)])

/-- A per-row value spread along the rows: at (b, s, t) it is the value of row t. -/
theorem ra_bcCol3_apply (v : FVec Ideal S32x64 .f32) (b : Fin 32) (s t : Fin 64) :
    broadcastInDim S32x64x64 ![0, 1, 2] bcast_S32x1x64_S32x64x64_0_1_2
      (broadcastInDim S32x1x64 ![0, 2] bcast_S32x64_S32x1x64_0_2 v) (ix3 b s t) = v (ix2 b t) := by
  refine (broadcastInDim_apply _ bcast_S32x1x64_S32x64x64_0_1_2 _ (ix3 b s t) (ix3 b (0 : Fin 1) t) (fun a => match a with
      | ⟨0, _⟩ => by show (b).val = if (32 : Nat) = 1 then 0 else (b).val; rw [if_neg (by decide)]
      | ⟨1, _⟩ => by show 0 = if (1 : Nat) = 1 then 0 else (s).val; rw [if_pos rfl]
      | ⟨2, _⟩ => by show (t).val = if (64 : Nat) = 1 then 0 else (t).val; rw [if_neg (by decide)])).trans ?_
  exact broadcastInDim_apply _ bcast_S32x64_S32x1x64_0_2 v (ix3 b (0 : Fin 1) t) (ix2 b t) (fun a => match a with
      | ⟨0, _⟩ => by show (b).val = if (32 : Nat) = 1 then 0 else (b).val; rw [if_neg (by decide)]
      | ⟨1, _⟩ => by show (t).val = if (64 : Nat) = 1 then 0 else (t).val; rw [if_neg (by decide)])

theorem csR_apply (X Y : FVec Ideal S32x64x300 .f32) (b : Fin 32) (s t : Fin 64) :
    csR X Y (ix3 b s t) = csf (fun s h => X (ix3 b s h)) (fun s h => Y (ix3 b s h)) s t := by
  unfold csR
  rw [ra_hdiv_apply, mulf_apply, ra_dot_cs_apply, ra_bcRow3_apply, ra_bcCol3_apply, ra_nrm0_apply, ra_nrm0_apply]
  rfl

theorem ra_lhs_mP_0 (i : S32x64x300.Idx) (q : dot_S32x64x64_S32x64x300_S32x64x300_1_1_2_2_0_0.contr.Idx) :
    (dot_S32x64x64_S32x64x300_S32x64x300_1_1_2_2_0_0.lhsIdx i q 0).val = (i 0).val := by
  unfold DotDims.lhsIdx
  rw [dif_pos (show (0 : Fin S32x64x64.rank) ∈ dot_S32x64x64_S32x64x300_S32x64x300_1_1_2_2_0_0.lhsBatch from (by decide : (0 : Fin S32x64x64.rank) ∈ ([0] : List (Fin S32x64x64.rank))))]
  rfl
theorem ra_lhs_mP_2 (i : S32x64x300.Idx) (q : dot_S32x64x64_S32x64x300_S32x64x300_1_1_2_2_0_0.contr.Idx) :
    (dot_S32x64x64_S32x64x300_S32x64x300_1_1_2_2_0_0.lhsIdx i q 2).val = (i 1).val := by
  unfold DotDims.lhsIdx
  rw [dif_neg (show ¬(2 : Fin S32x64x64.rank) ∈ dot_S32x64x64_S32x64x300_S32x64x300_1_1_2_2_0_0.lhsBatch from (by decide : ¬(2 : Fin S32x64x64.rank) ∈ ([0] : List (Fin S32x64x64.rank)))), dif_pos (show (2 : Fin S32x64x64.rank) ∈ dot_S32x64x64_S32x64x300_S32x64x300_1_1_2_2_0_0.lhsNonContracting from (by decide : (2 : Fin S32x64x64.rank) ∈ ([2] : List (Fin S32x64x64.rank))))]
  rfl
theorem ra_rhs_mP_0 (i : S32x64x300.Idx) (q : dot_S32x64x64_S32x64x300_S32x64x300_1_1_2_2_0_0.contr.Idx) :
    (dot_S32x64x64_S32x64x300_S32x64x300_1_1_2_2_0_0.rhsIdx i q 0).val = (i 0).val := by
  unfold DotDims.rhsIdx
  rw [dif_pos (show (0 : Fin S32x64x300.rank) ∈ dot_S32x64x64_S32x64x300_S32x64x300_1_1_2_2_0_0.rhsBatch from (by decide : (0 : Fin S32x64x300.rank) ∈ ([0] : List (Fin S32x64x300.rank))))]
  rfl
theorem ra_rhs_mP_2 (i : S32x64x300.Idx) (q : dot_S32x64x64_S32x64x300_S32x64x300_1_1_2_2_0_0.contr.Idx) :
    (dot_S32x64x64_S32x64x300_S32x64x300_1_1_2_2_0_0.rhsIdx i q 2).val = (i 2).val := by
  unfold DotDims.rhsIdx
  rw [dif_neg (show ¬(2 : Fin S32x64x300.rank) ∈ dot_S32x64x64_S32x64x300_S32x64x300_1_1_2_2_0_0.rhsBatch from (by decide : ¬(2 : Fin S32x64x300.rank) ∈ ([0] : List (Fin S32x64x300.rank)))), dif_pos (show (2 : Fin S32x64x300.rank) ∈ dot_S32x64x64_S32x64x300_S32x64x300_1_1_2_2_0_0.rhsNonContracting from (by decide : (2 : Fin S32x64x300.rank) ∈ ([2] : List (Fin S32x64x300.rank))))]
  rfl
/-- The product contracting the first side's rows: at (b, t, h) the sum over s of `c b s t * X b s h`. -/
theorem ra_dot_mP_apply (c : FVec Ideal S32x64x64 .f32) (X : FVec Ideal S32x64x300 .f32) (b : Fin 32) (t : Fin 64) (h : Fin 300) :
    Host.dotGeneral dot_S32x64x64_S32x64x300_S32x64x300_1_1_2_2_0_0 none c X (ix3 b t h)
      = ∑ k : Fin 64, c (ix3 b k t) * X (ix3 b k h) := by
  simp only [Host.dotGeneral]
  rw [Ideal.dotGeneral_apply, ← Equiv.sum_comp (ValueIdx.contrEquiv1 dot_S32x64x64_S32x64x300_S32x64x300_1_1_2_2_0_0 64 rfl rfl).symm]
  refine Finset.sum_congr rfl fun k _ => ?_
  have hk := ValueIdx.contrEquiv1_symm_val dot_S32x64x64_S32x64x300_S32x64x300_1_1_2_2_0_0 64 rfl rfl k
  have el : dot_S32x64x64_S32x64x300_S32x64x300_1_1_2_2_0_0.lhsIdx (ix3 b t h) ((ValueIdx.contrEquiv1 dot_S32x64x64_S32x64x300_S32x64x300_1_1_2_2_0_0 64 rfl rfl).symm k) = ix3 b k t := funext fun a => Fin.ext (by
    match a with
    | ⟨0, _⟩ => exact ra_lhs_mP_0 _ _
    | ⟨1, _⟩ => exact (dot_S32x64x64_S32x64x300_S32x64x300_1_1_2_2_0_0.lhsIdx_val_of_single rfl _ _).trans hk
    | ⟨2, _⟩ => exact ra_lhs_mP_2 _ _)
  have er : dot_S32x64x64_S32x64x300_S32x64x300_1_1_2_2_0_0.rhsIdx (ix3 b t h) ((ValueIdx.contrEquiv1 dot_S32x64x64_S32x64x300_S32x64x300_1_1_2_2_0_0 64 rfl rfl).symm k) = ix3 b k h := funext fun a => Fin.ext (by
    match a with
    | ⟨0, _⟩ => exact ra_rhs_mP_0 _ _
    | ⟨1, _⟩ => exact (dot_S32x64x64_S32x64x300_S32x64x300_1_1_2_2_0_0.rhsIdx_val_of_single rfl _ _).trans hk
    | ⟨2, _⟩ => exact ra_rhs_mP_2 _ _)
  rw [el, er]

theorem ra_lhs_mQ_0 (i : S32x64x300.Idx) (q : dot_S32x64x64_S32x64x300_S32x64x300_2_1_1_2_0_0.contr.Idx) :
    (dot_S32x64x64_S32x64x300_S32x64x300_2_1_1_2_0_0.lhsIdx i q 0).val = (i 0).val := by
  unfold DotDims.lhsIdx
  rw [dif_pos (show (0 : Fin S32x64x64.rank) ∈ dot_S32x64x64_S32x64x300_S32x64x300_2_1_1_2_0_0.lhsBatch from (by decide : (0 : Fin S32x64x64.rank) ∈ ([0] : List (Fin S32x64x64.rank))))]
  rfl
theorem ra_lhs_mQ_1 (i : S32x64x300.Idx) (q : dot_S32x64x64_S32x64x300_S32x64x300_2_1_1_2_0_0.contr.Idx) :
    (dot_S32x64x64_S32x64x300_S32x64x300_2_1_1_2_0_0.lhsIdx i q 1).val = (i 1).val := by
  unfold DotDims.lhsIdx
  rw [dif_neg (show ¬(1 : Fin S32x64x64.rank) ∈ dot_S32x64x64_S32x64x300_S32x64x300_2_1_1_2_0_0.lhsBatch from (by decide : ¬(1 : Fin S32x64x64.rank) ∈ ([0] : List (Fin S32x64x64.rank)))), dif_pos (show (1 : Fin S32x64x64.rank) ∈ dot_S32x64x64_S32x64x300_S32x64x300_2_1_1_2_0_0.lhsNonContracting from (by decide : (1 : Fin S32x64x64.rank) ∈ ([1] : List (Fin S32x64x64.rank))))]
  rfl
theorem ra_rhs_mQ_0 (i : S32x64x300.Idx) (q : dot_S32x64x64_S32x64x300_S32x64x300_2_1_1_2_0_0.contr.Idx) :
    (dot_S32x64x64_S32x64x300_S32x64x300_2_1_1_2_0_0.rhsIdx i q 0).val = (i 0).val := by
  unfold DotDims.rhsIdx
  rw [dif_pos (show (0 : Fin S32x64x300.rank) ∈ dot_S32x64x64_S32x64x300_S32x64x300_2_1_1_2_0_0.rhsBatch from (by decide : (0 : Fin S32x64x300.rank) ∈ ([0] : List (Fin S32x64x300.rank))))]
  rfl
theorem ra_rhs_mQ_2 (i : S32x64x300.Idx) (q : dot_S32x64x64_S32x64x300_S32x64x300_2_1_1_2_0_0.contr.Idx) :
    (dot_S32x64x64_S32x64x300_S32x64x300_2_1_1_2_0_0.rhsIdx i q 2).val = (i 2).val := by
  unfold DotDims.rhsIdx
  rw [dif_neg (show ¬(2 : Fin S32x64x300.rank) ∈ dot_S32x64x64_S32x64x300_S32x64x300_2_1_1_2_0_0.rhsBatch from (by decide : ¬(2 : Fin S32x64x300.rank) ∈ ([0] : List (Fin S32x64x300.rank)))), dif_pos (show (2 : Fin S32x64x300.rank) ∈ dot_S32x64x64_S32x64x300_S32x64x300_2_1_1_2_0_0.rhsNonContracting from (by decide : (2 : Fin S32x64x300.rank) ∈ ([2] : List (Fin S32x64x300.rank))))]
  rfl
/-- The product contracting the second side's rows: at (b, s, h) the sum over t of `c b s t * Y b t h`. -/
theorem ra_dot_mQ_apply (c : FVec Ideal S32x64x64 .f32) (Y : FVec Ideal S32x64x300 .f32) (b : Fin 32) (s : Fin 64) (h : Fin 300) :
    Host.dotGeneral dot_S32x64x64_S32x64x300_S32x64x300_2_1_1_2_0_0 none c Y (ix3 b s h)
      = ∑ k : Fin 64, c (ix3 b s k) * Y (ix3 b k h) := by
  simp only [Host.dotGeneral]
  rw [Ideal.dotGeneral_apply, ← Equiv.sum_comp (ValueIdx.contrEquiv1 dot_S32x64x64_S32x64x300_S32x64x300_2_1_1_2_0_0 64 rfl rfl).symm]
  refine Finset.sum_congr rfl fun k _ => ?_
  have hk := ValueIdx.contrEquiv1_symm_val dot_S32x64x64_S32x64x300_S32x64x300_2_1_1_2_0_0 64 rfl rfl k
  have el : dot_S32x64x64_S32x64x300_S32x64x300_2_1_1_2_0_0.lhsIdx (ix3 b s h) ((ValueIdx.contrEquiv1 dot_S32x64x64_S32x64x300_S32x64x300_2_1_1_2_0_0 64 rfl rfl).symm k) = ix3 b s k := funext fun a => Fin.ext (by
    match a with
    | ⟨0, _⟩ => exact ra_lhs_mQ_0 _ _
    | ⟨1, _⟩ => exact ra_lhs_mQ_1 _ _
    | ⟨2, _⟩ => exact (dot_S32x64x64_S32x64x300_S32x64x300_2_1_1_2_0_0.lhsIdx_val_of_single rfl _ _).trans hk)
  have er : dot_S32x64x64_S32x64x300_S32x64x300_2_1_1_2_0_0.rhsIdx (ix3 b s h) ((ValueIdx.contrEquiv1 dot_S32x64x64_S32x64x300_S32x64x300_2_1_1_2_0_0 64 rfl rfl).symm k) = ix3 b k h := funext fun a => Fin.ext (by
    match a with
    | ⟨0, _⟩ => exact ra_rhs_mQ_0 _ _
    | ⟨1, _⟩ => exact (dot_S32x64x64_S32x64x300_S32x64x300_2_1_1_2_0_0.rhsIdx_val_of_single rfl _ _).trans hk
    | ⟨2, _⟩ => exact ra_rhs_mQ_2 _ _)
  rw [el, er]

/-- The sum of a square matrix over its first (row) index, from the zero word: at (b, t) the plain finite sum. -/
theorem ra_sumRows_apply (A : FVec Ideal S32x64x64 .f32) (b : Fin 32) (t : Fin 64) :
    Host.reduceAdd A (constant S_ .f32 0x00000000#32) reducesTo_S32x64x64_S32x64_d1 h_S_ (ix2 b t)
      = ∑ k : Fin 64, A (ix3 b k t) := by
  simp only [Host.reduceAdd, Ideal.hostReduceAdd_def]
  rw [Ideal.hostReduceAdd_single reducesTo_S32x64x64_S32x64_d1 (by decide)]
  rw [constant_apply, Ideal.ofBits_zero_f32, zero_add]
  refine Finset.sum_congr rfl fun k _ => congrArg A (funext fun a => Fin.ext (by
    match a with | ⟨0, _⟩ => rfl | ⟨1, _⟩ => rfl | ⟨2, _⟩ => rfl))

/-- The sum of a square matrix over its second (column) index, from the zero word: at (b, s) the plain finite sum. -/
theorem ra_sumCols_apply (A : FVec Ideal S32x64x64 .f32) (b : Fin 32) (s : Fin 64) :
    Host.reduceAdd A (constant S_ .f32 0x00000000#32) reducesTo_S32x64x64_S32x64_d2 h_S_ (ix2 b s)
      = ∑ k : Fin 64, A (ix3 b s k) := by
  simp only [Host.reduceAdd, Ideal.hostReduceAdd_def]
  rw [Ideal.hostReduceAdd_single reducesTo_S32x64x64_S32x64_d2 (by decide)]
  rw [constant_apply, Ideal.ofBits_zero_f32, zero_add]
  refine Finset.sum_congr rfl fun k _ => congrArg A (funext fun a => Fin.ext (by
    match a with | ⟨0, _⟩ => rfl | ⟨1, _⟩ => rfl | ⟨2, _⟩ => rfl))

/-- A per-row value spread along the lanes: at (b, r, h) it is the value of row r. -/
theorem ra_bcRow300_apply (v : FVec Ideal S32x64 .f32) (b : Fin 32) (r : Fin 64) (h : Fin 300) :
    broadcastInDim S32x64x300 ![0, 1, 2] bcast_S32x64x1_S32x64x300_0_1_2
      (broadcastInDim S32x64x1 ![0, 1] bcast_S32x64_S32x64x1_0_1 v) (ix3 b r h) = v (ix2 b r) := by
  refine (broadcastInDim_apply _ bcast_S32x64x1_S32x64x300_0_1_2 _ (ix3 b r h) (ix3 b r (0 : Fin 1)) (fun a => match a with
      | ⟨0, _⟩ => by show (b).val = if (32 : Nat) = 1 then 0 else (b).val; rw [if_neg (by decide)]
      | ⟨1, _⟩ => by show (r).val = if (64 : Nat) = 1 then 0 else (r).val; rw [if_neg (by decide)]
      | ⟨2, _⟩ => by show 0 = if (1 : Nat) = 1 then 0 else (h).val; rw [if_pos rfl])).trans ?_
  exact broadcastInDim_apply _ bcast_S32x64_S32x64x1_0_1 v (ix3 b r (0 : Fin 1)) (ix2 b r) (fun a => match a with
      | ⟨0, _⟩ => by show (b).val = if (32 : Nat) = 1 then 0 else (b).val; rw [if_neg (by decide)]
      | ⟨1, _⟩ => by show (r).val = if (64 : Nat) = 1 then 0 else (r).val; rw [if_neg (by decide)])

theorem meanPR_apply (c : FVec Ideal S32x64x64 .f32) (X : FVec Ideal S32x64x300 .f32) (b : Fin 32) (t : Fin 64) (h : Fin 300) :
    meanPR c X (ix3 b t h) = meanPf (fun s t => c (ix3 b s t)) (fun s h => X (ix3 b s h)) t h := by
  unfold meanPR
  rw [ra_hdiv_apply, ra_dot_mP_apply, ra_bcRow300_apply, ra_sumRows_apply]
  rfl

theorem meanQR_apply (c : FVec Ideal S32x64x64 .f32) (Y : FVec Ideal S32x64x300 .f32) (b : Fin 32) (s : Fin 64) (h : Fin 300) :
    meanQR c Y (ix3 b s h) = meanQf (fun s t => c (ix3 b s t)) (fun s h => Y (ix3 b s h)) s h := by
  unfold meanQR
  rw [ra_hdiv_apply, ra_dot_mQ_apply, ra_bcRow300_apply, ra_sumCols_apply]
  rfl

theorem ra_lhs_mx_0 (i : S32x20x64x64.Idx) (q : dot_S32x20x64x300_S32x20x64x300_S32x20x64x64_3_3_2_2_01_01.contr.Idx) :
    (dot_S32x20x64x300_S32x20x64x300_S32x20x64x64_3_3_2_2_01_01.lhsIdx i q 0).val = (i 0).val := by
  unfold DotDims.lhsIdx
  rw [dif_pos (show (0 : Fin S32x20x64x300.rank) ∈ dot_S32x20x64x300_S32x20x64x300_S32x20x64x64_3_3_2_2_01_01.lhsBatch from (by decide : (0 : Fin S32x20x64x300.rank) ∈ ([0, 1] : List (Fin S32x20x64x300.rank))))]
  rfl
theorem ra_lhs_mx_1 (i : S32x20x64x64.Idx) (q : dot_S32x20x64x300_S32x20x64x300_S32x20x64x64_3_3_2_2_01_01.contr.Idx) :
    (dot_S32x20x64x300_S32x20x64x300_S32x20x64x64_3_3_2_2_01_01.lhsIdx i q 1).val = (i 1).val := by
  unfold DotDims.lhsIdx
  rw [dif_pos (show (1 : Fin S32x20x64x300.rank) ∈ dot_S32x20x64x300_S32x20x64x300_S32x20x64x64_3_3_2_2_01_01.lhsBatch from (by decide : (1 : Fin S32x20x64x300.rank) ∈ ([0, 1] : List (Fin S32x20x64x300.rank))))]
  rfl
theorem ra_lhs_mx_2 (i : S32x20x64x64.Idx) (q : dot_S32x20x64x300_S32x20x64x300_S32x20x64x64_3_3_2_2_01_01.contr.Idx) :
    (dot_S32x20x64x300_S32x20x64x300_S32x20x64x64_3_3_2_2_01_01.lhsIdx i q 2).val = (i 2).val := by
  unfold DotDims.lhsIdx
  rw [dif_neg (show ¬(2 : Fin S32x20x64x300.rank) ∈ dot_S32x20x64x300_S32x20x64x300_S32x20x64x64_3_3_2_2_01_01.lhsBatch from (by decide : ¬(2 : Fin S32x20x64x300.rank) ∈ ([0, 1] : List (Fin S32x20x64x300.rank)))), dif_pos (show (2 : Fin S32x20x64x300.rank) ∈ dot_S32x20x64x300_S32x20x64x300_S32x20x64x64_3_3_2_2_01_01.lhsNonContracting from (by decide : (2 : Fin S32x20x64x300.rank) ∈ ([2] : List (Fin S32x20x64x300.rank))))]
  rfl
theorem ra_rhs_mx_0 (i : S32x20x64x64.Idx) (q : dot_S32x20x64x300_S32x20x64x300_S32x20x64x64_3_3_2_2_01_01.contr.Idx) :
    (dot_S32x20x64x300_S32x20x64x300_S32x20x64x64_3_3_2_2_01_01.rhsIdx i q 0).val = (i 0).val := by
  unfold DotDims.rhsIdx
  rw [dif_pos (show (0 : Fin S32x20x64x300.rank) ∈ dot_S32x20x64x300_S32x20x64x300_S32x20x64x64_3_3_2_2_01_01.rhsBatch from (by decide : (0 : Fin S32x20x64x300.rank) ∈ ([0, 1] : List (Fin S32x20x64x300.rank))))]
  rfl
theorem ra_rhs_mx_1 (i : S32x20x64x64.Idx) (q : dot_S32x20x64x300_S32x20x64x300_S32x20x64x64_3_3_2_2_01_01.contr.Idx) :
    (dot_S32x20x64x300_S32x20x64x300_S32x20x64x64_3_3_2_2_01_01.rhsIdx i q 1).val = (i 1).val := by
  unfold DotDims.rhsIdx
  rw [dif_pos (show (1 : Fin S32x20x64x300.rank) ∈ dot_S32x20x64x300_S32x20x64x300_S32x20x64x64_3_3_2_2_01_01.rhsBatch from (by decide : (1 : Fin S32x20x64x300.rank) ∈ ([0, 1] : List (Fin S32x20x64x300.rank))))]
  rfl
theorem ra_rhs_mx_2 (i : S32x20x64x64.Idx) (q : dot_S32x20x64x300_S32x20x64x300_S32x20x64x64_3_3_2_2_01_01.contr.Idx) :
    (dot_S32x20x64x300_S32x20x64x300_S32x20x64x64_3_3_2_2_01_01.rhsIdx i q 2).val = (i 3).val := by
  unfold DotDims.rhsIdx
  rw [dif_neg (show ¬(2 : Fin S32x20x64x300.rank) ∈ dot_S32x20x64x300_S32x20x64x300_S32x20x64x64_3_3_2_2_01_01.rhsBatch from (by decide : ¬(2 : Fin S32x20x64x300.rank) ∈ ([0, 1] : List (Fin S32x20x64x300.rank)))), dif_pos (show (2 : Fin S32x20x64x300.rank) ∈ dot_S32x20x64x300_S32x20x64x300_S32x20x64x64_3_3_2_2_01_01.rhsNonContracting from (by decide : (2 : Fin S32x20x64x300.rank) ∈ ([2] : List (Fin S32x20x64x300.rank))))]
  rfl
/-- Every row against every row, per perspective: at (b, l, s, t) the sum over the lanes of `A b l s k * B b l t k`. -/
theorem ra_dot_mx_apply (A B : FVec Ideal S32x20x64x300 .f32) (b : Fin 32) (l : Fin 20) (s t : Fin 64) :
    Host.dotGeneral dot_S32x20x64x300_S32x20x64x300_S32x20x64x64_3_3_2_2_01_01 none A B (ix4 b l s t)
      = ∑ k : Fin 300, A (ix4 b l s k) * B (ix4 b l t k) := by
  simp only [Host.dotGeneral]
  rw [Ideal.dotGeneral_apply, ← Equiv.sum_comp (ValueIdx.contrEquiv1 dot_S32x20x64x300_S32x20x64x300_S32x20x64x64_3_3_2_2_01_01 300 rfl rfl).symm]
  refine Finset.sum_congr rfl fun k _ => ?_
  have hk := ValueIdx.contrEquiv1_symm_val dot_S32x20x64x300_S32x20x64x300_S32x20x64x64_3_3_2_2_01_01 300 rfl rfl k
  have el : dot_S32x20x64x300_S32x20x64x300_S32x20x64x64_3_3_2_2_01_01.lhsIdx (ix4 b l s t) ((ValueIdx.contrEquiv1 dot_S32x20x64x300_S32x20x64x300_S32x20x64x64_3_3_2_2_01_01 300 rfl rfl).symm k) = ix4 b l s k := funext fun a => Fin.ext (by
    match a with
    | ⟨0, _⟩ => exact ra_lhs_mx_0 _ _
    | ⟨1, _⟩ => exact ra_lhs_mx_1 _ _
    | ⟨2, _⟩ => exact ra_lhs_mx_2 _ _
    | ⟨3, _⟩ => exact (dot_S32x20x64x300_S32x20x64x300_S32x20x64x64_3_3_2_2_01_01.lhsIdx_val_of_single rfl _ _).trans hk)
  have er : dot_S32x20x64x300_S32x20x64x300_S32x20x64x64_3_3_2_2_01_01.rhsIdx (ix4 b l s t) ((ValueIdx.contrEquiv1 dot_S32x20x64x300_S32x20x64x300_S32x20x64x64_3_3_2_2_01_01 300 rfl rfl).symm k) = ix4 b l t k := funext fun a => Fin.ext (by
    match a with
    | ⟨0, _⟩ => exact ra_rhs_mx_0 _ _
    | ⟨1, _⟩ => exact ra_rhs_mx_1 _ _
    | ⟨2, _⟩ => exact ra_rhs_mx_2 _ _
    | ⟨3, _⟩ => exact (dot_S32x20x64x300_S32x20x64x300_S32x20x64x64_3_3_2_2_01_01.rhsIdx_val_of_single rfl _ _).trans hk)
  rw [el, er]

/-- A per-(perspective, row) value spread along the second side's rows: at (b, l, s, t) it is the value at (b, l, s). -/
theorem ra_bcRow4_apply (v : FVec Ideal S32x20x64 .f32) (b : Fin 32) (l : Fin 20) (s t : Fin 64) :
    broadcastInDim S32x20x64x64 ![0, 1, 2, 3] bcast_S32x20x64x1_S32x20x64x64_0_1_2_3
      (broadcastInDim S32x20x64x1 ![0, 1, 2] bcast_S32x20x64_S32x20x64x1_0_1_2 v) (ix4 b l s t) = v (ix3 b l s) := by
  refine (broadcastInDim_apply _ bcast_S32x20x64x1_S32x20x64x64_0_1_2_3 _ (ix4 b l s t) (ix4 b l s (0 : Fin 1)) (fun a => match a with
      | ⟨0, _⟩ => by show (b).val = if (32 : Nat) = 1 then 0 else (b).val; rw [if_neg (by decide)]
      | ⟨1, _⟩ => by show (l).val = if (20 : Nat) = 1 then 0 else (l).val; rw [if_neg (by decide)]
      | ⟨2, _⟩ => by show (s).val = if (64 : Nat) = 1 then 0 else (s).val; rw [if_neg (by decide)]
      | ⟨3, _⟩ => by show 0 = if (1 : Nat) = 1 then 0 else (t).val; rw [if_pos rfl])).trans ?_
  exact broadcastInDim_apply _ bcast_S32x20x64_S32x20x64x1_0_1_2 v (ix4 b l s (0 : Fin 1)) (ix3 b l s) (fun a => match a with
      | ⟨0, _⟩ => by show (b).val = if (32 : Nat) = 1 then 0 else (b).val; rw [if_neg (by decide)]
      | ⟨1, _⟩ => by show (l).val = if (20 : Nat) = 1 then 0 else (l).val; rw [if_neg (by decide)]
      | ⟨2, _⟩ => by show (s).val = if (64 : Nat) = 1 then 0 else (s).val; rw [if_neg (by decide)])

/-- A per-(perspective, row) value spread along the first side's rows: at (b, l, s, t) it is the value at (b, l, t). -/
theorem ra_bcCol4_apply (v : FVec Ideal S32x20x64 .f32) (b : Fin 32) (l : Fin 20) (s t : Fin 64) :
    broadcastInDim S32x20x64x64 ![0, 1, 2, 3] bcast_S32x20x1x64_S32x20x64x64_0_1_2_3
      (broadcastInDim S32x20x1x64 ![0, 1, 3] bcast_S32x20x64_S32x20x1x64_0_1_3 v) (ix4 b l s t) = v (ix3 b l t) := by
  refine (broadcastInDim_apply _ bcast_S32x20x1x64_S32x20x64x64_0_1_2_3 _ (ix4 b l s t) (ix4 b l (0 : Fin 1) t) (fun a => match a with
      | ⟨0, _⟩ => by show (b).val = if (32 : Nat) = 1 then 0 else (b).val; rw [if_neg (by decide)]
      | ⟨1, _⟩ => by show (l).val = if (20 : Nat) = 1 then 0 else (l).val; rw [if_neg (by decide)]
      | ⟨2, _⟩ => by show 0 = if (1 : Nat) = 1 then 0 else (s).val; rw [if_pos rfl]
      | ⟨3, _⟩ => by show (t).val = if (64 : Nat) = 1 then 0 else (t).val; rw [if_neg (by decide)])).trans ?_
  exact broadcastInDim_apply _ bcast_S32x20x64_S32x20x1x64_0_1_3 v (ix4 b l (0 : Fin 1) t) (ix3 b l t) (fun a => match a with
      | ⟨0, _⟩ => by show (b).val = if (32 : Nat) = 1 then 0 else (b).val; rw [if_neg (by decide)]
      | ⟨1, _⟩ => by show (l).val = if (20 : Nat) = 1 then 0 else (l).val; rw [if_neg (by decide)]
      | ⟨2, _⟩ => by show (t).val = if (64 : Nat) = 1 then 0 else (t).val; rw [if_neg (by decide)])

theorem mxR_apply (X Y : FVec Ideal S32x64x300 .f32) (w : FVec Ideal S20x300 .f32) (b : Fin 32) (s t : Fin 64) (l : Fin 20) :
    mxR X Y w (ix4 b s t l) = mxRf (fun s h => X (ix3 b s h)) (fun s h => Y (ix3 b s h)) (fun l h => w (ix2 l h)) l s t := by
  unfold mxR
  refine (transpose_apply [0, 2, 3, 1] _ transposes_S32x20x64x64_S32x64x64x20_0_2_3_1 (ix4 b s t l) (ix4 b l s t) (fun c => match c with
    | ⟨0, _⟩ => rfl
    | ⟨1, _⟩ => rfl
    | ⟨2, _⟩ => rfl
    | ⟨3, _⟩ => rfl)).trans ?_
  rw [ra_hdiv_apply, mulf_apply, ra_dot_mx_apply, ra_bcRow4_apply, ra_bcCol4_apply, ra_nrm_scl_apply, ra_nrm_scl_apply]
  simp only [ra_scl_apply]
  rfl

end Cert.ReferenceIdeal.MP

end
-- ==== Proof.RReadB.lean ====
/-
  The reference's blocks read at an index, at the exact instance: each regrouped block of host operations
  (Proof/RDefs.lean), read at batch entry `b`, is the corresponding function of Proof/Spec.lean applied to
  its operands' batch entry `b`.
-/
import proofs.«111495_j13082470383656_2_alg».proof.Proof.RDefs
import proofs.«111495_j13082470383656_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.MP

open Idealize.ShloMosaic Idealize.ShloMosaic.ValueIdx Cert.ReferenceIdeal Cert.ReferenceIdeal.Facts₀ Cert.ReferenceIdeal.Facts Cert.MP

variable [Cert.ReferenceIdeal.Facts]

/-- The f32 word of negative infinity denotes the bottom element. -/
theorem rb_negInf : Ideal.ofBits .f32 0xFF800000#32 = (⊥ : EReal) := by simp [Ideal.ofBits, Ideal.ieee]

/-- A fold of `max` from a value that is `⊥` over a family equal pointwise to `g` is `vmax g`. -/
theorem rb_fold_eq_vmax {n : Nat} (i : EReal) (hi : i = ⊥) (f g : Fin n → EReal) (hfg : ∀ k, f k = g k) :
    (Finset.univ : Finset (Fin n)).fold max i f = vmax g := by
  subst hi
  rw [show f = g from funext hfg]
  rfl

/-- A concatenation along the last axis of rank-3 pieces with 20 lanes each, read at `(b, s, j)`: piece `k`,
    whose span starts at `pre`, at `(b, s, l)` when `j = pre + l`. -/
theorem rb_concat_piece {α : Type} (xs : List ((s : Shape) × (s.Idx → α)))
    (hc : Shape.Concatenates (xs.map (·.1)) S32x64x160 (2 : Fin S32x64x160.rank)) (b : Fin 32) (s : Fin 64) (j : Fin 160) (l : Fin 20)
    (k : Nat) (hk : k < xs.length) (x : S32x64x20.Idx → α) (hxk : xs[k] = ⟨S32x64x20, x⟩) (pre : Nat)
    (hpre : (((xs.take k).map (·.1)).map fun s => if h : s.rank = S32x64x160.rank then s.size ((2 : Fin S32x64x160.rank).cast h.symm) else 0).sum = pre)
    (hj : pre + l.val = j.val) :
    concatenate S32x64x160 (2 : Fin S32x64x160.rank) xs hc (ix3 b s j) = x (ix3 b s l) :=
  concatenate_apply_piece (2 : Fin S32x64x160.rank) xs hc (ix3 b s j) k hk S32x64x20 x hxk rfl pre hpre (ix3 b s l)
    (fun b' hb' => match b', hb' with
      | ⟨0, _⟩, _ => rfl
      | ⟨1, _⟩, _ => rfl
      | ⟨2, _⟩, hb' => absurd rfl hb')
    hj

theorem ppR_apply (c : FVec Ideal S32x64x64x20 .f32) (b : Fin 32) (s : Fin 64) (l : Fin 20) :
    ppR c (ix3 b s l) = ppf (fun l s t => c (ix4 b s t l)) s l := by
  unfold ppR
  have hR : S32x64x64x20.Reduces [2] S32x64x20 := by decide
  refine (Host.reduce_eq_fold_single (FloatOps.maximumf (F := Ideal) (φ := .f32)) c _
    reducesTo_S32x64x64x20_S32x64x20_d2 hR h_S_ (ix3 b s l)).trans ?_
  refine rb_fold_eq_vmax (n := 64) _ rb_negInf _ _ fun t => ?_
  exact congrArg c (funext fun a => Fin.ext (by
    match a with
    | ⟨0, _⟩ => rfl
    | ⟨1, _⟩ => rfl
    | ⟨2, _⟩ => rfl
    | ⟨3, _⟩ => rfl))

theorem pqR_apply (c : FVec Ideal S32x64x64x20 .f32) (b : Fin 32) (t : Fin 64) (l : Fin 20) :
    pqR c (ix3 b t l) = pqf (fun l s t => c (ix4 b s t l)) t l := by
  unfold pqR
  have hR : S32x64x64x20.Reduces [1] S32x64x20 := by decide
  refine (Host.reduce_eq_fold_single (FloatOps.maximumf (F := Ideal) (φ := .f32)) c _
    reducesTo_S32x64x64x20_S32x64x20_d1 hR h_S_ (ix3 b t l)).trans ?_
  refine rb_fold_eq_vmax (n := 64) _ rb_negInf _ _ fun s => ?_
  exact congrArg c (funext fun a => Fin.ext (by
    match a with
    | ⟨0, _⟩ => rfl
    | ⟨1, _⟩ => rfl
    | ⟨2, _⟩ => rfl
    | ⟨3, _⟩ => rfl))

theorem maxPR_apply (X : FVec Ideal S32x64x300 .f32) (c : FVec Ideal S32x64x64 .f32) (b : Fin 32) (t : Fin 64) (h : Fin 300) :
    maxPR X c (ix3 b t h) = maxPf (fun s h => X (ix3 b s h)) (fun s t => c (ix3 b s t)) t h := by
  unfold maxPR
  have hR : S32x64x64x300.Reduces [1] S32x64x300 := by decide
  refine (Host.reduce_eq_fold_single (FloatOps.maximumf (F := Ideal) (φ := .f32)) _ _
    reducesTo_S32x64x64x300_S32x64x300_d1 hR h_S_ (ix3 b t h)).trans ?_
  refine rb_fold_eq_vmax (n := 64) _ rb_negInf _ _ fun s => ?_
  have hl : hR.lift (ix3 b t h) s = ix4 b s t h := funext fun a => Fin.ext (by
    match a with
    | ⟨0, _⟩ => rfl
    | ⟨1, _⟩ => rfl
    | ⟨2, _⟩ => rfl
    | ⟨3, _⟩ => rfl)
  show mulf _ _ (hR.lift (ix3 b t h) s) = X (ix3 b s h) * c (ix3 b s t)
  rw [hl, mulf_apply]
  refine congrArg₂ (· * ·) ?_ ?_
  · refine (broadcastInDim_apply _ bcast_S32x64x1x300_S32x64x64x300_0_1_2_3 _ (ix4 b s t h) (ix4 b s (0 : Fin 1) h) (fun a => match a with
      | ⟨0, _⟩ => by show b.val = if (32 : Nat) = 1 then 0 else b.val; rw [if_neg (by decide)]
      | ⟨1, _⟩ => by show s.val = if (64 : Nat) = 1 then 0 else s.val; rw [if_neg (by decide)]
      | ⟨2, _⟩ => by show 0 = if (1 : Nat) = 1 then 0 else t.val; rw [if_pos rfl]
      | ⟨3, _⟩ => by show h.val = if (300 : Nat) = 1 then 0 else h.val; rw [if_neg (by decide)])).trans ?_
    exact broadcastInDim_apply _ bcast_S32x64x300_S32x64x1x300_0_1_3 X (ix4 b s (0 : Fin 1) h) (ix3 b s h) (fun a => match a with
      | ⟨0, _⟩ => by show b.val = if (32 : Nat) = 1 then 0 else b.val; rw [if_neg (by decide)]
      | ⟨1, _⟩ => by show s.val = if (64 : Nat) = 1 then 0 else s.val; rw [if_neg (by decide)]
      | ⟨2, _⟩ => by show h.val = if (300 : Nat) = 1 then 0 else h.val; rw [if_neg (by decide)])
  · refine (broadcastInDim_apply _ bcast_S32x64x64x1_S32x64x64x300_0_1_2_3 _ (ix4 b s t h) (ix4 b s t (0 : Fin 1)) (fun a => match a with
      | ⟨0, _⟩ => by show b.val = if (32 : Nat) = 1 then 0 else b.val; rw [if_neg (by decide)]
      | ⟨1, _⟩ => by show s.val = if (64 : Nat) = 1 then 0 else s.val; rw [if_neg (by decide)]
      | ⟨2, _⟩ => by show t.val = if (64 : Nat) = 1 then 0 else t.val; rw [if_neg (by decide)]
      | ⟨3, _⟩ => by show 0 = if (1 : Nat) = 1 then 0 else h.val; rw [if_pos rfl])).trans ?_
    exact broadcastInDim_apply _ bcast_S32x64x64_S32x64x64x1_0_1_2 c (ix4 b s t (0 : Fin 1)) (ix3 b s t) (fun a => match a with
      | ⟨0, _⟩ => by show b.val = if (32 : Nat) = 1 then 0 else b.val; rw [if_neg (by decide)]
      | ⟨1, _⟩ => by show s.val = if (64 : Nat) = 1 then 0 else s.val; rw [if_neg (by decide)]
      | ⟨2, _⟩ => by show t.val = if (64 : Nat) = 1 then 0 else t.val; rw [if_neg (by decide)])

theorem maxQR_apply (Y : FVec Ideal S32x64x300 .f32) (c : FVec Ideal S32x64x64 .f32) (b : Fin 32) (s : Fin 64) (h : Fin 300) :
    maxQR Y c (ix3 b s h) = maxQf (fun s h => Y (ix3 b s h)) (fun s t => c (ix3 b s t)) s h := by
  unfold maxQR
  have hR : S32x64x64x300.Reduces [2] S32x64x300 := by decide
  refine (Host.reduce_eq_fold_single (FloatOps.maximumf (F := Ideal) (φ := .f32)) _ _
    reducesTo_S32x64x64x300_S32x64x300_d2 hR h_S_ (ix3 b s h)).trans ?_
  refine rb_fold_eq_vmax (n := 64) _ rb_negInf _ _ fun t => ?_
  have hl : hR.lift (ix3 b s h) t = ix4 b s t h := funext fun a => Fin.ext (by
    match a with
    | ⟨0, _⟩ => rfl
    | ⟨1, _⟩ => rfl
    | ⟨2, _⟩ => rfl
    | ⟨3, _⟩ => rfl)
  show mulf _ _ (hR.lift (ix3 b s h) t) = Y (ix3 b t h) * c (ix3 b s t)
  rw [hl, mulf_apply]
  refine congrArg₂ (· * ·) ?_ ?_
  · refine (broadcastInDim_apply _ bcast_S32x1x64x300_S32x64x64x300_0_1_2_3 _ (ix4 b s t h) (ix4 b (0 : Fin 1) t h) (fun a => match a with
      | ⟨0, _⟩ => by show b.val = if (32 : Nat) = 1 then 0 else b.val; rw [if_neg (by decide)]
      | ⟨1, _⟩ => by show 0 = if (1 : Nat) = 1 then 0 else s.val; rw [if_pos rfl]
      | ⟨2, _⟩ => by show t.val = if (64 : Nat) = 1 then 0 else t.val; rw [if_neg (by decide)]
      | ⟨3, _⟩ => by show h.val = if (300 : Nat) = 1 then 0 else h.val; rw [if_neg (by decide)])).trans ?_
    exact broadcastInDim_apply _ bcast_S32x64x300_S32x1x64x300_0_2_3 Y (ix4 b (0 : Fin 1) t h) (ix3 b t h) (fun a => match a with
      | ⟨0, _⟩ => by show b.val = if (32 : Nat) = 1 then 0 else b.val; rw [if_neg (by decide)]
      | ⟨1, _⟩ => by show t.val = if (64 : Nat) = 1 then 0 else t.val; rw [if_neg (by decide)]
      | ⟨2, _⟩ => by show h.val = if (300 : Nat) = 1 then 0 else h.val; rw [if_neg (by decide)])
  · refine (broadcastInDim_apply _ bcast_S32x64x64x1_S32x64x64x300_0_1_2_3 _ (ix4 b s t h) (ix4 b s t (0 : Fin 1)) (fun a => match a with
      | ⟨0, _⟩ => by show b.val = if (32 : Nat) = 1 then 0 else b.val; rw [if_neg (by decide)]
      | ⟨1, _⟩ => by show s.val = if (64 : Nat) = 1 then 0 else s.val; rw [if_neg (by decide)]
      | ⟨2, _⟩ => by show t.val = if (64 : Nat) = 1 then 0 else t.val; rw [if_neg (by decide)]
      | ⟨3, _⟩ => by show 0 = if (1 : Nat) = 1 then 0 else h.val; rw [if_pos rfl])).trans ?_
    exact broadcastInDim_apply _ bcast_S32x64x64_S32x64x64x1_0_1_2 c (ix4 b s t (0 : Fin 1)) (ix3 b s t) (fun a => match a with
      | ⟨0, _⟩ => by show b.val = if (32 : Nat) = 1 then 0 else b.val; rw [if_neg (by decide)]
      | ⟨1, _⟩ => by show s.val = if (64 : Nat) = 1 then 0 else s.val; rw [if_neg (by decide)]
      | ⟨2, _⟩ => by show t.val = if (64 : Nat) = 1 then 0 else t.val; rw [if_neg (by decide)])

theorem rowRepR63_apply (Y : FVec Ideal S32x64x300 .f32) (b : Fin 32) (s : Fin 64) (h : Fin 300) :
    rowRepR ![0, 63, 0] slices_S32x64x300_S32x1x300_0_63_0 Y (ix3 b s h) = Y (ix3 b (63 : Fin 64) h) := by
  unfold rowRepR
  refine (broadcastInDim_apply _ bcast_S32x1x300_S32x64x300_0_1_2 _ (ix3 b s h) (ix3 b (0 : Fin 1) h) (fun a => match a with
    | ⟨0, _⟩ => by show b.val = if (32 : Nat) = 1 then 0 else b.val; rw [if_neg (by decide)]
    | ⟨1, _⟩ => by show 0 = if (1 : Nat) = 1 then 0 else s.val; rw [if_pos rfl]
    | ⟨2, _⟩ => by show h.val = if (300 : Nat) = 1 then 0 else h.val; rw [if_neg (by decide)])).trans ?_
  refine (broadcastInDim_apply _ bcast_S32x300_S32x1x300_0_2 _ (ix3 b (0 : Fin 1) h) (ix2 b h) (fun a => match a with
    | ⟨0, _⟩ => by show b.val = if (32 : Nat) = 1 then 0 else b.val; rw [if_neg (by decide)]
    | ⟨1, _⟩ => by show h.val = if (300 : Nat) = 1 then 0 else h.val; rw [if_neg (by decide)])).trans ?_
  refine (shapeCast_apply _ shapeCasts_S32x1x300_S32x300 (ix2 b h) (ix3 b (0 : Fin 1) h) (by
    rw [Shape.rowMajor_val_three, Shape.rowMajor_val_two]
    show (b.val * 1 + 0) * 300 + h.val = b.val * 300 + h.val
    omega)).trans ?_
  exact extractStridedSlice_apply _ Y _ (ix3 b (0 : Fin 1) h) (ix3 b (63 : Fin 64) h) (fun a => match a with
    | ⟨0, _⟩ => by show b.val = 0 + b.val; omega
    | ⟨1, _⟩ => by show 63 = 63 + 0; rfl
    | ⟨2, _⟩ => by show h.val = 0 + h.val; omega)

theorem rowRepR0_apply (Y : FVec Ideal S32x64x300 .f32) (b : Fin 32) (s : Fin 64) (h : Fin 300) :
    rowRepR ![0, 0, 0] slices_S32x64x300_S32x1x300_0_0_0 Y (ix3 b s h) = Y (ix3 b (0 : Fin 64) h) := by
  unfold rowRepR
  refine (broadcastInDim_apply _ bcast_S32x1x300_S32x64x300_0_1_2 _ (ix3 b s h) (ix3 b (0 : Fin 1) h) (fun a => match a with
    | ⟨0, _⟩ => by show b.val = if (32 : Nat) = 1 then 0 else b.val; rw [if_neg (by decide)]
    | ⟨1, _⟩ => by show 0 = if (1 : Nat) = 1 then 0 else s.val; rw [if_pos rfl]
    | ⟨2, _⟩ => by show h.val = if (300 : Nat) = 1 then 0 else h.val; rw [if_neg (by decide)])).trans ?_
  refine (broadcastInDim_apply _ bcast_S32x300_S32x1x300_0_2 _ (ix3 b (0 : Fin 1) h) (ix2 b h) (fun a => match a with
    | ⟨0, _⟩ => by show b.val = if (32 : Nat) = 1 then 0 else b.val; rw [if_neg (by decide)]
    | ⟨1, _⟩ => by show h.val = if (300 : Nat) = 1 then 0 else h.val; rw [if_neg (by decide)])).trans ?_
  refine (shapeCast_apply _ shapeCasts_S32x1x300_S32x300 (ix2 b h) (ix3 b (0 : Fin 1) h) (by
    rw [Shape.rowMajor_val_three, Shape.rowMajor_val_two]
    show (b.val * 1 + 0) * 300 + h.val = b.val * 300 + h.val
    omega)).trans ?_
  exact extractStridedSlice_apply _ Y _ (ix3 b (0 : Fin 1) h) (ix3 b (0 : Fin 64) h) (fun a => match a with
    | ⟨0, _⟩ => by show b.val = 0 + b.val; omega
    | ⟨1, _⟩ => by show 0 = 0 + 0; rfl
    | ⟨2, _⟩ => by show h.val = 0 + h.val; omega)

theorem wBlkR_apply (o : Fin 3 → Nat) (hs : S8x20x300.Slices o S1x20x300) (W : FVec Ideal S8x20x300 .f32)
    (k : Fin 8) (hk : o 0 = k.val) (h1 : o 1 = 0) (h2 : o 2 = 0) (l : Fin 20) (h : Fin 300) :
    wBlkR o hs W (ix2 l h) = W (ix3 k l h) := by
  unfold wBlkR
  refine (shapeCast_1ab_ab_apply _ shapeCasts_S1x20x300_S20x300 l h).trans ?_
  exact extractStridedSlice_apply o W hs (ix3 (0 : Fin 1) l h) (ix3 k l h) (fun a => match a with
    | ⟨0, _⟩ => by show k.val = o 0 + 0; omega
    | ⟨1, _⟩ => by show l.val = o 1 + l.val; omega
    | ⟨2, _⟩ => by show h.val = o 2 + h.val; omega)

theorem halfR0_apply (x : FVec Ideal S32x64x600 .f32) (b : Fin 32) (s : Fin 64) (h : Fin 300) :
    halfR0 x (ix3 b s h) = x (ix3 b s ⟨h.val, by omega⟩) := by
  unfold halfR0
  exact extractStridedSlice_apply _ x _ (ix3 b s h) _ (fun a => match a with
    | ⟨0, _⟩ => by show b.val = 0 + b.val; omega
    | ⟨1, _⟩ => by show s.val = 0 + s.val; omega
    | ⟨2, _⟩ => by show h.val = 0 + h.val; omega)

theorem halfR1_apply (x : FVec Ideal S32x64x600 .f32) (b : Fin 32) (s : Fin 64) (h : Fin 300) :
    halfR1 x (ix3 b s h) = x (ix3 b s ⟨300 + h.val, by omega⟩) := by
  unfold halfR1
  exact extractStridedSlice_apply _ x _ (ix3 b s h) _ (fun a => match a with
    | ⟨0, _⟩ => by show b.val = 0 + b.val; omega
    | ⟨1, _⟩ => by show s.val = 0 + s.val; omega
    | ⟨2, _⟩ => by show 300 + h.val = 300 + h.val; rfl)

theorem concat8R_apply (a0 a1 a2 a3 a4 a5 a6 a7 : FVec Ideal S32x64x20 .f32) (b : Fin 32) (s : Fin 64) (k : Fin 8) (l : Fin 20)
    (j : Fin 160) (hj : j.val = 20 * k.val + l.val) :
    concat8R a0 a1 a2 a3 a4 a5 a6 a7 (ix3 b s j) = (![a0, a1, a2, a3, a4, a5, a6, a7] k) (ix3 b s l) := by
  unfold concat8R
  match k, hj with
  | ⟨0, _⟩, hj =>
    exact rb_concat_piece _ _ b s j l 0 (by show (0 : Nat) < 8; omega) a0 rfl 0 rfl (by have h' : j.val = 20 * 0 + l.val := hj; omega)
  | ⟨1, _⟩, hj =>
    exact rb_concat_piece _ _ b s j l 1 (by show (1 : Nat) < 8; omega) a1 rfl 20 rfl (by have h' : j.val = 20 * 1 + l.val := hj; omega)
  | ⟨2, _⟩, hj =>
    exact rb_concat_piece _ _ b s j l 2 (by show (2 : Nat) < 8; omega) a2 rfl 40 rfl (by have h' : j.val = 20 * 2 + l.val := hj; omega)
  | ⟨3, _⟩, hj =>
    exact rb_concat_piece _ _ b s j l 3 (by show (3 : Nat) < 8; omega) a3 rfl 60 rfl (by have h' : j.val = 20 * 3 + l.val := hj; omega)
  | ⟨4, _⟩, hj =>
    exact rb_concat_piece _ _ b s j l 4 (by show (4 : Nat) < 8; omega) a4 rfl 80 rfl (by have h' : j.val = 20 * 4 + l.val := hj; omega)
  | ⟨5, _⟩, hj =>
    exact rb_concat_piece _ _ b s j l 5 (by show (5 : Nat) < 8; omega) a5 rfl 100 rfl (by have h' : j.val = 20 * 5 + l.val := hj; omega)
  | ⟨6, _⟩, hj =>
    exact rb_concat_piece _ _ b s j l 6 (by show (6 : Nat) < 8; omega) a6 rfl 120 rfl (by have h' : j.val = 20 * 6 + l.val := hj; omega)
  | ⟨7, _⟩, hj =>
    exact rb_concat_piece _ _ b s j l 7 (by show (7 : Nat) < 8; omega) a7 rfl 140 rfl (by have h' : j.val = 20 * 7 + l.val := hj; omega)
  | ⟨n + 8, hn⟩, _ => exact absurd hn (by omega)

end Cert.ReferenceIdeal.MP

end
-- ==== Proof.RPieces.lean ====
/-
  The reference's two results, entry by entry: lane 20·k + l of row s of batch entry b is piece k of the Spec's
  reference-arranged pieces at (s, l), of batch entry b of the halves and of the weights.
-/
import proofs.«111495_j13082470383656_2_alg».proof.Proof.RReadA
import proofs.«111495_j13082470383656_2_alg».proof.Proof.RReadB

noncomputable section

namespace Cert.ReferenceIdeal.MP

open Idealize.ShloMosaic Idealize.ShloMosaic.ValueIdx Cert.ReferenceIdeal Cert.MP

variable [Cert.ReferenceIdeal.Facts]

/-- Batch entry b of the reference's data: the four 64 x 300 halves and the weights. -/
def insR (pf pb qf qb : FVec Ideal S32x64x300 .f32) (W : FVec Ideal S8x20x300 .f32) (b : Fin 32) : Ins 300 where
  pf := fun s h => pf (ix3 b s h)
  pb := fun s h => pb (ix3 b s h)
  qf := fun s h => qf (ix3 b s h)
  qb := fun s h => qb (ix3 b s h)
  w := fun k l h => W (ix3 k l h)

/-- Row 63 of the other side, repeated on every row, entry by entry. -/
theorem rp_rowRep63_fun (hs : S32x64x300.Slices ![0, 63, 0] S32x1x300) (Y : FVec Ideal S32x64x300 .f32) (b : Fin 32) :
    (fun s h => rowRepR ![0, 63, 0] hs Y (ix3 b s h)) = rowf 63 (fun s h => Y (ix3 b s h)) := by
  funext s h; exact rowRepR63_apply Y b s h

/-- Row 0 of the other side, repeated on every row, entry by entry. -/
theorem rp_rowRep0_fun (hs : S32x64x300.Slices ![0, 0, 0] S32x1x300) (Y : FVec Ideal S32x64x300 .f32) (b : Fin 32) :
    (fun s h => rowRepR ![0, 0, 0] hs Y (ix3 b s h)) = rowf 0 (fun s h => Y (ix3 b s h)) := by
  funext s h; exact rowRepR0_apply Y b s h

/-- Perspective block k of the weights, entry by entry. -/
theorem rp_wBlk_fun (o : Fin 3 → Nat) (hs : S8x20x300.Slices o S1x20x300) (W : FVec Ideal S8x20x300 .f32)
    (k : Fin 8) (hk : o 0 = k.val) (h1 : o 1 = 0) (h2 : o 2 = 0) :
    (fun l h => wBlkR o hs W (ix2 l h)) = fun l h => W (ix3 k l h) := by
  funext l h; exact wBlkR_apply o hs W k hk h1 h2 l h

/-- The plain cosine matrix of a batch entry. -/
theorem rp_cs_fun (X Y : FVec Ideal S32x64x300 .f32) (b : Fin 32) :
    (fun s t => csR X Y (ix3 b s t)) = csf (fun s h => X (ix3 b s h)) (fun s h => Y (ix3 b s h)) := by
  funext s t; exact csR_apply X Y b s t

/-- The cosine-weighted mean of the second side's rows, of a batch entry. -/
theorem rp_meanQ_fun (X Y : FVec Ideal S32x64x300 .f32) (b : Fin 32) :
    (fun s h => meanQR (csR X Y) Y (ix3 b s h)) = meanQf (csf (fun s h => X (ix3 b s h)) (fun s h => Y (ix3 b s h))) (fun s h => Y (ix3 b s h)) := by
  rw [← rp_cs_fun]; funext s h; exact meanQR_apply (csR X Y) Y b s h

/-- The cosine-weighted mean of the first side's rows, of a batch entry. -/
theorem rp_meanP_fun (X Y : FVec Ideal S32x64x300 .f32) (b : Fin 32) :
    (fun t h => meanPR (csR X Y) X (ix3 b t h)) = meanPf (csf (fun s h => X (ix3 b s h)) (fun s h => Y (ix3 b s h))) (fun s h => X (ix3 b s h)) := by
  rw [← rp_cs_fun]; funext t h; exact meanPR_apply (csR X Y) X b t h

/-- The maximum of the cosine-weighted rows of the second side, of a batch entry. -/
theorem rp_maxQ_fun (X Y : FVec Ideal S32x64x300 .f32) (b : Fin 32) :
    (fun s h => maxQR Y (csR X Y) (ix3 b s h)) = maxQf (fun s h => Y (ix3 b s h)) (csf (fun s h => X (ix3 b s h)) (fun s h => Y (ix3 b s h))) := by
  rw [← rp_cs_fun]; funext s h; exact maxQR_apply Y (csR X Y) b s h

/-- The maximum of the cosine-weighted rows of the first side, of a batch entry. -/
theorem rp_maxP_fun (X Y : FVec Ideal S32x64x300 .f32) (b : Fin 32) :
    (fun t h => maxPR X (csR X Y) (ix3 b t h)) = maxPf (fun s h => X (ix3 b s h)) (csf (fun s h => X (ix3 b s h)) (fun s h => Y (ix3 b s h))) := by
  rw [← rp_cs_fun]; funext t h; exact maxPR_apply X (csR X Y) b t h

/-- A matching-rows piece, its three operands given entry by entry. -/
theorem rp_piece_mp (X Y : FVec Ideal S32x64x300 .f32) (w : FVec Ideal S20x300 .f32) (b : Fin 32) (s : Fin 64) (l : Fin 20)
    (x y : Rows 300) (wf : Wts 300) (hx : (fun s h => X (ix3 b s h)) = x) (hy : (fun s h => Y (ix3 b s h)) = y) (hw : (fun l h => w (ix2 l h)) = wf) :
    mpR X Y w (ix3 b s l) = mpRf x y wf s l := by
  subst hx hy hw; exact mpR_apply X Y w b s l

/-- An every-row-against-every-row piece, maximum over the second side's rows. -/
theorem rp_piece_pp (X Y : FVec Ideal S32x64x300 .f32) (w : FVec Ideal S20x300 .f32) (b : Fin 32) (s : Fin 64) (l : Fin 20)
    (x y : Rows 300) (wf : Wts 300) (hx : (fun s h => X (ix3 b s h)) = x) (hy : (fun s h => Y (ix3 b s h)) = y) (hw : (fun l h => w (ix2 l h)) = wf) :
    ppR (mxR X Y w) (ix3 b s l) = ppf (mxRf x y wf) s l := by
  subst hx hy hw
  rw [ppR_apply]
  exact congrArg (fun c => ppf c s l) (funext fun l => funext fun s => funext fun t => mxR_apply X Y w b s t l)

/-- An every-row-against-every-row piece, maximum over the first side's rows. -/
theorem rp_piece_pq (X Y : FVec Ideal S32x64x300 .f32) (w : FVec Ideal S20x300 .f32) (b : Fin 32) (t : Fin 64) (l : Fin 20)
    (x y : Rows 300) (wf : Wts 300) (hx : (fun s h => X (ix3 b s h)) = x) (hy : (fun s h => Y (ix3 b s h)) = y) (hw : (fun l h => w (ix2 l h)) = wf) :
    pqR (mxR X Y w) (ix3 b t l) = pqf (mxRf x y wf) t l := by
  subst hx hy hw
  rw [pqR_apply]
  exact congrArg (fun c => pqf c t l) (funext fun l => funext fun s => funext fun t => mxR_apply X Y w b s t l)

/-- Eight 20-lane pieces side by side: lane 20·k + l is piece k at l, whatever the pieces are. -/
theorem rp_concat8_cases (a0 a1 a2 a3 a4 a5 a6 a7 : FVec Ideal S32x64x20 .f32) (P : Fin 8 → Fin 64 → Fin 20 → EReal) (b : Fin 32)
    (h0 : ∀ s l, a0 (ix3 b s l) = P ⟨0, by omega⟩ s l) (h1 : ∀ s l, a1 (ix3 b s l) = P ⟨1, by omega⟩ s l)
    (h2 : ∀ s l, a2 (ix3 b s l) = P ⟨2, by omega⟩ s l) (h3 : ∀ s l, a3 (ix3 b s l) = P ⟨3, by omega⟩ s l)
    (h4 : ∀ s l, a4 (ix3 b s l) = P ⟨4, by omega⟩ s l) (h5 : ∀ s l, a5 (ix3 b s l) = P ⟨5, by omega⟩ s l)
    (h6 : ∀ s l, a6 (ix3 b s l) = P ⟨6, by omega⟩ s l) (h7 : ∀ s l, a7 (ix3 b s l) = P ⟨7, by omega⟩ s l)
    (s : Fin 64) (k : Fin 8) (l : Fin 20) (j : Fin 160) (hj : j.val = 20 * k.val + l.val) :
    concat8R a0 a1 a2 a3 a4 a5 a6 a7 (ix3 b s j) = P k s l := by
  rw [concat8R_apply a0 a1 a2 a3 a4 a5 a6 a7 b s k l j hj]
  match k with
  | ⟨0, _⟩ => exact h0 s l
  | ⟨1, _⟩ => exact h1 s l
  | ⟨2, _⟩ => exact h2 s l
  | ⟨3, _⟩ => exact h3 s l
  | ⟨4, _⟩ => exact h4 s l
  | ⟨5, _⟩ => exact h5 s l
  | ⟨6, _⟩ => exact h6 s l
  | ⟨7, _⟩ => exact h7 s l
  | ⟨_ + 8, h⟩ => exact absurd h (by omega)

theorem refPof_apply (pf pb qf qb : FVec Ideal S32x64x300 .f32) (W : FVec Ideal S8x20x300 .f32) (b : Fin 32) (s : Fin 64) (k : Fin 8) (l : Fin 20)
    (j : Fin 160) (hj : j.val = 20 * k.val + l.val) :
    refPof pf pb qf qb W (ix3 b s j) = pieceRP (insR pf pb qf qb W b) k s l := by
  unfold refPof
  refine rp_concat8_cases _ _ _ _ _ _ _ _ (pieceRP (insR pf pb qf qb W b)) b ?_ ?_ ?_ ?_ ?_ ?_ ?_ ?_ s k l j hj
  · intro s l; exact rp_piece_mp _ _ _ b s l _ _ _ rfl (rp_rowRep63_fun _ qf b) (rp_wBlk_fun _ _ W 0 rfl rfl rfl)
  · intro s l; exact rp_piece_mp _ _ _ b s l _ _ _ rfl (rp_rowRep0_fun _ qb b) (rp_wBlk_fun _ _ W 1 rfl rfl rfl)
  · intro s l; exact rp_piece_pp _ _ _ b s l _ _ _ rfl rfl (rp_wBlk_fun _ _ W 2 rfl rfl rfl)
  · intro s l; exact rp_piece_pp _ _ _ b s l _ _ _ rfl rfl (rp_wBlk_fun _ _ W 3 rfl rfl rfl)
  · intro s l; exact rp_piece_mp _ _ _ b s l _ _ _ rfl (rp_meanQ_fun pf qf b) (rp_wBlk_fun _ _ W 4 rfl rfl rfl)
  · intro s l; exact rp_piece_mp _ _ _ b s l _ _ _ rfl (rp_meanQ_fun pb qb b) (rp_wBlk_fun _ _ W 5 rfl rfl rfl)
  · intro s l; exact rp_piece_mp _ _ _ b s l _ _ _ rfl (rp_maxQ_fun pf qf b) (rp_wBlk_fun _ _ W 6 rfl rfl rfl)
  · intro s l; exact rp_piece_mp _ _ _ b s l _ _ _ rfl (rp_maxQ_fun pb qb b) (rp_wBlk_fun _ _ W 7 rfl rfl rfl)

theorem refQof_apply (pf pb qf qb : FVec Ideal S32x64x300 .f32) (W : FVec Ideal S8x20x300 .f32) (b : Fin 32) (s : Fin 64) (k : Fin 8) (l : Fin 20)
    (j : Fin 160) (hj : j.val = 20 * k.val + l.val) :
    refQof pf pb qf qb W (ix3 b s j) = pieceRQ (insR pf pb qf qb W b) k s l := by
  unfold refQof
  refine rp_concat8_cases _ _ _ _ _ _ _ _ (pieceRQ (insR pf pb qf qb W b)) b ?_ ?_ ?_ ?_ ?_ ?_ ?_ ?_ s k l j hj
  · intro s l; exact rp_piece_mp _ _ _ b s l _ _ _ rfl (rp_rowRep63_fun _ pf b) (rp_wBlk_fun _ _ W 0 rfl rfl rfl)
  · intro s l; exact rp_piece_mp _ _ _ b s l _ _ _ rfl (rp_rowRep0_fun _ pb b) (rp_wBlk_fun _ _ W 1 rfl rfl rfl)
  · intro s l; exact rp_piece_pq _ _ _ b s l _ _ _ rfl rfl (rp_wBlk_fun _ _ W 2 rfl rfl rfl)
  · intro s l; exact rp_piece_pq _ _ _ b s l _ _ _ rfl rfl (rp_wBlk_fun _ _ W 3 rfl rfl rfl)
  · intro s l; exact rp_piece_mp _ _ _ b s l _ _ _ rfl (rp_meanP_fun pf qf b) (rp_wBlk_fun _ _ W 4 rfl rfl rfl)
  · intro s l; exact rp_piece_mp _ _ _ b s l _ _ _ rfl (rp_meanP_fun pb qb b) (rp_wBlk_fun _ _ W 5 rfl rfl rfl)
  · intro s l; exact rp_piece_mp _ _ _ b s l _ _ _ rfl (rp_maxP_fun pf qf b) (rp_wBlk_fun _ _ W 6 rfl rfl rfl)
  · intro s l; exact rp_piece_mp _ _ _ b s l _ _ _ rfl (rp_maxP_fun pb qb b) (rp_wBlk_fun _ _ W 7 rfl rfl rfl)

end Cert.ReferenceIdeal.MP

end
-- ==== Proof.Algebra.lean ====
/-
  The kernel's arrangement over 384 zero-padded lanes equals the reference's over 300 lanes: a product of two
  entries weighted by the squared weight is the product of the two weighted entries, (x·y)·(w·w) = (x·w)·(y·w),
  by commutativity and associativity of the product of extended reals alone; and a padded lane contributes
  (x·y)·(0·0) = 0 whatever x and y are there.  No finiteness is needed.
-/
import proofs.«111495_j13082470383656_2_alg».proof.Proof.Spec

noncomputable section

namespace Cert.MP

open Idealize.ShloMosaic

/-- A sum over 384 lanes whose terms vanish from lane 300 on is the sum over the first 300 lanes:
split 384 = 300 + 84; the second block is a sum of zeros. -/
theorem al_sum_pad (f : Fin 384 → EReal) (g : Fin 300 → EReal)
    (h1 : ∀ h : Fin 300, f ⟨h.val, by omega⟩ = g h) (h2 : ∀ h : Fin 384, 300 ≤ h.val → f h = 0) :
    ∑ h, f h = ∑ h, g h := by
  have hs := Fin.sum_univ_add (a := 300) (b := 84) (M := EReal) f
  refine hs.trans ?_
  have hA : ∀ i : Fin 300, f (Fin.castAdd 84 i) = g i := fun i => h1 i
  have hB : ∀ j : Fin 84, f (Fin.natAdd 300 j) = 0 := fun j => h2 _ (by simp [Fin.natAdd])
  simp only [hA, hB, Finset.sum_const_zero, add_zero]

/-- Two 384-lane row families agree with 300-lane ones on the first 300 lanes (nothing is said of the tail). -/
def al_Agree (x' : Rows 384) (x : Rows 300) : Prop :=
  ∀ (s : Fin 64) (h : Fin 300), x' s ⟨h.val, by omega⟩ = x s h

/-- The weighted sum of products: `(a·b)·(w'·w')` over 384 lanes is `(a·w)·(b·w)` over 300 lanes.  On a padded
lane the weight is 0, so the term is `(a·b)·(0·0) = 0` whatever `a` and `b` are there. -/
theorem al_wsum (a b : Fin 384 → EReal) (a0 b0 : Fin 300 → EReal) (w2 w' : Fin 384 → EReal) (w : Fin 300 → EReal)
    (ha : ∀ h : Fin 300, a ⟨h.val, by omega⟩ = a0 h) (hb : ∀ h : Fin 300, b ⟨h.val, by omega⟩ = b0 h)
    (hw : PadOf w' w) (hsq : ∀ h, w2 h = w' h * w' h) :
    ∑ h, (a h * b h) * w2 h = ∑ h, (a0 h * w h) * (b0 h * w h) := by
  refine al_sum_pad _ _ (fun h => ?_) (fun h hh => ?_)
  · rw [ha h, hb h, hsq, hw.1 h]; exact mul_mul_mul_comm _ _ _ _
  · rw [hsq, hw.2 h hh, mul_zero, mul_zero]

/-- The same with the squared weight attached to the first factor: `(a·(w'·w'))·b = (a·w)·(b·w)`. -/
theorem al_wsum_mx (a b : Fin 384 → EReal) (a0 b0 : Fin 300 → EReal) (w2 w' : Fin 384 → EReal) (w : Fin 300 → EReal)
    (ha : ∀ h : Fin 300, a ⟨h.val, by omega⟩ = a0 h) (hb : ∀ h : Fin 300, b ⟨h.val, by omega⟩ = b0 h)
    (hw : PadOf w' w) (hsq : ∀ h, w2 h = w' h * w' h) :
    ∑ h, (a h * w2 h) * b h = ∑ h, (a0 h * w h) * (b0 h * w h) := by
  refine al_sum_pad _ _ (fun h => ?_) (fun h hh => ?_)
  · rw [ha h, hb h, hsq, hw.1 h]
    calc a0 h * (w h * w h) * b0 h = a0 h * (w h * (b0 h * w h)) := by
          rw [mul_assoc, mul_assoc, mul_comm (w h) (b0 h)]
      _ = a0 h * w h * (b0 h * w h) := (mul_assoc _ _ _).symm
  · rw [hsq, hw.2 h hh, mul_zero, mul_zero, zero_mul]

/-- The plain dot product of two padded rows: a padded lane contributes `0·0 = 0`. -/
theorem al_dot (a b : Fin 384 → EReal) (a0 b0 : Fin 300 → EReal) (ha : PadOf a a0) (hb : PadOf b b0) :
    ∑ h, a h * b h = ∑ h, a0 h * b0 h := by
  refine al_sum_pad _ _ (fun h => ?_) (fun h hh => ?_)
  · rw [ha.1 h, hb.1 h]
  · rw [ha.2 h hh, zero_mul]

/-- Matching rows: the kernel's arrangement on rows agreeing with the reference's on the first 300 lanes, under
squared padded weights, is the reference's arrangement. -/
theorem al_mp (x' y' : Rows 384) (x y : Rows 300) (w2 W' : Wts 384) (w : Wts 300)
    (hx : al_Agree x' x) (hy : al_Agree y' y) (hw : ∀ l, PadOf (W' l) (w l))
    (hsq : ∀ l h, w2 l h = W' l h * W' l h) : mpKf x' y' w2 = mpRf x y w := by
  funext s l
  have h1 := al_wsum (x' s) (y' s) (x s) (y s) (w2 l) (W' l) (w l) (hx s) (hy s) (hw l) (hsq l)
  have h2 := al_wsum (x' s) (x' s) (x s) (x s) (w2 l) (W' l) (w l) (hx s) (hx s) (hw l) (hsq l)
  have h3 := al_wsum (y' s) (y' s) (y s) (y s) (w2 l) (W' l) (w l) (hy s) (hy s) (hw l) (hsq l)
  show cosG _ _ _ = cosG _ _ _
  rw [h1, h2, h3]

/-- Every row against every row: likewise. -/
theorem al_mx (x' y' : Rows 384) (x y : Rows 300) (w2 W' : Wts 384) (w : Wts 300)
    (hx : al_Agree x' x) (hy : al_Agree y' y) (hw : ∀ l, PadOf (W' l) (w l))
    (hsq : ∀ l h, w2 l h = W' l h * W' l h) : mxKf x' y' w2 = mxRf x y w := by
  funext l s t
  have h1 := al_wsum_mx (x' s) (y' t) (x s) (y t) (w2 l) (W' l) (w l) (hx s) (hy t) (hw l) (hsq l)
  have h2 := al_wsum (x' s) (x' s) (x s) (x s) (w2 l) (W' l) (w l) (hx s) (hx s) (hw l) (hsq l)
  have h3 := al_wsum (y' t) (y' t) (y t) (y t) (w2 l) (W' l) (w l) (hy t) (hy t) (hw l) (hsq l)
  show cos0 _ _ _ = cos0 _ _ _
  rw [h1, h2, h3]

/-- The plain cosine matrix of padded rows is that of the unpadded rows. -/
theorem al_cs (x' y' : Rows 384) (x y : Rows 300) (hx : ∀ s, PadOf (x' s) (x s)) (hy : ∀ s, PadOf (y' s) (y s)) :
    csf x' y' = csf x y := by
  funext s t
  show cos0 _ _ _ = cos0 _ _ _
  rw [al_dot _ _ _ _ (hx s) (hy t), al_dot _ _ _ _ (hx s) (hx s), al_dot _ _ _ _ (hy t) (hy t)]

/-- Padded rows agree with the unpadded ones on the first 300 lanes. -/
theorem al_agree_of_pad (x' : Rows 384) (x : Rows 300) (hx : ∀ s, PadOf (x' s) (x s)) : al_Agree x' x :=
  fun s h => (hx s).1 h

/-- One row on every row: the lane index is untouched. -/
theorem al_agree_row (r : Fin 64) (y' : Rows 384) (y : Rows 300) (hy : al_Agree y' y) :
    al_Agree (rowf r y') (rowf r y) := fun _ h => hy r h

/-- The weighted means: the lane index is untouched. -/
theorem al_agree_meanQ (c : Sq) (y' : Rows 384) (y : Rows 300) (hy : al_Agree y' y) :
    al_Agree (meanQf c y') (meanQf c y) := by
  intro s h
  show Ideal.div (∑ t, c s t * y' t _) _ = Ideal.div (∑ t, c s t * y t h) _
  simp only [hy _ h]

theorem al_agree_meanP (c : Sq) (x' : Rows 384) (x : Rows 300) (hx : al_Agree x' x) :
    al_Agree (meanPf c x') (meanPf c x) := by
  intro t h
  show Ideal.div (∑ s, c s t * x' s _) _ = Ideal.div (∑ s, c s t * x s h) _
  simp only [hx _ h]

/-- The maxima of weighted rows: the lane index is untouched. -/
theorem al_agree_maxQ (c : Sq) (y' : Rows 384) (y : Rows 300) (hy : al_Agree y' y) :
    al_Agree (maxQf y' c) (maxQf y c) := by
  intro s h
  show (vmax fun t => y' t _ * c s t) = vmax fun t => y t h * c s t
  simp only [hy _ h]

theorem al_agree_maxP (c : Sq) (x' : Rows 384) (x : Rows 300) (hx : al_Agree x' x) :
    al_Agree (maxPf x' c) (maxPf x c) := by
  intro t h
  show (vmax fun s => x' s _ * c s t) = vmax fun s => x s h * c s t
  simp only [hx _ h]

theorem pieceP_bridge (I' : Ins 384) (I : Ins 300) (W' : Fin 8 → Wts 384) (h : Padded I' I W') :
    pieceKP I' = pieceRP I := by
  have apf := al_agree_of_pad _ _ h.pf
  have apb := al_agree_of_pad _ _ h.pb
  have aqf := al_agree_of_pad _ _ h.qf
  have aqb := al_agree_of_pad _ _ h.qb
  have cf := al_cs _ _ _ _ h.pf h.qf
  have cb := al_cs _ _ _ _ h.pb h.qb
  funext k
  match k with
  | ⟨0, _⟩ => exact al_mp _ _ _ _ _ _ _ apf (al_agree_row 63 _ _ aqf) (h.w 0) (h.sq 0)
  | ⟨1, _⟩ => exact al_mp _ _ _ _ _ _ _ apb (al_agree_row 0 _ _ aqb) (h.w 1) (h.sq 1)
  | ⟨2, _⟩ => exact congrArg ppf (al_mx _ _ _ _ _ _ _ apf aqf (h.w 2) (h.sq 2))
  | ⟨3, _⟩ => exact congrArg ppf (al_mx _ _ _ _ _ _ _ apb aqb (h.w 3) (h.sq 3))
  | ⟨4, _⟩ =>
    show mpKf I'.pf (meanQf (csf I'.pf I'.qf) I'.qf) (I'.w 4) = mpRf I.pf (meanQf (csf I.pf I.qf) I.qf) (I.w 4)
    rw [cf]; exact al_mp _ _ _ _ _ _ _ apf (al_agree_meanQ _ _ _ aqf) (h.w 4) (h.sq 4)
  | ⟨5, _⟩ =>
    show mpKf I'.pb (meanQf (csf I'.pb I'.qb) I'.qb) (I'.w 5) = mpRf I.pb (meanQf (csf I.pb I.qb) I.qb) (I.w 5)
    rw [cb]; exact al_mp _ _ _ _ _ _ _ apb (al_agree_meanQ _ _ _ aqb) (h.w 5) (h.sq 5)
  | ⟨6, _⟩ =>
    show mpKf I'.pf (maxQf I'.qf (csf I'.pf I'.qf)) (I'.w 6) = mpRf I.pf (maxQf I.qf (csf I.pf I.qf)) (I.w 6)
    rw [cf]; exact al_mp _ _ _ _ _ _ _ apf (al_agree_maxQ _ _ _ aqf) (h.w 6) (h.sq 6)
  | ⟨7, _⟩ =>
    show mpKf I'.pb (maxQf I'.qb (csf I'.pb I'.qb)) (I'.w 7) = mpRf I.pb (maxQf I.qb (csf I.pb I.qb)) (I.w 7)
    rw [cb]; exact al_mp _ _ _ _ _ _ _ apb (al_agree_maxQ _ _ _ aqb) (h.w 7) (h.sq 7)
  | ⟨_ + 8, hk⟩ => exact absurd hk (by omega)

theorem pieceQ_bridge (I' : Ins 384) (I : Ins 300) (W' : Fin 8 → Wts 384) (h : Padded I' I W') :
    pieceKQ I' = pieceRQ I := by
  have apf := al_agree_of_pad _ _ h.pf
  have apb := al_agree_of_pad _ _ h.pb
  have aqf := al_agree_of_pad _ _ h.qf
  have aqb := al_agree_of_pad _ _ h.qb
  have cf := al_cs _ _ _ _ h.pf h.qf
  have cb := al_cs _ _ _ _ h.pb h.qb
  funext k
  match k with
  | ⟨0, _⟩ => exact al_mp _ _ _ _ _ _ _ aqf (al_agree_row 63 _ _ apf) (h.w 0) (h.sq 0)
  | ⟨1, _⟩ => exact al_mp _ _ _ _ _ _ _ aqb (al_agree_row 0 _ _ apb) (h.w 1) (h.sq 1)
  | ⟨2, _⟩ => exact congrArg pqf (al_mx _ _ _ _ _ _ _ apf aqf (h.w 2) (h.sq 2))
  | ⟨3, _⟩ => exact congrArg pqf (al_mx _ _ _ _ _ _ _ apb aqb (h.w 3) (h.sq 3))
  | ⟨4, _⟩ =>
    show mpKf I'.qf (meanPf (csf I'.pf I'.qf) I'.pf) (I'.w 4) = mpRf I.qf (meanPf (csf I.pf I.qf) I.pf) (I.w 4)
    rw [cf]; exact al_mp _ _ _ _ _ _ _ aqf (al_agree_meanP _ _ _ apf) (h.w 4) (h.sq 4)
  | ⟨5, _⟩ =>
    show mpKf I'.qb (meanPf (csf I'.pb I'.qb) I'.pb) (I'.w 5) = mpRf I.qb (meanPf (csf I.pb I.qb) I.pb) (I.w 5)
    rw [cb]; exact al_mp _ _ _ _ _ _ _ aqb (al_agree_meanP _ _ _ apb) (h.w 5) (h.sq 5)
  | ⟨6, _⟩ =>
    show mpKf I'.qf (maxPf I'.pf (csf I'.pf I'.qf)) (I'.w 6) = mpRf I.qf (maxPf I.pf (csf I.pf I.qf)) (I.w 6)
    rw [cf]; exact al_mp _ _ _ _ _ _ _ aqf (al_agree_maxP _ _ _ apf) (h.w 6) (h.sq 6)
  | ⟨7, _⟩ =>
    show mpKf I'.qb (maxPf I'.pb (csf I'.pb I'.qb)) (I'.w 7) = mpRf I.qb (maxPf I.pb (csf I.pb I.qb)) (I.w 7)
    rw [cb]; exact al_mp _ _ _ _ _ _ _ aqb (al_agree_maxP _ _ _ apb) (h.w 7) (h.sq 7)
  | ⟨_ + 8, hk⟩ => exact absurd hk (by omega)

end Cert.MP

end
-- ==== Proof.Bridge.lean ====
/-
  The kernel program's two results are the regrouped reference program's, of the same launch arguments.
  At (b, s, 20·k + l) the kernel's result is piece k of the kernel-arranged pieces of batch entry b of the padded
  arrays; the padded arrays are the arguments' halves and the weights followed by zeros, so the padding algebra
  turns it into piece k of the reference-arranged pieces of batch entry b, which is the reference's result there.
-/
import proofs.«111495_j13082470383656_2_alg».proof.Proof.Gen.ReferenceIdeal
import proofs.«111495_j13082470383656_2_alg».proof.Proof.KArr
import proofs.«111495_j13082470383656_2_alg».proof.Proof.KPre
import proofs.«111495_j13082470383656_2_alg».proof.Proof.KPieces
import proofs.«111495_j13082470383656_2_alg».proof.Proof.RPieces
import proofs.«111495_j13082470383656_2_alg».proof.Proof.Algebra

noncomputable section

namespace Cert.KernelIdeal.MP

open Idealize.ShloMosaic Idealize.ShloMosaic.TcCoe Idealize.SL.Sem Idealize.ShloMosaic.ValueIdx
open Cert.KernelIdeal Cert.KernelIdeal.Gen Cert.MP

variable (m : (ℓ : Loc nD τ sig) → Buf (Elt Ideal) ℓ)

/-- Batch entry b of the padded arrays the region finds is batch entry b of the arguments' halves, zero padded, and
    the region's squared weights are the zero-padded weights squared. -/
theorem padded (c : Dev nD) (b : Fin 32) :
    Padded
      (insK (half0 (F := Ideal) (ent (V m c main_v8) b)) (half1 (F := Ideal) (ent (V m c main_v8) b)) (half0 (F := Ideal) (ent (V m c main_v9) b)) (half1 (F := Ideal) (ent (V m c main_v9) b)) (wsq (F := Ideal) (V m c main_v10)))
      (Cert.ReferenceIdeal.MP.insR (Cert.ReferenceIdeal.MP.halfR0 (F := Ideal) (arg0 m c)) (Cert.ReferenceIdeal.MP.halfR1 (F := Ideal) (arg0 m c))
        (Cert.ReferenceIdeal.MP.halfR0 (F := Ideal) (arg1 m c)) (Cert.ReferenceIdeal.MP.halfR1 (F := Ideal) (arg1 m c)) (arg2 m c) b)
      (fun k l h => (V m c main_v10 : S8x20x384.Idx → EReal) (ix3 k l h)) where
  pf := fun s => ⟨fun h => by
      show half0 (F := Ideal) (ent (V m c main_v8) b) (ix2 s ⟨h.val, _⟩) = Cert.ReferenceIdeal.MP.halfR0 (F := Ideal) (arg0 m c) (ix3 b s h)
      rw [half0_apply, Cert.ReferenceIdeal.MP.halfR0_apply]
      show (V m c main_v8 : S32x64x768.Idx → EReal) (ix3 b s ⟨h.val, _⟩) = _
      rw [V8_lo m c b s ⟨h.val, by omega⟩, dif_pos h.isLt],
    fun h hh => by
      show half0 (F := Ideal) (ent (V m c main_v8) b) (ix2 s h) = (0 : EReal)
      rw [half0_apply]
      show (V m c main_v8 : S32x64x768.Idx → EReal) (ix3 b s ⟨h.val, _⟩) = _
      rw [V8_lo m c b s h, dif_neg (by omega)]⟩
  pb := fun s => ⟨fun h => by
      show half1 (F := Ideal) (ent (V m c main_v8) b) (ix2 s ⟨h.val, _⟩) = Cert.ReferenceIdeal.MP.halfR1 (F := Ideal) (arg0 m c) (ix3 b s h)
      rw [half1_apply, Cert.ReferenceIdeal.MP.halfR1_apply]
      show (V m c main_v8 : S32x64x768.Idx → EReal) (ix3 b s ⟨384 + h.val, _⟩) = _
      rw [V8_hi m c b s ⟨h.val, by omega⟩, dif_pos h.isLt],
    fun h hh => by
      show half1 (F := Ideal) (ent (V m c main_v8) b) (ix2 s h) = (0 : EReal)
      rw [half1_apply]
      show (V m c main_v8 : S32x64x768.Idx → EReal) (ix3 b s ⟨384 + h.val, _⟩) = _
      rw [V8_hi m c b s h, dif_neg (by omega)]⟩
  qf := fun s => ⟨fun h => by
      show half0 (F := Ideal) (ent (V m c main_v9) b) (ix2 s ⟨h.val, _⟩) = Cert.ReferenceIdeal.MP.halfR0 (F := Ideal) (arg1 m c) (ix3 b s h)
      rw [half0_apply, Cert.ReferenceIdeal.MP.halfR0_apply]
      show (V m c main_v9 : S32x64x768.Idx → EReal) (ix3 b s ⟨h.val, _⟩) = _
      rw [V9_lo m c b s ⟨h.val, by omega⟩, dif_pos h.isLt],
    fun h hh => by
      show half0 (F := Ideal) (ent (V m c main_v9) b) (ix2 s h) = (0 : EReal)
      rw [half0_apply]
      show (V m c main_v9 : S32x64x768.Idx → EReal) (ix3 b s ⟨h.val, _⟩) = _
      rw [V9_lo m c b s h, dif_neg (by omega)]⟩
  qb := fun s => ⟨fun h => by
      show half1 (F := Ideal) (ent (V m c main_v9) b) (ix2 s ⟨h.val, _⟩) = Cert.ReferenceIdeal.MP.halfR1 (F := Ideal) (arg1 m c) (ix3 b s h)
      rw [half1_apply, Cert.ReferenceIdeal.MP.halfR1_apply]
      show (V m c main_v9 : S32x64x768.Idx → EReal) (ix3 b s ⟨384 + h.val, _⟩) = _
      rw [V9_hi m c b s ⟨h.val, by omega⟩, dif_pos h.isLt],
    fun h hh => by
      show half1 (F := Ideal) (ent (V m c main_v9) b) (ix2 s h) = (0 : EReal)
      rw [half1_apply]
      show (V m c main_v9 : S32x64x768.Idx → EReal) (ix3 b s ⟨384 + h.val, _⟩) = _
      rw [V9_hi m c b s h, dif_neg (by omega)]⟩
  w := fun k l => ⟨fun h => by
      show (V m c main_v10 : S8x20x384.Idx → EReal) (ix3 k l ⟨h.val, _⟩) = (arg2 m c) (ix3 k l h)
      rw [V10_apply m c k l ⟨h.val, by omega⟩, dif_pos h.isLt],
    fun h hh => by
      show (V m c main_v10 : S8x20x384.Idx → EReal) (ix3 k l h) = (0 : EReal)
      rw [V10_apply m c k l h, dif_neg (by omega)]⟩
  sq := fun k l h => wsq_apply _ k l h

/-- The kernel program's first result is the regrouped reference's, entry by entry. -/
theorem KP_eq (c : Dev nD) :
    KP m c = Cert.ReferenceIdeal.MP.refP (F := Ideal) (arg0 m c) (arg1 m c) (arg2 m c) := by
  funext i
  obtain ⟨b, s, j, rfl⟩ : ∃ (b : Fin 32) (s : Fin 64) (j : Fin 160), i = ix3 b s j := ⟨i 0, i 1, i 2, eq_ix3 i⟩
  have hk : j.val / 20 < 8 := by have := j.isLt; omega
  have hl : j.val % 20 < 20 := Nat.mod_lt _ (by decide)
  have hj : j.val = 20 * (⟨j.val / 20, hk⟩ : Fin 8).val + (⟨j.val % 20, hl⟩ : Fin 20).val := (Nat.div_add_mod j.val 20).symm
  have hj256 : j.val < 256 := by have := j.isLt; omega
  -- the kernel side: the host slice keeps lane j; the array holds the body's value of batch entry b there
  have eK : KP m c (ix3 b s j)
      = outPof (F := Ideal) (half0 (F := Ideal) (ent (V m c main_v8) b)) (half1 (F := Ideal) (ent (V m c main_v8) b)) (half0 (F := Ideal) (ent (V m c main_v9) b)) (half1 (F := Ideal) (ent (V m c main_v9) b))
          (wsq (F := Ideal) (V m c main_v10)) (ix3 (0 : Fin 1) s ⟨j.val, hj256⟩) := by
    unfold KP
    refine (extractStridedSlice_apply ![0, 0, 0] _ Facts₀.slices_S32x64x256_S32x64x160_0_0_0 (ix3 b s j) (ix3 b s ⟨j.val, hj256⟩) (fun a => ?_)).trans ?_
    · match a with
      | ⟨0, _⟩ => show b.val = 0 + b.val; omega
      | ⟨1, _⟩ => show s.val = 0 + s.val; omega
      | ⟨2, _⟩ => show j.val = 0 + j.val; omega
    · rfl
  rw [eK, outPof_apply _ _ _ _ _ s ⟨j.val / 20, hk⟩ ⟨j.val % 20, hl⟩ ⟨j.val, hj256⟩ hj]
  -- the reference side
  have eR : Cert.ReferenceIdeal.MP.refP (F := Ideal) (arg0 m c) (arg1 m c) (arg2 m c) (ix3 b s j)
      = Cert.MP.pieceRP (Cert.ReferenceIdeal.MP.insR (Cert.ReferenceIdeal.MP.halfR0 (F := Ideal) (arg0 m c)) (Cert.ReferenceIdeal.MP.halfR1 (F := Ideal) (arg0 m c))
          (Cert.ReferenceIdeal.MP.halfR0 (F := Ideal) (arg1 m c)) (Cert.ReferenceIdeal.MP.halfR1 (F := Ideal) (arg1 m c)) (arg2 m c) b) ⟨j.val / 20, hk⟩ s ⟨j.val % 20, hl⟩ :=
    Cert.ReferenceIdeal.MP.refPof_apply _ _ _ _ _ b s ⟨j.val / 20, hk⟩ ⟨j.val % 20, hl⟩ j hj
  rw [eR]
  exact congrFun (congrFun (congrFun (Cert.MP.pieceP_bridge _ _ (fun k l h => (V m c main_v10 : S8x20x384.Idx → EReal) (ix3 k l h)) (padded m c b)) _) _) _

/-- The kernel program's second result is the regrouped reference's, entry by entry. -/
theorem KQ_eq (c : Dev nD) :
    KQ m c = Cert.ReferenceIdeal.MP.refQ (F := Ideal) (arg0 m c) (arg1 m c) (arg2 m c) := by
  funext i
  obtain ⟨b, s, j, rfl⟩ : ∃ (b : Fin 32) (s : Fin 64) (j : Fin 160), i = ix3 b s j := ⟨i 0, i 1, i 2, eq_ix3 i⟩
  have hk : j.val / 20 < 8 := by have := j.isLt; omega
  have hl : j.val % 20 < 20 := Nat.mod_lt _ (by decide)
  have hj : j.val = 20 * (⟨j.val / 20, hk⟩ : Fin 8).val + (⟨j.val % 20, hl⟩ : Fin 20).val := (Nat.div_add_mod j.val 20).symm
  have hj256 : j.val < 256 := by have := j.isLt; omega
  -- the kernel side: the host slice keeps lane j; the array holds the body's value of batch entry b there
  have eK : KQ m c (ix3 b s j)
      = outQof (F := Ideal) (half0 (F := Ideal) (ent (V m c main_v8) b)) (half1 (F := Ideal) (ent (V m c main_v8) b)) (half0 (F := Ideal) (ent (V m c main_v9) b)) (half1 (F := Ideal) (ent (V m c main_v9) b))
          (wsq (F := Ideal) (V m c main_v10)) (ix3 (0 : Fin 1) s ⟨j.val, hj256⟩) := by
    unfold KQ
    refine (extractStridedSlice_apply ![0, 0, 0] _ Facts₀.slices_S32x64x256_S32x64x160_0_0_0 (ix3 b s j) (ix3 b s ⟨j.val, hj256⟩) (fun a => ?_)).trans ?_
    · match a with
      | ⟨0, _⟩ => show b.val = 0 + b.val; omega
      | ⟨1, _⟩ => show s.val = 0 + s.val; omega
      | ⟨2, _⟩ => show j.val = 0 + j.val; omega
    · rfl
  rw [eK, outQof_apply _ _ _ _ _ s ⟨j.val / 20, hk⟩ ⟨j.val % 20, hl⟩ ⟨j.val, hj256⟩ hj]
  -- the reference side
  have eR : Cert.ReferenceIdeal.MP.refQ (F := Ideal) (arg0 m c) (arg1 m c) (arg2 m c) (ix3 b s j)
      = Cert.MP.pieceRQ (Cert.ReferenceIdeal.MP.insR (Cert.ReferenceIdeal.MP.halfR0 (F := Ideal) (arg0 m c)) (Cert.ReferenceIdeal.MP.halfR1 (F := Ideal) (arg0 m c))
          (Cert.ReferenceIdeal.MP.halfR0 (F := Ideal) (arg1 m c)) (Cert.ReferenceIdeal.MP.halfR1 (F := Ideal) (arg1 m c)) (arg2 m c) b) ⟨j.val / 20, hk⟩ s ⟨j.val % 20, hl⟩ :=
    Cert.ReferenceIdeal.MP.refQof_apply _ _ _ _ _ b s ⟨j.val / 20, hk⟩ ⟨j.val % 20, hl⟩ j hj
  rw [eR]
  exact congrFun (congrFun (congrFun (Cert.MP.pieceQ_bridge _ _ (fun k l h => (V m c main_v10 : S8x20x384.Idx → EReal) (ix3 k l h)) (padded m c b)) _) _) _

end Cert.KernelIdeal.MP

end
-- ==== Proof.RunC1.lean ====
/-
  Operations 1–37 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c1 : List (HloOp τ sig (Elt F)) :=
  [ unary main_arg0 main_v0 ((extractStridedSlice S32x64x300 ![0, 0, 0] · slices_S32x64x600_S32x64x300_0_0_0) : (⟨S32x64x600, .f32⟩ : BufTy).Contents (Elt F) → (⟨S32x64x300, .f32⟩ : BufTy).Contents (Elt F)),
    unary main_arg0 main_v1 ((extractStridedSlice S32x64x300 ![0, 0, 300] · slices_S32x64x600_S32x64x300_0_0_300) : (⟨S32x64x600, .f32⟩ : BufTy).Contents (Elt F) → (⟨S32x64x300, .f32⟩ : BufTy).Contents (Elt F)),
    unary main_arg1 main_v2 ((extractStridedSlice S32x64x300 ![0, 0, 0] · slices_S32x64x600_S32x64x300_0_0_0) : (⟨S32x64x600, .f32⟩ : BufTy).Contents (Elt F) → (⟨S32x64x300, .f32⟩ : BufTy).Contents (Elt F)),
    unary main_arg1 main_v3 ((extractStridedSlice S32x64x300 ![0, 0, 300] · slices_S32x64x600_S32x64x300_0_0_300) : (⟨S32x64x600, .f32⟩ : BufTy).Contents (Elt F) → (⟨S32x64x300, .f32⟩ : BufTy).Contents (Elt F)),
    unary main_arg2 main_v4 ((extractStridedSlice S1x20x300 ![0, 0, 0] · slices_S8x20x300_S1x20x300_0_0_0) : (⟨S8x20x300, .f32⟩ : BufTy).Contents (Elt F) → (⟨S1x20x300, .f32⟩ : BufTy).Contents (Elt F)),
    reshape main_v4 main_v5 rfl shapeCasts_S1x20x300_S20x300,
    unary main_v2 main_v6 ((extractStridedSlice S32x1x300 ![0, 63, 0] · slices_S32x64x300_S32x1x300_0_63_0) : (⟨S32x64x300, .f32⟩ : BufTy).Contents (Elt F) → (⟨S32x1x300, .f32⟩ : BufTy).Contents (Elt F)),
    reshape main_v6 main_v7 rfl shapeCasts_S32x1x300_S32x300,
    unary main_v7 main_v8 (broadcastInDim S32x1x300 ![0, 2] bcast_S32x300_S32x1x300_0_2 : (⟨S32x300, .f32⟩ : BufTy).Contents (Elt F) → (⟨S32x1x300, .f32⟩ : BufTy).Contents (Elt F)),
    unary main_v8 main_v9 (broadcastInDim S32x64x300 ![0, 1, 2] bcast_S32x1x300_S32x64x300_0_1_2 : (⟨S32x1x300, .f32⟩ : BufTy).Contents (Elt F) → (⟨S32x64x300, .f32⟩ : BufTy).Contents (Elt F)),
    unary main_v0 main_v10 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v5 main_v11 (broadcastInDim S1x20x1x300 ![1, 3] bcast_S20x300_S1x20x1x300_1_3 : (⟨S20x300, .f32⟩ : BufTy).Contents (Elt F) → (⟨S1x20x1x300, .f32⟩ : BufTy).Contents (Elt F)),
    unary main_v10 main_v12 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v11 main_v13 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v12 main_v13 main_v14 (mulf : (⟨S32x20x64x300, .f32⟩ : BufTy).Contents (Elt F) → (⟨S32x20x64x300, .f32⟩ : BufTy).Contents (Elt F) → (⟨S32x20x64x300, .f32⟩ : BufTy).Contents (Elt F)),
    unary main_v9 main_v15 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v5 main_v16 (broadcastInDim S1x20x1x300 ![1, 3] bcast_S20x300_S1x20x1x300_1_3 : (⟨S20x300, .f32⟩ : BufTy).Contents (Elt F) → (⟨S1x20x1x300, .f32⟩ : BufTy).Contents (Elt F)),
    unary main_v15 main_v17 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v16 main_v18 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v17 main_v18 main_v19 (mulf : (⟨S32x20x64x300, .f32⟩ : BufTy).Contents (Elt F) → (⟨S32x20x64x300, .f32⟩ : BufTy).Contents (Elt F) → (⟨S32x20x64x300, .f32⟩ : BufTy).Contents (Elt F)),
    binary main_v14 main_v19 main_v20 (mulf : (⟨S32x20x64x300, .f32⟩ : BufTy).Contents (Elt F) → (⟨S32x20x64x300, .f32⟩ : BufTy).Contents (Elt F) → (⟨S32x20x64x300, .f32⟩ : BufTy).Contents (Elt F)),
    nullary main_cst (constant S_ .f32 0x00000000#32),
    binary main_v20 main_cst main_v21 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v14) (TRef.of (T := ⟨S32x20x64x300, .f32⟩) main_v14) (TRef.of (T := ⟨S32x20x64x300, .f32⟩) main_call0_v0) mulf,
    TRef.nullary (TRef.of (T := ⟨S_, .f32⟩) main_call0_cst) (constant S_ .f32 0x00000000#32),
    TRef.binary (TRef.of (T := ⟨S32x20x64x300, .f32⟩) main_call0_v0) (TRef.of (T := ⟨S_, .f32⟩) main_call0_cst) (TRef.of (T := ⟨S32x20x64, .f32⟩) main_call0_v1) (fun x v => Host.reduceAdd x v reducesTo_S32x20x64x300_S32x20x64_d3 h_S_),
    TRef.unary (TRef.of (T := ⟨S32x20x64, .f32⟩) main_call0_v1) (TRef.of (T := ⟨S32x20x64, .f32⟩) main_v22) Host.sqrt,
    TRef.binary (TRef.of (T := ⟨S32x20x64x300, .f32⟩) main_v19) (TRef.of (T := ⟨S32x20x64x300, .f32⟩) main_v19) (TRef.of (T := ⟨S32x20x64x300, .f32⟩) main_call1_v0) mulf,
    TRef.nullary (TRef.of (T := ⟨S_, .f32⟩) main_call1_cst) (constant S_ .f32 0x00000000#32),
    TRef.binary (TRef.of (T := ⟨S32x20x64x300, .f32⟩) main_call1_v0) (TRef.of (T := ⟨S_, .f32⟩) main_call1_cst) (TRef.of (T := ⟨S32x20x64, .f32⟩) main_call1_v1) (fun x v => Host.reduceAdd x v reducesTo_S32x20x64x300_S32x20x64_d3 h_S_),
    TRef.unary (TRef.of (T := ⟨S32x20x64, .f32⟩) main_call1_v1) (TRef.of (T := ⟨S32x20x64, .f32⟩) main_v23) Host.sqrt,
    binary main_v22 main_v23 main_v24 (mulf : (⟨S32x20x64, .f32⟩ : BufTy).Contents (Elt F) → (⟨S32x20x64, .f32⟩ : BufTy).Contents (Elt F) → (⟨S32x20x64, .f32⟩ : BufTy).Contents (Elt F)),
    nullary main_cst_0 (constant S_ .f32 0x322BCC77#32),
    unary main_cst_0 main_v25 (broadcastInDim S32x20x64 ![] bcast_S_S32x20x64 : (⟨S_, .f32⟩ : BufTy).Contents (Elt F) → (⟨S32x20x64, .f32⟩ : BufTy).Contents (Elt F)),
    binary main_v24 main_v25 main_v26 (maximumf : (⟨S32x20x64, .f32⟩ : BufTy).Contents (Elt F) → (⟨S32x20x64, .f32⟩ : BufTy).Contents (Elt F) → (⟨S32x20x64, .f32⟩ : BufTy).Contents (Elt F)),
    binary main_v21 main_v26 main_v27 (Host.divf : (⟨S32x20x64, .f32⟩ : BufTy).Contents (Elt F) → (⟨S32x20x64, .f32⟩ : BufTy).Contents (Elt F) → (⟨S32x20x64, .f32⟩ : BufTy).Contents (Elt F)),
    unary main_v27 main_v28 ((transpose S32x64x20 [0, 2, 1] · transposes_S32x20x64_S32x64x20_0_2_1) : (⟨S32x20x64, .f32⟩ : BufTy).Contents (Elt F) → (⟨S32x64x20, .f32⟩ : BufTy).Contents (Elt F)) ]

/-- Each touches TensorCore references only. -/
theorem c1_sub : (c1 : List (HloOp τ sig (Elt F))).Forall fun op => op.bufs ⊆ tcRefs τ sig :=
  ⟨unary_bufs_sub .., unary_bufs_sub .., unary_bufs_sub .., unary_bufs_sub .., unary_bufs_sub .., reshape_bufs_sub .., unary_bufs_sub .., reshape_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., binary_bufs_sub .., unary_bufs_sub ..⟩

/-- None allocates. -/
theorem c1_fresh : ∀ op ∈ (c1 : List (HloOp τ sig (Elt F))), op.fresh = ∅ := by
  intro _ h; (repeat (cases h with | head => rfl | tail _ h => ?_)); exact nomatch h

/-- The buffers the list writes, in order. -/
abbrev w1 : List (Ref sig .tc) := [main_v0, main_v1, main_v2, main_v3, main_v4, main_v5, main_v6, main_v7, main_v8, main_v9, main_v10, main_v11, main_v12, main_v13, main_v14, main_v15, main_v16, main_v17, main_v18, main_v19, main_v20, main_cst, main_v21, main_call0_v0, main_call0_cst, main_call0_v1, main_v22, main_call1_v0, main_call1_cst, main_call1_v1, main_v23, main_v24, main_cst_0, main_v25, main_v26, main_v27, main_v28]

/-- A buffer not among them keeps its contents across the list. -/
theorem c1_keep (W : Valuation τ sig (Elt F)) (r : Ref sig .tc) (hr : r ∉ w1) :
    after c1 W (Proc.devRef .tc r) = W (Proc.devRef .tc r) :=
  after_of_forall_not_mem (b := Proc.devRef .tc r) c1 W (List.forall_iff_forall_mem.mp (by
    simp only [List.Forall, nullary_writes, unary_writes, binary_writes, ternary_writes, quaternary_writes, reshape_writes, nary_writes, Finset.mem_singleton]
    simp only [w1, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c1_v0 (W : Valuation τ sig (Elt F)) :
    after c1 W (Proc.devRef .tc main_v0)
      = Cert.ReferenceIdeal.MP.halfR0 (W (Proc.devRef .tc main_arg0)) := by
  after_results_simp
  rfl

theorem c1_v1 (W : Valuation τ sig (Elt F)) :
    after c1 W (Proc.devRef .tc main_v1)
      = Cert.ReferenceIdeal.MP.halfR1 (W (Proc.devRef .tc main_arg0)) := by
  after_results_simp
  rfl

theorem c1_v2 (W : Valuation τ sig (Elt F)) :
    after c1 W (Proc.devRef .tc main_v2)
      = Cert.ReferenceIdeal.MP.halfR0 (W (Proc.devRef .tc main_arg1)) := by
  after_results_simp
  rfl

theorem c1_v3 (W : Valuation τ sig (Elt F)) :
    after c1 W (Proc.devRef .tc main_v3)
      = Cert.ReferenceIdeal.MP.halfR1 (W (Proc.devRef .tc main_arg1)) := by
  after_results_simp
  rfl

theorem c1_v28 (W : Valuation τ sig (Elt F)) :
    after c1 W (Proc.devRef .tc main_v28)
      = Cert.ReferenceIdeal.MP.mpR (Cert.ReferenceIdeal.MP.halfR0 (W (Proc.devRef .tc main_arg0))) (Cert.ReferenceIdeal.MP.rowRepR ![0, 63, 0] Facts₀.slices_S32x64x300_S32x1x300_0_63_0 (Cert.ReferenceIdeal.MP.halfR0 (W (Proc.devRef .tc main_arg1)))) (Cert.ReferenceIdeal.MP.wBlkR ![0, 0, 0] Facts₀.slices_S8x20x300_S1x20x300_0_0_0 (W (Proc.devRef .tc main_arg2))) := by
  after_results_simp
  rfl

end Cert.ReferenceIdeal.RunC

end
-- ==== Proof.RunC2.lean ====
/-
  Operations 38–70 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c2 : List (HloOp τ sig (Elt F)) :=
  [ unary main_arg2 main_v29 ((extractStridedSlice S1x20x300 ![1, 0, 0] · slices_S8x20x300_S1x20x300_1_0_0) : (⟨S8x20x300, .f32⟩ : BufTy).Contents (Elt F) → (⟨S1x20x300, .f32⟩ : BufTy).Contents (Elt F)),
    reshape main_v29 main_v30 rfl shapeCasts_S1x20x300_S20x300,
    unary main_v3 main_v31 ((extractStridedSlice S32x1x300 ![0, 0, 0] · slices_S32x64x300_S32x1x300_0_0_0) : (⟨S32x64x300, .f32⟩ : BufTy).Contents (Elt F) → (⟨S32x1x300, .f32⟩ : BufTy).Contents (Elt F)),
    reshape main_v31 main_v32 rfl shapeCasts_S32x1x300_S32x300,
    unary main_v32 main_v33 (broadcastInDim S32x1x300 ![0, 2] bcast_S32x300_S32x1x300_0_2 : (⟨S32x300, .f32⟩ : BufTy).Contents (Elt F) → (⟨S32x1x300, .f32⟩ : BufTy).Contents (Elt F)),
    unary main_v33 main_v34 (broadcastInDim S32x64x300 ![0, 1, 2] bcast_S32x1x300_S32x64x300_0_1_2 : (⟨S32x1x300, .f32⟩ : BufTy).Contents (Elt F) → (⟨S32x64x300, .f32⟩ : BufTy).Contents (Elt F)),
    unary main_v1 main_v35 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v30 main_v36 (broadcastInDim S1x20x1x300 ![1, 3] bcast_S20x300_S1x20x1x300_1_3 : (⟨S20x300, .f32⟩ : BufTy).Contents (Elt F) → (⟨S1x20x1x300, .f32⟩ : BufTy).Contents (Elt F)),
    unary main_v35 main_v37 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v36 main_v38 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v37 main_v38 main_v39 (mulf : (⟨S32x20x64x300, .f32⟩ : BufTy).Contents (Elt F) → (⟨S32x20x64x300, .f32⟩ : BufTy).Contents (Elt F) → (⟨S32x20x64x300, .f32⟩ : BufTy).Contents (Elt F)),
    unary main_v34 main_v40 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v30 main_v41 (broadcastInDim S1x20x1x300 ![1, 3] bcast_S20x300_S1x20x1x300_1_3 : (⟨S20x300, .f32⟩ : BufTy).Contents (Elt F) → (⟨S1x20x1x300, .f32⟩ : BufTy).Contents (Elt F)),
    unary main_v40 main_v42 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v41 main_v43 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v42 main_v43 main_v44 (mulf : (⟨S32x20x64x300, .f32⟩ : BufTy).Contents (Elt F) → (⟨S32x20x64x300, .f32⟩ : BufTy).Contents (Elt F) → (⟨S32x20x64x300, .f32⟩ : BufTy).Contents (Elt F)),
    binary main_v39 main_v44 main_v45 (mulf : (⟨S32x20x64x300, .f32⟩ : BufTy).Contents (Elt F) → (⟨S32x20x64x300, .f32⟩ : BufTy).Contents (Elt F) → (⟨S32x20x64x300, .f32⟩ : BufTy).Contents (Elt F)),
    nullary main_cst_1 (constant S_ .f32 0x00000000#32),
    binary main_v45 main_cst_1 main_v46 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v39) (TRef.of (T := ⟨S32x20x64x300, .f32⟩) main_v39) (TRef.of (T := ⟨S32x20x64x300, .f32⟩) main_call2_v0) mulf,
    TRef.nullary (TRef.of (T := ⟨S_, .f32⟩) main_call2_cst) (constant S_ .f32 0x00000000#32),
    TRef.binary (TRef.of (T := ⟨S32x20x64x300, .f32⟩) main_call2_v0) (TRef.of (T := ⟨S_, .f32⟩) main_call2_cst) (TRef.of (T := ⟨S32x20x64, .f32⟩) main_call2_v1) (fun x v => Host.reduceAdd x v reducesTo_S32x20x64x300_S32x20x64_d3 h_S_),
    TRef.unary (TRef.of (T := ⟨S32x20x64, .f32⟩) main_call2_v1) (TRef.of (T := ⟨S32x20x64, .f32⟩) main_v47) Host.sqrt,
    TRef.binary (TRef.of (T := ⟨S32x20x64x300, .f32⟩) main_v44) (TRef.of (T := ⟨S32x20x64x300, .f32⟩) main_v44) (TRef.of (T := ⟨S32x20x64x300, .f32⟩) main_call3_v0) mulf,
    TRef.nullary (TRef.of (T := ⟨S_, .f32⟩) main_call3_cst) (constant S_ .f32 0x00000000#32),
    TRef.binary (TRef.of (T := ⟨S32x20x64x300, .f32⟩) main_call3_v0) (TRef.of (T := ⟨S_, .f32⟩) main_call3_cst) (TRef.of (T := ⟨S32x20x64, .f32⟩) main_call3_v1) (fun x v => Host.reduceAdd x v reducesTo_S32x20x64x300_S32x20x64_d3 h_S_),
    TRef.unary (TRef.of (T := ⟨S32x20x64, .f32⟩) main_call3_v1) (TRef.of (T := ⟨S32x20x64, .f32⟩) main_v48) Host.sqrt,
    binary main_v47 main_v48 main_v49 (mulf : (⟨S32x20x64, .f32⟩ : BufTy).Contents (Elt F) → (⟨S32x20x64, .f32⟩ : BufTy).Contents (Elt F) → (⟨S32x20x64, .f32⟩ : BufTy).Contents (Elt F)),
    nullary main_cst_2 (constant S_ .f32 0x322BCC77#32),
    unary main_cst_2 main_v50 (broadcastInDim S32x20x64 ![] bcast_S_S32x20x64 : (⟨S_, .f32⟩ : BufTy).Contents (Elt F) → (⟨S32x20x64, .f32⟩ : BufTy).Contents (Elt F)),
    binary main_v49 main_v50 main_v51 (maximumf : (⟨S32x20x64, .f32⟩ : BufTy).Contents (Elt F) → (⟨S32x20x64, .f32⟩ : BufTy).Contents (Elt F) → (⟨S32x20x64, .f32⟩ : BufTy).Contents (Elt F)),
    binary main_v46 main_v51 main_v52 (Host.divf : (⟨S32x20x64, .f32⟩ : BufTy).Contents (Elt F) → (⟨S32x20x64, .f32⟩ : BufTy).Contents (Elt F) → (⟨S32x20x64, .f32⟩ : BufTy).Contents (Elt F)),
    unary main_v52 main_v53 ((transpose S32x64x20 [0, 2, 1] · transposes_S32x20x64_S32x64x20_0_2_1) : (⟨S32x20x64, .f32⟩ : BufTy).Contents (Elt F) → (⟨S32x64x20, .f32⟩ : BufTy).Contents (Elt F)) ]

/-- Each touches TensorCore references only. -/
theorem c2_sub : (c2 : List (HloOp τ sig (Elt F))).Forall fun op => op.bufs ⊆ tcRefs τ sig :=
  ⟨unary_bufs_sub .., reshape_bufs_sub .., unary_bufs_sub .., reshape_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., binary_bufs_sub .., unary_bufs_sub ..⟩

/-- None allocates. -/
theorem c2_fresh : ∀ op ∈ (c2 : List (HloOp τ sig (Elt F))), op.fresh = ∅ := by
  intro _ h; (repeat (cases h with | head => rfl | tail _ h => ?_)); exact nomatch h

/-- The buffers the list writes, in order. -/
abbrev w2 : List (Ref sig .tc) := [main_v29, main_v30, main_v31, main_v32, main_v33, main_v34, main_v35, main_v36, main_v37, main_v38, main_v39, main_v40, main_v41, main_v42, main_v43, main_v44, main_v45, main_cst_1, main_v46, main_call2_v0, main_call2_cst, main_call2_v1, main_v47, main_call3_v0, main_call3_cst, main_call3_v1, main_v48, main_v49, main_cst_2, main_v50, main_v51, main_v52, main_v53]

/-- A buffer not among them keeps its contents across the list. -/
theorem c2_keep (W : Valuation τ sig (Elt F)) (r : Ref sig .tc) (hr : r ∉ w2) :
    after c2 W (Proc.devRef .tc r) = W (Proc.devRef .tc r) :=
  after_of_forall_not_mem (b := Proc.devRef .tc r) c2 W (List.forall_iff_forall_mem.mp (by
    simp only [List.Forall, nullary_writes, unary_writes, binary_writes, ternary_writes, quaternary_writes, reshape_writes, nary_writes, Finset.mem_singleton]
    simp only [w2, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c2_v53 (W : Valuation τ sig (Elt F)) :
    after c2 W (Proc.devRef .tc main_v53)
      = Cert.ReferenceIdeal.MP.mpR (W (Proc.devRef .tc main_v1)) (Cert.ReferenceIdeal.MP.rowRepR ![0, 0, 0] Facts₀.slices_S32x64x300_S32x1x300_0_0_0 (W (Proc.devRef .tc main_v3))) (Cert.ReferenceIdeal.MP.wBlkR ![1, 0, 0] Facts₀.slices_S8x20x300_S1x20x300_1_0_0 (W (Proc.devRef .tc main_arg2))) := by
  after_results_simp
  rfl

end Cert.ReferenceIdeal.RunC

end
-- ==== Proof.RunC3.lean ====
/-
  Operations 71–103 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c3 : List (HloOp τ sig (Elt F)) :=
  [ unary main_arg2 main_v54 ((extractStridedSlice S1x20x300 ![0, 0, 0] · slices_S8x20x300_S1x20x300_0_0_0) : (⟨S8x20x300, .f32⟩ : BufTy).Contents (Elt F) → (⟨S1x20x300, .f32⟩ : BufTy).Contents (Elt F)),
    reshape main_v54 main_v55 rfl shapeCasts_S1x20x300_S20x300,
    unary main_v0 main_v56 ((extractStridedSlice S32x1x300 ![0, 63, 0] · slices_S32x64x300_S32x1x300_0_63_0) : (⟨S32x64x300, .f32⟩ : BufTy).Contents (Elt F) → (⟨S32x1x300, .f32⟩ : BufTy).Contents (Elt F)),
    reshape main_v56 main_v57 rfl shapeCasts_S32x1x300_S32x300,
    unary main_v57 main_v58 (broadcastInDim S32x1x300 ![0, 2] bcast_S32x300_S32x1x300_0_2 : (⟨S32x300, .f32⟩ : BufTy).Contents (Elt F) → (⟨S32x1x300, .f32⟩ : BufTy).Contents (Elt F)),
    unary main_v58 main_v59 (broadcastInDim S32x64x300 ![0, 1, 2] bcast_S32x1x300_S32x64x300_0_1_2 : (⟨S32x1x300, .f32⟩ : BufTy).Contents (Elt F) → (⟨S32x64x300, .f32⟩ : BufTy).Contents (Elt F)),
    unary main_v2 main_v60 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v55 main_v61 (broadcastInDim S1x20x1x300 ![1, 3] bcast_S20x300_S1x20x1x300_1_3 : (⟨S20x300, .f32⟩ : BufTy).Contents (Elt F) → (⟨S1x20x1x300, .f32⟩ : BufTy).Contents (Elt F)),
    unary main_v60 main_v62 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v61 main_v63 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v62 main_v63 main_v64 (mulf : (⟨S32x20x64x300, .f32⟩ : BufTy).Contents (Elt F) → (⟨S32x20x64x300, .f32⟩ : BufTy).Contents (Elt F) → (⟨S32x20x64x300, .f32⟩ : BufTy).Contents (Elt F)),
    unary main_v59 main_v65 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v55 main_v66 (broadcastInDim S1x20x1x300 ![1, 3] bcast_S20x300_S1x20x1x300_1_3 : (⟨S20x300, .f32⟩ : BufTy).Contents (Elt F) → (⟨S1x20x1x300, .f32⟩ : BufTy).Contents (Elt F)),
    unary main_v65 main_v67 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v66 main_v68 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v67 main_v68 main_v69 (mulf : (⟨S32x20x64x300, .f32⟩ : BufTy).Contents (Elt F) → (⟨S32x20x64x300, .f32⟩ : BufTy).Contents (Elt F) → (⟨S32x20x64x300, .f32⟩ : BufTy).Contents (Elt F)),
    binary main_v64 main_v69 main_v70 (mulf : (⟨S32x20x64x300, .f32⟩ : BufTy).Contents (Elt F) → (⟨S32x20x64x300, .f32⟩ : BufTy).Contents (Elt F) → (⟨S32x20x64x300, .f32⟩ : BufTy).Contents (Elt F)),
    nullary main_cst_3 (constant S_ .f32 0x00000000#32),
    binary main_v70 main_cst_3 main_v71 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v64) (TRef.of (T := ⟨S32x20x64x300, .f32⟩) main_v64) (TRef.of (T := ⟨S32x20x64x300, .f32⟩) main_call4_v0) mulf,
    TRef.nullary (TRef.of (T := ⟨S_, .f32⟩) main_call4_cst) (constant S_ .f32 0x00000000#32),
    TRef.binary (TRef.of (T := ⟨S32x20x64x300, .f32⟩) main_call4_v0) (TRef.of (T := ⟨S_, .f32⟩) main_call4_cst) (TRef.of (T := ⟨S32x20x64, .f32⟩) main_call4_v1) (fun x v => Host.reduceAdd x v reducesTo_S32x20x64x300_S32x20x64_d3 h_S_),
    TRef.unary (TRef.of (T := ⟨S32x20x64, .f32⟩) main_call4_v1) (TRef.of (T := ⟨S32x20x64, .f32⟩) main_v72) Host.sqrt,
    TRef.binary (TRef.of (T := ⟨S32x20x64x300, .f32⟩) main_v69) (TRef.of (T := ⟨S32x20x64x300, .f32⟩) main_v69) (TRef.of (T := ⟨S32x20x64x300, .f32⟩) main_call5_v0) mulf,
    TRef.nullary (TRef.of (T := ⟨S_, .f32⟩) main_call5_cst) (constant S_ .f32 0x00000000#32),
    TRef.binary (TRef.of (T := ⟨S32x20x64x300, .f32⟩) main_call5_v0) (TRef.of (T := ⟨S_, .f32⟩) main_call5_cst) (TRef.of (T := ⟨S32x20x64, .f32⟩) main_call5_v1) (fun x v => Host.reduceAdd x v reducesTo_S32x20x64x300_S32x20x64_d3 h_S_),
    TRef.unary (TRef.of (T := ⟨S32x20x64, .f32⟩) main_call5_v1) (TRef.of (T := ⟨S32x20x64, .f32⟩) main_v73) Host.sqrt,
    binary main_v72 main_v73 main_v74 (mulf : (⟨S32x20x64, .f32⟩ : BufTy).Contents (Elt F) → (⟨S32x20x64, .f32⟩ : BufTy).Contents (Elt F) → (⟨S32x20x64, .f32⟩ : BufTy).Contents (Elt F)),
    nullary main_cst_4 (constant S_ .f32 0x322BCC77#32),
    unary main_cst_4 main_v75 (broadcastInDim S32x20x64 ![] bcast_S_S32x20x64 : (⟨S_, .f32⟩ : BufTy).Contents (Elt F) → (⟨S32x20x64, .f32⟩ : BufTy).Contents (Elt F)),
    binary main_v74 main_v75 main_v76 (maximumf : (⟨S32x20x64, .f32⟩ : BufTy).Contents (Elt F) → (⟨S32x20x64, .f32⟩ : BufTy).Contents (Elt F) → (⟨S32x20x64, .f32⟩ : BufTy).Contents (Elt F)),
    binary main_v71 main_v76 main_v77 (Host.divf : (⟨S32x20x64, .f32⟩ : BufTy).Contents (Elt F) → (⟨S32x20x64, .f32⟩ : BufTy).Contents (Elt F) → (⟨S32x20x64, .f32⟩ : BufTy).Contents (Elt F)),
    unary main_v77 main_v78 ((transpose S32x64x20 [0, 2, 1] · transposes_S32x20x64_S32x64x20_0_2_1) : (⟨S32x20x64, .f32⟩ : BufTy).Contents (Elt F) → (⟨S32x64x20, .f32⟩ : BufTy).Contents (Elt F)) ]

/-- Each touches TensorCore references only. -/
theorem c3_sub : (c3 : List (HloOp τ sig (Elt F))).Forall fun op => op.bufs ⊆ tcRefs τ sig :=
  ⟨unary_bufs_sub .., reshape_bufs_sub .., unary_bufs_sub .., reshape_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., binary_bufs_sub .., unary_bufs_sub ..⟩

/-- None allocates. -/
theorem c3_fresh : ∀ op ∈ (c3 : List (HloOp τ sig (Elt F))), op.fresh = ∅ := by
  intro _ h; (repeat (cases h with | head => rfl | tail _ h => ?_)); exact nomatch h

/-- The buffers the list writes, in order. -/
abbrev w3 : List (Ref sig .tc) := [main_v54, main_v55, main_v56, main_v57, main_v58, main_v59, main_v60, main_v61, main_v62, main_v63, main_v64, main_v65, main_v66, main_v67, main_v68, main_v69, main_v70, main_cst_3, main_v71, main_call4_v0, main_call4_cst, main_call4_v1, main_v72, main_call5_v0, main_call5_cst, main_call5_v1, main_v73, main_v74, main_cst_4, main_v75, main_v76, main_v77, main_v78]

/-- A buffer not among them keeps its contents across the list. -/
theorem c3_keep (W : Valuation τ sig (Elt F)) (r : Ref sig .tc) (hr : r ∉ w3) :
    after c3 W (Proc.devRef .tc r) = W (Proc.devRef .tc r) :=
  after_of_forall_not_mem (b := Proc.devRef .tc r) c3 W (List.forall_iff_forall_mem.mp (by
    simp only [List.Forall, nullary_writes, unary_writes, binary_writes, ternary_writes, quaternary_writes, reshape_writes, nary_writes, Finset.mem_singleton]
    simp only [w3, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c3_v78 (W : Valuation τ sig (Elt F)) :
    after c3 W (Proc.devRef .tc main_v78)
      = Cert.ReferenceIdeal.MP.mpR (W (Proc.devRef .tc main_v2)) (Cert.ReferenceIdeal.MP.rowRepR ![0, 63, 0] Facts₀.slices_S32x64x300_S32x1x300_0_63_0 (W (Proc.devRef .tc main_v0))) (Cert.ReferenceIdeal.MP.wBlkR ![0, 0, 0] Facts₀.slices_S8x20x300_S1x20x300_0_0_0 (W (Proc.devRef .tc main_arg2))) := by
  after_results_simp
  rfl

end Cert.ReferenceIdeal.RunC

end
-- ==== Proof.RunC4.lean ====
/-
  Operations 104–136 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c4 : List (HloOp τ sig (Elt F)) :=
  [ unary main_arg2 main_v79 ((extractStridedSlice S1x20x300 ![1, 0, 0] · slices_S8x20x300_S1x20x300_1_0_0) : (⟨S8x20x300, .f32⟩ : BufTy).Contents (Elt F) → (⟨S1x20x300, .f32⟩ : BufTy).Contents (Elt F)),
    reshape main_v79 main_v80 rfl shapeCasts_S1x20x300_S20x300,
    unary main_v1 main_v81 ((extractStridedSlice S32x1x300 ![0, 0, 0] · slices_S32x64x300_S32x1x300_0_0_0) : (⟨S32x64x300, .f32⟩ : BufTy).Contents (Elt F) → (⟨S32x1x300, .f32⟩ : BufTy).Contents (Elt F)),
    reshape main_v81 main_v82 rfl shapeCasts_S32x1x300_S32x300,
    unary main_v82 main_v83 (broadcastInDim S32x1x300 ![0, 2] bcast_S32x300_S32x1x300_0_2 : (⟨S32x300, .f32⟩ : BufTy).Contents (Elt F) → (⟨S32x1x300, .f32⟩ : BufTy).Contents (Elt F)),
    unary main_v83 main_v84 (broadcastInDim S32x64x300 ![0, 1, 2] bcast_S32x1x300_S32x64x300_0_1_2 : (⟨S32x1x300, .f32⟩ : BufTy).Contents (Elt F) → (⟨S32x64x300, .f32⟩ : BufTy).Contents (Elt F)),
    unary main_v3 main_v85 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v80 main_v86 (broadcastInDim S1x20x1x300 ![1, 3] bcast_S20x300_S1x20x1x300_1_3 : (⟨S20x300, .f32⟩ : BufTy).Contents (Elt F) → (⟨S1x20x1x300, .f32⟩ : BufTy).Contents (Elt F)),
    unary main_v85 main_v87 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v86 main_v88 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v87 main_v88 main_v89 (mulf : (⟨S32x20x64x300, .f32⟩ : BufTy).Contents (Elt F) → (⟨S32x20x64x300, .f32⟩ : BufTy).Contents (Elt F) → (⟨S32x20x64x300, .f32⟩ : BufTy).Contents (Elt F)),
    unary main_v84 main_v90 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v80 main_v91 (broadcastInDim S1x20x1x300 ![1, 3] bcast_S20x300_S1x20x1x300_1_3 : (⟨S20x300, .f32⟩ : BufTy).Contents (Elt F) → (⟨S1x20x1x300, .f32⟩ : BufTy).Contents (Elt F)),
    unary main_v90 main_v92 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v91 main_v93 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v92 main_v93 main_v94 (mulf : (⟨S32x20x64x300, .f32⟩ : BufTy).Contents (Elt F) → (⟨S32x20x64x300, .f32⟩ : BufTy).Contents (Elt F) → (⟨S32x20x64x300, .f32⟩ : BufTy).Contents (Elt F)),
    binary main_v89 main_v94 main_v95 (mulf : (⟨S32x20x64x300, .f32⟩ : BufTy).Contents (Elt F) → (⟨S32x20x64x300, .f32⟩ : BufTy).Contents (Elt F) → (⟨S32x20x64x300, .f32⟩ : BufTy).Contents (Elt F)),
    nullary main_cst_5 (constant S_ .f32 0x00000000#32),
    binary main_v95 main_cst_5 main_v96 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v89) (TRef.of (T := ⟨S32x20x64x300, .f32⟩) main_v89) (TRef.of (T := ⟨S32x20x64x300, .f32⟩) main_call6_v0) mulf,
    TRef.nullary (TRef.of (T := ⟨S_, .f32⟩) main_call6_cst) (constant S_ .f32 0x00000000#32),
    TRef.binary (TRef.of (T := ⟨S32x20x64x300, .f32⟩) main_call6_v0) (TRef.of (T := ⟨S_, .f32⟩) main_call6_cst) (TRef.of (T := ⟨S32x20x64, .f32⟩) main_call6_v1) (fun x v => Host.reduceAdd x v reducesTo_S32x20x64x300_S32x20x64_d3 h_S_),
    TRef.unary (TRef.of (T := ⟨S32x20x64, .f32⟩) main_call6_v1) (TRef.of (T := ⟨S32x20x64, .f32⟩) main_v97) Host.sqrt,
    TRef.binary (TRef.of (T := ⟨S32x20x64x300, .f32⟩) main_v94) (TRef.of (T := ⟨S32x20x64x300, .f32⟩) main_v94) (TRef.of (T := ⟨S32x20x64x300, .f32⟩) main_call7_v0) mulf,
    TRef.nullary (TRef.of (T := ⟨S_, .f32⟩) main_call7_cst) (constant S_ .f32 0x00000000#32),
    TRef.binary (TRef.of (T := ⟨S32x20x64x300, .f32⟩) main_call7_v0) (TRef.of (T := ⟨S_, .f32⟩) main_call7_cst) (TRef.of (T := ⟨S32x20x64, .f32⟩) main_call7_v1) (fun x v => Host.reduceAdd x v reducesTo_S32x20x64x300_S32x20x64_d3 h_S_),
    TRef.unary (TRef.of (T := ⟨S32x20x64, .f32⟩) main_call7_v1) (TRef.of (T := ⟨S32x20x64, .f32⟩) main_v98) Host.sqrt,
    binary main_v97 main_v98 main_v99 (mulf : (⟨S32x20x64, .f32⟩ : BufTy).Contents (Elt F) → (⟨S32x20x64, .f32⟩ : BufTy).Contents (Elt F) → (⟨S32x20x64, .f32⟩ : BufTy).Contents (Elt F)),
    nullary main_cst_6 (constant S_ .f32 0x322BCC77#32),
    unary main_cst_6 main_v100 (broadcastInDim S32x20x64 ![] bcast_S_S32x20x64 : (⟨S_, .f32⟩ : BufTy).Contents (Elt F) → (⟨S32x20x64, .f32⟩ : BufTy).Contents (Elt F)),
    binary main_v99 main_v100 main_v101 (maximumf : (⟨S32x20x64, .f32⟩ : BufTy).Contents (Elt F) → (⟨S32x20x64, .f32⟩ : BufTy).Contents (Elt F) → (⟨S32x20x64, .f32⟩ : BufTy).Contents (Elt F)),
    binary main_v96 main_v101 main_v102 (Host.divf : (⟨S32x20x64, .f32⟩ : BufTy).Contents (Elt F) → (⟨S32x20x64, .f32⟩ : BufTy).Contents (Elt F) → (⟨S32x20x64, .f32⟩ : BufTy).Contents (Elt F)),
    unary main_v102 main_v103 ((transpose S32x64x20 [0, 2, 1] · transposes_S32x20x64_S32x64x20_0_2_1) : (⟨S32x20x64, .f32⟩ : BufTy).Contents (Elt F) → (⟨S32x64x20, .f32⟩ : BufTy).Contents (Elt F)) ]

/-- Each touches TensorCore references only. -/
theorem c4_sub : (c4 : List (HloOp τ sig (Elt F))).Forall fun op => op.bufs ⊆ tcRefs τ sig :=
  ⟨unary_bufs_sub .., reshape_bufs_sub .., unary_bufs_sub .., reshape_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., binary_bufs_sub .., unary_bufs_sub ..⟩

/-- None allocates. -/
theorem c4_fresh : ∀ op ∈ (c4 : List (HloOp τ sig (Elt F))), op.fresh = ∅ := by
  intro _ h; (repeat (cases h with | head => rfl | tail _ h => ?_)); exact nomatch h

/-- The buffers the list writes, in order. -/
abbrev w4 : List (Ref sig .tc) := [main_v79, main_v80, main_v81, main_v82, main_v83, main_v84, main_v85, main_v86, main_v87, main_v88, main_v89, main_v90, main_v91, main_v92, main_v93, main_v94, main_v95, main_cst_5, main_v96, main_call6_v0, main_call6_cst, main_call6_v1, main_v97, main_call7_v0, main_call7_cst, main_call7_v1, main_v98, main_v99, main_cst_6, main_v100, main_v101, main_v102, main_v103]

/-- A buffer not among them keeps its contents across the list. -/
theorem c4_keep (W : Valuation τ sig (Elt F)) (r : Ref sig .tc) (hr : r ∉ w4) :
    after c4 W (Proc.devRef .tc r) = W (Proc.devRef .tc r) :=
  after_of_forall_not_mem (b := Proc.devRef .tc r) c4 W (List.forall_iff_forall_mem.mp (by
    simp only [List.Forall, nullary_writes, unary_writes, binary_writes, ternary_writes, quaternary_writes, reshape_writes, nary_writes, Finset.mem_singleton]
    simp only [w4, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c4_v103 (W : Valuation τ sig (Elt F)) :
    after c4 W (Proc.devRef .tc main_v103)
      = Cert.ReferenceIdeal.MP.mpR (W (Proc.devRef .tc main_v3)) (Cert.ReferenceIdeal.MP.rowRepR ![0, 0, 0] Facts₀.slices_S32x64x300_S32x1x300_0_0_0 (W (Proc.devRef .tc main_v1))) (Cert.ReferenceIdeal.MP.wBlkR ![1, 0, 0] Facts₀.slices_S8x20x300_S1x20x300_1_0_0 (W (Proc.devRef .tc main_arg2))) := by
  after_results_simp
  rfl

end Cert.ReferenceIdeal.RunC

end
-- ==== Proof.RunC5.lean ====
/-
  Operations 137–168 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c5 : List (HloOp τ sig (Elt F)) :=
  [ unary main_arg2 main_v104 ((extractStridedSlice S1x20x300 ![2, 0, 0] · slices_S8x20x300_S1x20x300_2_0_0) : (⟨S8x20x300, .f32⟩ : BufTy).Contents (Elt F) → (⟨S1x20x300, .f32⟩ : BufTy).Contents (Elt F)),
    reshape main_v104 main_v105 rfl shapeCasts_S1x20x300_S20x300,
    unary main_v0 main_v106 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v105 main_v107 (broadcastInDim S1x20x1x300 ![1, 3] bcast_S20x300_S1x20x1x300_1_3 : (⟨S20x300, .f32⟩ : BufTy).Contents (Elt F) → (⟨S1x20x1x300, .f32⟩ : BufTy).Contents (Elt F)),
    unary main_v106 main_v108 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v107 main_v109 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v108 main_v109 main_v110 (mulf : (⟨S32x20x64x300, .f32⟩ : BufTy).Contents (Elt F) → (⟨S32x20x64x300, .f32⟩ : BufTy).Contents (Elt F) → (⟨S32x20x64x300, .f32⟩ : BufTy).Contents (Elt F)),
    unary main_v2 main_v111 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v105 main_v112 (broadcastInDim S1x20x1x300 ![1, 3] bcast_S20x300_S1x20x1x300_1_3 : (⟨S20x300, .f32⟩ : BufTy).Contents (Elt F) → (⟨S1x20x1x300, .f32⟩ : BufTy).Contents (Elt F)),
    unary main_v111 main_v113 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v112 main_v114 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v113 main_v114 main_v115 (mulf : (⟨S32x20x64x300, .f32⟩ : BufTy).Contents (Elt F) → (⟨S32x20x64x300, .f32⟩ : BufTy).Contents (Elt F) → (⟨S32x20x64x300, .f32⟩ : BufTy).Contents (Elt F)),
    binary main_v110 main_v115 main_v116 ((fun l r => Host.dotGeneral dot_S32x20x64x300_S32x20x64x300_S32x20x64x64_3_3_2_2_01_01 none l r) : (⟨S32x20x64x300, .f32⟩ : BufTy).Contents (Elt F) → (⟨S32x20x64x300, .f32⟩ : BufTy).Contents (Elt F) → (⟨S32x20x64x64, .f32⟩ : BufTy).Contents (Elt F)),
    TRef.binary (TRef.of (T := ⟨S32x20x64x300, .f32⟩) main_v110) (TRef.of (T := ⟨S32x20x64x300, .f32⟩) main_v110) (TRef.of (T := ⟨S32x20x64x300, .f32⟩) main_call8_v0) mulf,
    TRef.nullary (TRef.of (T := ⟨S_, .f32⟩) main_call8_cst) (constant S_ .f32 0x00000000#32),
    TRef.binary (TRef.of (T := ⟨S32x20x64x300, .f32⟩) main_call8_v0) (TRef.of (T := ⟨S_, .f32⟩) main_call8_cst) (TRef.of (T := ⟨S32x20x64, .f32⟩) main_call8_v1) (fun x v => Host.reduceAdd x v reducesTo_S32x20x64x300_S32x20x64_d3 h_S_),
    TRef.unary (TRef.of (T := ⟨S32x20x64, .f32⟩) main_call8_v1) (TRef.of (T := ⟨S32x20x64, .f32⟩) main_v117) Host.sqrt,
    unary main_v117 main_v118 (broadcastInDim S32x20x64x1 ![0, 1, 2] bcast_S32x20x64_S32x20x64x1_0_1_2 : (⟨S32x20x64, .f32⟩ : BufTy).Contents (Elt F) → (⟨S32x20x64x1, .f32⟩ : BufTy).Contents (Elt F)),
    TRef.binary (TRef.of (T := ⟨S32x20x64x300, .f32⟩) main_v115) (TRef.of (T := ⟨S32x20x64x300, .f32⟩) main_v115) (TRef.of (T := ⟨S32x20x64x300, .f32⟩) main_call9_v0) mulf,
    TRef.nullary (TRef.of (T := ⟨S_, .f32⟩) main_call9_cst) (constant S_ .f32 0x00000000#32),
    TRef.binary (TRef.of (T := ⟨S32x20x64x300, .f32⟩) main_call9_v0) (TRef.of (T := ⟨S_, .f32⟩) main_call9_cst) (TRef.of (T := ⟨S32x20x64, .f32⟩) main_call9_v1) (fun x v => Host.reduceAdd x v reducesTo_S32x20x64x300_S32x20x64_d3 h_S_),
    TRef.unary (TRef.of (T := ⟨S32x20x64, .f32⟩) main_call9_v1) (TRef.of (T := ⟨S32x20x64, .f32⟩) main_v119) Host.sqrt,
    unary main_v119 main_v120 (broadcastInDim S32x20x1x64 ![0, 1, 3] bcast_S32x20x64_S32x20x1x64_0_1_3 : (⟨S32x20x64, .f32⟩ : BufTy).Contents (Elt F) → (⟨S32x20x1x64, .f32⟩ : BufTy).Contents (Elt F)),
    unary main_v118 main_v121 (broadcastInDim S32x20x64x64 ![0, 1, 2, 3] bcast_S32x20x64x1_S32x20x64x64_0_1_2_3 : (⟨S32x20x64x1, .f32⟩ : BufTy).Contents (Elt F) → (⟨S32x20x64x64, .f32⟩ : BufTy).Contents (Elt F)),
    unary main_v120 main_v122 (broadcastInDim S32x20x64x64 ![0, 1, 2, 3] bcast_S32x20x1x64_S32x20x64x64_0_1_2_3 : (⟨S32x20x1x64, .f32⟩ : BufTy).Contents (Elt F) → (⟨S32x20x64x64, .f32⟩ : BufTy).Contents (Elt F)),
    binary main_v121 main_v122 main_v123 (mulf : (⟨S32x20x64x64, .f32⟩ : BufTy).Contents (Elt F) → (⟨S32x20x64x64, .f32⟩ : BufTy).Contents (Elt F) → (⟨S32x20x64x64, .f32⟩ : BufTy).Contents (Elt F)),
    binary main_v116 main_v123 main_v124 (Host.divf : (⟨S32x20x64x64, .f32⟩ : BufTy).Contents (Elt F) → (⟨S32x20x64x64, .f32⟩ : BufTy).Contents (Elt F) → (⟨S32x20x64x64, .f32⟩ : BufTy).Contents (Elt F)),
    unary main_v124 main_v125 ((transpose S32x64x64x20 [0, 2, 3, 1] · transposes_S32x20x64x64_S32x64x64x20_0_2_3_1) : (⟨S32x20x64x64, .f32⟩ : BufTy).Contents (Elt F) → (⟨S32x64x64x20, .f32⟩ : BufTy).Contents (Elt F)),
    nullary main_cst_7 (constant S_ .f32 0xFF800000#32),
    binary main_v125 main_cst_7 main_v126 ((fun x v => Host.reduce FloatOps.maximumf x v reducesTo_S32x64x64x20_S32x64x20_d2 h_S_) : (⟨S32x64x64x20, .f32⟩ : BufTy).Contents (Elt F) → (⟨S_, .f32⟩ : BufTy).Contents (Elt F) → (⟨S32x64x20, .f32⟩ : BufTy).Contents (Elt F)),
    nullary main_cst_8 (constant S_ .f32 0xFF800000#32),
    binary main_v125 main_cst_8 main_v127 ((fun x v => Host.reduce FloatOps.maximumf x v reducesTo_S32x64x64x20_S32x64x20_d1 h_S_) : (⟨S32x64x64x20, .f32⟩ : BufTy).Contents (Elt F) → (⟨S_, .f32⟩ : BufTy).Contents (Elt F) → (⟨S32x64x20, .f32⟩ : BufTy).Contents (Elt F)) ]

/-- Each touches TensorCore references only. -/
theorem c5_sub : (c5 : List (HloOp τ sig (Elt F))).Forall fun op => op.bufs ⊆ tcRefs τ sig :=
  ⟨unary_bufs_sub .., reshape_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., binary_bufs_sub .., nullary_bufs_sub .., binary_bufs_sub .., unary_bufs_sub .., unary_bufs_sub .., binary_bufs_sub .., nullary_bufs_sub .., binary_bufs_sub .., unary_bufs_sub .., unary_bufs_sub .., unary_bufs_sub .., unary_bufs_sub .., binary_bufs_sub .., binary_bufs_sub .., unary_bufs_sub .., nullary_bufs_sub .., binary_bufs_sub .., nullary_bufs_sub .., binary_bufs_sub ..⟩

/-- None allocates. -/
theorem c5_fresh : ∀ op ∈ (c5 : List (HloOp τ sig (Elt F))), op.fresh = ∅ := by
  intro _ h; (repeat (cases h with | head => rfl | tail _ h => ?_)); exact nomatch h

/-- The buffers the list writes, in order. -/
abbrev w5 : List (Ref sig .tc) := [main_v104, main_v105, main_v106, main_v107, main_v108, main_v109, main_v110, main_v111, main_v112, main_v113, main_v114, main_v115, main_v116, main_call8_v0, main_call8_cst, main_call8_v1, main_v117, main_v118, main_call9_v0, main_call9_cst, main_call9_v1, main_v119, main_v120, main_v121, main_v122, main_v123, main_v124, main_v125, main_cst_7, main_v126, main_cst_8, main_v127]

/-- A buffer not among them keeps its contents across the list. -/
theorem c5_keep (W : Valuation τ sig (Elt F)) (r : Ref sig .tc) (hr : r ∉ w5) :
    after c5 W (Proc.devRef .tc r) = W (Proc.devRef .tc r) :=
  after_of_forall_not_mem (b := Proc.devRef .tc r) c5 W (List.forall_iff_forall_mem.mp (by
    simp only [List.Forall, nullary_writes, unary_writes, binary_writes, ternary_writes, quaternary_writes, reshape_writes, nary_writes, Finset.mem_singleton]
    simp only [w5, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c5_v126 (W : Valuation τ sig (Elt F)) :
    after c5 W (Proc.devRef .tc main_v126)
      = Cert.ReferenceIdeal.MP.ppR (Cert.ReferenceIdeal.MP.mxR (W (Proc.devRef .tc main_v0)) (W (Proc.devRef .tc main_v2)) (Cert.ReferenceIdeal.MP.wBlkR ![2, 0, 0] Facts₀.slices_S8x20x300_S1x20x300_2_0_0 (W (Proc.devRef .tc main_arg2)))) := by
  after_results_simp
  rfl

theorem c5_v127 (W : Valuation τ sig (Elt F)) :
    after c5 W (Proc.devRef .tc main_v127)
      = Cert.ReferenceIdeal.MP.pqR (Cert.ReferenceIdeal.MP.mxR (W (Proc.devRef .tc main_v0)) (W (Proc.devRef .tc main_v2)) (Cert.ReferenceIdeal.MP.wBlkR ![2, 0, 0] Facts₀.slices_S8x20x300_S1x20x300_2_0_0 (W (Proc.devRef .tc main_arg2)))) := by
  after_results_simp
  rfl

end Cert.ReferenceIdeal.RunC

end
-- ==== Proof.RunC6.lean ====
/-
  Operations 169–200 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c6 : List (HloOp τ sig (Elt F)) :=
  [ unary main_arg2 main_v128 ((extractStridedSlice S1x20x300 ![3, 0, 0] · slices_S8x20x300_S1x20x300_3_0_0) : (⟨S8x20x300, .f32⟩ : BufTy).Contents (Elt F) → (⟨S1x20x300, .f32⟩ : BufTy).Contents (Elt F)),
    reshape main_v128 main_v129 rfl shapeCasts_S1x20x300_S20x300,
    unary main_v1 main_v130 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v129 main_v131 (broadcastInDim S1x20x1x300 ![1, 3] bcast_S20x300_S1x20x1x300_1_3 : (⟨S20x300, .f32⟩ : BufTy).Contents (Elt F) → (⟨S1x20x1x300, .f32⟩ : BufTy).Contents (Elt F)),
    unary main_v130 main_v132 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v131 main_v133 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v132 main_v133 main_v134 (mulf : (⟨S32x20x64x300, .f32⟩ : BufTy).Contents (Elt F) → (⟨S32x20x64x300, .f32⟩ : BufTy).Contents (Elt F) → (⟨S32x20x64x300, .f32⟩ : BufTy).Contents (Elt F)),
    unary main_v3 main_v135 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v129 main_v136 (broadcastInDim S1x20x1x300 ![1, 3] bcast_S20x300_S1x20x1x300_1_3 : (⟨S20x300, .f32⟩ : BufTy).Contents (Elt F) → (⟨S1x20x1x300, .f32⟩ : BufTy).Contents (Elt F)),
    unary main_v135 main_v137 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v136 main_v138 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v137 main_v138 main_v139 (mulf : (⟨S32x20x64x300, .f32⟩ : BufTy).Contents (Elt F) → (⟨S32x20x64x300, .f32⟩ : BufTy).Contents (Elt F) → (⟨S32x20x64x300, .f32⟩ : BufTy).Contents (Elt F)),
    binary main_v134 main_v139 main_v140 ((fun l r => Host.dotGeneral dot_S32x20x64x300_S32x20x64x300_S32x20x64x64_3_3_2_2_01_01 none l r) : (⟨S32x20x64x300, .f32⟩ : BufTy).Contents (Elt F) → (⟨S32x20x64x300, .f32⟩ : BufTy).Contents (Elt F) → (⟨S32x20x64x64, .f32⟩ : BufTy).Contents (Elt F)),
    TRef.binary (TRef.of (T := ⟨S32x20x64x300, .f32⟩) main_v134) (TRef.of (T := ⟨S32x20x64x300, .f32⟩) main_v134) (TRef.of (T := ⟨S32x20x64x300, .f32⟩) main_call10_v0) mulf,
    TRef.nullary (TRef.of (T := ⟨S_, .f32⟩) main_call10_cst) (constant S_ .f32 0x00000000#32),
    TRef.binary (TRef.of (T := ⟨S32x20x64x300, .f32⟩) main_call10_v0) (TRef.of (T := ⟨S_, .f32⟩) main_call10_cst) (TRef.of (T := ⟨S32x20x64, .f32⟩) main_call10_v1) (fun x v => Host.reduceAdd x v reducesTo_S32x20x64x300_S32x20x64_d3 h_S_),
    TRef.unary (TRef.of (T := ⟨S32x20x64, .f32⟩) main_call10_v1) (TRef.of (T := ⟨S32x20x64, .f32⟩) main_v141) Host.sqrt,
    unary main_v141 main_v142 (broadcastInDim S32x20x64x1 ![0, 1, 2] bcast_S32x20x64_S32x20x64x1_0_1_2 : (⟨S32x20x64, .f32⟩ : BufTy).Contents (Elt F) → (⟨S32x20x64x1, .f32⟩ : BufTy).Contents (Elt F)),
    TRef.binary (TRef.of (T := ⟨S32x20x64x300, .f32⟩) main_v139) (TRef.of (T := ⟨S32x20x64x300, .f32⟩) main_v139) (TRef.of (T := ⟨S32x20x64x300, .f32⟩) main_call11_v0) mulf,
    TRef.nullary (TRef.of (T := ⟨S_, .f32⟩) main_call11_cst) (constant S_ .f32 0x00000000#32),
    TRef.binary (TRef.of (T := ⟨S32x20x64x300, .f32⟩) main_call11_v0) (TRef.of (T := ⟨S_, .f32⟩) main_call11_cst) (TRef.of (T := ⟨S32x20x64, .f32⟩) main_call11_v1) (fun x v => Host.reduceAdd x v reducesTo_S32x20x64x300_S32x20x64_d3 h_S_),
    TRef.unary (TRef.of (T := ⟨S32x20x64, .f32⟩) main_call11_v1) (TRef.of (T := ⟨S32x20x64, .f32⟩) main_v143) Host.sqrt,
    unary main_v143 main_v144 (broadcastInDim S32x20x1x64 ![0, 1, 3] bcast_S32x20x64_S32x20x1x64_0_1_3 : (⟨S32x20x64, .f32⟩ : BufTy).Contents (Elt F) → (⟨S32x20x1x64, .f32⟩ : BufTy).Contents (Elt F)),
    unary main_v142 main_v145 (broadcastInDim S32x20x64x64 ![0, 1, 2, 3] bcast_S32x20x64x1_S32x20x64x64_0_1_2_3 : (⟨S32x20x64x1, .f32⟩ : BufTy).Contents (Elt F) → (⟨S32x20x64x64, .f32⟩ : BufTy).Contents (Elt F)),
    unary main_v144 main_v146 (broadcastInDim S32x20x64x64 ![0, 1, 2, 3] bcast_S32x20x1x64_S32x20x64x64_0_1_2_3 : (⟨S32x20x1x64, .f32⟩ : BufTy).Contents (Elt F) → (⟨S32x20x64x64, .f32⟩ : BufTy).Contents (Elt F)),
    binary main_v145 main_v146 main_v147 (mulf : (⟨S32x20x64x64, .f32⟩ : BufTy).Contents (Elt F) → (⟨S32x20x64x64, .f32⟩ : BufTy).Contents (Elt F) → (⟨S32x20x64x64, .f32⟩ : BufTy).Contents (Elt F)),
    binary main_v140 main_v147 main_v148 (Host.divf : (⟨S32x20x64x64, .f32⟩ : BufTy).Contents (Elt F) → (⟨S32x20x64x64, .f32⟩ : BufTy).Contents (Elt F) → (⟨S32x20x64x64, .f32⟩ : BufTy).Contents (Elt F)),
    unary main_v148 main_v149 ((transpose S32x64x64x20 [0, 2, 3, 1] · transposes_S32x20x64x64_S32x64x64x20_0_2_3_1) : (⟨S32x20x64x64, .f32⟩ : BufTy).Contents (Elt F) → (⟨S32x64x64x20, .f32⟩ : BufTy).Contents (Elt F)),
    nullary main_cst_9 (constant S_ .f32 0xFF800000#32),
    binary main_v149 main_cst_9 main_v150 ((fun x v => Host.reduce FloatOps.maximumf x v reducesTo_S32x64x64x20_S32x64x20_d2 h_S_) : (⟨S32x64x64x20, .f32⟩ : BufTy).Contents (Elt F) → (⟨S_, .f32⟩ : BufTy).Contents (Elt F) → (⟨S32x64x20, .f32⟩ : BufTy).Contents (Elt F)),
    nullary main_cst_10 (constant S_ .f32 0xFF800000#32),
    binary main_v149 main_cst_10 main_v151 ((fun x v => Host.reduce FloatOps.maximumf x v reducesTo_S32x64x64x20_S32x64x20_d1 h_S_) : (⟨S32x64x64x20, .f32⟩ : BufTy).Contents (Elt F) → (⟨S_, .f32⟩ : BufTy).Contents (Elt F) → (⟨S32x64x20, .f32⟩ : BufTy).Contents (Elt F)) ]

/-- Each touches TensorCore references only. -/
theorem c6_sub : (c6 : List (HloOp τ sig (Elt F))).Forall fun op => op.bufs ⊆ tcRefs τ sig :=
  ⟨unary_bufs_sub .., reshape_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., binary_bufs_sub .., nullary_bufs_sub .., binary_bufs_sub .., unary_bufs_sub .., unary_bufs_sub .., binary_bufs_sub .., nullary_bufs_sub .., binary_bufs_sub .., unary_bufs_sub .., unary_bufs_sub .., unary_bufs_sub .., unary_bufs_sub .., binary_bufs_sub .., binary_bufs_sub .., unary_bufs_sub .., nullary_bufs_sub .., binary_bufs_sub .., nullary_bufs_sub .., binary_bufs_sub ..⟩

/-- None allocates. -/
theorem c6_fresh : ∀ op ∈ (c6 : List (HloOp τ sig (Elt F))), op.fresh = ∅ := by
  intro _ h; (repeat (cases h with | head => rfl | tail _ h => ?_)); exact nomatch h

/-- The buffers the list writes, in order. -/
abbrev w6 : List (Ref sig .tc) := [main_v128, main_v129, main_v130, main_v131, main_v132, main_v133, main_v134, main_v135, main_v136, main_v137, main_v138, main_v139, main_v140, main_call10_v0, main_call10_cst, main_call10_v1, main_v141, main_v142, main_call11_v0, main_call11_cst, main_call11_v1, main_v143, main_v144, main_v145, main_v146, main_v147, main_v148, main_v149, main_cst_9, main_v150, main_cst_10, main_v151]

/-- A buffer not among them keeps its contents across the list. -/
theorem c6_keep (W : Valuation τ sig (Elt F)) (r : Ref sig .tc) (hr : r ∉ w6) :
    after c6 W (Proc.devRef .tc r) = W (Proc.devRef .tc r) :=
  after_of_forall_not_mem (b := Proc.devRef .tc r) c6 W (List.forall_iff_forall_mem.mp (by
    simp only [List.Forall, nullary_writes, unary_writes, binary_writes, ternary_writes, quaternary_writes, reshape_writes, nary_writes, Finset.mem_singleton]
    simp only [w6, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c6_v150 (W : Valuation τ sig (Elt F)) :
    after c6 W (Proc.devRef .tc main_v150)
      = Cert.ReferenceIdeal.MP.ppR (Cert.ReferenceIdeal.MP.mxR (W (Proc.devRef .tc main_v1)) (W (Proc.devRef .tc main_v3)) (Cert.ReferenceIdeal.MP.wBlkR ![3, 0, 0] Facts₀.slices_S8x20x300_S1x20x300_3_0_0 (W (Proc.devRef .tc main_arg2)))) := by
  after_results_simp
  rfl

theorem c6_v151 (W : Valuation τ sig (Elt F)) :
    after c6 W (Proc.devRef .tc main_v151)
      = Cert.ReferenceIdeal.MP.pqR (Cert.ReferenceIdeal.MP.mxR (W (Proc.devRef .tc main_v1)) (W (Proc.devRef .tc main_v3)) (Cert.ReferenceIdeal.MP.wBlkR ![3, 0, 0] Facts₀.slices_S8x20x300_S1x20x300_3_0_0 (W (Proc.devRef .tc main_arg2)))) := by
  after_results_simp
  rfl

end Cert.ReferenceIdeal.RunC

end
-- ==== Proof.RunC7.lean ====
/-
  Operations 201–229 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c7 : List (HloOp τ sig (Elt F)) :=
  [ unary main_arg2 main_v152 ((extractStridedSlice S1x20x300 ![4, 0, 0] · slices_S8x20x300_S1x20x300_4_0_0) : (⟨S8x20x300, .f32⟩ : BufTy).Contents (Elt F) → (⟨S1x20x300, .f32⟩ : BufTy).Contents (Elt F)),
    reshape main_v152 main_v153 rfl shapeCasts_S1x20x300_S20x300,
    TRef.binary (TRef.of (T := ⟨S32x64x300, .f32⟩) main_v0) (TRef.of (T := ⟨S32x64x300, .f32⟩) main_v0) (TRef.of (T := ⟨S32x64x300, .f32⟩) main_call12_v0) mulf,
    TRef.nullary (TRef.of (T := ⟨S_, .f32⟩) main_call12_cst) (constant S_ .f32 0x00000000#32),
    TRef.binary (TRef.of (T := ⟨S32x64x300, .f32⟩) main_call12_v0) (TRef.of (T := ⟨S_, .f32⟩) main_call12_cst) (TRef.of (T := ⟨S32x64, .f32⟩) main_call12_v1) (fun x v => Host.reduceAdd x v reducesTo_S32x64x300_S32x64_d2 h_S_),
    TRef.unary (TRef.of (T := ⟨S32x64, .f32⟩) main_call12_v1) (TRef.of (T := ⟨S32x64, .f32⟩) main_v154) Host.sqrt,
    TRef.binary (TRef.of (T := ⟨S32x64x300, .f32⟩) main_v2) (TRef.of (T := ⟨S32x64x300, .f32⟩) main_v2) (TRef.of (T := ⟨S32x64x300, .f32⟩) main_call13_v0) mulf,
    TRef.nullary (TRef.of (T := ⟨S_, .f32⟩) main_call13_cst) (constant S_ .f32 0x00000000#32),
    TRef.binary (TRef.of (T := ⟨S32x64x300, .f32⟩) main_call13_v0) (TRef.of (T := ⟨S_, .f32⟩) main_call13_cst) (TRef.of (T := ⟨S32x64, .f32⟩) main_call13_v1) (fun x v => Host.reduceAdd x v reducesTo_S32x64x300_S32x64_d2 h_S_),
    TRef.unary (TRef.of (T := ⟨S32x64, .f32⟩) main_call13_v1) (TRef.of (T := ⟨S32x64, .f32⟩) main_v155) Host.sqrt,
    binary main_v0 main_v2 main_v156 ((fun l r => Host.dotGeneral dot_S32x64x300_S32x64x300_S32x64x64_2_2_1_1_0_0 none l r) : (⟨S32x64x300, .f32⟩ : BufTy).Contents (Elt F) → (⟨S32x64x300, .f32⟩ : BufTy).Contents (Elt F) → (⟨S32x64x64, .f32⟩ : BufTy).Contents (Elt F)),
    unary main_v154 main_v157 (broadcastInDim S32x64x1 ![0, 1] bcast_S32x64_S32x64x1_0_1 : (⟨S32x64, .f32⟩ : BufTy).Contents (Elt F) → (⟨S32x64x1, .f32⟩ : BufTy).Contents (Elt F)),
    unary main_v155 main_v158 (broadcastInDim S32x1x64 ![0, 2] bcast_S32x64_S32x1x64_0_2 : (⟨S32x64, .f32⟩ : BufTy).Contents (Elt F) → (⟨S32x1x64, .f32⟩ : BufTy).Contents (Elt F)),
    unary main_v157 main_v159 (broadcastInDim S32x64x64 ![0, 1, 2] bcast_S32x64x1_S32x64x64_0_1_2 : (⟨S32x64x1, .f32⟩ : BufTy).Contents (Elt F) → (⟨S32x64x64, .f32⟩ : BufTy).Contents (Elt F)),
    unary main_v158 main_v160 (broadcastInDim S32x64x64 ![0, 1, 2] bcast_S32x1x64_S32x64x64_0_1_2 : (⟨S32x1x64, .f32⟩ : BufTy).Contents (Elt F) → (⟨S32x64x64, .f32⟩ : BufTy).Contents (Elt F)),
    binary main_v159 main_v160 main_v161 (mulf : (⟨S32x64x64, .f32⟩ : BufTy).Contents (Elt F) → (⟨S32x64x64, .f32⟩ : BufTy).Contents (Elt F) → (⟨S32x64x64, .f32⟩ : BufTy).Contents (Elt F)),
    binary main_v156 main_v161 main_v162 (Host.divf : (⟨S32x64x64, .f32⟩ : BufTy).Contents (Elt F) → (⟨S32x64x64, .f32⟩ : BufTy).Contents (Elt F) → (⟨S32x64x64, .f32⟩ : BufTy).Contents (Elt F)),
    binary main_v162 main_v0 main_v163 ((fun l r => Host.dotGeneral dot_S32x64x64_S32x64x300_S32x64x300_1_1_2_2_0_0 none l r) : (⟨S32x64x64, .f32⟩ : BufTy).Contents (Elt F) → (⟨S32x64x300, .f32⟩ : BufTy).Contents (Elt F) → (⟨S32x64x300, .f32⟩ : BufTy).Contents (Elt F)),
    nullary main_cst_11 (constant S_ .f32 0x00000000#32),
    binary main_v162 main_cst_11 main_v164 ((fun x v => Host.reduceAdd x v reducesTo_S32x64x64_S32x64_d1 h_S_) : (⟨S32x64x64, .f32⟩ : BufTy).Contents (Elt F) → (⟨S_, .f32⟩ : BufTy).Contents (Elt F) → (⟨S32x64, .f32⟩ : BufTy).Contents (Elt F)),
    unary main_v164 main_v165 (broadcastInDim S32x64x1 ![0, 1] bcast_S32x64_S32x64x1_0_1 : (⟨S32x64, .f32⟩ : BufTy).Contents (Elt F) → (⟨S32x64x1, .f32⟩ : BufTy).Contents (Elt F)),
    unary main_v165 main_v166 (broadcastInDim S32x64x300 ![0, 1, 2] bcast_S32x64x1_S32x64x300_0_1_2 : (⟨S32x64x1, .f32⟩ : BufTy).Contents (Elt F) → (⟨S32x64x300, .f32⟩ : BufTy).Contents (Elt F)),
    binary main_v163 main_v166 main_v167 (Host.divf : (⟨S32x64x300, .f32⟩ : BufTy).Contents (Elt F) → (⟨S32x64x300, .f32⟩ : BufTy).Contents (Elt F) → (⟨S32x64x300, .f32⟩ : BufTy).Contents (Elt F)),
    binary main_v162 main_v2 main_v168 ((fun l r => Host.dotGeneral dot_S32x64x64_S32x64x300_S32x64x300_2_1_1_2_0_0 none l r) : (⟨S32x64x64, .f32⟩ : BufTy).Contents (Elt F) → (⟨S32x64x300, .f32⟩ : BufTy).Contents (Elt F) → (⟨S32x64x300, .f32⟩ : BufTy).Contents (Elt F)),
    nullary main_cst_12 (constant S_ .f32 0x00000000#32),
    binary main_v162 main_cst_12 main_v169 ((fun x v => Host.reduceAdd x v reducesTo_S32x64x64_S32x64_d2 h_S_) : (⟨S32x64x64, .f32⟩ : BufTy).Contents (Elt F) → (⟨S_, .f32⟩ : BufTy).Contents (Elt F) → (⟨S32x64, .f32⟩ : BufTy).Contents (Elt F)),
    unary main_v169 main_v170 (broadcastInDim S32x64x1 ![0, 1] bcast_S32x64_S32x64x1_0_1 : (⟨S32x64, .f32⟩ : BufTy).Contents (Elt F) → (⟨S32x64x1, .f32⟩ : BufTy).Contents (Elt F)),
    unary main_v170 main_v171 (broadcastInDim S32x64x300 ![0, 1, 2] bcast_S32x64x1_S32x64x300_0_1_2 : (⟨S32x64x1, .f32⟩ : BufTy).Contents (Elt F) → (⟨S32x64x300, .f32⟩ : BufTy).Contents (Elt F)),
    binary main_v168 main_v171 main_v172 (Host.divf : (⟨S32x64x300, .f32⟩ : BufTy).Contents (Elt F) → (⟨S32x64x300, .f32⟩ : BufTy).Contents (Elt F) → (⟨S32x64x300, .f32⟩ : BufTy).Contents (Elt F)) ]

/-- Each touches TensorCore references only. -/
theorem c7_sub : (c7 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., binary_bufs_sub .., unary_bufs_sub .., unary_bufs_sub .., unary_bufs_sub .., unary_bufs_sub .., binary_bufs_sub .., binary_bufs_sub .., binary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub ..⟩

/-- None allocates. -/
theorem c7_fresh : ∀ op ∈ (c7 : List (HloOp τ sig (Elt F))), op.fresh = ∅ := by
  intro _ h; (repeat (cases h with | head => rfl | tail _ h => ?_)); exact nomatch h

/-- The buffers the list writes, in order. -/
abbrev w7 : List (Ref sig .tc) := [main_v152, main_v153, main_call12_v0, main_call12_cst, main_call12_v1, main_v154, main_call13_v0, main_call13_cst, main_call13_v1, main_v155, main_v156, main_v157, main_v158, main_v159, main_v160, main_v161, main_v162, main_v163, main_cst_11, main_v164, main_v165, main_v166, main_v167, main_v168, main_cst_12, main_v169, main_v170, main_v171, main_v172]

/-- A buffer not among them keeps its contents across the list. -/
theorem c7_keep (W : Valuation τ sig (Elt F)) (r : Ref sig .tc) (hr : r ∉ w7) :
    after c7 W (Proc.devRef .tc r) = W (Proc.devRef .tc r) :=
  after_of_forall_not_mem (b := Proc.devRef .tc r) c7 W (List.forall_iff_forall_mem.mp (by
    simp only [List.Forall, nullary_writes, unary_writes, binary_writes, ternary_writes, quaternary_writes, reshape_writes, nary_writes, Finset.mem_singleton]
    simp only [w7, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c7_v153 (W : Valuation τ sig (Elt F)) :
    after c7 W (Proc.devRef .tc main_v153)
      = Cert.ReferenceIdeal.MP.wBlkR ![4, 0, 0] Facts₀.slices_S8x20x300_S1x20x300_4_0_0 (W (Proc.devRef .tc main_arg2)) := by
  after_results_simp
  rfl

theorem c7_v167 (W : Valuation τ sig (Elt F)) :
    after c7 W (Proc.devRef .tc main_v167)
      = Cert.ReferenceIdeal.MP.meanPR (Cert.ReferenceIdeal.MP.csR (W (Proc.devRef .tc main_v0)) (W (Proc.devRef .tc main_v2))) (W (Proc.devRef .tc main_v0)) := by
  after_results_simp
  rfl

theorem c7_v172 (W : Valuation τ sig (Elt F)) :
    after c7 W (Proc.devRef .tc main_v172)
      = Cert.ReferenceIdeal.MP.meanQR (Cert.ReferenceIdeal.MP.csR (W (Proc.devRef .tc main_v0)) (W (Proc.devRef .tc main_v2))) (W (Proc.devRef .tc main_v2)) := by
  after_results_simp
  rfl

end Cert.ReferenceIdeal.RunC

end
-- ==== Proof.RunC8.lean ====
/-
  Operations 230–256 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c8 : List (HloOp τ sig (Elt F)) :=
  [ unary main_v0 main_v173 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v153 main_v174 (broadcastInDim S1x20x1x300 ![1, 3] bcast_S20x300_S1x20x1x300_1_3 : (⟨S20x300, .f32⟩ : BufTy).Contents (Elt F) → (⟨S1x20x1x300, .f32⟩ : BufTy).Contents (Elt F)),
    unary main_v173 main_v175 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v174 main_v176 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v175 main_v176 main_v177 (mulf : (⟨S32x20x64x300, .f32⟩ : BufTy).Contents (Elt F) → (⟨S32x20x64x300, .f32⟩ : BufTy).Contents (Elt F) → (⟨S32x20x64x300, .f32⟩ : BufTy).Contents (Elt F)),
    unary main_v172 main_v178 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v153 main_v179 (broadcastInDim S1x20x1x300 ![1, 3] bcast_S20x300_S1x20x1x300_1_3 : (⟨S20x300, .f32⟩ : BufTy).Contents (Elt F) → (⟨S1x20x1x300, .f32⟩ : BufTy).Contents (Elt F)),
    unary main_v178 main_v180 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v179 main_v181 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v180 main_v181 main_v182 (mulf : (⟨S32x20x64x300, .f32⟩ : BufTy).Contents (Elt F) → (⟨S32x20x64x300, .f32⟩ : BufTy).Contents (Elt F) → (⟨S32x20x64x300, .f32⟩ : BufTy).Contents (Elt F)),
    binary main_v177 main_v182 main_v183 (mulf : (⟨S32x20x64x300, .f32⟩ : BufTy).Contents (Elt F) → (⟨S32x20x64x300, .f32⟩ : BufTy).Contents (Elt F) → (⟨S32x20x64x300, .f32⟩ : BufTy).Contents (Elt F)),
    nullary main_cst_13 (constant S_ .f32 0x00000000#32),
    binary main_v183 main_cst_13 main_v184 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v177) (TRef.of (T := ⟨S32x20x64x300, .f32⟩) main_v177) (TRef.of (T := ⟨S32x20x64x300, .f32⟩) main_call14_v0) mulf,
    TRef.nullary (TRef.of (T := ⟨S_, .f32⟩) main_call14_cst) (constant S_ .f32 0x00000000#32),
    TRef.binary (TRef.of (T := ⟨S32x20x64x300, .f32⟩) main_call14_v0) (TRef.of (T := ⟨S_, .f32⟩) main_call14_cst) (TRef.of (T := ⟨S32x20x64, .f32⟩) main_call14_v1) (fun x v => Host.reduceAdd x v reducesTo_S32x20x64x300_S32x20x64_d3 h_S_),
    TRef.unary (TRef.of (T := ⟨S32x20x64, .f32⟩) main_call14_v1) (TRef.of (T := ⟨S32x20x64, .f32⟩) main_v185) Host.sqrt,
    TRef.binary (TRef.of (T := ⟨S32x20x64x300, .f32⟩) main_v182) (TRef.of (T := ⟨S32x20x64x300, .f32⟩) main_v182) (TRef.of (T := ⟨S32x20x64x300, .f32⟩) main_call15_v0) mulf,
    TRef.nullary (TRef.of (T := ⟨S_, .f32⟩) main_call15_cst) (constant S_ .f32 0x00000000#32),
    TRef.binary (TRef.of (T := ⟨S32x20x64x300, .f32⟩) main_call15_v0) (TRef.of (T := ⟨S_, .f32⟩) main_call15_cst) (TRef.of (T := ⟨S32x20x64, .f32⟩) main_call15_v1) (fun x v => Host.reduceAdd x v reducesTo_S32x20x64x300_S32x20x64_d3 h_S_),
    TRef.unary (TRef.of (T := ⟨S32x20x64, .f32⟩) main_call15_v1) (TRef.of (T := ⟨S32x20x64, .f32⟩) main_v186) Host.sqrt,
    binary main_v185 main_v186 main_v187 (mulf : (⟨S32x20x64, .f32⟩ : BufTy).Contents (Elt F) → (⟨S32x20x64, .f32⟩ : BufTy).Contents (Elt F) → (⟨S32x20x64, .f32⟩ : BufTy).Contents (Elt F)),
    nullary main_cst_14 (constant S_ .f32 0x322BCC77#32),
    unary main_cst_14 main_v188 (broadcastInDim S32x20x64 ![] bcast_S_S32x20x64 : (⟨S_, .f32⟩ : BufTy).Contents (Elt F) → (⟨S32x20x64, .f32⟩ : BufTy).Contents (Elt F)),
    binary main_v187 main_v188 main_v189 (maximumf : (⟨S32x20x64, .f32⟩ : BufTy).Contents (Elt F) → (⟨S32x20x64, .f32⟩ : BufTy).Contents (Elt F) → (⟨S32x20x64, .f32⟩ : BufTy).Contents (Elt F)),
    binary main_v184 main_v189 main_v190 (Host.divf : (⟨S32x20x64, .f32⟩ : BufTy).Contents (Elt F) → (⟨S32x20x64, .f32⟩ : BufTy).Contents (Elt F) → (⟨S32x20x64, .f32⟩ : BufTy).Contents (Elt F)),
    unary main_v190 main_v191 ((transpose S32x64x20 [0, 2, 1] · transposes_S32x20x64_S32x64x20_0_2_1) : (⟨S32x20x64, .f32⟩ : BufTy).Contents (Elt F) → (⟨S32x64x20, .f32⟩ : BufTy).Contents (Elt F)) ]

/-- Each touches TensorCore references only. -/
theorem c8_sub : (c8 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., binary_bufs_sub .., unary_bufs_sub ..⟩

/-- None allocates. -/
theorem c8_fresh : ∀ op ∈ (c8 : List (HloOp τ sig (Elt F))), op.fresh = ∅ := by
  intro _ h; (repeat (cases h with | head => rfl | tail _ h => ?_)); exact nomatch h

/-- The buffers the list writes, in order. -/
abbrev w8 : List (Ref sig .tc) := [main_v173, main_v174, main_v175, main_v176, main_v177, main_v178, main_v179, main_v180, main_v181, main_v182, main_v183, main_cst_13, main_v184, main_call14_v0, main_call14_cst, main_call14_v1, main_v185, main_call15_v0, main_call15_cst, main_call15_v1, main_v186, main_v187, main_cst_14, main_v188, main_v189, main_v190, main_v191]

/-- A buffer not among them keeps its contents across the list. -/
theorem c8_keep (W : Valuation τ sig (Elt F)) (r : Ref sig .tc) (hr : r ∉ w8) :
    after c8 W (Proc.devRef .tc r) = W (Proc.devRef .tc r) :=
  after_of_forall_not_mem (b := Proc.devRef .tc r) c8 W (List.forall_iff_forall_mem.mp (by
    simp only [List.Forall, nullary_writes, unary_writes, binary_writes, ternary_writes, quaternary_writes, reshape_writes, nary_writes, Finset.mem_singleton]
    simp only [w8, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c8_v191 (W : Valuation τ sig (Elt F)) :
    after c8 W (Proc.devRef .tc main_v191)
      = Cert.ReferenceIdeal.MP.mpR (W (Proc.devRef .tc main_v0)) (W (Proc.devRef .tc main_v172)) (W (Proc.devRef .tc main_v153)) := by
  after_results_simp
  rfl

end Cert.ReferenceIdeal.RunC

end
-- ==== Proof.RunC9.lean ====
/-
  Operations 257–283 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c9 : List (HloOp τ sig (Elt F)) :=
  [ unary main_v2 main_v192 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v153 main_v193 (broadcastInDim S1x20x1x300 ![1, 3] bcast_S20x300_S1x20x1x300_1_3 : (⟨S20x300, .f32⟩ : BufTy).Contents (Elt F) → (⟨S1x20x1x300, .f32⟩ : BufTy).Contents (Elt F)),
    unary main_v192 main_v194 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v193 main_v195 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v194 main_v195 main_v196 (mulf : (⟨S32x20x64x300, .f32⟩ : BufTy).Contents (Elt F) → (⟨S32x20x64x300, .f32⟩ : BufTy).Contents (Elt F) → (⟨S32x20x64x300, .f32⟩ : BufTy).Contents (Elt F)),
    unary main_v167 main_v197 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v153 main_v198 (broadcastInDim S1x20x1x300 ![1, 3] bcast_S20x300_S1x20x1x300_1_3 : (⟨S20x300, .f32⟩ : BufTy).Contents (Elt F) → (⟨S1x20x1x300, .f32⟩ : BufTy).Contents (Elt F)),
    unary main_v197 main_v199 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v198 main_v200 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v199 main_v200 main_v201 (mulf : (⟨S32x20x64x300, .f32⟩ : BufTy).Contents (Elt F) → (⟨S32x20x64x300, .f32⟩ : BufTy).Contents (Elt F) → (⟨S32x20x64x300, .f32⟩ : BufTy).Contents (Elt F)),
    binary main_v196 main_v201 main_v202 (mulf : (⟨S32x20x64x300, .f32⟩ : BufTy).Contents (Elt F) → (⟨S32x20x64x300, .f32⟩ : BufTy).Contents (Elt F) → (⟨S32x20x64x300, .f32⟩ : BufTy).Contents (Elt F)),
    nullary main_cst_15 (constant S_ .f32 0x00000000#32),
    binary main_v202 main_cst_15 main_v203 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v196) (TRef.of (T := ⟨S32x20x64x300, .f32⟩) main_v196) (TRef.of (T := ⟨S32x20x64x300, .f32⟩) main_call16_v0) mulf,
    TRef.nullary (TRef.of (T := ⟨S_, .f32⟩) main_call16_cst) (constant S_ .f32 0x00000000#32),
    TRef.binary (TRef.of (T := ⟨S32x20x64x300, .f32⟩) main_call16_v0) (TRef.of (T := ⟨S_, .f32⟩) main_call16_cst) (TRef.of (T := ⟨S32x20x64, .f32⟩) main_call16_v1) (fun x v => Host.reduceAdd x v reducesTo_S32x20x64x300_S32x20x64_d3 h_S_),
    TRef.unary (TRef.of (T := ⟨S32x20x64, .f32⟩) main_call16_v1) (TRef.of (T := ⟨S32x20x64, .f32⟩) main_v204) Host.sqrt,
    TRef.binary (TRef.of (T := ⟨S32x20x64x300, .f32⟩) main_v201) (TRef.of (T := ⟨S32x20x64x300, .f32⟩) main_v201) (TRef.of (T := ⟨S32x20x64x300, .f32⟩) main_call17_v0) mulf,
    TRef.nullary (TRef.of (T := ⟨S_, .f32⟩) main_call17_cst) (constant S_ .f32 0x00000000#32),
    TRef.binary (TRef.of (T := ⟨S32x20x64x300, .f32⟩) main_call17_v0) (TRef.of (T := ⟨S_, .f32⟩) main_call17_cst) (TRef.of (T := ⟨S32x20x64, .f32⟩) main_call17_v1) (fun x v => Host.reduceAdd x v reducesTo_S32x20x64x300_S32x20x64_d3 h_S_),
    TRef.unary (TRef.of (T := ⟨S32x20x64, .f32⟩) main_call17_v1) (TRef.of (T := ⟨S32x20x64, .f32⟩) main_v205) Host.sqrt,
    binary main_v204 main_v205 main_v206 (mulf : (⟨S32x20x64, .f32⟩ : BufTy).Contents (Elt F) → (⟨S32x20x64, .f32⟩ : BufTy).Contents (Elt F) → (⟨S32x20x64, .f32⟩ : BufTy).Contents (Elt F)),
    nullary main_cst_16 (constant S_ .f32 0x322BCC77#32),
    unary main_cst_16 main_v207 (broadcastInDim S32x20x64 ![] bcast_S_S32x20x64 : (⟨S_, .f32⟩ : BufTy).Contents (Elt F) → (⟨S32x20x64, .f32⟩ : BufTy).Contents (Elt F)),
    binary main_v206 main_v207 main_v208 (maximumf : (⟨S32x20x64, .f32⟩ : BufTy).Contents (Elt F) → (⟨S32x20x64, .f32⟩ : BufTy).Contents (Elt F) → (⟨S32x20x64, .f32⟩ : BufTy).Contents (Elt F)),
    binary main_v203 main_v208 main_v209 (Host.divf : (⟨S32x20x64, .f32⟩ : BufTy).Contents (Elt F) → (⟨S32x20x64, .f32⟩ : BufTy).Contents (Elt F) → (⟨S32x20x64, .f32⟩ : BufTy).Contents (Elt F)),
    unary main_v209 main_v210 ((transpose S32x64x20 [0, 2, 1] · transposes_S32x20x64_S32x64x20_0_2_1) : (⟨S32x20x64, .f32⟩ : BufTy).Contents (Elt F) → (⟨S32x64x20, .f32⟩ : BufTy).Contents (Elt F)) ]

/-- Each touches TensorCore references only. -/
theorem c9_sub : (c9 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., binary_bufs_sub .., unary_bufs_sub ..⟩

/-- None allocates. -/
theorem c9_fresh : ∀ op ∈ (c9 : List (HloOp τ sig (Elt F))), op.fresh = ∅ := by
  intro _ h; (repeat (cases h with | head => rfl | tail _ h => ?_)); exact nomatch h

/-- The buffers the list writes, in order. -/
abbrev w9 : List (Ref sig .tc) := [main_v192, main_v193, main_v194, main_v195, main_v196, main_v197, main_v198, main_v199, main_v200, main_v201, main_v202, main_cst_15, main_v203, main_call16_v0, main_call16_cst, main_call16_v1, main_v204, main_call17_v0, main_call17_cst, main_call17_v1, main_v205, main_v206, main_cst_16, main_v207, main_v208, main_v209, main_v210]

/-- A buffer not among them keeps its contents across the list. -/
theorem c9_keep (W : Valuation τ sig (Elt F)) (r : Ref sig .tc) (hr : r ∉ w9) :
    after c9 W (Proc.devRef .tc r) = W (Proc.devRef .tc r) :=
  after_of_forall_not_mem (b := Proc.devRef .tc r) c9 W (List.forall_iff_forall_mem.mp (by
    simp only [List.Forall, nullary_writes, unary_writes, binary_writes, ternary_writes, quaternary_writes, reshape_writes, nary_writes, Finset.mem_singleton]
    simp only [w9, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c9_v210 (W : Valuation τ sig (Elt F)) :
    after c9 W (Proc.devRef .tc main_v210)
      = Cert.ReferenceIdeal.MP.mpR (W (Proc.devRef .tc main_v2)) (W (Proc.devRef .tc main_v167)) (W (Proc.devRef .tc main_v153)) := by
  after_results_simp
  rfl

end Cert.ReferenceIdeal.RunC

end
-- ==== Proof.RunC10.lean ====
/-
  Operations 284–312 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c10 : List (HloOp τ sig (Elt F)) :=
  [ unary main_arg2 main_v211 ((extractStridedSlice S1x20x300 ![5, 0, 0] · slices_S8x20x300_S1x20x300_5_0_0) : (⟨S8x20x300, .f32⟩ : BufTy).Contents (Elt F) → (⟨S1x20x300, .f32⟩ : BufTy).Contents (Elt F)),
    reshape main_v211 main_v212 rfl shapeCasts_S1x20x300_S20x300,
    TRef.binary (TRef.of (T := ⟨S32x64x300, .f32⟩) main_v1) (TRef.of (T := ⟨S32x64x300, .f32⟩) main_v1) (TRef.of (T := ⟨S32x64x300, .f32⟩) main_call18_v0) mulf,
    TRef.nullary (TRef.of (T := ⟨S_, .f32⟩) main_call18_cst) (constant S_ .f32 0x00000000#32),
    TRef.binary (TRef.of (T := ⟨S32x64x300, .f32⟩) main_call18_v0) (TRef.of (T := ⟨S_, .f32⟩) main_call18_cst) (TRef.of (T := ⟨S32x64, .f32⟩) main_call18_v1) (fun x v => Host.reduceAdd x v reducesTo_S32x64x300_S32x64_d2 h_S_),
    TRef.unary (TRef.of (T := ⟨S32x64, .f32⟩) main_call18_v1) (TRef.of (T := ⟨S32x64, .f32⟩) main_v213) Host.sqrt,
    TRef.binary (TRef.of (T := ⟨S32x64x300, .f32⟩) main_v3) (TRef.of (T := ⟨S32x64x300, .f32⟩) main_v3) (TRef.of (T := ⟨S32x64x300, .f32⟩) main_call19_v0) mulf,
    TRef.nullary (TRef.of (T := ⟨S_, .f32⟩) main_call19_cst) (constant S_ .f32 0x00000000#32),
    TRef.binary (TRef.of (T := ⟨S32x64x300, .f32⟩) main_call19_v0) (TRef.of (T := ⟨S_, .f32⟩) main_call19_cst) (TRef.of (T := ⟨S32x64, .f32⟩) main_call19_v1) (fun x v => Host.reduceAdd x v reducesTo_S32x64x300_S32x64_d2 h_S_),
    TRef.unary (TRef.of (T := ⟨S32x64, .f32⟩) main_call19_v1) (TRef.of (T := ⟨S32x64, .f32⟩) main_v214) Host.sqrt,
    binary main_v1 main_v3 main_v215 ((fun l r => Host.dotGeneral dot_S32x64x300_S32x64x300_S32x64x64_2_2_1_1_0_0 none l r) : (⟨S32x64x300, .f32⟩ : BufTy).Contents (Elt F) → (⟨S32x64x300, .f32⟩ : BufTy).Contents (Elt F) → (⟨S32x64x64, .f32⟩ : BufTy).Contents (Elt F)),
    unary main_v213 main_v216 (broadcastInDim S32x64x1 ![0, 1] bcast_S32x64_S32x64x1_0_1 : (⟨S32x64, .f32⟩ : BufTy).Contents (Elt F) → (⟨S32x64x1, .f32⟩ : BufTy).Contents (Elt F)),
    unary main_v214 main_v217 (broadcastInDim S32x1x64 ![0, 2] bcast_S32x64_S32x1x64_0_2 : (⟨S32x64, .f32⟩ : BufTy).Contents (Elt F) → (⟨S32x1x64, .f32⟩ : BufTy).Contents (Elt F)),
    unary main_v216 main_v218 (broadcastInDim S32x64x64 ![0, 1, 2] bcast_S32x64x1_S32x64x64_0_1_2 : (⟨S32x64x1, .f32⟩ : BufTy).Contents (Elt F) → (⟨S32x64x64, .f32⟩ : BufTy).Contents (Elt F)),
    unary main_v217 main_v219 (broadcastInDim S32x64x64 ![0, 1, 2] bcast_S32x1x64_S32x64x64_0_1_2 : (⟨S32x1x64, .f32⟩ : BufTy).Contents (Elt F) → (⟨S32x64x64, .f32⟩ : BufTy).Contents (Elt F)),
    binary main_v218 main_v219 main_v220 (mulf : (⟨S32x64x64, .f32⟩ : BufTy).Contents (Elt F) → (⟨S32x64x64, .f32⟩ : BufTy).Contents (Elt F) → (⟨S32x64x64, .f32⟩ : BufTy).Contents (Elt F)),
    binary main_v215 main_v220 main_v221 (Host.divf : (⟨S32x64x64, .f32⟩ : BufTy).Contents (Elt F) → (⟨S32x64x64, .f32⟩ : BufTy).Contents (Elt F) → (⟨S32x64x64, .f32⟩ : BufTy).Contents (Elt F)),
    binary main_v221 main_v1 main_v222 ((fun l r => Host.dotGeneral dot_S32x64x64_S32x64x300_S32x64x300_1_1_2_2_0_0 none l r) : (⟨S32x64x64, .f32⟩ : BufTy).Contents (Elt F) → (⟨S32x64x300, .f32⟩ : BufTy).Contents (Elt F) → (⟨S32x64x300, .f32⟩ : BufTy).Contents (Elt F)),
    nullary main_cst_17 (constant S_ .f32 0x00000000#32),
    binary main_v221 main_cst_17 main_v223 ((fun x v => Host.reduceAdd x v reducesTo_S32x64x64_S32x64_d1 h_S_) : (⟨S32x64x64, .f32⟩ : BufTy).Contents (Elt F) → (⟨S_, .f32⟩ : BufTy).Contents (Elt F) → (⟨S32x64, .f32⟩ : BufTy).Contents (Elt F)),
    unary main_v223 main_v224 (broadcastInDim S32x64x1 ![0, 1] bcast_S32x64_S32x64x1_0_1 : (⟨S32x64, .f32⟩ : BufTy).Contents (Elt F) → (⟨S32x64x1, .f32⟩ : BufTy).Contents (Elt F)),
    unary main_v224 main_v225 (broadcastInDim S32x64x300 ![0, 1, 2] bcast_S32x64x1_S32x64x300_0_1_2 : (⟨S32x64x1, .f32⟩ : BufTy).Contents (Elt F) → (⟨S32x64x300, .f32⟩ : BufTy).Contents (Elt F)),
    binary main_v222 main_v225 main_v226 (Host.divf : (⟨S32x64x300, .f32⟩ : BufTy).Contents (Elt F) → (⟨S32x64x300, .f32⟩ : BufTy).Contents (Elt F) → (⟨S32x64x300, .f32⟩ : BufTy).Contents (Elt F)),
    binary main_v221 main_v3 main_v227 ((fun l r => Host.dotGeneral dot_S32x64x64_S32x64x300_S32x64x300_2_1_1_2_0_0 none l r) : (⟨S32x64x64, .f32⟩ : BufTy).Contents (Elt F) → (⟨S32x64x300, .f32⟩ : BufTy).Contents (Elt F) → (⟨S32x64x300, .f32⟩ : BufTy).Contents (Elt F)),
    nullary main_cst_18 (constant S_ .f32 0x00000000#32),
    binary main_v221 main_cst_18 main_v228 ((fun x v => Host.reduceAdd x v reducesTo_S32x64x64_S32x64_d2 h_S_) : (⟨S32x64x64, .f32⟩ : BufTy).Contents (Elt F) → (⟨S_, .f32⟩ : BufTy).Contents (Elt F) → (⟨S32x64, .f32⟩ : BufTy).Contents (Elt F)),
    unary main_v228 main_v229 (broadcastInDim S32x64x1 ![0, 1] bcast_S32x64_S32x64x1_0_1 : (⟨S32x64, .f32⟩ : BufTy).Contents (Elt F) → (⟨S32x64x1, .f32⟩ : BufTy).Contents (Elt F)),
    unary main_v229 main_v230 (broadcastInDim S32x64x300 ![0, 1, 2] bcast_S32x64x1_S32x64x300_0_1_2 : (⟨S32x64x1, .f32⟩ : BufTy).Contents (Elt F) → (⟨S32x64x300, .f32⟩ : BufTy).Contents (Elt F)),
    binary main_v227 main_v230 main_v231 (Host.divf : (⟨S32x64x300, .f32⟩ : BufTy).Contents (Elt F) → (⟨S32x64x300, .f32⟩ : BufTy).Contents (Elt F) → (⟨S32x64x300, .f32⟩ : BufTy).Contents (Elt F)) ]

/-- Each touches TensorCore references only. -/
theorem c10_sub : (c10 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., binary_bufs_sub .., unary_bufs_sub .., unary_bufs_sub .., unary_bufs_sub .., unary_bufs_sub .., binary_bufs_sub .., binary_bufs_sub .., binary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub ..⟩

/-- None allocates. -/
theorem c10_fresh : ∀ op ∈ (c10 : List (HloOp τ sig (Elt F))), op.fresh = ∅ := by
  intro _ h; (repeat (cases h with | head => rfl | tail _ h => ?_)); exact nomatch h

/-- The buffers the list writes, in order. -/
abbrev w10 : List (Ref sig .tc) := [main_v211, main_v212, main_call18_v0, main_call18_cst, main_call18_v1, main_v213, main_call19_v0, main_call19_cst, main_call19_v1, main_v214, main_v215, main_v216, main_v217, main_v218, main_v219, main_v220, main_v221, main_v222, main_cst_17, main_v223, main_v224, main_v225, main_v226, main_v227, main_cst_18, main_v228, main_v229, main_v230, main_v231]

/-- A buffer not among them keeps its contents across the list. -/
theorem c10_keep (W : Valuation τ sig (Elt F)) (r : Ref sig .tc) (hr : r ∉ w10) :
    after c10 W (Proc.devRef .tc r) = W (Proc.devRef .tc r) :=
  after_of_forall_not_mem (b := Proc.devRef .tc r) c10 W (List.forall_iff_forall_mem.mp (by
    simp only [List.Forall, nullary_writes, unary_writes, binary_writes, ternary_writes, quaternary_writes, reshape_writes, nary_writes, Finset.mem_singleton]
    simp only [w10, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c10_v212 (W : Valuation τ sig (Elt F)) :
    after c10 W (Proc.devRef .tc main_v212)
      = Cert.ReferenceIdeal.MP.wBlkR ![5, 0, 0] Facts₀.slices_S8x20x300_S1x20x300_5_0_0 (W (Proc.devRef .tc main_arg2)) := by
  after_results_simp
  rfl

theorem c10_v226 (W : Valuation τ sig (Elt F)) :
    after c10 W (Proc.devRef .tc main_v226)
      = Cert.ReferenceIdeal.MP.meanPR (Cert.ReferenceIdeal.MP.csR (W (Proc.devRef .tc main_v1)) (W (Proc.devRef .tc main_v3))) (W (Proc.devRef .tc main_v1)) := by
  after_results_simp
  rfl

theorem c10_v231 (W : Valuation τ sig (Elt F)) :
    after c10 W (Proc.devRef .tc main_v231)
      = Cert.ReferenceIdeal.MP.meanQR (Cert.ReferenceIdeal.MP.csR (W (Proc.devRef .tc main_v1)) (W (Proc.devRef .tc main_v3))) (W (Proc.devRef .tc main_v3)) := by
  after_results_simp
  rfl

end Cert.ReferenceIdeal.RunC

end
-- ==== Proof.RunC11.lean ====
/-
  Operations 313–339 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c11 : List (HloOp τ sig (Elt F)) :=
  [ unary main_v1 main_v232 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v212 main_v233 (broadcastInDim S1x20x1x300 ![1, 3] bcast_S20x300_S1x20x1x300_1_3 : (⟨S20x300, .f32⟩ : BufTy).Contents (Elt F) → (⟨S1x20x1x300, .f32⟩ : BufTy).Contents (Elt F)),
    unary main_v232 main_v234 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v233 main_v235 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v234 main_v235 main_v236 (mulf : (⟨S32x20x64x300, .f32⟩ : BufTy).Contents (Elt F) → (⟨S32x20x64x300, .f32⟩ : BufTy).Contents (Elt F) → (⟨S32x20x64x300, .f32⟩ : BufTy).Contents (Elt F)),
    unary main_v231 main_v237 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v212 main_v238 (broadcastInDim S1x20x1x300 ![1, 3] bcast_S20x300_S1x20x1x300_1_3 : (⟨S20x300, .f32⟩ : BufTy).Contents (Elt F) → (⟨S1x20x1x300, .f32⟩ : BufTy).Contents (Elt F)),
    unary main_v237 main_v239 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v238 main_v240 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v239 main_v240 main_v241 (mulf : (⟨S32x20x64x300, .f32⟩ : BufTy).Contents (Elt F) → (⟨S32x20x64x300, .f32⟩ : BufTy).Contents (Elt F) → (⟨S32x20x64x300, .f32⟩ : BufTy).Contents (Elt F)),
    binary main_v236 main_v241 main_v242 (mulf : (⟨S32x20x64x300, .f32⟩ : BufTy).Contents (Elt F) → (⟨S32x20x64x300, .f32⟩ : BufTy).Contents (Elt F) → (⟨S32x20x64x300, .f32⟩ : BufTy).Contents (Elt F)),
    nullary main_cst_19 (constant S_ .f32 0x00000000#32),
    binary main_v242 main_cst_19 main_v243 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v236) (TRef.of (T := ⟨S32x20x64x300, .f32⟩) main_v236) (TRef.of (T := ⟨S32x20x64x300, .f32⟩) main_call20_v0) mulf,
    TRef.nullary (TRef.of (T := ⟨S_, .f32⟩) main_call20_cst) (constant S_ .f32 0x00000000#32),
    TRef.binary (TRef.of (T := ⟨S32x20x64x300, .f32⟩) main_call20_v0) (TRef.of (T := ⟨S_, .f32⟩) main_call20_cst) (TRef.of (T := ⟨S32x20x64, .f32⟩) main_call20_v1) (fun x v => Host.reduceAdd x v reducesTo_S32x20x64x300_S32x20x64_d3 h_S_),
    TRef.unary (TRef.of (T := ⟨S32x20x64, .f32⟩) main_call20_v1) (TRef.of (T := ⟨S32x20x64, .f32⟩) main_v244) Host.sqrt,
    TRef.binary (TRef.of (T := ⟨S32x20x64x300, .f32⟩) main_v241) (TRef.of (T := ⟨S32x20x64x300, .f32⟩) main_v241) (TRef.of (T := ⟨S32x20x64x300, .f32⟩) main_call21_v0) mulf,
    TRef.nullary (TRef.of (T := ⟨S_, .f32⟩) main_call21_cst) (constant S_ .f32 0x00000000#32),
    TRef.binary (TRef.of (T := ⟨S32x20x64x300, .f32⟩) main_call21_v0) (TRef.of (T := ⟨S_, .f32⟩) main_call21_cst) (TRef.of (T := ⟨S32x20x64, .f32⟩) main_call21_v1) (fun x v => Host.reduceAdd x v reducesTo_S32x20x64x300_S32x20x64_d3 h_S_),
    TRef.unary (TRef.of (T := ⟨S32x20x64, .f32⟩) main_call21_v1) (TRef.of (T := ⟨S32x20x64, .f32⟩) main_v245) Host.sqrt,
    binary main_v244 main_v245 main_v246 (mulf : (⟨S32x20x64, .f32⟩ : BufTy).Contents (Elt F) → (⟨S32x20x64, .f32⟩ : BufTy).Contents (Elt F) → (⟨S32x20x64, .f32⟩ : BufTy).Contents (Elt F)),
    nullary main_cst_20 (constant S_ .f32 0x322BCC77#32),
    unary main_cst_20 main_v247 (broadcastInDim S32x20x64 ![] bcast_S_S32x20x64 : (⟨S_, .f32⟩ : BufTy).Contents (Elt F) → (⟨S32x20x64, .f32⟩ : BufTy).Contents (Elt F)),
    binary main_v246 main_v247 main_v248 (maximumf : (⟨S32x20x64, .f32⟩ : BufTy).Contents (Elt F) → (⟨S32x20x64, .f32⟩ : BufTy).Contents (Elt F) → (⟨S32x20x64, .f32⟩ : BufTy).Contents (Elt F)),
    binary main_v243 main_v248 main_v249 (Host.divf : (⟨S32x20x64, .f32⟩ : BufTy).Contents (Elt F) → (⟨S32x20x64, .f32⟩ : BufTy).Contents (Elt F) → (⟨S32x20x64, .f32⟩ : BufTy).Contents (Elt F)),
    unary main_v249 main_v250 ((transpose S32x64x20 [0, 2, 1] · transposes_S32x20x64_S32x64x20_0_2_1) : (⟨S32x20x64, .f32⟩ : BufTy).Contents (Elt F) → (⟨S32x64x20, .f32⟩ : BufTy).Contents (Elt F)) ]

/-- Each touches TensorCore references only. -/
theorem c11_sub : (c11 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., binary_bufs_sub .., unary_bufs_sub ..⟩

/-- None allocates. -/
theorem c11_fresh : ∀ op ∈ (c11 : List (HloOp τ sig (Elt F))), op.fresh = ∅ := by
  intro _ h; (repeat (cases h with | head => rfl | tail _ h => ?_)); exact nomatch h

/-- The buffers the list writes, in order. -/
abbrev w11 : List (Ref sig .tc) := [main_v232, main_v233, main_v234, main_v235, main_v236, main_v237, main_v238, main_v239, main_v240, main_v241, main_v242, main_cst_19, main_v243, main_call20_v0, main_call20_cst, main_call20_v1, main_v244, main_call21_v0, main_call21_cst, main_call21_v1, main_v245, main_v246, main_cst_20, main_v247, main_v248, main_v249, main_v250]

/-- A buffer not among them keeps its contents across the list. -/
theorem c11_keep (W : Valuation τ sig (Elt F)) (r : Ref sig .tc) (hr : r ∉ w11) :
    after c11 W (Proc.devRef .tc r) = W (Proc.devRef .tc r) :=
  after_of_forall_not_mem (b := Proc.devRef .tc r) c11 W (List.forall_iff_forall_mem.mp (by
    simp only [List.Forall, nullary_writes, unary_writes, binary_writes, ternary_writes, quaternary_writes, reshape_writes, nary_writes, Finset.mem_singleton]
    simp only [w11, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c11_v250 (W : Valuation τ sig (Elt F)) :
    after c11 W (Proc.devRef .tc main_v250)
      = Cert.ReferenceIdeal.MP.mpR (W (Proc.devRef .tc main_v1)) (W (Proc.devRef .tc main_v231)) (W (Proc.devRef .tc main_v212)) := by
  after_results_simp
  rfl

end Cert.ReferenceIdeal.RunC

end
-- ==== Proof.RunC12.lean ====
/-
  Operations 340–366 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c12 : List (HloOp τ sig (Elt F)) :=
  [ unary main_v3 main_v251 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v212 main_v252 (broadcastInDim S1x20x1x300 ![1, 3] bcast_S20x300_S1x20x1x300_1_3 : (⟨S20x300, .f32⟩ : BufTy).Contents (Elt F) → (⟨S1x20x1x300, .f32⟩ : BufTy).Contents (Elt F)),
    unary main_v251 main_v253 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v252 main_v254 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v253 main_v254 main_v255 (mulf : (⟨S32x20x64x300, .f32⟩ : BufTy).Contents (Elt F) → (⟨S32x20x64x300, .f32⟩ : BufTy).Contents (Elt F) → (⟨S32x20x64x300, .f32⟩ : BufTy).Contents (Elt F)),
    unary main_v226 main_v256 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v212 main_v257 (broadcastInDim S1x20x1x300 ![1, 3] bcast_S20x300_S1x20x1x300_1_3 : (⟨S20x300, .f32⟩ : BufTy).Contents (Elt F) → (⟨S1x20x1x300, .f32⟩ : BufTy).Contents (Elt F)),
    unary main_v256 main_v258 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v257 main_v259 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v258 main_v259 main_v260 (mulf : (⟨S32x20x64x300, .f32⟩ : BufTy).Contents (Elt F) → (⟨S32x20x64x300, .f32⟩ : BufTy).Contents (Elt F) → (⟨S32x20x64x300, .f32⟩ : BufTy).Contents (Elt F)),
    binary main_v255 main_v260 main_v261 (mulf : (⟨S32x20x64x300, .f32⟩ : BufTy).Contents (Elt F) → (⟨S32x20x64x300, .f32⟩ : BufTy).Contents (Elt F) → (⟨S32x20x64x300, .f32⟩ : BufTy).Contents (Elt F)),
    nullary main_cst_21 (constant S_ .f32 0x00000000#32),
    binary main_v261 main_cst_21 main_v262 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v255) (TRef.of (T := ⟨S32x20x64x300, .f32⟩) main_v255) (TRef.of (T := ⟨S32x20x64x300, .f32⟩) main_call22_v0) mulf,
    TRef.nullary (TRef.of (T := ⟨S_, .f32⟩) main_call22_cst) (constant S_ .f32 0x00000000#32),
    TRef.binary (TRef.of (T := ⟨S32x20x64x300, .f32⟩) main_call22_v0) (TRef.of (T := ⟨S_, .f32⟩) main_call22_cst) (TRef.of (T := ⟨S32x20x64, .f32⟩) main_call22_v1) (fun x v => Host.reduceAdd x v reducesTo_S32x20x64x300_S32x20x64_d3 h_S_),
    TRef.unary (TRef.of (T := ⟨S32x20x64, .f32⟩) main_call22_v1) (TRef.of (T := ⟨S32x20x64, .f32⟩) main_v263) Host.sqrt,
    TRef.binary (TRef.of (T := ⟨S32x20x64x300, .f32⟩) main_v260) (TRef.of (T := ⟨S32x20x64x300, .f32⟩) main_v260) (TRef.of (T := ⟨S32x20x64x300, .f32⟩) main_call23_v0) mulf,
    TRef.nullary (TRef.of (T := ⟨S_, .f32⟩) main_call23_cst) (constant S_ .f32 0x00000000#32),
    TRef.binary (TRef.of (T := ⟨S32x20x64x300, .f32⟩) main_call23_v0) (TRef.of (T := ⟨S_, .f32⟩) main_call23_cst) (TRef.of (T := ⟨S32x20x64, .f32⟩) main_call23_v1) (fun x v => Host.reduceAdd x v reducesTo_S32x20x64x300_S32x20x64_d3 h_S_),
    TRef.unary (TRef.of (T := ⟨S32x20x64, .f32⟩) main_call23_v1) (TRef.of (T := ⟨S32x20x64, .f32⟩) main_v264) Host.sqrt,
    binary main_v263 main_v264 main_v265 (mulf : (⟨S32x20x64, .f32⟩ : BufTy).Contents (Elt F) → (⟨S32x20x64, .f32⟩ : BufTy).Contents (Elt F) → (⟨S32x20x64, .f32⟩ : BufTy).Contents (Elt F)),
    nullary main_cst_22 (constant S_ .f32 0x322BCC77#32),
    unary main_cst_22 main_v266 (broadcastInDim S32x20x64 ![] bcast_S_S32x20x64 : (⟨S_, .f32⟩ : BufTy).Contents (Elt F) → (⟨S32x20x64, .f32⟩ : BufTy).Contents (Elt F)),
    binary main_v265 main_v266 main_v267 (maximumf : (⟨S32x20x64, .f32⟩ : BufTy).Contents (Elt F) → (⟨S32x20x64, .f32⟩ : BufTy).Contents (Elt F) → (⟨S32x20x64, .f32⟩ : BufTy).Contents (Elt F)),
    binary main_v262 main_v267 main_v268 (Host.divf : (⟨S32x20x64, .f32⟩ : BufTy).Contents (Elt F) → (⟨S32x20x64, .f32⟩ : BufTy).Contents (Elt F) → (⟨S32x20x64, .f32⟩ : BufTy).Contents (Elt F)),
    unary main_v268 main_v269 ((transpose S32x64x20 [0, 2, 1] · transposes_S32x20x64_S32x64x20_0_2_1) : (⟨S32x20x64, .f32⟩ : BufTy).Contents (Elt F) → (⟨S32x64x20, .f32⟩ : BufTy).Contents (Elt F)) ]

/-- Each touches TensorCore references only. -/
theorem c12_sub : (c12 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., binary_bufs_sub .., unary_bufs_sub ..⟩

/-- None allocates. -/
theorem c12_fresh : ∀ op ∈ (c12 : List (HloOp τ sig (Elt F))), op.fresh = ∅ := by
  intro _ h; (repeat (cases h with | head => rfl | tail _ h => ?_)); exact nomatch h

/-- The buffers the list writes, in order. -/
abbrev w12 : List (Ref sig .tc) := [main_v251, main_v252, main_v253, main_v254, main_v255, main_v256, main_v257, main_v258, main_v259, main_v260, main_v261, main_cst_21, main_v262, main_call22_v0, main_call22_cst, main_call22_v1, main_v263, main_call23_v0, main_call23_cst, main_call23_v1, main_v264, main_v265, main_cst_22, main_v266, main_v267, main_v268, main_v269]

/-- A buffer not among them keeps its contents across the list. -/
theorem c12_keep (W : Valuation τ sig (Elt F)) (r : Ref sig .tc) (hr : r ∉ w12) :
    after c12 W (Proc.devRef .tc r) = W (Proc.devRef .tc r) :=
  after_of_forall_not_mem (b := Proc.devRef .tc r) c12 W (List.forall_iff_forall_mem.mp (by
    simp only [List.Forall, nullary_writes, unary_writes, binary_writes, ternary_writes, quaternary_writes, reshape_writes, nary_writes, Finset.mem_singleton]
    simp only [w12, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c12_v269 (W : Valuation τ sig (Elt F)) :
    after c12 W (Proc.devRef .tc main_v269)
      = Cert.ReferenceIdeal.MP.mpR (W (Proc.devRef .tc main_v3)) (W (Proc.devRef .tc main_v226)) (W (Proc.devRef .tc main_v212)) := by
  after_results_simp
  rfl

end Cert.ReferenceIdeal.RunC

end
-- ==== Proof.RunC13.lean ====
/-
  Operations 367–397 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c13 : List (HloOp τ sig (Elt F)) :=
  [ unary main_arg2 main_v270 ((extractStridedSlice S1x20x300 ![6, 0, 0] · slices_S8x20x300_S1x20x300_6_0_0) : (⟨S8x20x300, .f32⟩ : BufTy).Contents (Elt F) → (⟨S1x20x300, .f32⟩ : BufTy).Contents (Elt F)),
    reshape main_v270 main_v271 rfl shapeCasts_S1x20x300_S20x300,
    TRef.binary (TRef.of (T := ⟨S32x64x300, .f32⟩) main_v0) (TRef.of (T := ⟨S32x64x300, .f32⟩) main_v0) (TRef.of (T := ⟨S32x64x300, .f32⟩) main_call24_v0) mulf,
    TRef.nullary (TRef.of (T := ⟨S_, .f32⟩) main_call24_cst) (constant S_ .f32 0x00000000#32),
    TRef.binary (TRef.of (T := ⟨S32x64x300, .f32⟩) main_call24_v0) (TRef.of (T := ⟨S_, .f32⟩) main_call24_cst) (TRef.of (T := ⟨S32x64, .f32⟩) main_call24_v1) (fun x v => Host.reduceAdd x v reducesTo_S32x64x300_S32x64_d2 h_S_),
    TRef.unary (TRef.of (T := ⟨S32x64, .f32⟩) main_call24_v1) (TRef.of (T := ⟨S32x64, .f32⟩) main_v272) Host.sqrt,
    TRef.binary (TRef.of (T := ⟨S32x64x300, .f32⟩) main_v2) (TRef.of (T := ⟨S32x64x300, .f32⟩) main_v2) (TRef.of (T := ⟨S32x64x300, .f32⟩) main_call25_v0) mulf,
    TRef.nullary (TRef.of (T := ⟨S_, .f32⟩) main_call25_cst) (constant S_ .f32 0x00000000#32),
    TRef.binary (TRef.of (T := ⟨S32x64x300, .f32⟩) main_call25_v0) (TRef.of (T := ⟨S_, .f32⟩) main_call25_cst) (TRef.of (T := ⟨S32x64, .f32⟩) main_call25_v1) (fun x v => Host.reduceAdd x v reducesTo_S32x64x300_S32x64_d2 h_S_),
    TRef.unary (TRef.of (T := ⟨S32x64, .f32⟩) main_call25_v1) (TRef.of (T := ⟨S32x64, .f32⟩) main_v273) Host.sqrt,
    binary main_v0 main_v2 main_v274 ((fun l r => Host.dotGeneral dot_S32x64x300_S32x64x300_S32x64x64_2_2_1_1_0_0 none l r) : (⟨S32x64x300, .f32⟩ : BufTy).Contents (Elt F) → (⟨S32x64x300, .f32⟩ : BufTy).Contents (Elt F) → (⟨S32x64x64, .f32⟩ : BufTy).Contents (Elt F)),
    unary main_v272 main_v275 (broadcastInDim S32x64x1 ![0, 1] bcast_S32x64_S32x64x1_0_1 : (⟨S32x64, .f32⟩ : BufTy).Contents (Elt F) → (⟨S32x64x1, .f32⟩ : BufTy).Contents (Elt F)),
    unary main_v273 main_v276 (broadcastInDim S32x1x64 ![0, 2] bcast_S32x64_S32x1x64_0_2 : (⟨S32x64, .f32⟩ : BufTy).Contents (Elt F) → (⟨S32x1x64, .f32⟩ : BufTy).Contents (Elt F)),
    unary main_v275 main_v277 (broadcastInDim S32x64x64 ![0, 1, 2] bcast_S32x64x1_S32x64x64_0_1_2 : (⟨S32x64x1, .f32⟩ : BufTy).Contents (Elt F) → (⟨S32x64x64, .f32⟩ : BufTy).Contents (Elt F)),
    unary main_v276 main_v278 (broadcastInDim S32x64x64 ![0, 1, 2] bcast_S32x1x64_S32x64x64_0_1_2 : (⟨S32x1x64, .f32⟩ : BufTy).Contents (Elt F) → (⟨S32x64x64, .f32⟩ : BufTy).Contents (Elt F)),
    binary main_v277 main_v278 main_v279 (mulf : (⟨S32x64x64, .f32⟩ : BufTy).Contents (Elt F) → (⟨S32x64x64, .f32⟩ : BufTy).Contents (Elt F) → (⟨S32x64x64, .f32⟩ : BufTy).Contents (Elt F)),
    binary main_v274 main_v279 main_v280 (Host.divf : (⟨S32x64x64, .f32⟩ : BufTy).Contents (Elt F) → (⟨S32x64x64, .f32⟩ : BufTy).Contents (Elt F) → (⟨S32x64x64, .f32⟩ : BufTy).Contents (Elt F)),
    unary main_v0 main_v281 (broadcastInDim S32x64x1x300 ![0, 1, 3] bcast_S32x64x300_S32x64x1x300_0_1_3 : (⟨S32x64x300, .f32⟩ : BufTy).Contents (Elt F) → (⟨S32x64x1x300, .f32⟩ : BufTy).Contents (Elt F)),
    unary main_v280 main_v282 (broadcastInDim S32x64x64x1 ![0, 1, 2] bcast_S32x64x64_S32x64x64x1_0_1_2 : (⟨S32x64x64, .f32⟩ : BufTy).Contents (Elt F) → (⟨S32x64x64x1, .f32⟩ : BufTy).Contents (Elt F)),
    unary main_v281 main_v283 (broadcastInDim S32x64x64x300 ![0, 1, 2, 3] bcast_S32x64x1x300_S32x64x64x300_0_1_2_3 : (⟨S32x64x1x300, .f32⟩ : BufTy).Contents (Elt F) → (⟨S32x64x64x300, .f32⟩ : BufTy).Contents (Elt F)),
    unary main_v282 main_v284 (broadcastInDim S32x64x64x300 ![0, 1, 2, 3] bcast_S32x64x64x1_S32x64x64x300_0_1_2_3 : (⟨S32x64x64x1, .f32⟩ : BufTy).Contents (Elt F) → (⟨S32x64x64x300, .f32⟩ : BufTy).Contents (Elt F)),
    binary main_v283 main_v284 main_v285 (mulf : (⟨S32x64x64x300, .f32⟩ : BufTy).Contents (Elt F) → (⟨S32x64x64x300, .f32⟩ : BufTy).Contents (Elt F) → (⟨S32x64x64x300, .f32⟩ : BufTy).Contents (Elt F)),
    nullary main_cst_23 (constant S_ .f32 0xFF800000#32),
    binary main_v285 main_cst_23 main_v286 ((fun x v => Host.reduce FloatOps.maximumf x v reducesTo_S32x64x64x300_S32x64x300_d1 h_S_) : (⟨S32x64x64x300, .f32⟩ : BufTy).Contents (Elt F) → (⟨S_, .f32⟩ : BufTy).Contents (Elt F) → (⟨S32x64x300, .f32⟩ : BufTy).Contents (Elt F)),
    unary main_v2 main_v287 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v280 main_v288 (broadcastInDim S32x64x64x1 ![0, 1, 2] bcast_S32x64x64_S32x64x64x1_0_1_2 : (⟨S32x64x64, .f32⟩ : BufTy).Contents (Elt F) → (⟨S32x64x64x1, .f32⟩ : BufTy).Contents (Elt F)),
    unary main_v287 main_v289 (broadcastInDim S32x64x64x300 ![0, 1, 2, 3] bcast_S32x1x64x300_S32x64x64x300_0_1_2_3 : (⟨S32x1x64x300, .f32⟩ : BufTy).Contents (Elt F) → (⟨S32x64x64x300, .f32⟩ : BufTy).Contents (Elt F)),
    unary main_v288 main_v290 (broadcastInDim S32x64x64x300 ![0, 1, 2, 3] bcast_S32x64x64x1_S32x64x64x300_0_1_2_3 : (⟨S32x64x64x1, .f32⟩ : BufTy).Contents (Elt F) → (⟨S32x64x64x300, .f32⟩ : BufTy).Contents (Elt F)),
    binary main_v289 main_v290 main_v291 (mulf : (⟨S32x64x64x300, .f32⟩ : BufTy).Contents (Elt F) → (⟨S32x64x64x300, .f32⟩ : BufTy).Contents (Elt F) → (⟨S32x64x64x300, .f32⟩ : BufTy).Contents (Elt F)),
    nullary main_cst_24 (constant S_ .f32 0xFF800000#32),
    binary main_v291 main_cst_24 main_v292 ((fun x v => Host.reduce FloatOps.maximumf x v reducesTo_S32x64x64x300_S32x64x300_d2 h_S_) : (⟨S32x64x64x300, .f32⟩ : BufTy).Contents (Elt F) → (⟨S_, .f32⟩ : BufTy).Contents (Elt F) → (⟨S32x64x300, .f32⟩ : BufTy).Contents (Elt F)) ]

/-- Each touches TensorCore references only. -/
theorem c13_sub : (c13 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., binary_bufs_sub .., unary_bufs_sub .., unary_bufs_sub .., unary_bufs_sub .., unary_bufs_sub .., binary_bufs_sub .., binary_bufs_sub .., unary_bufs_sub .., unary_bufs_sub .., unary_bufs_sub .., unary_bufs_sub .., binary_bufs_sub .., nullary_bufs_sub .., binary_bufs_sub .., unary_bufs_sub .., unary_bufs_sub .., unary_bufs_sub .., unary_bufs_sub .., binary_bufs_sub .., nullary_bufs_sub .., binary_bufs_sub ..⟩

/-- None allocates. -/
theorem c13_fresh : ∀ op ∈ (c13 : List (HloOp τ sig (Elt F))), op.fresh = ∅ := by
  intro _ h; (repeat (cases h with | head => rfl | tail _ h => ?_)); exact nomatch h

/-- The buffers the list writes, in order. -/
abbrev w13 : List (Ref sig .tc) := [main_v270, main_v271, main_call24_v0, main_call24_cst, main_call24_v1, main_v272, main_call25_v0, main_call25_cst, main_call25_v1, main_v273, main_v274, main_v275, main_v276, main_v277, main_v278, main_v279, main_v280, main_v281, main_v282, main_v283, main_v284, main_v285, main_cst_23, main_v286, main_v287, main_v288, main_v289, main_v290, main_v291, main_cst_24, main_v292]

/-- A buffer not among them keeps its contents across the list. -/
theorem c13_keep (W : Valuation τ sig (Elt F)) (r : Ref sig .tc) (hr : r ∉ w13) :
    after c13 W (Proc.devRef .tc r) = W (Proc.devRef .tc r) :=
  after_of_forall_not_mem (b := Proc.devRef .tc r) c13 W (List.forall_iff_forall_mem.mp (by
    simp only [List.Forall, nullary_writes, unary_writes, binary_writes, ternary_writes, quaternary_writes, reshape_writes, nary_writes, Finset.mem_singleton]
    simp only [w13, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c13_v271 (W : Valuation τ sig (Elt F)) :
    after c13 W (Proc.devRef .tc main_v271)
      = Cert.ReferenceIdeal.MP.wBlkR ![6, 0, 0] Facts₀.slices_S8x20x300_S1x20x300_6_0_0 (W (Proc.devRef .tc main_arg2)) := by
  after_results_simp
  rfl

theorem c13_v286 (W : Valuation τ sig (Elt F)) :
    after c13 W (Proc.devRef .tc main_v286)
      = Cert.ReferenceIdeal.MP.maxPR (W (Proc.devRef .tc main_v0)) (Cert.ReferenceIdeal.MP.csR (W (Proc.devRef .tc main_v0)) (W (Proc.devRef .tc main_v2))) := by
  after_results_simp
  rfl

theorem c13_v292 (W : Valuation τ sig (Elt F)) :
    after c13 W (Proc.devRef .tc main_v292)
      = Cert.ReferenceIdeal.MP.maxQR (W (Proc.devRef .tc main_v2)) (Cert.ReferenceIdeal.MP.csR (W (Proc.devRef .tc main_v0)) (W (Proc.devRef .tc main_v2))) := by
  after_results_simp
  rfl

end Cert.ReferenceIdeal.RunC

end
-- ==== Proof.RunC14.lean ====
/-
  Operations 398–424 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c14 : List (HloOp τ sig (Elt F)) :=
  [ unary main_v0 main_v293 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v271 main_v294 (broadcastInDim S1x20x1x300 ![1, 3] bcast_S20x300_S1x20x1x300_1_3 : (⟨S20x300, .f32⟩ : BufTy).Contents (Elt F) → (⟨S1x20x1x300, .f32⟩ : BufTy).Contents (Elt F)),
    unary main_v293 main_v295 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v294 main_v296 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v295 main_v296 main_v297 (mulf : (⟨S32x20x64x300, .f32⟩ : BufTy).Contents (Elt F) → (⟨S32x20x64x300, .f32⟩ : BufTy).Contents (Elt F) → (⟨S32x20x64x300, .f32⟩ : BufTy).Contents (Elt F)),
    unary main_v292 main_v298 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v271 main_v299 (broadcastInDim S1x20x1x300 ![1, 3] bcast_S20x300_S1x20x1x300_1_3 : (⟨S20x300, .f32⟩ : BufTy).Contents (Elt F) → (⟨S1x20x1x300, .f32⟩ : BufTy).Contents (Elt F)),
    unary main_v298 main_v300 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v299 main_v301 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v300 main_v301 main_v302 (mulf : (⟨S32x20x64x300, .f32⟩ : BufTy).Contents (Elt F) → (⟨S32x20x64x300, .f32⟩ : BufTy).Contents (Elt F) → (⟨S32x20x64x300, .f32⟩ : BufTy).Contents (Elt F)),
    binary main_v297 main_v302 main_v303 (mulf : (⟨S32x20x64x300, .f32⟩ : BufTy).Contents (Elt F) → (⟨S32x20x64x300, .f32⟩ : BufTy).Contents (Elt F) → (⟨S32x20x64x300, .f32⟩ : BufTy).Contents (Elt F)),
    nullary main_cst_25 (constant S_ .f32 0x00000000#32),
    binary main_v303 main_cst_25 main_v304 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v297) (TRef.of (T := ⟨S32x20x64x300, .f32⟩) main_v297) (TRef.of (T := ⟨S32x20x64x300, .f32⟩) main_call26_v0) mulf,
    TRef.nullary (TRef.of (T := ⟨S_, .f32⟩) main_call26_cst) (constant S_ .f32 0x00000000#32),
    TRef.binary (TRef.of (T := ⟨S32x20x64x300, .f32⟩) main_call26_v0) (TRef.of (T := ⟨S_, .f32⟩) main_call26_cst) (TRef.of (T := ⟨S32x20x64, .f32⟩) main_call26_v1) (fun x v => Host.reduceAdd x v reducesTo_S32x20x64x300_S32x20x64_d3 h_S_),
    TRef.unary (TRef.of (T := ⟨S32x20x64, .f32⟩) main_call26_v1) (TRef.of (T := ⟨S32x20x64, .f32⟩) main_v305) Host.sqrt,
    TRef.binary (TRef.of (T := ⟨S32x20x64x300, .f32⟩) main_v302) (TRef.of (T := ⟨S32x20x64x300, .f32⟩) main_v302) (TRef.of (T := ⟨S32x20x64x300, .f32⟩) main_call27_v0) mulf,
    TRef.nullary (TRef.of (T := ⟨S_, .f32⟩) main_call27_cst) (constant S_ .f32 0x00000000#32),
    TRef.binary (TRef.of (T := ⟨S32x20x64x300, .f32⟩) main_call27_v0) (TRef.of (T := ⟨S_, .f32⟩) main_call27_cst) (TRef.of (T := ⟨S32x20x64, .f32⟩) main_call27_v1) (fun x v => Host.reduceAdd x v reducesTo_S32x20x64x300_S32x20x64_d3 h_S_),
    TRef.unary (TRef.of (T := ⟨S32x20x64, .f32⟩) main_call27_v1) (TRef.of (T := ⟨S32x20x64, .f32⟩) main_v306) Host.sqrt,
    binary main_v305 main_v306 main_v307 (mulf : (⟨S32x20x64, .f32⟩ : BufTy).Contents (Elt F) → (⟨S32x20x64, .f32⟩ : BufTy).Contents (Elt F) → (⟨S32x20x64, .f32⟩ : BufTy).Contents (Elt F)),
    nullary main_cst_26 (constant S_ .f32 0x322BCC77#32),
    unary main_cst_26 main_v308 (broadcastInDim S32x20x64 ![] bcast_S_S32x20x64 : (⟨S_, .f32⟩ : BufTy).Contents (Elt F) → (⟨S32x20x64, .f32⟩ : BufTy).Contents (Elt F)),
    binary main_v307 main_v308 main_v309 (maximumf : (⟨S32x20x64, .f32⟩ : BufTy).Contents (Elt F) → (⟨S32x20x64, .f32⟩ : BufTy).Contents (Elt F) → (⟨S32x20x64, .f32⟩ : BufTy).Contents (Elt F)),
    binary main_v304 main_v309 main_v310 (Host.divf : (⟨S32x20x64, .f32⟩ : BufTy).Contents (Elt F) → (⟨S32x20x64, .f32⟩ : BufTy).Contents (Elt F) → (⟨S32x20x64, .f32⟩ : BufTy).Contents (Elt F)),
    unary main_v310 main_v311 ((transpose S32x64x20 [0, 2, 1] · transposes_S32x20x64_S32x64x20_0_2_1) : (⟨S32x20x64, .f32⟩ : BufTy).Contents (Elt F) → (⟨S32x64x20, .f32⟩ : BufTy).Contents (Elt F)) ]

/-- Each touches TensorCore references only. -/
theorem c14_sub : (c14 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., binary_bufs_sub .., unary_bufs_sub ..⟩

/-- None allocates. -/
theorem c14_fresh : ∀ op ∈ (c14 : List (HloOp τ sig (Elt F))), op.fresh = ∅ := by
  intro _ h; (repeat (cases h with | head => rfl | tail _ h => ?_)); exact nomatch h

/-- The buffers the list writes, in order. -/
abbrev w14 : List (Ref sig .tc) := [main_v293, main_v294, main_v295, main_v296, main_v297, main_v298, main_v299, main_v300, main_v301, main_v302, main_v303, main_cst_25, main_v304, main_call26_v0, main_call26_cst, main_call26_v1, main_v305, main_call27_v0, main_call27_cst, main_call27_v1, main_v306, main_v307, main_cst_26, main_v308, main_v309, main_v310, main_v311]

/-- A buffer not among them keeps its contents across the list. -/
theorem c14_keep (W : Valuation τ sig (Elt F)) (r : Ref sig .tc) (hr : r ∉ w14) :
    after c14 W (Proc.devRef .tc r) = W (Proc.devRef .tc r) :=
  after_of_forall_not_mem (b := Proc.devRef .tc r) c14 W (List.forall_iff_forall_mem.mp (by
    simp only [List.Forall, nullary_writes, unary_writes, binary_writes, ternary_writes, quaternary_writes, reshape_writes, nary_writes, Finset.mem_singleton]
    simp only [w14, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c14_v311 (W : Valuation τ sig (Elt F)) :
    after c14 W (Proc.devRef .tc main_v311)
      = Cert.ReferenceIdeal.MP.mpR (W (Proc.devRef .tc main_v0)) (W (Proc.devRef .tc main_v292)) (W (Proc.devRef .tc main_v271)) := by
  after_results_simp
  rfl

end Cert.ReferenceIdeal.RunC

end
-- ==== Proof.RunC15.lean ====
/-
  Operations 425–451 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c15 : List (HloOp τ sig (Elt F)) :=
  [ unary main_v2 main_v312 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v271 main_v313 (broadcastInDim S1x20x1x300 ![1, 3] bcast_S20x300_S1x20x1x300_1_3 : (⟨S20x300, .f32⟩ : BufTy).Contents (Elt F) → (⟨S1x20x1x300, .f32⟩ : BufTy).Contents (Elt F)),
    unary main_v312 main_v314 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v313 main_v315 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v314 main_v315 main_v316 (mulf : (⟨S32x20x64x300, .f32⟩ : BufTy).Contents (Elt F) → (⟨S32x20x64x300, .f32⟩ : BufTy).Contents (Elt F) → (⟨S32x20x64x300, .f32⟩ : BufTy).Contents (Elt F)),
    unary main_v286 main_v317 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v271 main_v318 (broadcastInDim S1x20x1x300 ![1, 3] bcast_S20x300_S1x20x1x300_1_3 : (⟨S20x300, .f32⟩ : BufTy).Contents (Elt F) → (⟨S1x20x1x300, .f32⟩ : BufTy).Contents (Elt F)),
    unary main_v317 main_v319 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v318 main_v320 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v319 main_v320 main_v321 (mulf : (⟨S32x20x64x300, .f32⟩ : BufTy).Contents (Elt F) → (⟨S32x20x64x300, .f32⟩ : BufTy).Contents (Elt F) → (⟨S32x20x64x300, .f32⟩ : BufTy).Contents (Elt F)),
    binary main_v316 main_v321 main_v322 (mulf : (⟨S32x20x64x300, .f32⟩ : BufTy).Contents (Elt F) → (⟨S32x20x64x300, .f32⟩ : BufTy).Contents (Elt F) → (⟨S32x20x64x300, .f32⟩ : BufTy).Contents (Elt F)),
    nullary main_cst_27 (constant S_ .f32 0x00000000#32),
    binary main_v322 main_cst_27 main_v323 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v316) (TRef.of (T := ⟨S32x20x64x300, .f32⟩) main_v316) (TRef.of (T := ⟨S32x20x64x300, .f32⟩) main_call28_v0) mulf,
    TRef.nullary (TRef.of (T := ⟨S_, .f32⟩) main_call28_cst) (constant S_ .f32 0x00000000#32),
    TRef.binary (TRef.of (T := ⟨S32x20x64x300, .f32⟩) main_call28_v0) (TRef.of (T := ⟨S_, .f32⟩) main_call28_cst) (TRef.of (T := ⟨S32x20x64, .f32⟩) main_call28_v1) (fun x v => Host.reduceAdd x v reducesTo_S32x20x64x300_S32x20x64_d3 h_S_),
    TRef.unary (TRef.of (T := ⟨S32x20x64, .f32⟩) main_call28_v1) (TRef.of (T := ⟨S32x20x64, .f32⟩) main_v324) Host.sqrt,
    TRef.binary (TRef.of (T := ⟨S32x20x64x300, .f32⟩) main_v321) (TRef.of (T := ⟨S32x20x64x300, .f32⟩) main_v321) (TRef.of (T := ⟨S32x20x64x300, .f32⟩) main_call29_v0) mulf,
    TRef.nullary (TRef.of (T := ⟨S_, .f32⟩) main_call29_cst) (constant S_ .f32 0x00000000#32),
    TRef.binary (TRef.of (T := ⟨S32x20x64x300, .f32⟩) main_call29_v0) (TRef.of (T := ⟨S_, .f32⟩) main_call29_cst) (TRef.of (T := ⟨S32x20x64, .f32⟩) main_call29_v1) (fun x v => Host.reduceAdd x v reducesTo_S32x20x64x300_S32x20x64_d3 h_S_),
    TRef.unary (TRef.of (T := ⟨S32x20x64, .f32⟩) main_call29_v1) (TRef.of (T := ⟨S32x20x64, .f32⟩) main_v325) Host.sqrt,
    binary main_v324 main_v325 main_v326 (mulf : (⟨S32x20x64, .f32⟩ : BufTy).Contents (Elt F) → (⟨S32x20x64, .f32⟩ : BufTy).Contents (Elt F) → (⟨S32x20x64, .f32⟩ : BufTy).Contents (Elt F)),
    nullary main_cst_28 (constant S_ .f32 0x322BCC77#32),
    unary main_cst_28 main_v327 (broadcastInDim S32x20x64 ![] bcast_S_S32x20x64 : (⟨S_, .f32⟩ : BufTy).Contents (Elt F) → (⟨S32x20x64, .f32⟩ : BufTy).Contents (Elt F)),
    binary main_v326 main_v327 main_v328 (maximumf : (⟨S32x20x64, .f32⟩ : BufTy).Contents (Elt F) → (⟨S32x20x64, .f32⟩ : BufTy).Contents (Elt F) → (⟨S32x20x64, .f32⟩ : BufTy).Contents (Elt F)),
    binary main_v323 main_v328 main_v329 (Host.divf : (⟨S32x20x64, .f32⟩ : BufTy).Contents (Elt F) → (⟨S32x20x64, .f32⟩ : BufTy).Contents (Elt F) → (⟨S32x20x64, .f32⟩ : BufTy).Contents (Elt F)),
    unary main_v329 main_v330 ((transpose S32x64x20 [0, 2, 1] · transposes_S32x20x64_S32x64x20_0_2_1) : (⟨S32x20x64, .f32⟩ : BufTy).Contents (Elt F) → (⟨S32x64x20, .f32⟩ : BufTy).Contents (Elt F)) ]

/-- Each touches TensorCore references only. -/
theorem c15_sub : (c15 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., binary_bufs_sub .., unary_bufs_sub ..⟩

/-- None allocates. -/
theorem c15_fresh : ∀ op ∈ (c15 : List (HloOp τ sig (Elt F))), op.fresh = ∅ := by
  intro _ h; (repeat (cases h with | head => rfl | tail _ h => ?_)); exact nomatch h

/-- The buffers the list writes, in order. -/
abbrev w15 : List (Ref sig .tc) := [main_v312, main_v313, main_v314, main_v315, main_v316, main_v317, main_v318, main_v319, main_v320, main_v321, main_v322, main_cst_27, main_v323, main_call28_v0, main_call28_cst, main_call28_v1, main_v324, main_call29_v0, main_call29_cst, main_call29_v1, main_v325, main_v326, main_cst_28, main_v327, main_v328, main_v329, main_v330]

/-- A buffer not among them keeps its contents across the list. -/
theorem c15_keep (W : Valuation τ sig (Elt F)) (r : Ref sig .tc) (hr : r ∉ w15) :
    after c15 W (Proc.devRef .tc r) = W (Proc.devRef .tc r) :=
  after_of_forall_not_mem (b := Proc.devRef .tc r) c15 W (List.forall_iff_forall_mem.mp (by
    simp only [List.Forall, nullary_writes, unary_writes, binary_writes, ternary_writes, quaternary_writes, reshape_writes, nary_writes, Finset.mem_singleton]
    simp only [w15, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c15_v330 (W : Valuation τ sig (Elt F)) :
    after c15 W (Proc.devRef .tc main_v330)
      = Cert.ReferenceIdeal.MP.mpR (W (Proc.devRef .tc main_v2)) (W (Proc.devRef .tc main_v286)) (W (Proc.devRef .tc main_v271)) := by
  after_results_simp
  rfl

end Cert.ReferenceIdeal.RunC

end
-- ==== Proof.RunC16.lean ====
/-
  Operations 452–482 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c16 : List (HloOp τ sig (Elt F)) :=
  [ unary main_arg2 main_v331 ((extractStridedSlice S1x20x300 ![7, 0, 0] · slices_S8x20x300_S1x20x300_7_0_0) : (⟨S8x20x300, .f32⟩ : BufTy).Contents (Elt F) → (⟨S1x20x300, .f32⟩ : BufTy).Contents (Elt F)),
    reshape main_v331 main_v332 rfl shapeCasts_S1x20x300_S20x300,
    TRef.binary (TRef.of (T := ⟨S32x64x300, .f32⟩) main_v1) (TRef.of (T := ⟨S32x64x300, .f32⟩) main_v1) (TRef.of (T := ⟨S32x64x300, .f32⟩) main_call30_v0) mulf,
    TRef.nullary (TRef.of (T := ⟨S_, .f32⟩) main_call30_cst) (constant S_ .f32 0x00000000#32),
    TRef.binary (TRef.of (T := ⟨S32x64x300, .f32⟩) main_call30_v0) (TRef.of (T := ⟨S_, .f32⟩) main_call30_cst) (TRef.of (T := ⟨S32x64, .f32⟩) main_call30_v1) (fun x v => Host.reduceAdd x v reducesTo_S32x64x300_S32x64_d2 h_S_),
    TRef.unary (TRef.of (T := ⟨S32x64, .f32⟩) main_call30_v1) (TRef.of (T := ⟨S32x64, .f32⟩) main_v333) Host.sqrt,
    TRef.binary (TRef.of (T := ⟨S32x64x300, .f32⟩) main_v3) (TRef.of (T := ⟨S32x64x300, .f32⟩) main_v3) (TRef.of (T := ⟨S32x64x300, .f32⟩) main_call31_v0) mulf,
    TRef.nullary (TRef.of (T := ⟨S_, .f32⟩) main_call31_cst) (constant S_ .f32 0x00000000#32),
    TRef.binary (TRef.of (T := ⟨S32x64x300, .f32⟩) main_call31_v0) (TRef.of (T := ⟨S_, .f32⟩) main_call31_cst) (TRef.of (T := ⟨S32x64, .f32⟩) main_call31_v1) (fun x v => Host.reduceAdd x v reducesTo_S32x64x300_S32x64_d2 h_S_),
    TRef.unary (TRef.of (T := ⟨S32x64, .f32⟩) main_call31_v1) (TRef.of (T := ⟨S32x64, .f32⟩) main_v334) Host.sqrt,
    binary main_v1 main_v3 main_v335 ((fun l r => Host.dotGeneral dot_S32x64x300_S32x64x300_S32x64x64_2_2_1_1_0_0 none l r) : (⟨S32x64x300, .f32⟩ : BufTy).Contents (Elt F) → (⟨S32x64x300, .f32⟩ : BufTy).Contents (Elt F) → (⟨S32x64x64, .f32⟩ : BufTy).Contents (Elt F)),
    unary main_v333 main_v336 (broadcastInDim S32x64x1 ![0, 1] bcast_S32x64_S32x64x1_0_1 : (⟨S32x64, .f32⟩ : BufTy).Contents (Elt F) → (⟨S32x64x1, .f32⟩ : BufTy).Contents (Elt F)),
    unary main_v334 main_v337 (broadcastInDim S32x1x64 ![0, 2] bcast_S32x64_S32x1x64_0_2 : (⟨S32x64, .f32⟩ : BufTy).Contents (Elt F) → (⟨S32x1x64, .f32⟩ : BufTy).Contents (Elt F)),
    unary main_v336 main_v338 (broadcastInDim S32x64x64 ![0, 1, 2] bcast_S32x64x1_S32x64x64_0_1_2 : (⟨S32x64x1, .f32⟩ : BufTy).Contents (Elt F) → (⟨S32x64x64, .f32⟩ : BufTy).Contents (Elt F)),
    unary main_v337 main_v339 (broadcastInDim S32x64x64 ![0, 1, 2] bcast_S32x1x64_S32x64x64_0_1_2 : (⟨S32x1x64, .f32⟩ : BufTy).Contents (Elt F) → (⟨S32x64x64, .f32⟩ : BufTy).Contents (Elt F)),
    binary main_v338 main_v339 main_v340 (mulf : (⟨S32x64x64, .f32⟩ : BufTy).Contents (Elt F) → (⟨S32x64x64, .f32⟩ : BufTy).Contents (Elt F) → (⟨S32x64x64, .f32⟩ : BufTy).Contents (Elt F)),
    binary main_v335 main_v340 main_v341 (Host.divf : (⟨S32x64x64, .f32⟩ : BufTy).Contents (Elt F) → (⟨S32x64x64, .f32⟩ : BufTy).Contents (Elt F) → (⟨S32x64x64, .f32⟩ : BufTy).Contents (Elt F)),
    unary main_v1 main_v342 (broadcastInDim S32x64x1x300 ![0, 1, 3] bcast_S32x64x300_S32x64x1x300_0_1_3 : (⟨S32x64x300, .f32⟩ : BufTy).Contents (Elt F) → (⟨S32x64x1x300, .f32⟩ : BufTy).Contents (Elt F)),
    unary main_v341 main_v343 (broadcastInDim S32x64x64x1 ![0, 1, 2] bcast_S32x64x64_S32x64x64x1_0_1_2 : (⟨S32x64x64, .f32⟩ : BufTy).Contents (Elt F) → (⟨S32x64x64x1, .f32⟩ : BufTy).Contents (Elt F)),
    unary main_v342 main_v344 (broadcastInDim S32x64x64x300 ![0, 1, 2, 3] bcast_S32x64x1x300_S32x64x64x300_0_1_2_3 : (⟨S32x64x1x300, .f32⟩ : BufTy).Contents (Elt F) → (⟨S32x64x64x300, .f32⟩ : BufTy).Contents (Elt F)),
    unary main_v343 main_v345 (broadcastInDim S32x64x64x300 ![0, 1, 2, 3] bcast_S32x64x64x1_S32x64x64x300_0_1_2_3 : (⟨S32x64x64x1, .f32⟩ : BufTy).Contents (Elt F) → (⟨S32x64x64x300, .f32⟩ : BufTy).Contents (Elt F)),
    binary main_v344 main_v345 main_v346 (mulf : (⟨S32x64x64x300, .f32⟩ : BufTy).Contents (Elt F) → (⟨S32x64x64x300, .f32⟩ : BufTy).Contents (Elt F) → (⟨S32x64x64x300, .f32⟩ : BufTy).Contents (Elt F)),
    nullary main_cst_29 (constant S_ .f32 0xFF800000#32),
    binary main_v346 main_cst_29 main_v347 ((fun x v => Host.reduce FloatOps.maximumf x v reducesTo_S32x64x64x300_S32x64x300_d1 h_S_) : (⟨S32x64x64x300, .f32⟩ : BufTy).Contents (Elt F) → (⟨S_, .f32⟩ : BufTy).Contents (Elt F) → (⟨S32x64x300, .f32⟩ : BufTy).Contents (Elt F)),
    unary main_v3 main_v348 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v341 main_v349 (broadcastInDim S32x64x64x1 ![0, 1, 2] bcast_S32x64x64_S32x64x64x1_0_1_2 : (⟨S32x64x64, .f32⟩ : BufTy).Contents (Elt F) → (⟨S32x64x64x1, .f32⟩ : BufTy).Contents (Elt F)),
    unary main_v348 main_v350 (broadcastInDim S32x64x64x300 ![0, 1, 2, 3] bcast_S32x1x64x300_S32x64x64x300_0_1_2_3 : (⟨S32x1x64x300, .f32⟩ : BufTy).Contents (Elt F) → (⟨S32x64x64x300, .f32⟩ : BufTy).Contents (Elt F)),
    unary main_v349 main_v351 (broadcastInDim S32x64x64x300 ![0, 1, 2, 3] bcast_S32x64x64x1_S32x64x64x300_0_1_2_3 : (⟨S32x64x64x1, .f32⟩ : BufTy).Contents (Elt F) → (⟨S32x64x64x300, .f32⟩ : BufTy).Contents (Elt F)),
    binary main_v350 main_v351 main_v352 (mulf : (⟨S32x64x64x300, .f32⟩ : BufTy).Contents (Elt F) → (⟨S32x64x64x300, .f32⟩ : BufTy).Contents (Elt F) → (⟨S32x64x64x300, .f32⟩ : BufTy).Contents (Elt F)),
    nullary main_cst_30 (constant S_ .f32 0xFF800000#32),
    binary main_v352 main_cst_30 main_v353 ((fun x v => Host.reduce FloatOps.maximumf x v reducesTo_S32x64x64x300_S32x64x300_d2 h_S_) : (⟨S32x64x64x300, .f32⟩ : BufTy).Contents (Elt F) → (⟨S_, .f32⟩ : BufTy).Contents (Elt F) → (⟨S32x64x300, .f32⟩ : BufTy).Contents (Elt F)) ]

/-- Each touches TensorCore references only. -/
theorem c16_sub : (c16 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., binary_bufs_sub .., unary_bufs_sub .., unary_bufs_sub .., unary_bufs_sub .., unary_bufs_sub .., binary_bufs_sub .., binary_bufs_sub .., unary_bufs_sub .., unary_bufs_sub .., unary_bufs_sub .., unary_bufs_sub .., binary_bufs_sub .., nullary_bufs_sub .., binary_bufs_sub .., unary_bufs_sub .., unary_bufs_sub .., unary_bufs_sub .., unary_bufs_sub .., binary_bufs_sub .., nullary_bufs_sub .., binary_bufs_sub ..⟩

/-- None allocates. -/
theorem c16_fresh : ∀ op ∈ (c16 : List (HloOp τ sig (Elt F))), op.fresh = ∅ := by
  intro _ h; (repeat (cases h with | head => rfl | tail _ h => ?_)); exact nomatch h

/-- The buffers the list writes, in order. -/
abbrev w16 : List (Ref sig .tc) := [main_v331, main_v332, main_call30_v0, main_call30_cst, main_call30_v1, main_v333, main_call31_v0, main_call31_cst, main_call31_v1, main_v334, main_v335, main_v336, main_v337, main_v338, main_v339, main_v340, main_v341, main_v342, main_v343, main_v344, main_v345, main_v346, main_cst_29, main_v347, main_v348, main_v349, main_v350, main_v351, main_v352, main_cst_30, main_v353]

/-- A buffer not among them keeps its contents across the list. -/
theorem c16_keep (W : Valuation τ sig (Elt F)) (r : Ref sig .tc) (hr : r ∉ w16) :
    after c16 W (Proc.devRef .tc r) = W (Proc.devRef .tc r) :=
  after_of_forall_not_mem (b := Proc.devRef .tc r) c16 W (List.forall_iff_forall_mem.mp (by
    simp only [List.Forall, nullary_writes, unary_writes, binary_writes, ternary_writes, quaternary_writes, reshape_writes, nary_writes, Finset.mem_singleton]
    simp only [w16, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c16_v332 (W : Valuation τ sig (Elt F)) :
    after c16 W (Proc.devRef .tc main_v332)
      = Cert.ReferenceIdeal.MP.wBlkR ![7, 0, 0] Facts₀.slices_S8x20x300_S1x20x300_7_0_0 (W (Proc.devRef .tc main_arg2)) := by
  after_results_simp
  rfl

theorem c16_v347 (W : Valuation τ sig (Elt F)) :
    after c16 W (Proc.devRef .tc main_v347)
      = Cert.ReferenceIdeal.MP.maxPR (W (Proc.devRef .tc main_v1)) (Cert.ReferenceIdeal.MP.csR (W (Proc.devRef .tc main_v1)) (W (Proc.devRef .tc main_v3))) := by
  after_results_simp
  rfl

theorem c16_v353 (W : Valuation τ sig (Elt F)) :
    after c16 W (Proc.devRef .tc main_v353)
      = Cert.ReferenceIdeal.MP.maxQR (W (Proc.devRef .tc main_v3)) (Cert.ReferenceIdeal.MP.csR (W (Proc.devRef .tc main_v1)) (W (Proc.devRef .tc main_v3))) := by
  after_results_simp
  rfl

end Cert.ReferenceIdeal.RunC

end
-- ==== Proof.RunC17.lean ====
/-
  Operations 483–509 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c17 : List (HloOp τ sig (Elt F)) :=
  [ unary main_v1 main_v354 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v332 main_v355 (broadcastInDim S1x20x1x300 ![1, 3] bcast_S20x300_S1x20x1x300_1_3 : (⟨S20x300, .f32⟩ : BufTy).Contents (Elt F) → (⟨S1x20x1x300, .f32⟩ : BufTy).Contents (Elt F)),
    unary main_v354 main_v356 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v355 main_v357 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v356 main_v357 main_v358 (mulf : (⟨S32x20x64x300, .f32⟩ : BufTy).Contents (Elt F) → (⟨S32x20x64x300, .f32⟩ : BufTy).Contents (Elt F) → (⟨S32x20x64x300, .f32⟩ : BufTy).Contents (Elt F)),
    unary main_v353 main_v359 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v332 main_v360 (broadcastInDim S1x20x1x300 ![1, 3] bcast_S20x300_S1x20x1x300_1_3 : (⟨S20x300, .f32⟩ : BufTy).Contents (Elt F) → (⟨S1x20x1x300, .f32⟩ : BufTy).Contents (Elt F)),
    unary main_v359 main_v361 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v360 main_v362 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v361 main_v362 main_v363 (mulf : (⟨S32x20x64x300, .f32⟩ : BufTy).Contents (Elt F) → (⟨S32x20x64x300, .f32⟩ : BufTy).Contents (Elt F) → (⟨S32x20x64x300, .f32⟩ : BufTy).Contents (Elt F)),
    binary main_v358 main_v363 main_v364 (mulf : (⟨S32x20x64x300, .f32⟩ : BufTy).Contents (Elt F) → (⟨S32x20x64x300, .f32⟩ : BufTy).Contents (Elt F) → (⟨S32x20x64x300, .f32⟩ : BufTy).Contents (Elt F)),
    nullary main_cst_31 (constant S_ .f32 0x00000000#32),
    binary main_v364 main_cst_31 main_v365 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v358) (TRef.of (T := ⟨S32x20x64x300, .f32⟩) main_v358) (TRef.of (T := ⟨S32x20x64x300, .f32⟩) main_call32_v0) mulf,
    TRef.nullary (TRef.of (T := ⟨S_, .f32⟩) main_call32_cst) (constant S_ .f32 0x00000000#32),
    TRef.binary (TRef.of (T := ⟨S32x20x64x300, .f32⟩) main_call32_v0) (TRef.of (T := ⟨S_, .f32⟩) main_call32_cst) (TRef.of (T := ⟨S32x20x64, .f32⟩) main_call32_v1) (fun x v => Host.reduceAdd x v reducesTo_S32x20x64x300_S32x20x64_d3 h_S_),
    TRef.unary (TRef.of (T := ⟨S32x20x64, .f32⟩) main_call32_v1) (TRef.of (T := ⟨S32x20x64, .f32⟩) main_v366) Host.sqrt,
    TRef.binary (TRef.of (T := ⟨S32x20x64x300, .f32⟩) main_v363) (TRef.of (T := ⟨S32x20x64x300, .f32⟩) main_v363) (TRef.of (T := ⟨S32x20x64x300, .f32⟩) main_call33_v0) mulf,
    TRef.nullary (TRef.of (T := ⟨S_, .f32⟩) main_call33_cst) (constant S_ .f32 0x00000000#32),
    TRef.binary (TRef.of (T := ⟨S32x20x64x300, .f32⟩) main_call33_v0) (TRef.of (T := ⟨S_, .f32⟩) main_call33_cst) (TRef.of (T := ⟨S32x20x64, .f32⟩) main_call33_v1) (fun x v => Host.reduceAdd x v reducesTo_S32x20x64x300_S32x20x64_d3 h_S_),
    TRef.unary (TRef.of (T := ⟨S32x20x64, .f32⟩) main_call33_v1) (TRef.of (T := ⟨S32x20x64, .f32⟩) main_v367) Host.sqrt,
    binary main_v366 main_v367 main_v368 (mulf : (⟨S32x20x64, .f32⟩ : BufTy).Contents (Elt F) → (⟨S32x20x64, .f32⟩ : BufTy).Contents (Elt F) → (⟨S32x20x64, .f32⟩ : BufTy).Contents (Elt F)),
    nullary main_cst_32 (constant S_ .f32 0x322BCC77#32),
    unary main_cst_32 main_v369 (broadcastInDim S32x20x64 ![] bcast_S_S32x20x64 : (⟨S_, .f32⟩ : BufTy).Contents (Elt F) → (⟨S32x20x64, .f32⟩ : BufTy).Contents (Elt F)),
    binary main_v368 main_v369 main_v370 (maximumf : (⟨S32x20x64, .f32⟩ : BufTy).Contents (Elt F) → (⟨S32x20x64, .f32⟩ : BufTy).Contents (Elt F) → (⟨S32x20x64, .f32⟩ : BufTy).Contents (Elt F)),
    binary main_v365 main_v370 main_v371 (Host.divf : (⟨S32x20x64, .f32⟩ : BufTy).Contents (Elt F) → (⟨S32x20x64, .f32⟩ : BufTy).Contents (Elt F) → (⟨S32x20x64, .f32⟩ : BufTy).Contents (Elt F)),
    unary main_v371 main_v372 ((transpose S32x64x20 [0, 2, 1] · transposes_S32x20x64_S32x64x20_0_2_1) : (⟨S32x20x64, .f32⟩ : BufTy).Contents (Elt F) → (⟨S32x64x20, .f32⟩ : BufTy).Contents (Elt F)) ]

/-- Each touches TensorCore references only. -/
theorem c17_sub : (c17 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., binary_bufs_sub .., unary_bufs_sub ..⟩

/-- None allocates. -/
theorem c17_fresh : ∀ op ∈ (c17 : List (HloOp τ sig (Elt F))), op.fresh = ∅ := by
  intro _ h; (repeat (cases h with | head => rfl | tail _ h => ?_)); exact nomatch h

/-- The buffers the list writes, in order. -/
abbrev w17 : List (Ref sig .tc) := [main_v354, main_v355, main_v356, main_v357, main_v358, main_v359, main_v360, main_v361, main_v362, main_v363, main_v364, main_cst_31, main_v365, main_call32_v0, main_call32_cst, main_call32_v1, main_v366, main_call33_v0, main_call33_cst, main_call33_v1, main_v367, main_v368, main_cst_32, main_v369, main_v370, main_v371, main_v372]

/-- A buffer not among them keeps its contents across the list. -/
theorem c17_keep (W : Valuation τ sig (Elt F)) (r : Ref sig .tc) (hr : r ∉ w17) :
    after c17 W (Proc.devRef .tc r) = W (Proc.devRef .tc r) :=
  after_of_forall_not_mem (b := Proc.devRef .tc r) c17 W (List.forall_iff_forall_mem.mp (by
    simp only [List.Forall, nullary_writes, unary_writes, binary_writes, ternary_writes, quaternary_writes, reshape_writes, nary_writes, Finset.mem_singleton]
    simp only [w17, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c17_v372 (W : Valuation τ sig (Elt F)) :
    after c17 W (Proc.devRef .tc main_v372)
      = Cert.ReferenceIdeal.MP.mpR (W (Proc.devRef .tc main_v1)) (W (Proc.devRef .tc main_v353)) (W (Proc.devRef .tc main_v332)) := by
  after_results_simp
  rfl

end Cert.ReferenceIdeal.RunC

end
-- ==== Proof.RunC18.lean ====
/-
  Operations 510–536 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c18 : List (HloOp τ sig (Elt F)) :=
  [ unary main_v3 main_v373 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v332 main_v374 (broadcastInDim S1x20x1x300 ![1, 3] bcast_S20x300_S1x20x1x300_1_3 : (⟨S20x300, .f32⟩ : BufTy).Contents (Elt F) → (⟨S1x20x1x300, .f32⟩ : BufTy).Contents (Elt F)),
    unary main_v373 main_v375 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v374 main_v376 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v375 main_v376 main_v377 (mulf : (⟨S32x20x64x300, .f32⟩ : BufTy).Contents (Elt F) → (⟨S32x20x64x300, .f32⟩ : BufTy).Contents (Elt F) → (⟨S32x20x64x300, .f32⟩ : BufTy).Contents (Elt F)),
    unary main_v347 main_v378 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v332 main_v379 (broadcastInDim S1x20x1x300 ![1, 3] bcast_S20x300_S1x20x1x300_1_3 : (⟨S20x300, .f32⟩ : BufTy).Contents (Elt F) → (⟨S1x20x1x300, .f32⟩ : BufTy).Contents (Elt F)),
    unary main_v378 main_v380 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v379 main_v381 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v380 main_v381 main_v382 (mulf : (⟨S32x20x64x300, .f32⟩ : BufTy).Contents (Elt F) → (⟨S32x20x64x300, .f32⟩ : BufTy).Contents (Elt F) → (⟨S32x20x64x300, .f32⟩ : BufTy).Contents (Elt F)),
    binary main_v377 main_v382 main_v383 (mulf : (⟨S32x20x64x300, .f32⟩ : BufTy).Contents (Elt F) → (⟨S32x20x64x300, .f32⟩ : BufTy).Contents (Elt F) → (⟨S32x20x64x300, .f32⟩ : BufTy).Contents (Elt F)),
    nullary main_cst_33 (constant S_ .f32 0x00000000#32),
    binary main_v383 main_cst_33 main_v384 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v377) (TRef.of (T := ⟨S32x20x64x300, .f32⟩) main_v377) (TRef.of (T := ⟨S32x20x64x300, .f32⟩) main_call34_v0) mulf,
    TRef.nullary (TRef.of (T := ⟨S_, .f32⟩) main_call34_cst) (constant S_ .f32 0x00000000#32),
    TRef.binary (TRef.of (T := ⟨S32x20x64x300, .f32⟩) main_call34_v0) (TRef.of (T := ⟨S_, .f32⟩) main_call34_cst) (TRef.of (T := ⟨S32x20x64, .f32⟩) main_call34_v1) (fun x v => Host.reduceAdd x v reducesTo_S32x20x64x300_S32x20x64_d3 h_S_),
    TRef.unary (TRef.of (T := ⟨S32x20x64, .f32⟩) main_call34_v1) (TRef.of (T := ⟨S32x20x64, .f32⟩) main_v385) Host.sqrt,
    TRef.binary (TRef.of (T := ⟨S32x20x64x300, .f32⟩) main_v382) (TRef.of (T := ⟨S32x20x64x300, .f32⟩) main_v382) (TRef.of (T := ⟨S32x20x64x300, .f32⟩) main_call35_v0) mulf,
    TRef.nullary (TRef.of (T := ⟨S_, .f32⟩) main_call35_cst) (constant S_ .f32 0x00000000#32),
    TRef.binary (TRef.of (T := ⟨S32x20x64x300, .f32⟩) main_call35_v0) (TRef.of (T := ⟨S_, .f32⟩) main_call35_cst) (TRef.of (T := ⟨S32x20x64, .f32⟩) main_call35_v1) (fun x v => Host.reduceAdd x v reducesTo_S32x20x64x300_S32x20x64_d3 h_S_),
    TRef.unary (TRef.of (T := ⟨S32x20x64, .f32⟩) main_call35_v1) (TRef.of (T := ⟨S32x20x64, .f32⟩) main_v386) Host.sqrt,
    binary main_v385 main_v386 main_v387 (mulf : (⟨S32x20x64, .f32⟩ : BufTy).Contents (Elt F) → (⟨S32x20x64, .f32⟩ : BufTy).Contents (Elt F) → (⟨S32x20x64, .f32⟩ : BufTy).Contents (Elt F)),
    nullary main_cst_34 (constant S_ .f32 0x322BCC77#32),
    unary main_cst_34 main_v388 (broadcastInDim S32x20x64 ![] bcast_S_S32x20x64 : (⟨S_, .f32⟩ : BufTy).Contents (Elt F) → (⟨S32x20x64, .f32⟩ : BufTy).Contents (Elt F)),
    binary main_v387 main_v388 main_v389 (maximumf : (⟨S32x20x64, .f32⟩ : BufTy).Contents (Elt F) → (⟨S32x20x64, .f32⟩ : BufTy).Contents (Elt F) → (⟨S32x20x64, .f32⟩ : BufTy).Contents (Elt F)),
    binary main_v384 main_v389 main_v390 (Host.divf : (⟨S32x20x64, .f32⟩ : BufTy).Contents (Elt F) → (⟨S32x20x64, .f32⟩ : BufTy).Contents (Elt F) → (⟨S32x20x64, .f32⟩ : BufTy).Contents (Elt F)),
    unary main_v390 main_v391 ((transpose S32x64x20 [0, 2, 1] · transposes_S32x20x64_S32x64x20_0_2_1) : (⟨S32x20x64, .f32⟩ : BufTy).Contents (Elt F) → (⟨S32x64x20, .f32⟩ : BufTy).Contents (Elt F)) ]

/-- Each touches TensorCore references only. -/
theorem c18_sub : (c18 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., binary_bufs_sub .., unary_bufs_sub ..⟩

/-- None allocates. -/
theorem c18_fresh : ∀ op ∈ (c18 : List (HloOp τ sig (Elt F))), op.fresh = ∅ := by
  intro _ h; (repeat (cases h with | head => rfl | tail _ h => ?_)); exact nomatch h

/-- The buffers the list writes, in order. -/
abbrev w18 : List (Ref sig .tc) := [main_v373, main_v374, main_v375, main_v376, main_v377, main_v378, main_v379, main_v380, main_v381, main_v382, main_v383, main_cst_33, main_v384, main_call34_v0, main_call34_cst, main_call34_v1, main_v385, main_call35_v0, main_call35_cst, main_call35_v1, main_v386, main_v387, main_cst_34, main_v388, main_v389, main_v390, main_v391]

/-- A buffer not among them keeps its contents across the list. -/
theorem c18_keep (W : Valuation τ sig (Elt F)) (r : Ref sig .tc) (hr : r ∉ w18) :
    after c18 W (Proc.devRef .tc r) = W (Proc.devRef .tc r) :=
  after_of_forall_not_mem (b := Proc.devRef .tc r) c18 W (List.forall_iff_forall_mem.mp (by
    simp only [List.Forall, nullary_writes, unary_writes, binary_writes, ternary_writes, quaternary_writes, reshape_writes, nary_writes, Finset.mem_singleton]
    simp only [w18, List.mem_cons, List.mem_nil_iff, or_false, not_or] at hr
    refine ⟨?_, ?_, ?_, ?_, ?_, ?_, ?_, ?_, ?_, ?_, ?_, ?_, ?_, ?_, ?_, ?_, ?_, ?_, ?_, ?_, ?_, ?_, ?_, ?_, ?_, ?_, ?_⟩ <;> exact devRef_ne_of_ne (by tauto)))

theorem c18_v391 (W : Valuation τ sig (Elt F)) :
    after c18 W (Proc.devRef .tc main_v391)
      = Cert.ReferenceIdeal.MP.mpR (W (Proc.devRef .tc main_v3)) (W (Proc.devRef .tc main_v347)) (W (Proc.devRef .tc main_v332)) := by
  after_results_simp
  rfl

end Cert.ReferenceIdeal.RunC

end
-- ==== Proof.RunC19.lean ====
/-
  Operations 537–538 of the reference program's 538 host operations, as a list, and what the buffers they
  compute hold afterwards, from ANY contents `W` of the buffers they read: the block of Proof/RDefs.lean these
  operations spell out, applied to those contents.  Also: which buffers the list writes (every other buffer keeps
  its contents across it), and the two side conditions a run of the list needs.
-/
import proofs.«111495_j13082470383656_2_alg».proof.Proof.Gen.ReferenceIdeal
import proofs.«111495_j13082470383656_2_alg».proof.Proof.RDefs
import Idealize.ShloMosaic.Lib.StableHlo.Run

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations, in program order. -/
abbrev c19 : List (HloOp τ sig (Elt F)) :=
  [ nary ![main_v28, main_v53, main_v126, main_v150, main_v191, main_v250, main_v311, main_v372] main_v392 (fun u => concatenate S32x64x160 2 [⟨S32x64x20, u 0⟩, ⟨S32x64x20, u 1⟩, ⟨S32x64x20, u 2⟩, ⟨S32x64x20, u 3⟩, ⟨S32x64x20, u 4⟩, ⟨S32x64x20, u 5⟩, ⟨S32x64x20, u 6⟩, ⟨S32x64x20, u 7⟩] concatenates_S32x64x20_S32x64x20_S32x64x20_S32x64x20_S32x64x20_S32x64x20_S32x64x20_S32x64x20_S32x64x160_d2),
    nary ![main_v78, main_v103, main_v127, main_v151, main_v210, main_v269, main_v330, main_v391] main_v393 (fun u => concatenate S32x64x160 2 [⟨S32x64x20, u 0⟩, ⟨S32x64x20, u 1⟩, ⟨S32x64x20, u 2⟩, ⟨S32x64x20, u 3⟩, ⟨S32x64x20, u 4⟩, ⟨S32x64x20, u 5⟩, ⟨S32x64x20, u 6⟩, ⟨S32x64x20, u 7⟩] concatenates_S32x64x20_S32x64x20_S32x64x20_S32x64x20_S32x64x20_S32x64x20_S32x64x20_S32x64x20_S32x64x160_d2) ]

/-- Each touches TensorCore references only. -/
theorem c19_sub : (c19 : List (HloOp τ sig (Elt F))).Forall fun op => op.bufs ⊆ tcRefs τ sig :=
  ⟨nary_bufs_sub .., nary_bufs_sub ..⟩

/-- None allocates. -/
theorem c19_fresh : ∀ op ∈ (c19 : List (HloOp τ sig (Elt F))), op.fresh = ∅ := by
  intro _ h; (repeat (cases h with | head => rfl | tail _ h => ?_)); exact nomatch h

/-- The buffers the list writes, in order. -/
abbrev w19 : List (Ref sig .tc) := [main_v392, main_v393]

/-- A buffer not among them keeps its contents across the list. -/
theorem c19_keep (W : Valuation τ sig (Elt F)) (r : Ref sig .tc) (hr : r ∉ w19) :
    after c19 W (Proc.devRef .tc r) = W (Proc.devRef .tc r) :=
  after_of_forall_not_mem (b := Proc.devRef .tc r) c19 W (List.forall_iff_forall_mem.mp (by
    simp only [List.Forall, nullary_writes, unary_writes, binary_writes, ternary_writes, quaternary_writes, reshape_writes, nary_writes, Finset.mem_singleton]
    simp only [w19, List.mem_cons, List.mem_nil_iff, or_false, not_or] at hr
    refine ⟨?_, ?_⟩ <;> exact devRef_ne_of_ne (by tauto)))

theorem c19_v392 (W : Valuation τ sig (Elt F)) :
    after c19 W (Proc.devRef .tc main_v392)
      = Cert.ReferenceIdeal.MP.concat8R (W (Proc.devRef .tc main_v28)) (W (Proc.devRef .tc main_v53)) (W (Proc.devRef .tc main_v126)) (W (Proc.devRef .tc main_v150)) (W (Proc.devRef .tc main_v191)) (W (Proc.devRef .tc main_v250)) (W (Proc.devRef .tc main_v311)) (W (Proc.devRef .tc main_v372)) := by
  after_results_simp
  rfl

theorem c19_v393 (W : Valuation τ sig (Elt F)) :
    after c19 W (Proc.devRef .tc main_v393)
      = Cert.ReferenceIdeal.MP.concat8R (W (Proc.devRef .tc main_v78)) (W (Proc.devRef .tc main_v103)) (W (Proc.devRef .tc main_v127)) (W (Proc.devRef .tc main_v151)) (W (Proc.devRef .tc main_v210)) (W (Proc.devRef .tc main_v269)) (W (Proc.devRef .tc main_v330)) (W (Proc.devRef .tc main_v391)) := by
  after_results_simp
  rfl

end Cert.ReferenceIdeal.RunC

end
-- ==== Proof.RunAll.lean ====
/-
  The reference program's host operations as nineteen lists in program order, the buffer contents after each, and
  from them what the two result buffers hold after all 538 operations: the regrouped reference of Proof/RDefs.lean
  applied to the launch contents of the three arguments.  Each tracked buffer is computed by one list from buffers
  computed before it (the list's own value lemma) and kept by every later list (none writes it).
-/
import proofs.«111495_j13082470383656_2_alg».proof.Proof.RunC1
import proofs.«111495_j13082470383656_2_alg».proof.Proof.RunC2
import proofs.«111495_j13082470383656_2_alg».proof.Proof.RunC3
import proofs.«111495_j13082470383656_2_alg».proof.Proof.RunC4
import proofs.«111495_j13082470383656_2_alg».proof.Proof.RunC5
import proofs.«111495_j13082470383656_2_alg».proof.Proof.RunC6
import proofs.«111495_j13082470383656_2_alg».proof.Proof.RunC7
import proofs.«111495_j13082470383656_2_alg».proof.Proof.RunC8
import proofs.«111495_j13082470383656_2_alg».proof.Proof.RunC9
import proofs.«111495_j13082470383656_2_alg».proof.Proof.RunC10
import proofs.«111495_j13082470383656_2_alg».proof.Proof.RunC11
import proofs.«111495_j13082470383656_2_alg».proof.Proof.RunC12
import proofs.«111495_j13082470383656_2_alg».proof.Proof.RunC13
import proofs.«111495_j13082470383656_2_alg».proof.Proof.RunC14
import proofs.«111495_j13082470383656_2_alg».proof.Proof.RunC15
import proofs.«111495_j13082470383656_2_alg».proof.Proof.RunC16
import proofs.«111495_j13082470383656_2_alg».proof.Proof.RunC17
import proofs.«111495_j13082470383656_2_alg».proof.Proof.RunC18
import proofs.«111495_j13082470383656_2_alg».proof.Proof.RunC19

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- Two lists run one after the other: the contents after the second, from the contents after the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- All 538 operations. -/
abbrev ops : List (HloOp τ sig (Elt F)) :=
  c1 ++ (c2 ++ (c3 ++ (c4 ++ (c5 ++ (c6 ++ (c7 ++ (c8 ++ (c9 ++ (c10 ++ (c11 ++ (c12 ++ (c13 ++ (c14 ++ (c15 ++ (c16 ++ (c17 ++ (c18 ++ (c19))))))))))))))))))

variable (V : Valuation τ sig (Elt F))

/-- The contents after the first k lists. -/
def W0 : Valuation τ sig (Elt F) := V
def W1 : Valuation τ sig (Elt F) := after c1 (W0 V)
def W2 : Valuation τ sig (Elt F) := after c2 (W1 V)
def W3 : Valuation τ sig (Elt F) := after c3 (W2 V)
def W4 : Valuation τ sig (Elt F) := after c4 (W3 V)
def W5 : Valuation τ sig (Elt F) := after c5 (W4 V)
def W6 : Valuation τ sig (Elt F) := after c6 (W5 V)
def W7 : Valuation τ sig (Elt F) := after c7 (W6 V)
def W8 : Valuation τ sig (Elt F) := after c8 (W7 V)
def W9 : Valuation τ sig (Elt F) := after c9 (W8 V)
def W10 : Valuation τ sig (Elt F) := after c10 (W9 V)
def W11 : Valuation τ sig (Elt F) := after c11 (W10 V)
def W12 : Valuation τ sig (Elt F) := after c12 (W11 V)
def W13 : Valuation τ sig (Elt F) := after c13 (W12 V)
def W14 : Valuation τ sig (Elt F) := after c14 (W13 V)
def W15 : Valuation τ sig (Elt F) := after c15 (W14 V)
def W16 : Valuation τ sig (Elt F) := after c16 (W15 V)
def W17 : Valuation τ sig (Elt F) := after c17 (W16 V)
def W18 : Valuation τ sig (Elt F) := after c18 (W17 V)
def W19 : Valuation τ sig (Elt F) := after c19 (W18 V)

theorem after_ops : after ops V = W19 V := by
  simp only [ops, after_append]
  rfl

section Track
variable (x0 x1 : FVec F S32x64x600 .f32) (x2 : FVec F S8x20x300 .f32)
  (h0 : V (Proc.devRef .tc main_arg0) = x0) (h1 : V (Proc.devRef .tc main_arg1) = x1) (h2 : V (Proc.devRef .tc main_arg2) = x2)
include h0 h1 h2
theorem T_arg0_0 : W0 V (Proc.devRef .tc main_arg0) = x0 := h0
theorem T_arg0_1 : W1 V (Proc.devRef .tc main_arg0) = x0 := (c1_keep (W0 V) main_arg0 (by decide)).trans (T_arg0_0 V x0 x1 x2 h0 h1 h2)
theorem T_arg0_2 : W2 V (Proc.devRef .tc main_arg0) = x0 := (c2_keep (W1 V) main_arg0 (by decide)).trans (T_arg0_1 V x0 x1 x2 h0 h1 h2)
theorem T_arg0_3 : W3 V (Proc.devRef .tc main_arg0) = x0 := (c3_keep (W2 V) main_arg0 (by decide)).trans (T_arg0_2 V x0 x1 x2 h0 h1 h2)
theorem T_arg0_4 : W4 V (Proc.devRef .tc main_arg0) = x0 := (c4_keep (W3 V) main_arg0 (by decide)).trans (T_arg0_3 V x0 x1 x2 h0 h1 h2)
theorem T_arg0_5 : W5 V (Proc.devRef .tc main_arg0) = x0 := (c5_keep (W4 V) main_arg0 (by decide)).trans (T_arg0_4 V x0 x1 x2 h0 h1 h2)
theorem T_arg0_6 : W6 V (Proc.devRef .tc main_arg0) = x0 := (c6_keep (W5 V) main_arg0 (by decide)).trans (T_arg0_5 V x0 x1 x2 h0 h1 h2)
theorem T_arg0_7 : W7 V (Proc.devRef .tc main_arg0) = x0 := (c7_keep (W6 V) main_arg0 (by decide)).trans (T_arg0_6 V x0 x1 x2 h0 h1 h2)
theorem T_arg0_8 : W8 V (Proc.devRef .tc main_arg0) = x0 := (c8_keep (W7 V) main_arg0 (by decide)).trans (T_arg0_7 V x0 x1 x2 h0 h1 h2)
theorem T_arg0_9 : W9 V (Proc.devRef .tc main_arg0) = x0 := (c9_keep (W8 V) main_arg0 (by decide)).trans (T_arg0_8 V x0 x1 x2 h0 h1 h2)
theorem T_arg0_10 : W10 V (Proc.devRef .tc main_arg0) = x0 := (c10_keep (W9 V) main_arg0 (by decide)).trans (T_arg0_9 V x0 x1 x2 h0 h1 h2)
theorem T_arg0_11 : W11 V (Proc.devRef .tc main_arg0) = x0 := (c11_keep (W10 V) main_arg0 (by decide)).trans (T_arg0_10 V x0 x1 x2 h0 h1 h2)
theorem T_arg0_12 : W12 V (Proc.devRef .tc main_arg0) = x0 := (c12_keep (W11 V) main_arg0 (by decide)).trans (T_arg0_11 V x0 x1 x2 h0 h1 h2)
theorem T_arg0_13 : W13 V (Proc.devRef .tc main_arg0) = x0 := (c13_keep (W12 V) main_arg0 (by decide)).trans (T_arg0_12 V x0 x1 x2 h0 h1 h2)
theorem T_arg0_14 : W14 V (Proc.devRef .tc main_arg0) = x0 := (c14_keep (W13 V) main_arg0 (by decide)).trans (T_arg0_13 V x0 x1 x2 h0 h1 h2)
theorem T_arg0_15 : W15 V (Proc.devRef .tc main_arg0) = x0 := (c15_keep (W14 V) main_arg0 (by decide)).trans (T_arg0_14 V x0 x1 x2 h0 h1 h2)
theorem T_arg0_16 : W16 V (Proc.devRef .tc main_arg0) = x0 := (c16_keep (W15 V) main_arg0 (by decide)).trans (T_arg0_15 V x0 x1 x2 h0 h1 h2)
theorem T_arg0_17 : W17 V (Proc.devRef .tc main_arg0) = x0 := (c17_keep (W16 V) main_arg0 (by decide)).trans (T_arg0_16 V x0 x1 x2 h0 h1 h2)
theorem T_arg0_18 : W18 V (Proc.devRef .tc main_arg0) = x0 := (c18_keep (W17 V) main_arg0 (by decide)).trans (T_arg0_17 V x0 x1 x2 h0 h1 h2)
theorem T_arg0_19 : W19 V (Proc.devRef .tc main_arg0) = x0 := (c19_keep (W18 V) main_arg0 (by decide)).trans (T_arg0_18 V x0 x1 x2 h0 h1 h2)
theorem T_arg1_0 : W0 V (Proc.devRef .tc main_arg1) = x1 := h1
theorem T_arg1_1 : W1 V (Proc.devRef .tc main_arg1) = x1 := (c1_keep (W0 V) main_arg1 (by decide)).trans (T_arg1_0 V x0 x1 x2 h0 h1 h2)
theorem T_arg1_2 : W2 V (Proc.devRef .tc main_arg1) = x1 := (c2_keep (W1 V) main_arg1 (by decide)).trans (T_arg1_1 V x0 x1 x2 h0 h1 h2)
theorem T_arg1_3 : W3 V (Proc.devRef .tc main_arg1) = x1 := (c3_keep (W2 V) main_arg1 (by decide)).trans (T_arg1_2 V x0 x1 x2 h0 h1 h2)
theorem T_arg1_4 : W4 V (Proc.devRef .tc main_arg1) = x1 := (c4_keep (W3 V) main_arg1 (by decide)).trans (T_arg1_3 V x0 x1 x2 h0 h1 h2)
theorem T_arg1_5 : W5 V (Proc.devRef .tc main_arg1) = x1 := (c5_keep (W4 V) main_arg1 (by decide)).trans (T_arg1_4 V x0 x1 x2 h0 h1 h2)
theorem T_arg1_6 : W6 V (Proc.devRef .tc main_arg1) = x1 := (c6_keep (W5 V) main_arg1 (by decide)).trans (T_arg1_5 V x0 x1 x2 h0 h1 h2)
theorem T_arg1_7 : W7 V (Proc.devRef .tc main_arg1) = x1 := (c7_keep (W6 V) main_arg1 (by decide)).trans (T_arg1_6 V x0 x1 x2 h0 h1 h2)
theorem T_arg1_8 : W8 V (Proc.devRef .tc main_arg1) = x1 := (c8_keep (W7 V) main_arg1 (by decide)).trans (T_arg1_7 V x0 x1 x2 h0 h1 h2)
theorem T_arg1_9 : W9 V (Proc.devRef .tc main_arg1) = x1 := (c9_keep (W8 V) main_arg1 (by decide)).trans (T_arg1_8 V x0 x1 x2 h0 h1 h2)
theorem T_arg1_10 : W10 V (Proc.devRef .tc main_arg1) = x1 := (c10_keep (W9 V) main_arg1 (by decide)).trans (T_arg1_9 V x0 x1 x2 h0 h1 h2)
theorem T_arg1_11 : W11 V (Proc.devRef .tc main_arg1) = x1 := (c11_keep (W10 V) main_arg1 (by decide)).trans (T_arg1_10 V x0 x1 x2 h0 h1 h2)
theorem T_arg1_12 : W12 V (Proc.devRef .tc main_arg1) = x1 := (c12_keep (W11 V) main_arg1 (by decide)).trans (T_arg1_11 V x0 x1 x2 h0 h1 h2)
theorem T_arg1_13 : W13 V (Proc.devRef .tc main_arg1) = x1 := (c13_keep (W12 V) main_arg1 (by decide)).trans (T_arg1_12 V x0 x1 x2 h0 h1 h2)
theorem T_arg1_14 : W14 V (Proc.devRef .tc main_arg1) = x1 := (c14_keep (W13 V) main_arg1 (by decide)).trans (T_arg1_13 V x0 x1 x2 h0 h1 h2)
theorem T_arg1_15 : W15 V (Proc.devRef .tc main_arg1) = x1 := (c15_keep (W14 V) main_arg1 (by decide)).trans (T_arg1_14 V x0 x1 x2 h0 h1 h2)
theorem T_arg1_16 : W16 V (Proc.devRef .tc main_arg1) = x1 := (c16_keep (W15 V) main_arg1 (by decide)).trans (T_arg1_15 V x0 x1 x2 h0 h1 h2)
theorem T_arg1_17 : W17 V (Proc.devRef .tc main_arg1) = x1 := (c17_keep (W16 V) main_arg1 (by decide)).trans (T_arg1_16 V x0 x1 x2 h0 h1 h2)
theorem T_arg1_18 : W18 V (Proc.devRef .tc main_arg1) = x1 := (c18_keep (W17 V) main_arg1 (by decide)).trans (T_arg1_17 V x0 x1 x2 h0 h1 h2)
theorem T_arg1_19 : W19 V (Proc.devRef .tc main_arg1) = x1 := (c19_keep (W18 V) main_arg1 (by decide)).trans (T_arg1_18 V x0 x1 x2 h0 h1 h2)
theorem T_arg2_0 : W0 V (Proc.devRef .tc main_arg2) = x2 := h2
theorem T_arg2_1 : W1 V (Proc.devRef .tc main_arg2) = x2 := (c1_keep (W0 V) main_arg2 (by decide)).trans (T_arg2_0 V x0 x1 x2 h0 h1 h2)
theorem T_arg2_2 : W2 V (Proc.devRef .tc main_arg2) = x2 := (c2_keep (W1 V) main_arg2 (by decide)).trans (T_arg2_1 V x0 x1 x2 h0 h1 h2)
theorem T_arg2_3 : W3 V (Proc.devRef .tc main_arg2) = x2 := (c3_keep (W2 V) main_arg2 (by decide)).trans (T_arg2_2 V x0 x1 x2 h0 h1 h2)
theorem T_arg2_4 : W4 V (Proc.devRef .tc main_arg2) = x2 := (c4_keep (W3 V) main_arg2 (by decide)).trans (T_arg2_3 V x0 x1 x2 h0 h1 h2)
theorem T_arg2_5 : W5 V (Proc.devRef .tc main_arg2) = x2 := (c5_keep (W4 V) main_arg2 (by decide)).trans (T_arg2_4 V x0 x1 x2 h0 h1 h2)
theorem T_arg2_6 : W6 V (Proc.devRef .tc main_arg2) = x2 := (c6_keep (W5 V) main_arg2 (by decide)).trans (T_arg2_5 V x0 x1 x2 h0 h1 h2)
theorem T_arg2_7 : W7 V (Proc.devRef .tc main_arg2) = x2 := (c7_keep (W6 V) main_arg2 (by decide)).trans (T_arg2_6 V x0 x1 x2 h0 h1 h2)
theorem T_arg2_8 : W8 V (Proc.devRef .tc main_arg2) = x2 := (c8_keep (W7 V) main_arg2 (by decide)).trans (T_arg2_7 V x0 x1 x2 h0 h1 h2)
theorem T_arg2_9 : W9 V (Proc.devRef .tc main_arg2) = x2 := (c9_keep (W8 V) main_arg2 (by decide)).trans (T_arg2_8 V x0 x1 x2 h0 h1 h2)
theorem T_arg2_10 : W10 V (Proc.devRef .tc main_arg2) = x2 := (c10_keep (W9 V) main_arg2 (by decide)).trans (T_arg2_9 V x0 x1 x2 h0 h1 h2)
theorem T_arg2_11 : W11 V (Proc.devRef .tc main_arg2) = x2 := (c11_keep (W10 V) main_arg2 (by decide)).trans (T_arg2_10 V x0 x1 x2 h0 h1 h2)
theorem T_arg2_12 : W12 V (Proc.devRef .tc main_arg2) = x2 := (c12_keep (W11 V) main_arg2 (by decide)).trans (T_arg2_11 V x0 x1 x2 h0 h1 h2)
theorem T_arg2_13 : W13 V (Proc.devRef .tc main_arg2) = x2 := (c13_keep (W12 V) main_arg2 (by decide)).trans (T_arg2_12 V x0 x1 x2 h0 h1 h2)
theorem T_arg2_14 : W14 V (Proc.devRef .tc main_arg2) = x2 := (c14_keep (W13 V) main_arg2 (by decide)).trans (T_arg2_13 V x0 x1 x2 h0 h1 h2)
theorem T_arg2_15 : W15 V (Proc.devRef .tc main_arg2) = x2 := (c15_keep (W14 V) main_arg2 (by decide)).trans (T_arg2_14 V x0 x1 x2 h0 h1 h2)
theorem T_arg2_16 : W16 V (Proc.devRef .tc main_arg2) = x2 := (c16_keep (W15 V) main_arg2 (by decide)).trans (T_arg2_15 V x0 x1 x2 h0 h1 h2)
theorem T_arg2_17 : W17 V (Proc.devRef .tc main_arg2) = x2 := (c17_keep (W16 V) main_arg2 (by decide)).trans (T_arg2_16 V x0 x1 x2 h0 h1 h2)
theorem T_arg2_18 : W18 V (Proc.devRef .tc main_arg2) = x2 := (c18_keep (W17 V) main_arg2 (by decide)).trans (T_arg2_17 V x0 x1 x2 h0 h1 h2)
theorem T_arg2_19 : W19 V (Proc.devRef .tc main_arg2) = x2 := (c19_keep (W18 V) main_arg2 (by decide)).trans (T_arg2_18 V x0 x1 x2 h0 h1 h2)
theorem T_v0_1 : W1 V (Proc.devRef .tc main_v0) = Cert.ReferenceIdeal.MP.halfR0 (x0) := by
  show after c1 (W0 V) _ = _
  rw [c1_v0, T_arg0_0 V x0 x1 x2 h0 h1 h2]
theorem T_v0_2 : W2 V (Proc.devRef .tc main_v0) = Cert.ReferenceIdeal.MP.halfR0 (x0) := (c2_keep (W1 V) main_v0 (by decide)).trans (T_v0_1 V x0 x1 x2 h0 h1 h2)
theorem T_v0_3 : W3 V (Proc.devRef .tc main_v0) = Cert.ReferenceIdeal.MP.halfR0 (x0) := (c3_keep (W2 V) main_v0 (by decide)).trans (T_v0_2 V x0 x1 x2 h0 h1 h2)
theorem T_v0_4 : W4 V (Proc.devRef .tc main_v0) = Cert.ReferenceIdeal.MP.halfR0 (x0) := (c4_keep (W3 V) main_v0 (by decide)).trans (T_v0_3 V x0 x1 x2 h0 h1 h2)
theorem T_v0_5 : W5 V (Proc.devRef .tc main_v0) = Cert.ReferenceIdeal.MP.halfR0 (x0) := (c5_keep (W4 V) main_v0 (by decide)).trans (T_v0_4 V x0 x1 x2 h0 h1 h2)
theorem T_v0_6 : W6 V (Proc.devRef .tc main_v0) = Cert.ReferenceIdeal.MP.halfR0 (x0) := (c6_keep (W5 V) main_v0 (by decide)).trans (T_v0_5 V x0 x1 x2 h0 h1 h2)
theorem T_v0_7 : W7 V (Proc.devRef .tc main_v0) = Cert.ReferenceIdeal.MP.halfR0 (x0) := (c7_keep (W6 V) main_v0 (by decide)).trans (T_v0_6 V x0 x1 x2 h0 h1 h2)
theorem T_v0_8 : W8 V (Proc.devRef .tc main_v0) = Cert.ReferenceIdeal.MP.halfR0 (x0) := (c8_keep (W7 V) main_v0 (by decide)).trans (T_v0_7 V x0 x1 x2 h0 h1 h2)
theorem T_v0_9 : W9 V (Proc.devRef .tc main_v0) = Cert.ReferenceIdeal.MP.halfR0 (x0) := (c9_keep (W8 V) main_v0 (by decide)).trans (T_v0_8 V x0 x1 x2 h0 h1 h2)
theorem T_v0_10 : W10 V (Proc.devRef .tc main_v0) = Cert.ReferenceIdeal.MP.halfR0 (x0) := (c10_keep (W9 V) main_v0 (by decide)).trans (T_v0_9 V x0 x1 x2 h0 h1 h2)
theorem T_v0_11 : W11 V (Proc.devRef .tc main_v0) = Cert.ReferenceIdeal.MP.halfR0 (x0) := (c11_keep (W10 V) main_v0 (by decide)).trans (T_v0_10 V x0 x1 x2 h0 h1 h2)
theorem T_v0_12 : W12 V (Proc.devRef .tc main_v0) = Cert.ReferenceIdeal.MP.halfR0 (x0) := (c12_keep (W11 V) main_v0 (by decide)).trans (T_v0_11 V x0 x1 x2 h0 h1 h2)
theorem T_v0_13 : W13 V (Proc.devRef .tc main_v0) = Cert.ReferenceIdeal.MP.halfR0 (x0) := (c13_keep (W12 V) main_v0 (by decide)).trans (T_v0_12 V x0 x1 x2 h0 h1 h2)
theorem T_v1_1 : W1 V (Proc.devRef .tc main_v1) = Cert.ReferenceIdeal.MP.halfR1 (x0) := by
  show after c1 (W0 V) _ = _
  rw [c1_v1, T_arg0_0 V x0 x1 x2 h0 h1 h2]
theorem T_v1_2 : W2 V (Proc.devRef .tc main_v1) = Cert.ReferenceIdeal.MP.halfR1 (x0) := (c2_keep (W1 V) main_v1 (by decide)).trans (T_v1_1 V x0 x1 x2 h0 h1 h2)
theorem T_v1_3 : W3 V (Proc.devRef .tc main_v1) = Cert.ReferenceIdeal.MP.halfR1 (x0) := (c3_keep (W2 V) main_v1 (by decide)).trans (T_v1_2 V x0 x1 x2 h0 h1 h2)
theorem T_v1_4 : W4 V (Proc.devRef .tc main_v1) = Cert.ReferenceIdeal.MP.halfR1 (x0) := (c4_keep (W3 V) main_v1 (by decide)).trans (T_v1_3 V x0 x1 x2 h0 h1 h2)
theorem T_v1_5 : W5 V (Proc.devRef .tc main_v1) = Cert.ReferenceIdeal.MP.halfR1 (x0) := (c5_keep (W4 V) main_v1 (by decide)).trans (T_v1_4 V x0 x1 x2 h0 h1 h2)
theorem T_v1_6 : W6 V (Proc.devRef .tc main_v1) = Cert.ReferenceIdeal.MP.halfR1 (x0) := (c6_keep (W5 V) main_v1 (by decide)).trans (T_v1_5 V x0 x1 x2 h0 h1 h2)
theorem T_v1_7 : W7 V (Proc.devRef .tc main_v1) = Cert.ReferenceIdeal.MP.halfR1 (x0) := (c7_keep (W6 V) main_v1 (by decide)).trans (T_v1_6 V x0 x1 x2 h0 h1 h2)
theorem T_v1_8 : W8 V (Proc.devRef .tc main_v1) = Cert.ReferenceIdeal.MP.halfR1 (x0) := (c8_keep (W7 V) main_v1 (by decide)).trans (T_v1_7 V x0 x1 x2 h0 h1 h2)
theorem T_v1_9 : W9 V (Proc.devRef .tc main_v1) = Cert.ReferenceIdeal.MP.halfR1 (x0) := (c9_keep (W8 V) main_v1 (by decide)).trans (T_v1_8 V x0 x1 x2 h0 h1 h2)
theorem T_v1_10 : W10 V (Proc.devRef .tc main_v1) = Cert.ReferenceIdeal.MP.halfR1 (x0) := (c10_keep (W9 V) main_v1 (by decide)).trans (T_v1_9 V x0 x1 x2 h0 h1 h2)
theorem T_v1_11 : W11 V (Proc.devRef .tc main_v1) = Cert.ReferenceIdeal.MP.halfR1 (x0) := (c11_keep (W10 V) main_v1 (by decide)).trans (T_v1_10 V x0 x1 x2 h0 h1 h2)
theorem T_v1_12 : W12 V (Proc.devRef .tc main_v1) = Cert.ReferenceIdeal.MP.halfR1 (x0) := (c12_keep (W11 V) main_v1 (by decide)).trans (T_v1_11 V x0 x1 x2 h0 h1 h2)
theorem T_v1_13 : W13 V (Proc.devRef .tc main_v1) = Cert.ReferenceIdeal.MP.halfR1 (x0) := (c13_keep (W12 V) main_v1 (by decide)).trans (T_v1_12 V x0 x1 x2 h0 h1 h2)
theorem T_v1_14 : W14 V (Proc.devRef .tc main_v1) = Cert.ReferenceIdeal.MP.halfR1 (x0) := (c14_keep (W13 V) main_v1 (by decide)).trans (T_v1_13 V x0 x1 x2 h0 h1 h2)
theorem T_v1_15 : W15 V (Proc.devRef .tc main_v1) = Cert.ReferenceIdeal.MP.halfR1 (x0) := (c15_keep (W14 V) main_v1 (by decide)).trans (T_v1_14 V x0 x1 x2 h0 h1 h2)
theorem T_v1_16 : W16 V (Proc.devRef .tc main_v1) = Cert.ReferenceIdeal.MP.halfR1 (x0) := (c16_keep (W15 V) main_v1 (by decide)).trans (T_v1_15 V x0 x1 x2 h0 h1 h2)
theorem T_v2_1 : W1 V (Proc.devRef .tc main_v2) = Cert.ReferenceIdeal.MP.halfR0 (x1) := by
  show after c1 (W0 V) _ = _
  rw [c1_v2, T_arg1_0 V x0 x1 x2 h0 h1 h2]
theorem T_v2_2 : W2 V (Proc.devRef .tc main_v2) = Cert.ReferenceIdeal.MP.halfR0 (x1) := (c2_keep (W1 V) main_v2 (by decide)).trans (T_v2_1 V x0 x1 x2 h0 h1 h2)
theorem T_v2_3 : W3 V (Proc.devRef .tc main_v2) = Cert.ReferenceIdeal.MP.halfR0 (x1) := (c3_keep (W2 V) main_v2 (by decide)).trans (T_v2_2 V x0 x1 x2 h0 h1 h2)
theorem T_v2_4 : W4 V (Proc.devRef .tc main_v2) = Cert.ReferenceIdeal.MP.halfR0 (x1) := (c4_keep (W3 V) main_v2 (by decide)).trans (T_v2_3 V x0 x1 x2 h0 h1 h2)
theorem T_v2_5 : W5 V (Proc.devRef .tc main_v2) = Cert.ReferenceIdeal.MP.halfR0 (x1) := (c5_keep (W4 V) main_v2 (by decide)).trans (T_v2_4 V x0 x1 x2 h0 h1 h2)
theorem T_v2_6 : W6 V (Proc.devRef .tc main_v2) = Cert.ReferenceIdeal.MP.halfR0 (x1) := (c6_keep (W5 V) main_v2 (by decide)).trans (T_v2_5 V x0 x1 x2 h0 h1 h2)
theorem T_v2_7 : W7 V (Proc.devRef .tc main_v2) = Cert.ReferenceIdeal.MP.halfR0 (x1) := (c7_keep (W6 V) main_v2 (by decide)).trans (T_v2_6 V x0 x1 x2 h0 h1 h2)
theorem T_v2_8 : W8 V (Proc.devRef .tc main_v2) = Cert.ReferenceIdeal.MP.halfR0 (x1) := (c8_keep (W7 V) main_v2 (by decide)).trans (T_v2_7 V x0 x1 x2 h0 h1 h2)
theorem T_v2_9 : W9 V (Proc.devRef .tc main_v2) = Cert.ReferenceIdeal.MP.halfR0 (x1) := (c9_keep (W8 V) main_v2 (by decide)).trans (T_v2_8 V x0 x1 x2 h0 h1 h2)
theorem T_v2_10 : W10 V (Proc.devRef .tc main_v2) = Cert.ReferenceIdeal.MP.halfR0 (x1) := (c10_keep (W9 V) main_v2 (by decide)).trans (T_v2_9 V x0 x1 x2 h0 h1 h2)
theorem T_v2_11 : W11 V (Proc.devRef .tc main_v2) = Cert.ReferenceIdeal.MP.halfR0 (x1) := (c11_keep (W10 V) main_v2 (by decide)).trans (T_v2_10 V x0 x1 x2 h0 h1 h2)
theorem T_v2_12 : W12 V (Proc.devRef .tc main_v2) = Cert.ReferenceIdeal.MP.halfR0 (x1) := (c12_keep (W11 V) main_v2 (by decide)).trans (T_v2_11 V x0 x1 x2 h0 h1 h2)
theorem T_v2_13 : W13 V (Proc.devRef .tc main_v2) = Cert.ReferenceIdeal.MP.halfR0 (x1) := (c13_keep (W12 V) main_v2 (by decide)).trans (T_v2_12 V x0 x1 x2 h0 h1 h2)
theorem T_v2_14 : W14 V (Proc.devRef .tc main_v2) = Cert.ReferenceIdeal.MP.halfR0 (x1) := (c14_keep (W13 V) main_v2 (by decide)).trans (T_v2_13 V x0 x1 x2 h0 h1 h2)
theorem T_v3_1 : W1 V (Proc.devRef .tc main_v3) = Cert.ReferenceIdeal.MP.halfR1 (x1) := by
  show after c1 (W0 V) _ = _
  rw [c1_v3, T_arg1_0 V x0 x1 x2 h0 h1 h2]
theorem T_v3_2 : W2 V (Proc.devRef .tc main_v3) = Cert.ReferenceIdeal.MP.halfR1 (x1) := (c2_keep (W1 V) main_v3 (by decide)).trans (T_v3_1 V x0 x1 x2 h0 h1 h2)
theorem T_v3_3 : W3 V (Proc.devRef .tc main_v3) = Cert.ReferenceIdeal.MP.halfR1 (x1) := (c3_keep (W2 V) main_v3 (by decide)).trans (T_v3_2 V x0 x1 x2 h0 h1 h2)
theorem T_v3_4 : W4 V (Proc.devRef .tc main_v3) = Cert.ReferenceIdeal.MP.halfR1 (x1) := (c4_keep (W3 V) main_v3 (by decide)).trans (T_v3_3 V x0 x1 x2 h0 h1 h2)
theorem T_v3_5 : W5 V (Proc.devRef .tc main_v3) = Cert.ReferenceIdeal.MP.halfR1 (x1) := (c5_keep (W4 V) main_v3 (by decide)).trans (T_v3_4 V x0 x1 x2 h0 h1 h2)
theorem T_v3_6 : W6 V (Proc.devRef .tc main_v3) = Cert.ReferenceIdeal.MP.halfR1 (x1) := (c6_keep (W5 V) main_v3 (by decide)).trans (T_v3_5 V x0 x1 x2 h0 h1 h2)
theorem T_v3_7 : W7 V (Proc.devRef .tc main_v3) = Cert.ReferenceIdeal.MP.halfR1 (x1) := (c7_keep (W6 V) main_v3 (by decide)).trans (T_v3_6 V x0 x1 x2 h0 h1 h2)
theorem T_v3_8 : W8 V (Proc.devRef .tc main_v3) = Cert.ReferenceIdeal.MP.halfR1 (x1) := (c8_keep (W7 V) main_v3 (by decide)).trans (T_v3_7 V x0 x1 x2 h0 h1 h2)
theorem T_v3_9 : W9 V (Proc.devRef .tc main_v3) = Cert.ReferenceIdeal.MP.halfR1 (x1) := (c9_keep (W8 V) main_v3 (by decide)).trans (T_v3_8 V x0 x1 x2 h0 h1 h2)
theorem T_v3_10 : W10 V (Proc.devRef .tc main_v3) = Cert.ReferenceIdeal.MP.halfR1 (x1) := (c10_keep (W9 V) main_v3 (by decide)).trans (T_v3_9 V x0 x1 x2 h0 h1 h2)
theorem T_v3_11 : W11 V (Proc.devRef .tc main_v3) = Cert.ReferenceIdeal.MP.halfR1 (x1) := (c11_keep (W10 V) main_v3 (by decide)).trans (T_v3_10 V x0 x1 x2 h0 h1 h2)
theorem T_v3_12 : W12 V (Proc.devRef .tc main_v3) = Cert.ReferenceIdeal.MP.halfR1 (x1) := (c12_keep (W11 V) main_v3 (by decide)).trans (T_v3_11 V x0 x1 x2 h0 h1 h2)
theorem T_v3_13 : W13 V (Proc.devRef .tc main_v3) = Cert.ReferenceIdeal.MP.halfR1 (x1) := (c13_keep (W12 V) main_v3 (by decide)).trans (T_v3_12 V x0 x1 x2 h0 h1 h2)
theorem T_v3_14 : W14 V (Proc.devRef .tc main_v3) = Cert.ReferenceIdeal.MP.halfR1 (x1) := (c14_keep (W13 V) main_v3 (by decide)).trans (T_v3_13 V x0 x1 x2 h0 h1 h2)
theorem T_v3_15 : W15 V (Proc.devRef .tc main_v3) = Cert.ReferenceIdeal.MP.halfR1 (x1) := (c15_keep (W14 V) main_v3 (by decide)).trans (T_v3_14 V x0 x1 x2 h0 h1 h2)
theorem T_v3_16 : W16 V (Proc.devRef .tc main_v3) = Cert.ReferenceIdeal.MP.halfR1 (x1) := (c16_keep (W15 V) main_v3 (by decide)).trans (T_v3_15 V x0 x1 x2 h0 h1 h2)
theorem T_v3_17 : W17 V (Proc.devRef .tc main_v3) = Cert.ReferenceIdeal.MP.halfR1 (x1) := (c17_keep (W16 V) main_v3 (by decide)).trans (T_v3_16 V x0 x1 x2 h0 h1 h2)
theorem T_v28_1 : W1 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := by
  show after c1 (W0 V) _ = _
  rw [c1_v28, T_arg0_0 V x0 x1 x2 h0 h1 h2, T_arg1_0 V x0 x1 x2 h0 h1 h2, T_arg2_0 V x0 x1 x2 h0 h1 h2]
theorem T_v28_2 : W2 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c2_keep (W1 V) main_v28 (by decide)).trans (T_v28_1 V x0 x1 x2 h0 h1 h2)
theorem T_v28_3 : W3 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c3_keep (W2 V) main_v28 (by decide)).trans (T_v28_2 V x0 x1 x2 h0 h1 h2)
theorem T_v28_4 : W4 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c4_keep (W3 V) main_v28 (by decide)).trans (T_v28_3 V x0 x1 x2 h0 h1 h2)
theorem T_v28_5 : W5 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c5_keep (W4 V) main_v28 (by decide)).trans (T_v28_4 V x0 x1 x2 h0 h1 h2)
theorem T_v28_6 : W6 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c6_keep (W5 V) main_v28 (by decide)).trans (T_v28_5 V x0 x1 x2 h0 h1 h2)
theorem T_v28_7 : W7 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c7_keep (W6 V) main_v28 (by decide)).trans (T_v28_6 V x0 x1 x2 h0 h1 h2)
theorem T_v28_8 : W8 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c8_keep (W7 V) main_v28 (by decide)).trans (T_v28_7 V x0 x1 x2 h0 h1 h2)
theorem T_v28_9 : W9 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c9_keep (W8 V) main_v28 (by decide)).trans (T_v28_8 V x0 x1 x2 h0 h1 h2)
theorem T_v28_10 : W10 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c10_keep (W9 V) main_v28 (by decide)).trans (T_v28_9 V x0 x1 x2 h0 h1 h2)
theorem T_v28_11 : W11 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c11_keep (W10 V) main_v28 (by decide)).trans (T_v28_10 V x0 x1 x2 h0 h1 h2)
theorem T_v28_12 : W12 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c12_keep (W11 V) main_v28 (by decide)).trans (T_v28_11 V x0 x1 x2 h0 h1 h2)
theorem T_v28_13 : W13 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c13_keep (W12 V) main_v28 (by decide)).trans (T_v28_12 V x0 x1 x2 h0 h1 h2)
theorem T_v28_14 : W14 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c14_keep (W13 V) main_v28 (by decide)).trans (T_v28_13 V x0 x1 x2 h0 h1 h2)
theorem T_v28_15 : W15 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c15_keep (W14 V) main_v28 (by decide)).trans (T_v28_14 V x0 x1 x2 h0 h1 h2)
theorem T_v28_16 : W16 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c16_keep (W15 V) main_v28 (by decide)).trans (T_v28_15 V x0 x1 x2 h0 h1 h2)
theorem T_v28_17 : W17 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c17_keep (W16 V) main_v28 (by decide)).trans (T_v28_16 V x0 x1 x2 h0 h1 h2)
theorem T_v28_18 : W18 V (Proc.devRef .tc main_v28) = Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2)) := (c18_keep (W17 V) main_v28 (by decide)).trans (T_v28_17 V x0 x1 x2 h0 h1 h2)
theorem T_v53_2 : W2 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := by
  show after c2 (W1 V) _ = _
  rw [c2_v53, T_v1_1 V x0 x1 x2 h0 h1 h2, T_v3_1 V x0 x1 x2 h0 h1 h2, T_arg2_1 V x0 x1 x2 h0 h1 h2]
theorem T_v53_3 : W3 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c3_keep (W2 V) main_v53 (by decide)).trans (T_v53_2 V x0 x1 x2 h0 h1 h2)
theorem T_v53_4 : W4 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c4_keep (W3 V) main_v53 (by decide)).trans (T_v53_3 V x0 x1 x2 h0 h1 h2)
theorem T_v53_5 : W5 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c5_keep (W4 V) main_v53 (by decide)).trans (T_v53_4 V x0 x1 x2 h0 h1 h2)
theorem T_v53_6 : W6 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c6_keep (W5 V) main_v53 (by decide)).trans (T_v53_5 V x0 x1 x2 h0 h1 h2)
theorem T_v53_7 : W7 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c7_keep (W6 V) main_v53 (by decide)).trans (T_v53_6 V x0 x1 x2 h0 h1 h2)
theorem T_v53_8 : W8 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c8_keep (W7 V) main_v53 (by decide)).trans (T_v53_7 V x0 x1 x2 h0 h1 h2)
theorem T_v53_9 : W9 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c9_keep (W8 V) main_v53 (by decide)).trans (T_v53_8 V x0 x1 x2 h0 h1 h2)
theorem T_v53_10 : W10 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c10_keep (W9 V) main_v53 (by decide)).trans (T_v53_9 V x0 x1 x2 h0 h1 h2)
theorem T_v53_11 : W11 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c11_keep (W10 V) main_v53 (by decide)).trans (T_v53_10 V x0 x1 x2 h0 h1 h2)
theorem T_v53_12 : W12 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c12_keep (W11 V) main_v53 (by decide)).trans (T_v53_11 V x0 x1 x2 h0 h1 h2)
theorem T_v53_13 : W13 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c13_keep (W12 V) main_v53 (by decide)).trans (T_v53_12 V x0 x1 x2 h0 h1 h2)
theorem T_v53_14 : W14 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c14_keep (W13 V) main_v53 (by decide)).trans (T_v53_13 V x0 x1 x2 h0 h1 h2)
theorem T_v53_15 : W15 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c15_keep (W14 V) main_v53 (by decide)).trans (T_v53_14 V x0 x1 x2 h0 h1 h2)
theorem T_v53_16 : W16 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c16_keep (W15 V) main_v53 (by decide)).trans (T_v53_15 V x0 x1 x2 h0 h1 h2)
theorem T_v53_17 : W17 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c17_keep (W16 V) main_v53 (by decide)).trans (T_v53_16 V x0 x1 x2 h0 h1 h2)
theorem T_v53_18 : W18 V (Proc.devRef .tc main_v53) = Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2)) := (c18_keep (W17 V) main_v53 (by decide)).trans (T_v53_17 V x0 x1 x2 h0 h1 h2)
theorem T_v78_3 : W3 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := by
  show after c3 (W2 V) _ = _
  rw [c3_v78, T_v2_2 V x0 x1 x2 h0 h1 h2, T_v0_2 V x0 x1 x2 h0 h1 h2, T_arg2_2 V x0 x1 x2 h0 h1 h2]
theorem T_v78_4 : W4 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := (c4_keep (W3 V) main_v78 (by decide)).trans (T_v78_3 V x0 x1 x2 h0 h1 h2)
theorem T_v78_5 : W5 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := (c5_keep (W4 V) main_v78 (by decide)).trans (T_v78_4 V x0 x1 x2 h0 h1 h2)
theorem T_v78_6 : W6 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := (c6_keep (W5 V) main_v78 (by decide)).trans (T_v78_5 V x0 x1 x2 h0 h1 h2)
theorem T_v78_7 : W7 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := (c7_keep (W6 V) main_v78 (by decide)).trans (T_v78_6 V x0 x1 x2 h0 h1 h2)
theorem T_v78_8 : W8 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := (c8_keep (W7 V) main_v78 (by decide)).trans (T_v78_7 V x0 x1 x2 h0 h1 h2)
theorem T_v78_9 : W9 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := (c9_keep (W8 V) main_v78 (by decide)).trans (T_v78_8 V x0 x1 x2 h0 h1 h2)
theorem T_v78_10 : W10 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := (c10_keep (W9 V) main_v78 (by decide)).trans (T_v78_9 V x0 x1 x2 h0 h1 h2)
theorem T_v78_11 : W11 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := (c11_keep (W10 V) main_v78 (by decide)).trans (T_v78_10 V x0 x1 x2 h0 h1 h2)
theorem T_v78_12 : W12 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := (c12_keep (W11 V) main_v78 (by decide)).trans (T_v78_11 V x0 x1 x2 h0 h1 h2)
theorem T_v78_13 : W13 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := (c13_keep (W12 V) main_v78 (by decide)).trans (T_v78_12 V x0 x1 x2 h0 h1 h2)
theorem T_v78_14 : W14 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := (c14_keep (W13 V) main_v78 (by decide)).trans (T_v78_13 V x0 x1 x2 h0 h1 h2)
theorem T_v78_15 : W15 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := (c15_keep (W14 V) main_v78 (by decide)).trans (T_v78_14 V x0 x1 x2 h0 h1 h2)
theorem T_v78_16 : W16 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := (c16_keep (W15 V) main_v78 (by decide)).trans (T_v78_15 V x0 x1 x2 h0 h1 h2)
theorem T_v78_17 : W17 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := (c17_keep (W16 V) main_v78 (by decide)).trans (T_v78_16 V x0 x1 x2 h0 h1 h2)
theorem T_v78_18 : W18 V (Proc.devRef .tc main_v78) = Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2)) := (c18_keep (W17 V) main_v78 (by decide)).trans (T_v78_17 V x0 x1 x2 h0 h1 h2)
theorem T_v103_4 : W4 V (Proc.devRef .tc main_v103) = Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2)) := by
  show after c4 (W3 V) _ = _
  rw [c4_v103, T_v3_3 V x0 x1 x2 h0 h1 h2, T_v1_3 V x0 x1 x2 h0 h1 h2, T_arg2_3 V x0 x1 x2 h0 h1 h2]
theorem T_v103_5 : W5 V (Proc.devRef .tc main_v103) = Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2)) := (c5_keep (W4 V) main_v103 (by decide)).trans (T_v103_4 V x0 x1 x2 h0 h1 h2)
theorem T_v103_6 : W6 V (Proc.devRef .tc main_v103) = Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2)) := (c6_keep (W5 V) main_v103 (by decide)).trans (T_v103_5 V x0 x1 x2 h0 h1 h2)
theorem T_v103_7 : W7 V (Proc.devRef .tc main_v103) = Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2)) := (c7_keep (W6 V) main_v103 (by decide)).trans (T_v103_6 V x0 x1 x2 h0 h1 h2)
theorem T_v103_8 : W8 V (Proc.devRef .tc main_v103) = Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2)) := (c8_keep (W7 V) main_v103 (by decide)).trans (T_v103_7 V x0 x1 x2 h0 h1 h2)
theorem T_v103_9 : W9 V (Proc.devRef .tc main_v103) = Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2)) := (c9_keep (W8 V) main_v103 (by decide)).trans (T_v103_8 V x0 x1 x2 h0 h1 h2)
theorem T_v103_10 : W10 V (Proc.devRef .tc main_v103) = Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2)) := (c10_keep (W9 V) main_v103 (by decide)).trans (T_v103_9 V x0 x1 x2 h0 h1 h2)
theorem T_v103_11 : W11 V (Proc.devRef .tc main_v103) = Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2)) := (c11_keep (W10 V) main_v103 (by decide)).trans (T_v103_10 V x0 x1 x2 h0 h1 h2)
theorem T_v103_12 : W12 V (Proc.devRef .tc main_v103) = Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2)) := (c12_keep (W11 V) main_v103 (by decide)).trans (T_v103_11 V x0 x1 x2 h0 h1 h2)
theorem T_v103_13 : W13 V (Proc.devRef .tc main_v103) = Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2)) := (c13_keep (W12 V) main_v103 (by decide)).trans (T_v103_12 V x0 x1 x2 h0 h1 h2)
theorem T_v103_14 : W14 V (Proc.devRef .tc main_v103) = Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2)) := (c14_keep (W13 V) main_v103 (by decide)).trans (T_v103_13 V x0 x1 x2 h0 h1 h2)
theorem T_v103_15 : W15 V (Proc.devRef .tc main_v103) = Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2)) := (c15_keep (W14 V) main_v103 (by decide)).trans (T_v103_14 V x0 x1 x2 h0 h1 h2)
theorem T_v103_16 : W16 V (Proc.devRef .tc main_v103) = Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2)) := (c16_keep (W15 V) main_v103 (by decide)).trans (T_v103_15 V x0 x1 x2 h0 h1 h2)
theorem T_v103_17 : W17 V (Proc.devRef .tc main_v103) = Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2)) := (c17_keep (W16 V) main_v103 (by decide)).trans (T_v103_16 V x0 x1 x2 h0 h1 h2)
theorem T_v103_18 : W18 V (Proc.devRef .tc main_v103) = Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2)) := (c18_keep (W17 V) main_v103 (by decide)).trans (T_v103_17 V x0 x1 x2 h0 h1 h2)
theorem T_v126_5 : W5 V (Proc.devRef .tc main_v126) = Cert.ReferenceIdeal.MP.ppR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := by
  show after c5 (W4 V) _ = _
  rw [c5_v126, T_v0_4 V x0 x1 x2 h0 h1 h2, T_v2_4 V x0 x1 x2 h0 h1 h2, T_arg2_4 V x0 x1 x2 h0 h1 h2]
theorem T_v126_6 : W6 V (Proc.devRef .tc main_v126) = Cert.ReferenceIdeal.MP.ppR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c6_keep (W5 V) main_v126 (by decide)).trans (T_v126_5 V x0 x1 x2 h0 h1 h2)
theorem T_v126_7 : W7 V (Proc.devRef .tc main_v126) = Cert.ReferenceIdeal.MP.ppR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c7_keep (W6 V) main_v126 (by decide)).trans (T_v126_6 V x0 x1 x2 h0 h1 h2)
theorem T_v126_8 : W8 V (Proc.devRef .tc main_v126) = Cert.ReferenceIdeal.MP.ppR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c8_keep (W7 V) main_v126 (by decide)).trans (T_v126_7 V x0 x1 x2 h0 h1 h2)
theorem T_v126_9 : W9 V (Proc.devRef .tc main_v126) = Cert.ReferenceIdeal.MP.ppR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c9_keep (W8 V) main_v126 (by decide)).trans (T_v126_8 V x0 x1 x2 h0 h1 h2)
theorem T_v126_10 : W10 V (Proc.devRef .tc main_v126) = Cert.ReferenceIdeal.MP.ppR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c10_keep (W9 V) main_v126 (by decide)).trans (T_v126_9 V x0 x1 x2 h0 h1 h2)
theorem T_v126_11 : W11 V (Proc.devRef .tc main_v126) = Cert.ReferenceIdeal.MP.ppR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c11_keep (W10 V) main_v126 (by decide)).trans (T_v126_10 V x0 x1 x2 h0 h1 h2)
theorem T_v126_12 : W12 V (Proc.devRef .tc main_v126) = Cert.ReferenceIdeal.MP.ppR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c12_keep (W11 V) main_v126 (by decide)).trans (T_v126_11 V x0 x1 x2 h0 h1 h2)
theorem T_v126_13 : W13 V (Proc.devRef .tc main_v126) = Cert.ReferenceIdeal.MP.ppR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c13_keep (W12 V) main_v126 (by decide)).trans (T_v126_12 V x0 x1 x2 h0 h1 h2)
theorem T_v126_14 : W14 V (Proc.devRef .tc main_v126) = Cert.ReferenceIdeal.MP.ppR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c14_keep (W13 V) main_v126 (by decide)).trans (T_v126_13 V x0 x1 x2 h0 h1 h2)
theorem T_v126_15 : W15 V (Proc.devRef .tc main_v126) = Cert.ReferenceIdeal.MP.ppR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c15_keep (W14 V) main_v126 (by decide)).trans (T_v126_14 V x0 x1 x2 h0 h1 h2)
theorem T_v126_16 : W16 V (Proc.devRef .tc main_v126) = Cert.ReferenceIdeal.MP.ppR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c16_keep (W15 V) main_v126 (by decide)).trans (T_v126_15 V x0 x1 x2 h0 h1 h2)
theorem T_v126_17 : W17 V (Proc.devRef .tc main_v126) = Cert.ReferenceIdeal.MP.ppR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c17_keep (W16 V) main_v126 (by decide)).trans (T_v126_16 V x0 x1 x2 h0 h1 h2)
theorem T_v126_18 : W18 V (Proc.devRef .tc main_v126) = Cert.ReferenceIdeal.MP.ppR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c18_keep (W17 V) main_v126 (by decide)).trans (T_v126_17 V x0 x1 x2 h0 h1 h2)
theorem T_v127_5 : W5 V (Proc.devRef .tc main_v127) = Cert.ReferenceIdeal.MP.pqR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := by
  show after c5 (W4 V) _ = _
  rw [c5_v127, T_v0_4 V x0 x1 x2 h0 h1 h2, T_v2_4 V x0 x1 x2 h0 h1 h2, T_arg2_4 V x0 x1 x2 h0 h1 h2]
theorem T_v127_6 : W6 V (Proc.devRef .tc main_v127) = Cert.ReferenceIdeal.MP.pqR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c6_keep (W5 V) main_v127 (by decide)).trans (T_v127_5 V x0 x1 x2 h0 h1 h2)
theorem T_v127_7 : W7 V (Proc.devRef .tc main_v127) = Cert.ReferenceIdeal.MP.pqR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c7_keep (W6 V) main_v127 (by decide)).trans (T_v127_6 V x0 x1 x2 h0 h1 h2)
theorem T_v127_8 : W8 V (Proc.devRef .tc main_v127) = Cert.ReferenceIdeal.MP.pqR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c8_keep (W7 V) main_v127 (by decide)).trans (T_v127_7 V x0 x1 x2 h0 h1 h2)
theorem T_v127_9 : W9 V (Proc.devRef .tc main_v127) = Cert.ReferenceIdeal.MP.pqR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c9_keep (W8 V) main_v127 (by decide)).trans (T_v127_8 V x0 x1 x2 h0 h1 h2)
theorem T_v127_10 : W10 V (Proc.devRef .tc main_v127) = Cert.ReferenceIdeal.MP.pqR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c10_keep (W9 V) main_v127 (by decide)).trans (T_v127_9 V x0 x1 x2 h0 h1 h2)
theorem T_v127_11 : W11 V (Proc.devRef .tc main_v127) = Cert.ReferenceIdeal.MP.pqR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c11_keep (W10 V) main_v127 (by decide)).trans (T_v127_10 V x0 x1 x2 h0 h1 h2)
theorem T_v127_12 : W12 V (Proc.devRef .tc main_v127) = Cert.ReferenceIdeal.MP.pqR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c12_keep (W11 V) main_v127 (by decide)).trans (T_v127_11 V x0 x1 x2 h0 h1 h2)
theorem T_v127_13 : W13 V (Proc.devRef .tc main_v127) = Cert.ReferenceIdeal.MP.pqR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c13_keep (W12 V) main_v127 (by decide)).trans (T_v127_12 V x0 x1 x2 h0 h1 h2)
theorem T_v127_14 : W14 V (Proc.devRef .tc main_v127) = Cert.ReferenceIdeal.MP.pqR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c14_keep (W13 V) main_v127 (by decide)).trans (T_v127_13 V x0 x1 x2 h0 h1 h2)
theorem T_v127_15 : W15 V (Proc.devRef .tc main_v127) = Cert.ReferenceIdeal.MP.pqR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c15_keep (W14 V) main_v127 (by decide)).trans (T_v127_14 V x0 x1 x2 h0 h1 h2)
theorem T_v127_16 : W16 V (Proc.devRef .tc main_v127) = Cert.ReferenceIdeal.MP.pqR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c16_keep (W15 V) main_v127 (by decide)).trans (T_v127_15 V x0 x1 x2 h0 h1 h2)
theorem T_v127_17 : W17 V (Proc.devRef .tc main_v127) = Cert.ReferenceIdeal.MP.pqR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c17_keep (W16 V) main_v127 (by decide)).trans (T_v127_16 V x0 x1 x2 h0 h1 h2)
theorem T_v127_18 : W18 V (Proc.devRef .tc main_v127) = Cert.ReferenceIdeal.MP.pqR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2))) := (c18_keep (W17 V) main_v127 (by decide)).trans (T_v127_17 V x0 x1 x2 h0 h1 h2)
theorem T_v150_6 : W6 V (Proc.devRef .tc main_v150) = Cert.ReferenceIdeal.MP.ppR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := by
  show after c6 (W5 V) _ = _
  rw [c6_v150, T_v1_5 V x0 x1 x2 h0 h1 h2, T_v3_5 V x0 x1 x2 h0 h1 h2, T_arg2_5 V x0 x1 x2 h0 h1 h2]
theorem T_v150_7 : W7 V (Proc.devRef .tc main_v150) = Cert.ReferenceIdeal.MP.ppR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c7_keep (W6 V) main_v150 (by decide)).trans (T_v150_6 V x0 x1 x2 h0 h1 h2)
theorem T_v150_8 : W8 V (Proc.devRef .tc main_v150) = Cert.ReferenceIdeal.MP.ppR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c8_keep (W7 V) main_v150 (by decide)).trans (T_v150_7 V x0 x1 x2 h0 h1 h2)
theorem T_v150_9 : W9 V (Proc.devRef .tc main_v150) = Cert.ReferenceIdeal.MP.ppR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c9_keep (W8 V) main_v150 (by decide)).trans (T_v150_8 V x0 x1 x2 h0 h1 h2)
theorem T_v150_10 : W10 V (Proc.devRef .tc main_v150) = Cert.ReferenceIdeal.MP.ppR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c10_keep (W9 V) main_v150 (by decide)).trans (T_v150_9 V x0 x1 x2 h0 h1 h2)
theorem T_v150_11 : W11 V (Proc.devRef .tc main_v150) = Cert.ReferenceIdeal.MP.ppR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c11_keep (W10 V) main_v150 (by decide)).trans (T_v150_10 V x0 x1 x2 h0 h1 h2)
theorem T_v150_12 : W12 V (Proc.devRef .tc main_v150) = Cert.ReferenceIdeal.MP.ppR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c12_keep (W11 V) main_v150 (by decide)).trans (T_v150_11 V x0 x1 x2 h0 h1 h2)
theorem T_v150_13 : W13 V (Proc.devRef .tc main_v150) = Cert.ReferenceIdeal.MP.ppR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c13_keep (W12 V) main_v150 (by decide)).trans (T_v150_12 V x0 x1 x2 h0 h1 h2)
theorem T_v150_14 : W14 V (Proc.devRef .tc main_v150) = Cert.ReferenceIdeal.MP.ppR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c14_keep (W13 V) main_v150 (by decide)).trans (T_v150_13 V x0 x1 x2 h0 h1 h2)
theorem T_v150_15 : W15 V (Proc.devRef .tc main_v150) = Cert.ReferenceIdeal.MP.ppR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c15_keep (W14 V) main_v150 (by decide)).trans (T_v150_14 V x0 x1 x2 h0 h1 h2)
theorem T_v150_16 : W16 V (Proc.devRef .tc main_v150) = Cert.ReferenceIdeal.MP.ppR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c16_keep (W15 V) main_v150 (by decide)).trans (T_v150_15 V x0 x1 x2 h0 h1 h2)
theorem T_v150_17 : W17 V (Proc.devRef .tc main_v150) = Cert.ReferenceIdeal.MP.ppR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c17_keep (W16 V) main_v150 (by decide)).trans (T_v150_16 V x0 x1 x2 h0 h1 h2)
theorem T_v150_18 : W18 V (Proc.devRef .tc main_v150) = Cert.ReferenceIdeal.MP.ppR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c18_keep (W17 V) main_v150 (by decide)).trans (T_v150_17 V x0 x1 x2 h0 h1 h2)
theorem T_v151_6 : W6 V (Proc.devRef .tc main_v151) = Cert.ReferenceIdeal.MP.pqR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := by
  show after c6 (W5 V) _ = _
  rw [c6_v151, T_v1_5 V x0 x1 x2 h0 h1 h2, T_v3_5 V x0 x1 x2 h0 h1 h2, T_arg2_5 V x0 x1 x2 h0 h1 h2]
theorem T_v151_7 : W7 V (Proc.devRef .tc main_v151) = Cert.ReferenceIdeal.MP.pqR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c7_keep (W6 V) main_v151 (by decide)).trans (T_v151_6 V x0 x1 x2 h0 h1 h2)
theorem T_v151_8 : W8 V (Proc.devRef .tc main_v151) = Cert.ReferenceIdeal.MP.pqR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c8_keep (W7 V) main_v151 (by decide)).trans (T_v151_7 V x0 x1 x2 h0 h1 h2)
theorem T_v151_9 : W9 V (Proc.devRef .tc main_v151) = Cert.ReferenceIdeal.MP.pqR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c9_keep (W8 V) main_v151 (by decide)).trans (T_v151_8 V x0 x1 x2 h0 h1 h2)
theorem T_v151_10 : W10 V (Proc.devRef .tc main_v151) = Cert.ReferenceIdeal.MP.pqR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c10_keep (W9 V) main_v151 (by decide)).trans (T_v151_9 V x0 x1 x2 h0 h1 h2)
theorem T_v151_11 : W11 V (Proc.devRef .tc main_v151) = Cert.ReferenceIdeal.MP.pqR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c11_keep (W10 V) main_v151 (by decide)).trans (T_v151_10 V x0 x1 x2 h0 h1 h2)
theorem T_v151_12 : W12 V (Proc.devRef .tc main_v151) = Cert.ReferenceIdeal.MP.pqR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c12_keep (W11 V) main_v151 (by decide)).trans (T_v151_11 V x0 x1 x2 h0 h1 h2)
theorem T_v151_13 : W13 V (Proc.devRef .tc main_v151) = Cert.ReferenceIdeal.MP.pqR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c13_keep (W12 V) main_v151 (by decide)).trans (T_v151_12 V x0 x1 x2 h0 h1 h2)
theorem T_v151_14 : W14 V (Proc.devRef .tc main_v151) = Cert.ReferenceIdeal.MP.pqR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c14_keep (W13 V) main_v151 (by decide)).trans (T_v151_13 V x0 x1 x2 h0 h1 h2)
theorem T_v151_15 : W15 V (Proc.devRef .tc main_v151) = Cert.ReferenceIdeal.MP.pqR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c15_keep (W14 V) main_v151 (by decide)).trans (T_v151_14 V x0 x1 x2 h0 h1 h2)
theorem T_v151_16 : W16 V (Proc.devRef .tc main_v151) = Cert.ReferenceIdeal.MP.pqR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c16_keep (W15 V) main_v151 (by decide)).trans (T_v151_15 V x0 x1 x2 h0 h1 h2)
theorem T_v151_17 : W17 V (Proc.devRef .tc main_v151) = Cert.ReferenceIdeal.MP.pqR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c17_keep (W16 V) main_v151 (by decide)).trans (T_v151_16 V x0 x1 x2 h0 h1 h2)
theorem T_v151_18 : W18 V (Proc.devRef .tc main_v151) = Cert.ReferenceIdeal.MP.pqR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2))) := (c18_keep (W17 V) main_v151 (by decide)).trans (T_v151_17 V x0 x1 x2 h0 h1 h2)
theorem T_v153_7 : W7 V (Proc.devRef .tc main_v153) = Cert.ReferenceIdeal.MP.wBlkR ![4, 0, 0] Facts₀.slices_S8x20x300_S1x20x300_4_0_0 (x2) := by
  show after c7 (W6 V) _ = _
  rw [c7_v153, T_arg2_6 V x0 x1 x2 h0 h1 h2]
theorem T_v153_8 : W8 V (Proc.devRef .tc main_v153) = Cert.ReferenceIdeal.MP.wBlkR ![4, 0, 0] Facts₀.slices_S8x20x300_S1x20x300_4_0_0 (x2) := (c8_keep (W7 V) main_v153 (by decide)).trans (T_v153_7 V x0 x1 x2 h0 h1 h2)
theorem T_v167_7 : W7 V (Proc.devRef .tc main_v167) = Cert.ReferenceIdeal.MP.meanPR (Cert.ReferenceIdeal.MP.csR (Cert.ReferenceIdeal.MP.halfR0 (x0)) (Cert.ReferenceIdeal.MP.halfR0 (x1))) (Cert.ReferenceIdeal.MP.halfR0 (x0)) := by
  show after c7 (W6 V) _ = _
  rw [c7_v167, T_v0_6 V x0 x1 x2 h0 h1 h2, T_v2_6 V x0 x1 x2 h0 h1 h2]
theorem T_v167_8 : W8 V (Proc.devRef .tc main_v167) = Cert.ReferenceIdeal.MP.meanPR (Cert.ReferenceIdeal.MP.csR (Cert.ReferenceIdeal.MP.halfR0 (x0)) (Cert.ReferenceIdeal.MP.halfR0 (x1))) (Cert.ReferenceIdeal.MP.halfR0 (x0)) := (c8_keep (W7 V) main_v167 (by decide)).trans (T_v167_7 V x0 x1 x2 h0 h1 h2)
theorem T_v172_7 : W7 V (Proc.devRef .tc main_v172) = Cert.ReferenceIdeal.MP.meanQR (Cert.ReferenceIdeal.MP.csR (Cert.ReferenceIdeal.MP.halfR0 (x0)) (Cert.ReferenceIdeal.MP.halfR0 (x1))) (Cert.ReferenceIdeal.MP.halfR0 (x1)) := by
  show after c7 (W6 V) _ = _
  rw [c7_v172, T_v0_6 V x0 x1 x2 h0 h1 h2, T_v2_6 V x0 x1 x2 h0 h1 h2]
theorem T_v191_8 : W8 V (Proc.devRef .tc main_v191) = Cert.ReferenceIdeal.MP.mpR (Cert.ReferenceIdeal.MP.halfR0 (x0)) (Cert.ReferenceIdeal.MP.meanQR (Cert.ReferenceIdeal.MP.csR (Cert.ReferenceIdeal.MP.halfR0 (x0)) (Cert.ReferenceIdeal.MP.halfR0 (x1))) (Cert.ReferenceIdeal.MP.halfR0 (x1))) (Cert.ReferenceIdeal.MP.wBlkR ![4, 0, 0] Facts₀.slices_S8x20x300_S1x20x300_4_0_0 (x2)) := by
  show after c8 (W7 V) _ = _
  rw [c8_v191, T_v0_7 V x0 x1 x2 h0 h1 h2, T_v172_7 V x0 x1 x2 h0 h1 h2, T_v153_7 V x0 x1 x2 h0 h1 h2]
theorem T_v191_9 : W9 V (Proc.devRef .tc main_v191) = Cert.ReferenceIdeal.MP.mpR (Cert.ReferenceIdeal.MP.halfR0 (x0)) (Cert.ReferenceIdeal.MP.meanQR (Cert.ReferenceIdeal.MP.csR (Cert.ReferenceIdeal.MP.halfR0 (x0)) (Cert.ReferenceIdeal.MP.halfR0 (x1))) (Cert.ReferenceIdeal.MP.halfR0 (x1))) (Cert.ReferenceIdeal.MP.wBlkR ![4, 0, 0] Facts₀.slices_S8x20x300_S1x20x300_4_0_0 (x2)) := (c9_keep (W8 V) main_v191 (by decide)).trans (T_v191_8 V x0 x1 x2 h0 h1 h2)
theorem T_v191_10 : W10 V (Proc.devRef .tc main_v191) = Cert.ReferenceIdeal.MP.mpR (Cert.ReferenceIdeal.MP.halfR0 (x0)) (Cert.ReferenceIdeal.MP.meanQR (Cert.ReferenceIdeal.MP.csR (Cert.ReferenceIdeal.MP.halfR0 (x0)) (Cert.ReferenceIdeal.MP.halfR0 (x1))) (Cert.ReferenceIdeal.MP.halfR0 (x1))) (Cert.ReferenceIdeal.MP.wBlkR ![4, 0, 0] Facts₀.slices_S8x20x300_S1x20x300_4_0_0 (x2)) := (c10_keep (W9 V) main_v191 (by decide)).trans (T_v191_9 V x0 x1 x2 h0 h1 h2)
theorem T_v191_11 : W11 V (Proc.devRef .tc main_v191) = Cert.ReferenceIdeal.MP.mpR (Cert.ReferenceIdeal.MP.halfR0 (x0)) (Cert.ReferenceIdeal.MP.meanQR (Cert.ReferenceIdeal.MP.csR (Cert.ReferenceIdeal.MP.halfR0 (x0)) (Cert.ReferenceIdeal.MP.halfR0 (x1))) (Cert.ReferenceIdeal.MP.halfR0 (x1))) (Cert.ReferenceIdeal.MP.wBlkR ![4, 0, 0] Facts₀.slices_S8x20x300_S1x20x300_4_0_0 (x2)) := (c11_keep (W10 V) main_v191 (by decide)).trans (T_v191_10 V x0 x1 x2 h0 h1 h2)
theorem T_v191_12 : W12 V (Proc.devRef .tc main_v191) = Cert.ReferenceIdeal.MP.mpR (Cert.ReferenceIdeal.MP.halfR0 (x0)) (Cert.ReferenceIdeal.MP.meanQR (Cert.ReferenceIdeal.MP.csR (Cert.ReferenceIdeal.MP.halfR0 (x0)) (Cert.ReferenceIdeal.MP.halfR0 (x1))) (Cert.ReferenceIdeal.MP.halfR0 (x1))) (Cert.ReferenceIdeal.MP.wBlkR ![4, 0, 0] Facts₀.slices_S8x20x300_S1x20x300_4_0_0 (x2)) := (c12_keep (W11 V) main_v191 (by decide)).trans (T_v191_11 V x0 x1 x2 h0 h1 h2)
theorem T_v191_13 : W13 V (Proc.devRef .tc main_v191) = Cert.ReferenceIdeal.MP.mpR (Cert.ReferenceIdeal.MP.halfR0 (x0)) (Cert.ReferenceIdeal.MP.meanQR (Cert.ReferenceIdeal.MP.csR (Cert.ReferenceIdeal.MP.halfR0 (x0)) (Cert.ReferenceIdeal.MP.halfR0 (x1))) (Cert.ReferenceIdeal.MP.halfR0 (x1))) (Cert.ReferenceIdeal.MP.wBlkR ![4, 0, 0] Facts₀.slices_S8x20x300_S1x20x300_4_0_0 (x2)) := (c13_keep (W12 V) main_v191 (by decide)).trans (T_v191_12 V x0 x1 x2 h0 h1 h2)
theorem T_v191_14 : W14 V (Proc.devRef .tc main_v191) = Cert.ReferenceIdeal.MP.mpR (Cert.ReferenceIdeal.MP.halfR0 (x0)) (Cert.ReferenceIdeal.MP.meanQR (Cert.ReferenceIdeal.MP.csR (Cert.ReferenceIdeal.MP.halfR0 (x0)) (Cert.ReferenceIdeal.MP.halfR0 (x1))) (Cert.ReferenceIdeal.MP.halfR0 (x1))) (Cert.ReferenceIdeal.MP.wBlkR ![4, 0, 0] Facts₀.slices_S8x20x300_S1x20x300_4_0_0 (x2)) := (c14_keep (W13 V) main_v191 (by decide)).trans (T_v191_13 V x0 x1 x2 h0 h1 h2)
theorem T_v191_15 : W15 V (Proc.devRef .tc main_v191) = Cert.ReferenceIdeal.MP.mpR (Cert.ReferenceIdeal.MP.halfR0 (x0)) (Cert.ReferenceIdeal.MP.meanQR (Cert.ReferenceIdeal.MP.csR (Cert.ReferenceIdeal.MP.halfR0 (x0)) (Cert.ReferenceIdeal.MP.halfR0 (x1))) (Cert.ReferenceIdeal.MP.halfR0 (x1))) (Cert.ReferenceIdeal.MP.wBlkR ![4, 0, 0] Facts₀.slices_S8x20x300_S1x20x300_4_0_0 (x2)) := (c15_keep (W14 V) main_v191 (by decide)).trans (T_v191_14 V x0 x1 x2 h0 h1 h2)
theorem T_v191_16 : W16 V (Proc.devRef .tc main_v191) = Cert.ReferenceIdeal.MP.mpR (Cert.ReferenceIdeal.MP.halfR0 (x0)) (Cert.ReferenceIdeal.MP.meanQR (Cert.ReferenceIdeal.MP.csR (Cert.ReferenceIdeal.MP.halfR0 (x0)) (Cert.ReferenceIdeal.MP.halfR0 (x1))) (Cert.ReferenceIdeal.MP.halfR0 (x1))) (Cert.ReferenceIdeal.MP.wBlkR ![4, 0, 0] Facts₀.slices_S8x20x300_S1x20x300_4_0_0 (x2)) := (c16_keep (W15 V) main_v191 (by decide)).trans (T_v191_15 V x0 x1 x2 h0 h1 h2)
theorem T_v191_17 : W17 V (Proc.devRef .tc main_v191) = Cert.ReferenceIdeal.MP.mpR (Cert.ReferenceIdeal.MP.halfR0 (x0)) (Cert.ReferenceIdeal.MP.meanQR (Cert.ReferenceIdeal.MP.csR (Cert.ReferenceIdeal.MP.halfR0 (x0)) (Cert.ReferenceIdeal.MP.halfR0 (x1))) (Cert.ReferenceIdeal.MP.halfR0 (x1))) (Cert.ReferenceIdeal.MP.wBlkR ![4, 0, 0] Facts₀.slices_S8x20x300_S1x20x300_4_0_0 (x2)) := (c17_keep (W16 V) main_v191 (by decide)).trans (T_v191_16 V x0 x1 x2 h0 h1 h2)
theorem T_v191_18 : W18 V (Proc.devRef .tc main_v191) = Cert.ReferenceIdeal.MP.mpR (Cert.ReferenceIdeal.MP.halfR0 (x0)) (Cert.ReferenceIdeal.MP.meanQR (Cert.ReferenceIdeal.MP.csR (Cert.ReferenceIdeal.MP.halfR0 (x0)) (Cert.ReferenceIdeal.MP.halfR0 (x1))) (Cert.ReferenceIdeal.MP.halfR0 (x1))) (Cert.ReferenceIdeal.MP.wBlkR ![4, 0, 0] Facts₀.slices_S8x20x300_S1x20x300_4_0_0 (x2)) := (c18_keep (W17 V) main_v191 (by decide)).trans (T_v191_17 V x0 x1 x2 h0 h1 h2)
theorem T_v210_9 : W9 V (Proc.devRef .tc main_v210) = Cert.ReferenceIdeal.MP.mpR (Cert.ReferenceIdeal.MP.halfR0 (x1)) (Cert.ReferenceIdeal.MP.meanPR (Cert.ReferenceIdeal.MP.csR (Cert.ReferenceIdeal.MP.halfR0 (x0)) (Cert.ReferenceIdeal.MP.halfR0 (x1))) (Cert.ReferenceIdeal.MP.halfR0 (x0))) (Cert.ReferenceIdeal.MP.wBlkR ![4, 0, 0] Facts₀.slices_S8x20x300_S1x20x300_4_0_0 (x2)) := by
  show after c9 (W8 V) _ = _
  rw [c9_v210, T_v2_8 V x0 x1 x2 h0 h1 h2, T_v167_8 V x0 x1 x2 h0 h1 h2, T_v153_8 V x0 x1 x2 h0 h1 h2]
theorem T_v210_10 : W10 V (Proc.devRef .tc main_v210) = Cert.ReferenceIdeal.MP.mpR (Cert.ReferenceIdeal.MP.halfR0 (x1)) (Cert.ReferenceIdeal.MP.meanPR (Cert.ReferenceIdeal.MP.csR (Cert.ReferenceIdeal.MP.halfR0 (x0)) (Cert.ReferenceIdeal.MP.halfR0 (x1))) (Cert.ReferenceIdeal.MP.halfR0 (x0))) (Cert.ReferenceIdeal.MP.wBlkR ![4, 0, 0] Facts₀.slices_S8x20x300_S1x20x300_4_0_0 (x2)) := (c10_keep (W9 V) main_v210 (by decide)).trans (T_v210_9 V x0 x1 x2 h0 h1 h2)
theorem T_v210_11 : W11 V (Proc.devRef .tc main_v210) = Cert.ReferenceIdeal.MP.mpR (Cert.ReferenceIdeal.MP.halfR0 (x1)) (Cert.ReferenceIdeal.MP.meanPR (Cert.ReferenceIdeal.MP.csR (Cert.ReferenceIdeal.MP.halfR0 (x0)) (Cert.ReferenceIdeal.MP.halfR0 (x1))) (Cert.ReferenceIdeal.MP.halfR0 (x0))) (Cert.ReferenceIdeal.MP.wBlkR ![4, 0, 0] Facts₀.slices_S8x20x300_S1x20x300_4_0_0 (x2)) := (c11_keep (W10 V) main_v210 (by decide)).trans (T_v210_10 V x0 x1 x2 h0 h1 h2)
theorem T_v210_12 : W12 V (Proc.devRef .tc main_v210) = Cert.ReferenceIdeal.MP.mpR (Cert.ReferenceIdeal.MP.halfR0 (x1)) (Cert.ReferenceIdeal.MP.meanPR (Cert.ReferenceIdeal.MP.csR (Cert.ReferenceIdeal.MP.halfR0 (x0)) (Cert.ReferenceIdeal.MP.halfR0 (x1))) (Cert.ReferenceIdeal.MP.halfR0 (x0))) (Cert.ReferenceIdeal.MP.wBlkR ![4, 0, 0] Facts₀.slices_S8x20x300_S1x20x300_4_0_0 (x2)) := (c12_keep (W11 V) main_v210 (by decide)).trans (T_v210_11 V x0 x1 x2 h0 h1 h2)
theorem T_v210_13 : W13 V (Proc.devRef .tc main_v210) = Cert.ReferenceIdeal.MP.mpR (Cert.ReferenceIdeal.MP.halfR0 (x1)) (Cert.ReferenceIdeal.MP.meanPR (Cert.ReferenceIdeal.MP.csR (Cert.ReferenceIdeal.MP.halfR0 (x0)) (Cert.ReferenceIdeal.MP.halfR0 (x1))) (Cert.ReferenceIdeal.MP.halfR0 (x0))) (Cert.ReferenceIdeal.MP.wBlkR ![4, 0, 0] Facts₀.slices_S8x20x300_S1x20x300_4_0_0 (x2)) := (c13_keep (W12 V) main_v210 (by decide)).trans (T_v210_12 V x0 x1 x2 h0 h1 h2)
theorem T_v210_14 : W14 V (Proc.devRef .tc main_v210) = Cert.ReferenceIdeal.MP.mpR (Cert.ReferenceIdeal.MP.halfR0 (x1)) (Cert.ReferenceIdeal.MP.meanPR (Cert.ReferenceIdeal.MP.csR (Cert.ReferenceIdeal.MP.halfR0 (x0)) (Cert.ReferenceIdeal.MP.halfR0 (x1))) (Cert.ReferenceIdeal.MP.halfR0 (x0))) (Cert.ReferenceIdeal.MP.wBlkR ![4, 0, 0] Facts₀.slices_S8x20x300_S1x20x300_4_0_0 (x2)) := (c14_keep (W13 V) main_v210 (by decide)).trans (T_v210_13 V x0 x1 x2 h0 h1 h2)
theorem T_v210_15 : W15 V (Proc.devRef .tc main_v210) = Cert.ReferenceIdeal.MP.mpR (Cert.ReferenceIdeal.MP.halfR0 (x1)) (Cert.ReferenceIdeal.MP.meanPR (Cert.ReferenceIdeal.MP.csR (Cert.ReferenceIdeal.MP.halfR0 (x0)) (Cert.ReferenceIdeal.MP.halfR0 (x1))) (Cert.ReferenceIdeal.MP.halfR0 (x0))) (Cert.ReferenceIdeal.MP.wBlkR ![4, 0, 0] Facts₀.slices_S8x20x300_S1x20x300_4_0_0 (x2)) := (c15_keep (W14 V) main_v210 (by decide)).trans (T_v210_14 V x0 x1 x2 h0 h1 h2)
theorem T_v210_16 : W16 V (Proc.devRef .tc main_v210) = Cert.ReferenceIdeal.MP.mpR (Cert.ReferenceIdeal.MP.halfR0 (x1)) (Cert.ReferenceIdeal.MP.meanPR (Cert.ReferenceIdeal.MP.csR (Cert.ReferenceIdeal.MP.halfR0 (x0)) (Cert.ReferenceIdeal.MP.halfR0 (x1))) (Cert.ReferenceIdeal.MP.halfR0 (x0))) (Cert.ReferenceIdeal.MP.wBlkR ![4, 0, 0] Facts₀.slices_S8x20x300_S1x20x300_4_0_0 (x2)) := (c16_keep (W15 V) main_v210 (by decide)).trans (T_v210_15 V x0 x1 x2 h0 h1 h2)
theorem T_v210_17 : W17 V (Proc.devRef .tc main_v210) = Cert.ReferenceIdeal.MP.mpR (Cert.ReferenceIdeal.MP.halfR0 (x1)) (Cert.ReferenceIdeal.MP.meanPR (Cert.ReferenceIdeal.MP.csR (Cert.ReferenceIdeal.MP.halfR0 (x0)) (Cert.ReferenceIdeal.MP.halfR0 (x1))) (Cert.ReferenceIdeal.MP.halfR0 (x0))) (Cert.ReferenceIdeal.MP.wBlkR ![4, 0, 0] Facts₀.slices_S8x20x300_S1x20x300_4_0_0 (x2)) := (c17_keep (W16 V) main_v210 (by decide)).trans (T_v210_16 V x0 x1 x2 h0 h1 h2)
theorem T_v210_18 : W18 V (Proc.devRef .tc main_v210) = Cert.ReferenceIdeal.MP.mpR (Cert.ReferenceIdeal.MP.halfR0 (x1)) (Cert.ReferenceIdeal.MP.meanPR (Cert.ReferenceIdeal.MP.csR (Cert.ReferenceIdeal.MP.halfR0 (x0)) (Cert.ReferenceIdeal.MP.halfR0 (x1))) (Cert.ReferenceIdeal.MP.halfR0 (x0))) (Cert.ReferenceIdeal.MP.wBlkR ![4, 0, 0] Facts₀.slices_S8x20x300_S1x20x300_4_0_0 (x2)) := (c18_keep (W17 V) main_v210 (by decide)).trans (T_v210_17 V x0 x1 x2 h0 h1 h2)
theorem T_v212_10 : W10 V (Proc.devRef .tc main_v212) = Cert.ReferenceIdeal.MP.wBlkR ![5, 0, 0] Facts₀.slices_S8x20x300_S1x20x300_5_0_0 (x2) := by
  show after c10 (W9 V) _ = _
  rw [c10_v212, T_arg2_9 V x0 x1 x2 h0 h1 h2]
theorem T_v212_11 : W11 V (Proc.devRef .tc main_v212) = Cert.ReferenceIdeal.MP.wBlkR ![5, 0, 0] Facts₀.slices_S8x20x300_S1x20x300_5_0_0 (x2) := (c11_keep (W10 V) main_v212 (by decide)).trans (T_v212_10 V x0 x1 x2 h0 h1 h2)
theorem T_v226_10 : W10 V (Proc.devRef .tc main_v226) = Cert.ReferenceIdeal.MP.meanPR (Cert.ReferenceIdeal.MP.csR (Cert.ReferenceIdeal.MP.halfR1 (x0)) (Cert.ReferenceIdeal.MP.halfR1 (x1))) (Cert.ReferenceIdeal.MP.halfR1 (x0)) := by
  show after c10 (W9 V) _ = _
  rw [c10_v226, T_v1_9 V x0 x1 x2 h0 h1 h2, T_v3_9 V x0 x1 x2 h0 h1 h2]
theorem T_v226_11 : W11 V (Proc.devRef .tc main_v226) = Cert.ReferenceIdeal.MP.meanPR (Cert.ReferenceIdeal.MP.csR (Cert.ReferenceIdeal.MP.halfR1 (x0)) (Cert.ReferenceIdeal.MP.halfR1 (x1))) (Cert.ReferenceIdeal.MP.halfR1 (x0)) := (c11_keep (W10 V) main_v226 (by decide)).trans (T_v226_10 V x0 x1 x2 h0 h1 h2)
theorem T_v231_10 : W10 V (Proc.devRef .tc main_v231) = Cert.ReferenceIdeal.MP.meanQR (Cert.ReferenceIdeal.MP.csR (Cert.ReferenceIdeal.MP.halfR1 (x0)) (Cert.ReferenceIdeal.MP.halfR1 (x1))) (Cert.ReferenceIdeal.MP.halfR1 (x1)) := by
  show after c10 (W9 V) _ = _
  rw [c10_v231, T_v1_9 V x0 x1 x2 h0 h1 h2, T_v3_9 V x0 x1 x2 h0 h1 h2]
theorem T_v250_11 : W11 V (Proc.devRef .tc main_v250) = Cert.ReferenceIdeal.MP.mpR (Cert.ReferenceIdeal.MP.halfR1 (x0)) (Cert.ReferenceIdeal.MP.meanQR (Cert.ReferenceIdeal.MP.csR (Cert.ReferenceIdeal.MP.halfR1 (x0)) (Cert.ReferenceIdeal.MP.halfR1 (x1))) (Cert.ReferenceIdeal.MP.halfR1 (x1))) (Cert.ReferenceIdeal.MP.wBlkR ![5, 0, 0] Facts₀.slices_S8x20x300_S1x20x300_5_0_0 (x2)) := by
  show after c11 (W10 V) _ = _
  rw [c11_v250, T_v1_10 V x0 x1 x2 h0 h1 h2, T_v231_10 V x0 x1 x2 h0 h1 h2, T_v212_10 V x0 x1 x2 h0 h1 h2]
theorem T_v250_12 : W12 V (Proc.devRef .tc main_v250) = Cert.ReferenceIdeal.MP.mpR (Cert.ReferenceIdeal.MP.halfR1 (x0)) (Cert.ReferenceIdeal.MP.meanQR (Cert.ReferenceIdeal.MP.csR (Cert.ReferenceIdeal.MP.halfR1 (x0)) (Cert.ReferenceIdeal.MP.halfR1 (x1))) (Cert.ReferenceIdeal.MP.halfR1 (x1))) (Cert.ReferenceIdeal.MP.wBlkR ![5, 0, 0] Facts₀.slices_S8x20x300_S1x20x300_5_0_0 (x2)) := (c12_keep (W11 V) main_v250 (by decide)).trans (T_v250_11 V x0 x1 x2 h0 h1 h2)
theorem T_v250_13 : W13 V (Proc.devRef .tc main_v250) = Cert.ReferenceIdeal.MP.mpR (Cert.ReferenceIdeal.MP.halfR1 (x0)) (Cert.ReferenceIdeal.MP.meanQR (Cert.ReferenceIdeal.MP.csR (Cert.ReferenceIdeal.MP.halfR1 (x0)) (Cert.ReferenceIdeal.MP.halfR1 (x1))) (Cert.ReferenceIdeal.MP.halfR1 (x1))) (Cert.ReferenceIdeal.MP.wBlkR ![5, 0, 0] Facts₀.slices_S8x20x300_S1x20x300_5_0_0 (x2)) := (c13_keep (W12 V) main_v250 (by decide)).trans (T_v250_12 V x0 x1 x2 h0 h1 h2)
theorem T_v250_14 : W14 V (Proc.devRef .tc main_v250) = Cert.ReferenceIdeal.MP.mpR (Cert.ReferenceIdeal.MP.halfR1 (x0)) (Cert.ReferenceIdeal.MP.meanQR (Cert.ReferenceIdeal.MP.csR (Cert.ReferenceIdeal.MP.halfR1 (x0)) (Cert.ReferenceIdeal.MP.halfR1 (x1))) (Cert.ReferenceIdeal.MP.halfR1 (x1))) (Cert.ReferenceIdeal.MP.wBlkR ![5, 0, 0] Facts₀.slices_S8x20x300_S1x20x300_5_0_0 (x2)) := (c14_keep (W13 V) main_v250 (by decide)).trans (T_v250_13 V x0 x1 x2 h0 h1 h2)
theorem T_v250_15 : W15 V (Proc.devRef .tc main_v250) = Cert.ReferenceIdeal.MP.mpR (Cert.ReferenceIdeal.MP.halfR1 (x0)) (Cert.ReferenceIdeal.MP.meanQR (Cert.ReferenceIdeal.MP.csR (Cert.ReferenceIdeal.MP.halfR1 (x0)) (Cert.ReferenceIdeal.MP.halfR1 (x1))) (Cert.ReferenceIdeal.MP.halfR1 (x1))) (Cert.ReferenceIdeal.MP.wBlkR ![5, 0, 0] Facts₀.slices_S8x20x300_S1x20x300_5_0_0 (x2)) := (c15_keep (W14 V) main_v250 (by decide)).trans (T_v250_14 V x0 x1 x2 h0 h1 h2)
theorem T_v250_16 : W16 V (Proc.devRef .tc main_v250) = Cert.ReferenceIdeal.MP.mpR (Cert.ReferenceIdeal.MP.halfR1 (x0)) (Cert.ReferenceIdeal.MP.meanQR (Cert.ReferenceIdeal.MP.csR (Cert.ReferenceIdeal.MP.halfR1 (x0)) (Cert.ReferenceIdeal.MP.halfR1 (x1))) (Cert.ReferenceIdeal.MP.halfR1 (x1))) (Cert.ReferenceIdeal.MP.wBlkR ![5, 0, 0] Facts₀.slices_S8x20x300_S1x20x300_5_0_0 (x2)) := (c16_keep (W15 V) main_v250 (by decide)).trans (T_v250_15 V x0 x1 x2 h0 h1 h2)
theorem T_v250_17 : W17 V (Proc.devRef .tc main_v250) = Cert.ReferenceIdeal.MP.mpR (Cert.ReferenceIdeal.MP.halfR1 (x0)) (Cert.ReferenceIdeal.MP.meanQR (Cert.ReferenceIdeal.MP.csR (Cert.ReferenceIdeal.MP.halfR1 (x0)) (Cert.ReferenceIdeal.MP.halfR1 (x1))) (Cert.ReferenceIdeal.MP.halfR1 (x1))) (Cert.ReferenceIdeal.MP.wBlkR ![5, 0, 0] Facts₀.slices_S8x20x300_S1x20x300_5_0_0 (x2)) := (c17_keep (W16 V) main_v250 (by decide)).trans (T_v250_16 V x0 x1 x2 h0 h1 h2)
theorem T_v250_18 : W18 V (Proc.devRef .tc main_v250) = Cert.ReferenceIdeal.MP.mpR (Cert.ReferenceIdeal.MP.halfR1 (x0)) (Cert.ReferenceIdeal.MP.meanQR (Cert.ReferenceIdeal.MP.csR (Cert.ReferenceIdeal.MP.halfR1 (x0)) (Cert.ReferenceIdeal.MP.halfR1 (x1))) (Cert.ReferenceIdeal.MP.halfR1 (x1))) (Cert.ReferenceIdeal.MP.wBlkR ![5, 0, 0] Facts₀.slices_S8x20x300_S1x20x300_5_0_0 (x2)) := (c18_keep (W17 V) main_v250 (by decide)).trans (T_v250_17 V x0 x1 x2 h0 h1 h2)
theorem T_v269_12 : W12 V (Proc.devRef .tc main_v269) = Cert.ReferenceIdeal.MP.mpR (Cert.ReferenceIdeal.MP.halfR1 (x1)) (Cert.ReferenceIdeal.MP.meanPR (Cert.ReferenceIdeal.MP.csR (Cert.ReferenceIdeal.MP.halfR1 (x0)) (Cert.ReferenceIdeal.MP.halfR1 (x1))) (Cert.ReferenceIdeal.MP.halfR1 (x0))) (Cert.ReferenceIdeal.MP.wBlkR ![5, 0, 0] Facts₀.slices_S8x20x300_S1x20x300_5_0_0 (x2)) := by
  show after c12 (W11 V) _ = _
  rw [c12_v269, T_v3_11 V x0 x1 x2 h0 h1 h2, T_v226_11 V x0 x1 x2 h0 h1 h2, T_v212_11 V x0 x1 x2 h0 h1 h2]
theorem T_v269_13 : W13 V (Proc.devRef .tc main_v269) = Cert.ReferenceIdeal.MP.mpR (Cert.ReferenceIdeal.MP.halfR1 (x1)) (Cert.ReferenceIdeal.MP.meanPR (Cert.ReferenceIdeal.MP.csR (Cert.ReferenceIdeal.MP.halfR1 (x0)) (Cert.ReferenceIdeal.MP.halfR1 (x1))) (Cert.ReferenceIdeal.MP.halfR1 (x0))) (Cert.ReferenceIdeal.MP.wBlkR ![5, 0, 0] Facts₀.slices_S8x20x300_S1x20x300_5_0_0 (x2)) := (c13_keep (W12 V) main_v269 (by decide)).trans (T_v269_12 V x0 x1 x2 h0 h1 h2)
theorem T_v269_14 : W14 V (Proc.devRef .tc main_v269) = Cert.ReferenceIdeal.MP.mpR (Cert.ReferenceIdeal.MP.halfR1 (x1)) (Cert.ReferenceIdeal.MP.meanPR (Cert.ReferenceIdeal.MP.csR (Cert.ReferenceIdeal.MP.halfR1 (x0)) (Cert.ReferenceIdeal.MP.halfR1 (x1))) (Cert.ReferenceIdeal.MP.halfR1 (x0))) (Cert.ReferenceIdeal.MP.wBlkR ![5, 0, 0] Facts₀.slices_S8x20x300_S1x20x300_5_0_0 (x2)) := (c14_keep (W13 V) main_v269 (by decide)).trans (T_v269_13 V x0 x1 x2 h0 h1 h2)
theorem T_v269_15 : W15 V (Proc.devRef .tc main_v269) = Cert.ReferenceIdeal.MP.mpR (Cert.ReferenceIdeal.MP.halfR1 (x1)) (Cert.ReferenceIdeal.MP.meanPR (Cert.ReferenceIdeal.MP.csR (Cert.ReferenceIdeal.MP.halfR1 (x0)) (Cert.ReferenceIdeal.MP.halfR1 (x1))) (Cert.ReferenceIdeal.MP.halfR1 (x0))) (Cert.ReferenceIdeal.MP.wBlkR ![5, 0, 0] Facts₀.slices_S8x20x300_S1x20x300_5_0_0 (x2)) := (c15_keep (W14 V) main_v269 (by decide)).trans (T_v269_14 V x0 x1 x2 h0 h1 h2)
theorem T_v269_16 : W16 V (Proc.devRef .tc main_v269) = Cert.ReferenceIdeal.MP.mpR (Cert.ReferenceIdeal.MP.halfR1 (x1)) (Cert.ReferenceIdeal.MP.meanPR (Cert.ReferenceIdeal.MP.csR (Cert.ReferenceIdeal.MP.halfR1 (x0)) (Cert.ReferenceIdeal.MP.halfR1 (x1))) (Cert.ReferenceIdeal.MP.halfR1 (x0))) (Cert.ReferenceIdeal.MP.wBlkR ![5, 0, 0] Facts₀.slices_S8x20x300_S1x20x300_5_0_0 (x2)) := (c16_keep (W15 V) main_v269 (by decide)).trans (T_v269_15 V x0 x1 x2 h0 h1 h2)
theorem T_v269_17 : W17 V (Proc.devRef .tc main_v269) = Cert.ReferenceIdeal.MP.mpR (Cert.ReferenceIdeal.MP.halfR1 (x1)) (Cert.ReferenceIdeal.MP.meanPR (Cert.ReferenceIdeal.MP.csR (Cert.ReferenceIdeal.MP.halfR1 (x0)) (Cert.ReferenceIdeal.MP.halfR1 (x1))) (Cert.ReferenceIdeal.MP.halfR1 (x0))) (Cert.ReferenceIdeal.MP.wBlkR ![5, 0, 0] Facts₀.slices_S8x20x300_S1x20x300_5_0_0 (x2)) := (c17_keep (W16 V) main_v269 (by decide)).trans (T_v269_16 V x0 x1 x2 h0 h1 h2)
theorem T_v269_18 : W18 V (Proc.devRef .tc main_v269) = Cert.ReferenceIdeal.MP.mpR (Cert.ReferenceIdeal.MP.halfR1 (x1)) (Cert.ReferenceIdeal.MP.meanPR (Cert.ReferenceIdeal.MP.csR (Cert.ReferenceIdeal.MP.halfR1 (x0)) (Cert.ReferenceIdeal.MP.halfR1 (x1))) (Cert.ReferenceIdeal.MP.halfR1 (x0))) (Cert.ReferenceIdeal.MP.wBlkR ![5, 0, 0] Facts₀.slices_S8x20x300_S1x20x300_5_0_0 (x2)) := (c18_keep (W17 V) main_v269 (by decide)).trans (T_v269_17 V x0 x1 x2 h0 h1 h2)
theorem T_v271_13 : W13 V (Proc.devRef .tc main_v271) = Cert.ReferenceIdeal.MP.wBlkR ![6, 0, 0] Facts₀.slices_S8x20x300_S1x20x300_6_0_0 (x2) := by
  show after c13 (W12 V) _ = _
  rw [c13_v271, T_arg2_12 V x0 x1 x2 h0 h1 h2]
theorem T_v271_14 : W14 V (Proc.devRef .tc main_v271) = Cert.ReferenceIdeal.MP.wBlkR ![6, 0, 0] Facts₀.slices_S8x20x300_S1x20x300_6_0_0 (x2) := (c14_keep (W13 V) main_v271 (by decide)).trans (T_v271_13 V x0 x1 x2 h0 h1 h2)
theorem T_v286_13 : W13 V (Proc.devRef .tc main_v286) = Cert.ReferenceIdeal.MP.maxPR (Cert.ReferenceIdeal.MP.halfR0 (x0)) (Cert.ReferenceIdeal.MP.csR (Cert.ReferenceIdeal.MP.halfR0 (x0)) (Cert.ReferenceIdeal.MP.halfR0 (x1))) := by
  show after c13 (W12 V) _ = _
  rw [c13_v286, T_v0_12 V x0 x1 x2 h0 h1 h2, T_v2_12 V x0 x1 x2 h0 h1 h2]
theorem T_v286_14 : W14 V (Proc.devRef .tc main_v286) = Cert.ReferenceIdeal.MP.maxPR (Cert.ReferenceIdeal.MP.halfR0 (x0)) (Cert.ReferenceIdeal.MP.csR (Cert.ReferenceIdeal.MP.halfR0 (x0)) (Cert.ReferenceIdeal.MP.halfR0 (x1))) := (c14_keep (W13 V) main_v286 (by decide)).trans (T_v286_13 V x0 x1 x2 h0 h1 h2)
theorem T_v292_13 : W13 V (Proc.devRef .tc main_v292) = Cert.ReferenceIdeal.MP.maxQR (Cert.ReferenceIdeal.MP.halfR0 (x1)) (Cert.ReferenceIdeal.MP.csR (Cert.ReferenceIdeal.MP.halfR0 (x0)) (Cert.ReferenceIdeal.MP.halfR0 (x1))) := by
  show after c13 (W12 V) _ = _
  rw [c13_v292, T_v2_12 V x0 x1 x2 h0 h1 h2, T_v0_12 V x0 x1 x2 h0 h1 h2]
theorem T_v311_14 : W14 V (Proc.devRef .tc main_v311) = Cert.ReferenceIdeal.MP.mpR (Cert.ReferenceIdeal.MP.halfR0 (x0)) (Cert.ReferenceIdeal.MP.maxQR (Cert.ReferenceIdeal.MP.halfR0 (x1)) (Cert.ReferenceIdeal.MP.csR (Cert.ReferenceIdeal.MP.halfR0 (x0)) (Cert.ReferenceIdeal.MP.halfR0 (x1)))) (Cert.ReferenceIdeal.MP.wBlkR ![6, 0, 0] Facts₀.slices_S8x20x300_S1x20x300_6_0_0 (x2)) := by
  show after c14 (W13 V) _ = _
  rw [c14_v311, T_v0_13 V x0 x1 x2 h0 h1 h2, T_v292_13 V x0 x1 x2 h0 h1 h2, T_v271_13 V x0 x1 x2 h0 h1 h2]
theorem T_v311_15 : W15 V (Proc.devRef .tc main_v311) = Cert.ReferenceIdeal.MP.mpR (Cert.ReferenceIdeal.MP.halfR0 (x0)) (Cert.ReferenceIdeal.MP.maxQR (Cert.ReferenceIdeal.MP.halfR0 (x1)) (Cert.ReferenceIdeal.MP.csR (Cert.ReferenceIdeal.MP.halfR0 (x0)) (Cert.ReferenceIdeal.MP.halfR0 (x1)))) (Cert.ReferenceIdeal.MP.wBlkR ![6, 0, 0] Facts₀.slices_S8x20x300_S1x20x300_6_0_0 (x2)) := (c15_keep (W14 V) main_v311 (by decide)).trans (T_v311_14 V x0 x1 x2 h0 h1 h2)
theorem T_v311_16 : W16 V (Proc.devRef .tc main_v311) = Cert.ReferenceIdeal.MP.mpR (Cert.ReferenceIdeal.MP.halfR0 (x0)) (Cert.ReferenceIdeal.MP.maxQR (Cert.ReferenceIdeal.MP.halfR0 (x1)) (Cert.ReferenceIdeal.MP.csR (Cert.ReferenceIdeal.MP.halfR0 (x0)) (Cert.ReferenceIdeal.MP.halfR0 (x1)))) (Cert.ReferenceIdeal.MP.wBlkR ![6, 0, 0] Facts₀.slices_S8x20x300_S1x20x300_6_0_0 (x2)) := (c16_keep (W15 V) main_v311 (by decide)).trans (T_v311_15 V x0 x1 x2 h0 h1 h2)
theorem T_v311_17 : W17 V (Proc.devRef .tc main_v311) = Cert.ReferenceIdeal.MP.mpR (Cert.ReferenceIdeal.MP.halfR0 (x0)) (Cert.ReferenceIdeal.MP.maxQR (Cert.ReferenceIdeal.MP.halfR0 (x1)) (Cert.ReferenceIdeal.MP.csR (Cert.ReferenceIdeal.MP.halfR0 (x0)) (Cert.ReferenceIdeal.MP.halfR0 (x1)))) (Cert.ReferenceIdeal.MP.wBlkR ![6, 0, 0] Facts₀.slices_S8x20x300_S1x20x300_6_0_0 (x2)) := (c17_keep (W16 V) main_v311 (by decide)).trans (T_v311_16 V x0 x1 x2 h0 h1 h2)
theorem T_v311_18 : W18 V (Proc.devRef .tc main_v311) = Cert.ReferenceIdeal.MP.mpR (Cert.ReferenceIdeal.MP.halfR0 (x0)) (Cert.ReferenceIdeal.MP.maxQR (Cert.ReferenceIdeal.MP.halfR0 (x1)) (Cert.ReferenceIdeal.MP.csR (Cert.ReferenceIdeal.MP.halfR0 (x0)) (Cert.ReferenceIdeal.MP.halfR0 (x1)))) (Cert.ReferenceIdeal.MP.wBlkR ![6, 0, 0] Facts₀.slices_S8x20x300_S1x20x300_6_0_0 (x2)) := (c18_keep (W17 V) main_v311 (by decide)).trans (T_v311_17 V x0 x1 x2 h0 h1 h2)
theorem T_v330_15 : W15 V (Proc.devRef .tc main_v330) = Cert.ReferenceIdeal.MP.mpR (Cert.ReferenceIdeal.MP.halfR0 (x1)) (Cert.ReferenceIdeal.MP.maxPR (Cert.ReferenceIdeal.MP.halfR0 (x0)) (Cert.ReferenceIdeal.MP.csR (Cert.ReferenceIdeal.MP.halfR0 (x0)) (Cert.ReferenceIdeal.MP.halfR0 (x1)))) (Cert.ReferenceIdeal.MP.wBlkR ![6, 0, 0] Facts₀.slices_S8x20x300_S1x20x300_6_0_0 (x2)) := by
  show after c15 (W14 V) _ = _
  rw [c15_v330, T_v2_14 V x0 x1 x2 h0 h1 h2, T_v286_14 V x0 x1 x2 h0 h1 h2, T_v271_14 V x0 x1 x2 h0 h1 h2]
theorem T_v330_16 : W16 V (Proc.devRef .tc main_v330) = Cert.ReferenceIdeal.MP.mpR (Cert.ReferenceIdeal.MP.halfR0 (x1)) (Cert.ReferenceIdeal.MP.maxPR (Cert.ReferenceIdeal.MP.halfR0 (x0)) (Cert.ReferenceIdeal.MP.csR (Cert.ReferenceIdeal.MP.halfR0 (x0)) (Cert.ReferenceIdeal.MP.halfR0 (x1)))) (Cert.ReferenceIdeal.MP.wBlkR ![6, 0, 0] Facts₀.slices_S8x20x300_S1x20x300_6_0_0 (x2)) := (c16_keep (W15 V) main_v330 (by decide)).trans (T_v330_15 V x0 x1 x2 h0 h1 h2)
theorem T_v330_17 : W17 V (Proc.devRef .tc main_v330) = Cert.ReferenceIdeal.MP.mpR (Cert.ReferenceIdeal.MP.halfR0 (x1)) (Cert.ReferenceIdeal.MP.maxPR (Cert.ReferenceIdeal.MP.halfR0 (x0)) (Cert.ReferenceIdeal.MP.csR (Cert.ReferenceIdeal.MP.halfR0 (x0)) (Cert.ReferenceIdeal.MP.halfR0 (x1)))) (Cert.ReferenceIdeal.MP.wBlkR ![6, 0, 0] Facts₀.slices_S8x20x300_S1x20x300_6_0_0 (x2)) := (c17_keep (W16 V) main_v330 (by decide)).trans (T_v330_16 V x0 x1 x2 h0 h1 h2)
theorem T_v330_18 : W18 V (Proc.devRef .tc main_v330) = Cert.ReferenceIdeal.MP.mpR (Cert.ReferenceIdeal.MP.halfR0 (x1)) (Cert.ReferenceIdeal.MP.maxPR (Cert.ReferenceIdeal.MP.halfR0 (x0)) (Cert.ReferenceIdeal.MP.csR (Cert.ReferenceIdeal.MP.halfR0 (x0)) (Cert.ReferenceIdeal.MP.halfR0 (x1)))) (Cert.ReferenceIdeal.MP.wBlkR ![6, 0, 0] Facts₀.slices_S8x20x300_S1x20x300_6_0_0 (x2)) := (c18_keep (W17 V) main_v330 (by decide)).trans (T_v330_17 V x0 x1 x2 h0 h1 h2)
theorem T_v332_16 : W16 V (Proc.devRef .tc main_v332) = Cert.ReferenceIdeal.MP.wBlkR ![7, 0, 0] Facts₀.slices_S8x20x300_S1x20x300_7_0_0 (x2) := by
  show after c16 (W15 V) _ = _
  rw [c16_v332, T_arg2_15 V x0 x1 x2 h0 h1 h2]
theorem T_v332_17 : W17 V (Proc.devRef .tc main_v332) = Cert.ReferenceIdeal.MP.wBlkR ![7, 0, 0] Facts₀.slices_S8x20x300_S1x20x300_7_0_0 (x2) := (c17_keep (W16 V) main_v332 (by decide)).trans (T_v332_16 V x0 x1 x2 h0 h1 h2)
theorem T_v347_16 : W16 V (Proc.devRef .tc main_v347) = Cert.ReferenceIdeal.MP.maxPR (Cert.ReferenceIdeal.MP.halfR1 (x0)) (Cert.ReferenceIdeal.MP.csR (Cert.ReferenceIdeal.MP.halfR1 (x0)) (Cert.ReferenceIdeal.MP.halfR1 (x1))) := by
  show after c16 (W15 V) _ = _
  rw [c16_v347, T_v1_15 V x0 x1 x2 h0 h1 h2, T_v3_15 V x0 x1 x2 h0 h1 h2]
theorem T_v347_17 : W17 V (Proc.devRef .tc main_v347) = Cert.ReferenceIdeal.MP.maxPR (Cert.ReferenceIdeal.MP.halfR1 (x0)) (Cert.ReferenceIdeal.MP.csR (Cert.ReferenceIdeal.MP.halfR1 (x0)) (Cert.ReferenceIdeal.MP.halfR1 (x1))) := (c17_keep (W16 V) main_v347 (by decide)).trans (T_v347_16 V x0 x1 x2 h0 h1 h2)
theorem T_v353_16 : W16 V (Proc.devRef .tc main_v353) = Cert.ReferenceIdeal.MP.maxQR (Cert.ReferenceIdeal.MP.halfR1 (x1)) (Cert.ReferenceIdeal.MP.csR (Cert.ReferenceIdeal.MP.halfR1 (x0)) (Cert.ReferenceIdeal.MP.halfR1 (x1))) := by
  show after c16 (W15 V) _ = _
  rw [c16_v353, T_v3_15 V x0 x1 x2 h0 h1 h2, T_v1_15 V x0 x1 x2 h0 h1 h2]
theorem T_v372_17 : W17 V (Proc.devRef .tc main_v372) = Cert.ReferenceIdeal.MP.mpR (Cert.ReferenceIdeal.MP.halfR1 (x0)) (Cert.ReferenceIdeal.MP.maxQR (Cert.ReferenceIdeal.MP.halfR1 (x1)) (Cert.ReferenceIdeal.MP.csR (Cert.ReferenceIdeal.MP.halfR1 (x0)) (Cert.ReferenceIdeal.MP.halfR1 (x1)))) (Cert.ReferenceIdeal.MP.wBlkR ![7, 0, 0] Facts₀.slices_S8x20x300_S1x20x300_7_0_0 (x2)) := by
  show after c17 (W16 V) _ = _
  rw [c17_v372, T_v1_16 V x0 x1 x2 h0 h1 h2, T_v353_16 V x0 x1 x2 h0 h1 h2, T_v332_16 V x0 x1 x2 h0 h1 h2]
theorem T_v372_18 : W18 V (Proc.devRef .tc main_v372) = Cert.ReferenceIdeal.MP.mpR (Cert.ReferenceIdeal.MP.halfR1 (x0)) (Cert.ReferenceIdeal.MP.maxQR (Cert.ReferenceIdeal.MP.halfR1 (x1)) (Cert.ReferenceIdeal.MP.csR (Cert.ReferenceIdeal.MP.halfR1 (x0)) (Cert.ReferenceIdeal.MP.halfR1 (x1)))) (Cert.ReferenceIdeal.MP.wBlkR ![7, 0, 0] Facts₀.slices_S8x20x300_S1x20x300_7_0_0 (x2)) := (c18_keep (W17 V) main_v372 (by decide)).trans (T_v372_17 V x0 x1 x2 h0 h1 h2)
theorem T_v391_18 : W18 V (Proc.devRef .tc main_v391) = Cert.ReferenceIdeal.MP.mpR (Cert.ReferenceIdeal.MP.halfR1 (x1)) (Cert.ReferenceIdeal.MP.maxPR (Cert.ReferenceIdeal.MP.halfR1 (x0)) (Cert.ReferenceIdeal.MP.csR (Cert.ReferenceIdeal.MP.halfR1 (x0)) (Cert.ReferenceIdeal.MP.halfR1 (x1)))) (Cert.ReferenceIdeal.MP.wBlkR ![7, 0, 0] Facts₀.slices_S8x20x300_S1x20x300_7_0_0 (x2)) := by
  show after c18 (W17 V) _ = _
  rw [c18_v391, T_v3_17 V x0 x1 x2 h0 h1 h2, T_v347_17 V x0 x1 x2 h0 h1 h2, T_v332_17 V x0 x1 x2 h0 h1 h2]
theorem T_v392_19 : W19 V (Proc.devRef .tc main_v392) = Cert.ReferenceIdeal.MP.concat8R (Cert.ReferenceIdeal.MP.mpR (Cert.ReferenceIdeal.MP.halfR0 (x0)) (Cert.ReferenceIdeal.MP.rowRepR ![0, 63, 0] Facts₀.slices_S32x64x300_S32x1x300_0_63_0 (Cert.ReferenceIdeal.MP.halfR0 (x1))) (Cert.ReferenceIdeal.MP.wBlkR ![0, 0, 0] Facts₀.slices_S8x20x300_S1x20x300_0_0_0 (x2))) (Cert.ReferenceIdeal.MP.mpR (Cert.ReferenceIdeal.MP.halfR1 (x0)) (Cert.ReferenceIdeal.MP.rowRepR ![0, 0, 0] Facts₀.slices_S32x64x300_S32x1x300_0_0_0 (Cert.ReferenceIdeal.MP.halfR1 (x1))) (Cert.ReferenceIdeal.MP.wBlkR ![1, 0, 0] Facts₀.slices_S8x20x300_S1x20x300_1_0_0 (x2))) (Cert.ReferenceIdeal.MP.ppR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2)))) (Cert.ReferenceIdeal.MP.ppR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2)))) (Cert.ReferenceIdeal.MP.mpR (Cert.ReferenceIdeal.MP.halfR0 (x0)) (Cert.ReferenceIdeal.MP.meanQR (Cert.ReferenceIdeal.MP.csR (Cert.ReferenceIdeal.MP.halfR0 (x0)) (Cert.ReferenceIdeal.MP.halfR0 (x1))) (Cert.ReferenceIdeal.MP.halfR0 (x1))) (Cert.ReferenceIdeal.MP.wBlkR ![4, 0, 0] Facts₀.slices_S8x20x300_S1x20x300_4_0_0 (x2))) (Cert.ReferenceIdeal.MP.mpR (Cert.ReferenceIdeal.MP.halfR1 (x0)) (Cert.ReferenceIdeal.MP.meanQR (Cert.ReferenceIdeal.MP.csR (Cert.ReferenceIdeal.MP.halfR1 (x0)) (Cert.ReferenceIdeal.MP.halfR1 (x1))) (Cert.ReferenceIdeal.MP.halfR1 (x1))) (Cert.ReferenceIdeal.MP.wBlkR ![5, 0, 0] Facts₀.slices_S8x20x300_S1x20x300_5_0_0 (x2))) (Cert.ReferenceIdeal.MP.mpR (Cert.ReferenceIdeal.MP.halfR0 (x0)) (Cert.ReferenceIdeal.MP.maxQR (Cert.ReferenceIdeal.MP.halfR0 (x1)) (Cert.ReferenceIdeal.MP.csR (Cert.ReferenceIdeal.MP.halfR0 (x0)) (Cert.ReferenceIdeal.MP.halfR0 (x1)))) (Cert.ReferenceIdeal.MP.wBlkR ![6, 0, 0] Facts₀.slices_S8x20x300_S1x20x300_6_0_0 (x2))) (Cert.ReferenceIdeal.MP.mpR (Cert.ReferenceIdeal.MP.halfR1 (x0)) (Cert.ReferenceIdeal.MP.maxQR (Cert.ReferenceIdeal.MP.halfR1 (x1)) (Cert.ReferenceIdeal.MP.csR (Cert.ReferenceIdeal.MP.halfR1 (x0)) (Cert.ReferenceIdeal.MP.halfR1 (x1)))) (Cert.ReferenceIdeal.MP.wBlkR ![7, 0, 0] Facts₀.slices_S8x20x300_S1x20x300_7_0_0 (x2))) := by
  show after c19 (W18 V) _ = _
  rw [c19_v392, T_v28_18 V x0 x1 x2 h0 h1 h2, T_v53_18 V x0 x1 x2 h0 h1 h2, T_v126_18 V x0 x1 x2 h0 h1 h2, T_v150_18 V x0 x1 x2 h0 h1 h2, T_v191_18 V x0 x1 x2 h0 h1 h2, T_v250_18 V x0 x1 x2 h0 h1 h2, T_v311_18 V x0 x1 x2 h0 h1 h2, T_v372_18 V x0 x1 x2 h0 h1 h2]
theorem T_v393_19 : W19 V (Proc.devRef .tc main_v393) = Cert.ReferenceIdeal.MP.concat8R (Cert.ReferenceIdeal.MP.mpR (Cert.ReferenceIdeal.MP.halfR0 (x1)) (Cert.ReferenceIdeal.MP.rowRepR ![0, 63, 0] Facts₀.slices_S32x64x300_S32x1x300_0_63_0 (Cert.ReferenceIdeal.MP.halfR0 (x0))) (Cert.ReferenceIdeal.MP.wBlkR ![0, 0, 0] Facts₀.slices_S8x20x300_S1x20x300_0_0_0 (x2))) (Cert.ReferenceIdeal.MP.mpR (Cert.ReferenceIdeal.MP.halfR1 (x1)) (Cert.ReferenceIdeal.MP.rowRepR ![0, 0, 0] Facts₀.slices_S32x64x300_S32x1x300_0_0_0 (Cert.ReferenceIdeal.MP.halfR1 (x0))) (Cert.ReferenceIdeal.MP.wBlkR ![1, 0, 0] Facts₀.slices_S8x20x300_S1x20x300_1_0_0 (x2))) (Cert.ReferenceIdeal.MP.pqR (Cert.ReferenceIdeal.MP.mxR (Cert.ReferenceIdeal.MP.halfR0 (x0)) (Cert.ReferenceIdeal.MP.halfR0 (x1)) (Cert.ReferenceIdeal.MP.wBlkR ![2, 0, 0] Facts₀.slices_S8x20x300_S1x20x300_2_0_0 (x2)))) (Cert.ReferenceIdeal.MP.pqR (Cert.ReferenceIdeal.MP.mxR (Cert.ReferenceIdeal.MP.halfR1 (x0)) (Cert.ReferenceIdeal.MP.halfR1 (x1)) (Cert.ReferenceIdeal.MP.wBlkR ![3, 0, 0] Facts₀.slices_S8x20x300_S1x20x300_3_0_0 (x2)))) (Cert.ReferenceIdeal.MP.mpR (Cert.ReferenceIdeal.MP.halfR0 (x1)) (Cert.ReferenceIdeal.MP.meanPR (Cert.ReferenceIdeal.MP.csR (Cert.ReferenceIdeal.MP.halfR0 (x0)) (Cert.ReferenceIdeal.MP.halfR0 (x1))) (Cert.ReferenceIdeal.MP.halfR0 (x0))) (Cert.ReferenceIdeal.MP.wBlkR ![4, 0, 0] Facts₀.slices_S8x20x300_S1x20x300_4_0_0 (x2))) (Cert.ReferenceIdeal.MP.mpR (Cert.ReferenceIdeal.MP.halfR1 (x1)) (Cert.ReferenceIdeal.MP.meanPR (Cert.ReferenceIdeal.MP.csR (Cert.ReferenceIdeal.MP.halfR1 (x0)) (Cert.ReferenceIdeal.MP.halfR1 (x1))) (Cert.ReferenceIdeal.MP.halfR1 (x0))) (Cert.ReferenceIdeal.MP.wBlkR ![5, 0, 0] Facts₀.slices_S8x20x300_S1x20x300_5_0_0 (x2))) (Cert.ReferenceIdeal.MP.mpR (Cert.ReferenceIdeal.MP.halfR0 (x1)) (Cert.ReferenceIdeal.MP.maxPR (Cert.ReferenceIdeal.MP.halfR0 (x0)) (Cert.ReferenceIdeal.MP.csR (Cert.ReferenceIdeal.MP.halfR0 (x0)) (Cert.ReferenceIdeal.MP.halfR0 (x1)))) (Cert.ReferenceIdeal.MP.wBlkR ![6, 0, 0] Facts₀.slices_S8x20x300_S1x20x300_6_0_0 (x2))) (Cert.ReferenceIdeal.MP.mpR (Cert.ReferenceIdeal.MP.halfR1 (x1)) (Cert.ReferenceIdeal.MP.maxPR (Cert.ReferenceIdeal.MP.halfR1 (x0)) (Cert.ReferenceIdeal.MP.csR (Cert.ReferenceIdeal.MP.halfR1 (x0)) (Cert.ReferenceIdeal.MP.halfR1 (x1)))) (Cert.ReferenceIdeal.MP.wBlkR ![7, 0, 0] Facts₀.slices_S8x20x300_S1x20x300_7_0_0 (x2))) := by
  show after c19 (W18 V) _ = _
  rw [c19_v393, T_v78_18 V x0 x1 x2 h0 h1 h2, T_v103_18 V x0 x1 x2 h0 h1 h2, T_v127_18 V x0 x1 x2 h0 h1 h2, T_v151_18 V x0 x1 x2 h0 h1 h2, T_v210_18 V x0 x1 x2 h0 h1 h2, T_v269_18 V x0 x1 x2 h0 h1 h2, T_v330_18 V x0 x1 x2 h0 h1 h2, T_v391_18 V x0 x1 x2 h0 h1 h2]

/-- The first result after all the operations. -/
theorem res392 : after ops V (Proc.devRef .tc main_v392) = Cert.ReferenceIdeal.MP.refP x0 x1 x2 := by
  rw [after_ops]
  exact (T_v392_19 V x0 x1 x2 h0 h1 h2).trans rfl
/-- The second result after all the operations. -/
theorem res393 : after ops V (Proc.devRef .tc main_v393) = Cert.ReferenceIdeal.MP.refQ x0 x1 x2 := by
  rw [after_ops]
  exact (T_v393_19 V x0 x1 x2 h0 h1 h2).trans rfl
/-- No operation writes an argument. -/
theorem kept0 : after ops V (Proc.devRef .tc main_arg0) = x0 := by
  rw [after_ops]
  exact T_arg0_19 V x0 x1 x2 h0 h1 h2
theorem kept1 : after ops V (Proc.devRef .tc main_arg1) = x1 := by
  rw [after_ops]
  exact T_arg1_19 V x0 x1 x2 h0 h1 h2
theorem kept2 : after ops V (Proc.devRef .tc main_arg2) = x2 := by
  rw [after_ops]
  exact T_arg2_19 V x0 x1 x2 h0 h1 h2
end Track

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h | h
    · exact List.forall_iff_forall_mem.mp c1_sub op h
    · exact List.forall_iff_forall_mem.mp c2_sub op h
    · exact List.forall_iff_forall_mem.mp c3_sub op h
    · exact List.forall_iff_forall_mem.mp c4_sub op h
    · exact List.forall_iff_forall_mem.mp c5_sub op h
    · exact List.forall_iff_forall_mem.mp c6_sub op h
    · exact List.forall_iff_forall_mem.mp c7_sub op h
    · exact List.forall_iff_forall_mem.mp c8_sub op h
    · exact List.forall_iff_forall_mem.mp c9_sub op h
    · exact List.forall_iff_forall_mem.mp c10_sub op h
    · exact List.forall_iff_forall_mem.mp c11_sub op h
    · exact List.forall_iff_forall_mem.mp c12_sub op h
    · exact List.forall_iff_forall_mem.mp c13_sub op h
    · exact List.forall_iff_forall_mem.mp c14_sub op h
    · exact List.forall_iff_forall_mem.mp c15_sub op h
    · exact List.forall_iff_forall_mem.mp c16_sub op h
    · exact List.forall_iff_forall_mem.mp c17_sub op h
    · exact List.forall_iff_forall_mem.mp c18_sub op h
    · exact List.forall_iff_forall_mem.mp c19_sub op h

/-- No operation allocates. -/
theorem ops_fresh : ∀ op ∈ (ops : List (HloOp τ sig (Elt F))), op.fresh = ∅ := fun op h => by
  simp only [ops, List.mem_append] at h
  rcases h with h | h | h | h | h | h | h | h | h | h | h | h | h | h | h | h | h | h | h
  · exact c1_fresh op h
  · exact c2_fresh op h
  · exact c3_fresh op h
  · exact c4_fresh op h
  · exact c5_fresh op h
  · exact c6_fresh op h
  · exact c7_fresh op h
  · exact c8_fresh op h
  · exact c9_fresh op h
  · exact c10_fresh op h
  · exact c11_fresh op h
  · exact c12_fresh op h
  · exact c13_fresh op h
  · exact c14_fresh op h
  · exact c15_fresh op h
  · exact c16_fresh op h
  · exact c17_fresh op h
  · exact c18_fresh op h
  · exact c19_fresh op h

end Cert.ReferenceIdeal.RunC

end
-- ==== Proof.RunMain.lean ====
/-
  The printed @main runs its eight parts one after the other; each part is the run of a list of host operations
  (72 to 78 of them, a called function's operations standing in its call's place), so @main is the run of the 538
  operations in order — the same sequence as the nineteen lists of Proof/RunAll.lean, cut elsewhere.
-/
import proofs.«111495_j13082470383656_2_alg».proof.Proof.RunAll

set_option maxRecDepth 8192

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- The operations of printed part 0. -/
abbrev P0 : List (HloOp τ sig (Elt F)) :=
  [ unary main_arg0 main_v0 ((extractStridedSlice S32x64x300 ![0, 0, 0] · slices_S32x64x600_S32x64x300_0_0_0) : (⟨S32x64x600, .f32⟩ : BufTy).Contents (Elt F) → (⟨S32x64x300, .f32⟩ : BufTy).Contents (Elt F)),
    unary main_arg0 main_v1 ((extractStridedSlice S32x64x300 ![0, 0, 300] · slices_S32x64x600_S32x64x300_0_0_300) : (⟨S32x64x600, .f32⟩ : BufTy).Contents (Elt F) → (⟨S32x64x300, .f32⟩ : BufTy).Contents (Elt F)),
    unary main_arg1 main_v2 ((extractStridedSlice S32x64x300 ![0, 0, 0] · slices_S32x64x600_S32x64x300_0_0_0) : (⟨S32x64x600, .f32⟩ : BufTy).Contents (Elt F) → (⟨S32x64x300, .f32⟩ : BufTy).Contents (Elt F)),
    unary main_arg1 main_v3 ((extractStridedSlice S32x64x300 ![0, 0, 300] · slices_S32x64x600_S32x64x300_0_0_300) : (⟨S32x64x600, .f32⟩ : BufTy).Contents (Elt F) → (⟨S32x64x300, .f32⟩ : BufTy).Contents (Elt F)),
    unary main_arg2 main_v4 ((extractStridedSlice S1x20x300 ![0, 0, 0] · slices_S8x20x300_S1x20x300_0_0_0) : (⟨S8x20x300, .f32⟩ : BufTy).Contents (Elt F) → (⟨S1x20x300, .f32⟩ : BufTy).Contents (Elt F)),
    reshape main_v4 main_v5 rfl shapeCasts_S1x20x300_S20x300,
    unary main_v2 main_v6 ((extractStridedSlice S32x1x300 ![0, 63, 0] · slices_S32x64x300_S32x1x300_0_63_0) : (⟨S32x64x300, .f32⟩ : BufTy).Contents (Elt F) → (⟨S32x1x300, .f32⟩ : BufTy).Contents (Elt F)),
    reshape main_v6 main_v7 rfl shapeCasts_S32x1x300_S32x300,
    unary main_v7 main_v8 (broadcastInDim S32x1x300 ![0, 2] bcast_S32x300_S32x1x300_0_2 : (⟨S32x300, .f32⟩ : BufTy).Contents (Elt F) → (⟨S32x1x300, .f32⟩ : BufTy).Contents (Elt F)),
    unary main_v8 main_v9 (broadcastInDim S32x64x300 ![0, 1, 2] bcast_S32x1x300_S32x64x300_0_1_2 : (⟨S32x1x300, .f32⟩ : BufTy).Contents (Elt F) → (⟨S32x64x300, .f32⟩ : BufTy).Contents (Elt F)),
    unary main_v0 main_v10 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v5 main_v11 (broadcastInDim S1x20x1x300 ![1, 3] bcast_S20x300_S1x20x1x300_1_3 : (⟨S20x300, .f32⟩ : BufTy).Contents (Elt F) → (⟨S1x20x1x300, .f32⟩ : BufTy).Contents (Elt F)),
    unary main_v10 main_v12 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v11 main_v13 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v12 main_v13 main_v14 (mulf : (⟨S32x20x64x300, .f32⟩ : BufTy).Contents (Elt F) → (⟨S32x20x64x300, .f32⟩ : BufTy).Contents (Elt F) → (⟨S32x20x64x300, .f32⟩ : BufTy).Contents (Elt F)),
    unary main_v9 main_v15 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v5 main_v16 (broadcastInDim S1x20x1x300 ![1, 3] bcast_S20x300_S1x20x1x300_1_3 : (⟨S20x300, .f32⟩ : BufTy).Contents (Elt F) → (⟨S1x20x1x300, .f32⟩ : BufTy).Contents (Elt F)),
    unary main_v15 main_v17 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v16 main_v18 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v17 main_v18 main_v19 (mulf : (⟨S32x20x64x300, .f32⟩ : BufTy).Contents (Elt F) → (⟨S32x20x64x300, .f32⟩ : BufTy).Contents (Elt F) → (⟨S32x20x64x300, .f32⟩ : BufTy).Contents (Elt F)),
    binary main_v14 main_v19 main_v20 (mulf : (⟨S32x20x64x300, .f32⟩ : BufTy).Contents (Elt F) → (⟨S32x20x64x300, .f32⟩ : BufTy).Contents (Elt F) → (⟨S32x20x64x300, .f32⟩ : BufTy).Contents (Elt F)),
    nullary main_cst (constant S_ .f32 0x00000000#32),
    binary main_v20 main_cst main_v21 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v14) (TRef.of (T := ⟨S32x20x64x300, .f32⟩) main_v14) (TRef.of (T := ⟨S32x20x64x300, .f32⟩) main_call0_v0) mulf,
    TRef.nullary (TRef.of (T := ⟨S_, .f32⟩) main_call0_cst) (constant S_ .f32 0x00000000#32),
    TRef.binary (TRef.of (T := ⟨S32x20x64x300, .f32⟩) main_call0_v0) (TRef.of (T := ⟨S_, .f32⟩) main_call0_cst) (TRef.of (T := ⟨S32x20x64, .f32⟩) main_call0_v1) (fun x v => Host.reduceAdd x v reducesTo_S32x20x64x300_S32x20x64_d3 h_S_),
    TRef.unary (TRef.of (T := ⟨S32x20x64, .f32⟩) main_call0_v1) (TRef.of (T := ⟨S32x20x64, .f32⟩) main_v22) Host.sqrt,
    TRef.binary (TRef.of (T := ⟨S32x20x64x300, .f32⟩) main_v19) (TRef.of (T := ⟨S32x20x64x300, .f32⟩) main_v19) (TRef.of (T := ⟨S32x20x64x300, .f32⟩) main_call1_v0) mulf,
    TRef.nullary (TRef.of (T := ⟨S_, .f32⟩) main_call1_cst) (constant S_ .f32 0x00000000#32),
    TRef.binary (TRef.of (T := ⟨S32x20x64x300, .f32⟩) main_call1_v0) (TRef.of (T := ⟨S_, .f32⟩) main_call1_cst) (TRef.of (T := ⟨S32x20x64, .f32⟩) main_call1_v1) (fun x v => Host.reduceAdd x v reducesTo_S32x20x64x300_S32x20x64_d3 h_S_),
    TRef.unary (TRef.of (T := ⟨S32x20x64, .f32⟩) main_call1_v1) (TRef.of (T := ⟨S32x20x64, .f32⟩) main_v23) Host.sqrt,
    binary main_v22 main_v23 main_v24 (mulf : (⟨S32x20x64, .f32⟩ : BufTy).Contents (Elt F) → (⟨S32x20x64, .f32⟩ : BufTy).Contents (Elt F) → (⟨S32x20x64, .f32⟩ : BufTy).Contents (Elt F)),
    nullary main_cst_0 (constant S_ .f32 0x322BCC77#32),
    unary main_cst_0 main_v25 (broadcastInDim S32x20x64 ![] bcast_S_S32x20x64 : (⟨S_, .f32⟩ : BufTy).Contents (Elt F) → (⟨S32x20x64, .f32⟩ : BufTy).Contents (Elt F)),
    binary main_v24 main_v25 main_v26 (maximumf : (⟨S32x20x64, .f32⟩ : BufTy).Contents (Elt F) → (⟨S32x20x64, .f32⟩ : BufTy).Contents (Elt F) → (⟨S32x20x64, .f32⟩ : BufTy).Contents (Elt F)),
    binary main_v21 main_v26 main_v27 (Host.divf : (⟨S32x20x64, .f32⟩ : BufTy).Contents (Elt F) → (⟨S32x20x64, .f32⟩ : BufTy).Contents (Elt F) → (⟨S32x20x64, .f32⟩ : BufTy).Contents (Elt F)),
    unary main_v27 main_v28 ((transpose S32x64x20 [0, 2, 1] · transposes_S32x20x64_S32x64x20_0_2_1) : (⟨S32x20x64, .f32⟩ : BufTy).Contents (Elt F) → (⟨S32x64x20, .f32⟩ : BufTy).Contents (Elt F)),
    unary main_arg2 main_v29 ((extractStridedSlice S1x20x300 ![1, 0, 0] · slices_S8x20x300_S1x20x300_1_0_0) : (⟨S8x20x300, .f32⟩ : BufTy).Contents (Elt F) → (⟨S1x20x300, .f32⟩ : BufTy).Contents (Elt F)),
    reshape main_v29 main_v30 rfl shapeCasts_S1x20x300_S20x300,
    unary main_v3 main_v31 ((extractStridedSlice S32x1x300 ![0, 0, 0] · slices_S32x64x300_S32x1x300_0_0_0) : (⟨S32x64x300, .f32⟩ : BufTy).Contents (Elt F) → (⟨S32x1x300, .f32⟩ : BufTy).Contents (Elt F)),
    reshape main_v31 main_v32 rfl shapeCasts_S32x1x300_S32x300,
    unary main_v32 main_v33 (broadcastInDim S32x1x300 ![0, 2] bcast_S32x300_S32x1x300_0_2 : (⟨S32x300, .f32⟩ : BufTy).Contents (Elt F) → (⟨S32x1x300, .f32⟩ : BufTy).Contents (Elt F)),
    unary main_v33 main_v34 (broadcastInDim S32x64x300 ![0, 1, 2] bcast_S32x1x300_S32x64x300_0_1_2 : (⟨S32x1x300, .f32⟩ : BufTy).Contents (Elt F) → (⟨S32x64x300, .f32⟩ : BufTy).Contents (Elt F)),
    unary main_v1 main_v35 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v30 main_v36 (broadcastInDim S1x20x1x300 ![1, 3] bcast_S20x300_S1x20x1x300_1_3 : (⟨S20x300, .f32⟩ : BufTy).Contents (Elt F) → (⟨S1x20x1x300, .f32⟩ : BufTy).Contents (Elt F)),
    unary main_v35 main_v37 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v36 main_v38 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v37 main_v38 main_v39 (mulf : (⟨S32x20x64x300, .f32⟩ : BufTy).Contents (Elt F) → (⟨S32x20x64x300, .f32⟩ : BufTy).Contents (Elt F) → (⟨S32x20x64x300, .f32⟩ : BufTy).Contents (Elt F)),
    unary main_v34 main_v40 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v30 main_v41 (broadcastInDim S1x20x1x300 ![1, 3] bcast_S20x300_S1x20x1x300_1_3 : (⟨S20x300, .f32⟩ : BufTy).Contents (Elt F) → (⟨S1x20x1x300, .f32⟩ : BufTy).Contents (Elt F)),
    unary main_v40 main_v42 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v41 main_v43 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v42 main_v43 main_v44 (mulf : (⟨S32x20x64x300, .f32⟩ : BufTy).Contents (Elt F) → (⟨S32x20x64x300, .f32⟩ : BufTy).Contents (Elt F) → (⟨S32x20x64x300, .f32⟩ : BufTy).Contents (Elt F)),
    binary main_v39 main_v44 main_v45 (mulf : (⟨S32x20x64x300, .f32⟩ : BufTy).Contents (Elt F) → (⟨S32x20x64x300, .f32⟩ : BufTy).Contents (Elt F) → (⟨S32x20x64x300, .f32⟩ : BufTy).Contents (Elt F)),
    nullary main_cst_1 (constant S_ .f32 0x00000000#32),
    binary main_v45 main_cst_1 main_v46 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v39) (TRef.of (T := ⟨S32x20x64x300, .f32⟩) main_v39) (TRef.of (T := ⟨S32x20x64x300, .f32⟩) main_call2_v0) mulf,
    TRef.nullary (TRef.of (T := ⟨S_, .f32⟩) main_call2_cst) (constant S_ .f32 0x00000000#32),
    TRef.binary (TRef.of (T := ⟨S32x20x64x300, .f32⟩) main_call2_v0) (TRef.of (T := ⟨S_, .f32⟩) main_call2_cst) (TRef.of (T := ⟨S32x20x64, .f32⟩) main_call2_v1) (fun x v => Host.reduceAdd x v reducesTo_S32x20x64x300_S32x20x64_d3 h_S_),
    TRef.unary (TRef.of (T := ⟨S32x20x64, .f32⟩) main_call2_v1) (TRef.of (T := ⟨S32x20x64, .f32⟩) main_v47) Host.sqrt,
    TRef.binary (TRef.of (T := ⟨S32x20x64x300, .f32⟩) main_v44) (TRef.of (T := ⟨S32x20x64x300, .f32⟩) main_v44) (TRef.of (T := ⟨S32x20x64x300, .f32⟩) main_call3_v0) mulf,
    TRef.nullary (TRef.of (T := ⟨S_, .f32⟩) main_call3_cst) (constant S_ .f32 0x00000000#32),
    TRef.binary (TRef.of (T := ⟨S32x20x64x300, .f32⟩) main_call3_v0) (TRef.of (T := ⟨S_, .f32⟩) main_call3_cst) (TRef.of (T := ⟨S32x20x64, .f32⟩) main_call3_v1) (fun x v => Host.reduceAdd x v reducesTo_S32x20x64x300_S32x20x64_d3 h_S_),
    TRef.unary (TRef.of (T := ⟨S32x20x64, .f32⟩) main_call3_v1) (TRef.of (T := ⟨S32x20x64, .f32⟩) main_v48) Host.sqrt,
    binary main_v47 main_v48 main_v49 (mulf : (⟨S32x20x64, .f32⟩ : BufTy).Contents (Elt F) → (⟨S32x20x64, .f32⟩ : BufTy).Contents (Elt F) → (⟨S32x20x64, .f32⟩ : BufTy).Contents (Elt F)),
    nullary main_cst_2 (constant S_ .f32 0x322BCC77#32),
    unary main_cst_2 main_v50 (broadcastInDim S32x20x64 ![] bcast_S_S32x20x64 : (⟨S_, .f32⟩ : BufTy).Contents (Elt F) → (⟨S32x20x64, .f32⟩ : BufTy).Contents (Elt F)),
    binary main_v49 main_v50 main_v51 (maximumf : (⟨S32x20x64, .f32⟩ : BufTy).Contents (Elt F) → (⟨S32x20x64, .f32⟩ : BufTy).Contents (Elt F) → (⟨S32x20x64, .f32⟩ : BufTy).Contents (Elt F)),
    binary main_v46 main_v51 main_v52 (Host.divf : (⟨S32x20x64, .f32⟩ : BufTy).Contents (Elt F) → (⟨S32x20x64, .f32⟩ : BufTy).Contents (Elt F) → (⟨S32x20x64, .f32⟩ : BufTy).Contents (Elt F)),
    unary main_v52 main_v53 ((transpose S32x64x20 [0, 2, 1] · transposes_S32x20x64_S32x64x20_0_2_1) : (⟨S32x20x64, .f32⟩ : BufTy).Contents (Elt F) → (⟨S32x64x20, .f32⟩ : BufTy).Contents (Elt F)),
    unary main_arg2 main_v54 ((extractStridedSlice S1x20x300 ![0, 0, 0] · slices_S8x20x300_S1x20x300_0_0_0) : (⟨S8x20x300, .f32⟩ : BufTy).Contents (Elt F) → (⟨S1x20x300, .f32⟩ : BufTy).Contents (Elt F)),
    reshape main_v54 main_v55 rfl shapeCasts_S1x20x300_S20x300 ]

set_option maxHeartbeats 4000000 in
theorem part0_eq (d : Dev nD) : main_part0 (F := F) d = seq P0 := rfl

/-- The operations of printed part 1. -/
abbrev P1 : List (HloOp τ sig (Elt F)) :=
  [ unary main_v0 main_v56 ((extractStridedSlice S32x1x300 ![0, 63, 0] · slices_S32x64x300_S32x1x300_0_63_0) : (⟨S32x64x300, .f32⟩ : BufTy).Contents (Elt F) → (⟨S32x1x300, .f32⟩ : BufTy).Contents (Elt F)),
    reshape main_v56 main_v57 rfl shapeCasts_S32x1x300_S32x300,
    unary main_v57 main_v58 (broadcastInDim S32x1x300 ![0, 2] bcast_S32x300_S32x1x300_0_2 : (⟨S32x300, .f32⟩ : BufTy).Contents (Elt F) → (⟨S32x1x300, .f32⟩ : BufTy).Contents (Elt F)),
    unary main_v58 main_v59 (broadcastInDim S32x64x300 ![0, 1, 2] bcast_S32x1x300_S32x64x300_0_1_2 : (⟨S32x1x300, .f32⟩ : BufTy).Contents (Elt F) → (⟨S32x64x300, .f32⟩ : BufTy).Contents (Elt F)),
    unary main_v2 main_v60 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v55 main_v61 (broadcastInDim S1x20x1x300 ![1, 3] bcast_S20x300_S1x20x1x300_1_3 : (⟨S20x300, .f32⟩ : BufTy).Contents (Elt F) → (⟨S1x20x1x300, .f32⟩ : BufTy).Contents (Elt F)),
    unary main_v60 main_v62 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v61 main_v63 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v62 main_v63 main_v64 (mulf : (⟨S32x20x64x300, .f32⟩ : BufTy).Contents (Elt F) → (⟨S32x20x64x300, .f32⟩ : BufTy).Contents (Elt F) → (⟨S32x20x64x300, .f32⟩ : BufTy).Contents (Elt F)),
    unary main_v59 main_v65 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v55 main_v66 (broadcastInDim S1x20x1x300 ![1, 3] bcast_S20x300_S1x20x1x300_1_3 : (⟨S20x300, .f32⟩ : BufTy).Contents (Elt F) → (⟨S1x20x1x300, .f32⟩ : BufTy).Contents (Elt F)),
    unary main_v65 main_v67 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v66 main_v68 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v67 main_v68 main_v69 (mulf : (⟨S32x20x64x300, .f32⟩ : BufTy).Contents (Elt F) → (⟨S32x20x64x300, .f32⟩ : BufTy).Contents (Elt F) → (⟨S32x20x64x300, .f32⟩ : BufTy).Contents (Elt F)),
    binary main_v64 main_v69 main_v70 (mulf : (⟨S32x20x64x300, .f32⟩ : BufTy).Contents (Elt F) → (⟨S32x20x64x300, .f32⟩ : BufTy).Contents (Elt F) → (⟨S32x20x64x300, .f32⟩ : BufTy).Contents (Elt F)),
    nullary main_cst_3 (constant S_ .f32 0x00000000#32),
    binary main_v70 main_cst_3 main_v71 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v64) (TRef.of (T := ⟨S32x20x64x300, .f32⟩) main_v64) (TRef.of (T := ⟨S32x20x64x300, .f32⟩) main_call4_v0) mulf,
    TRef.nullary (TRef.of (T := ⟨S_, .f32⟩) main_call4_cst) (constant S_ .f32 0x00000000#32),
    TRef.binary (TRef.of (T := ⟨S32x20x64x300, .f32⟩) main_call4_v0) (TRef.of (T := ⟨S_, .f32⟩) main_call4_cst) (TRef.of (T := ⟨S32x20x64, .f32⟩) main_call4_v1) (fun x v => Host.reduceAdd x v reducesTo_S32x20x64x300_S32x20x64_d3 h_S_),
    TRef.unary (TRef.of (T := ⟨S32x20x64, .f32⟩) main_call4_v1) (TRef.of (T := ⟨S32x20x64, .f32⟩) main_v72) Host.sqrt,
    TRef.binary (TRef.of (T := ⟨S32x20x64x300, .f32⟩) main_v69) (TRef.of (T := ⟨S32x20x64x300, .f32⟩) main_v69) (TRef.of (T := ⟨S32x20x64x300, .f32⟩) main_call5_v0) mulf,
    TRef.nullary (TRef.of (T := ⟨S_, .f32⟩) main_call5_cst) (constant S_ .f32 0x00000000#32),
    TRef.binary (TRef.of (T := ⟨S32x20x64x300, .f32⟩) main_call5_v0) (TRef.of (T := ⟨S_, .f32⟩) main_call5_cst) (TRef.of (T := ⟨S32x20x64, .f32⟩) main_call5_v1) (fun x v => Host.reduceAdd x v reducesTo_S32x20x64x300_S32x20x64_d3 h_S_),
    TRef.unary (TRef.of (T := ⟨S32x20x64, .f32⟩) main_call5_v1) (TRef.of (T := ⟨S32x20x64, .f32⟩) main_v73) Host.sqrt,
    binary main_v72 main_v73 main_v74 (mulf : (⟨S32x20x64, .f32⟩ : BufTy).Contents (Elt F) → (⟨S32x20x64, .f32⟩ : BufTy).Contents (Elt F) → (⟨S32x20x64, .f32⟩ : BufTy).Contents (Elt F)),
    nullary main_cst_4 (constant S_ .f32 0x322BCC77#32),
    unary main_cst_4 main_v75 (broadcastInDim S32x20x64 ![] bcast_S_S32x20x64 : (⟨S_, .f32⟩ : BufTy).Contents (Elt F) → (⟨S32x20x64, .f32⟩ : BufTy).Contents (Elt F)),
    binary main_v74 main_v75 main_v76 (maximumf : (⟨S32x20x64, .f32⟩ : BufTy).Contents (Elt F) → (⟨S32x20x64, .f32⟩ : BufTy).Contents (Elt F) → (⟨S32x20x64, .f32⟩ : BufTy).Contents (Elt F)),
    binary main_v71 main_v76 main_v77 (Host.divf : (⟨S32x20x64, .f32⟩ : BufTy).Contents (Elt F) → (⟨S32x20x64, .f32⟩ : BufTy).Contents (Elt F) → (⟨S32x20x64, .f32⟩ : BufTy).Contents (Elt F)),
    unary main_v77 main_v78 ((transpose S32x64x20 [0, 2, 1] · transposes_S32x20x64_S32x64x20_0_2_1) : (⟨S32x20x64, .f32⟩ : BufTy).Contents (Elt F) → (⟨S32x64x20, .f32⟩ : BufTy).Contents (Elt F)),
    unary main_arg2 main_v79 ((extractStridedSlice S1x20x300 ![1, 0, 0] · slices_S8x20x300_S1x20x300_1_0_0) : (⟨S8x20x300, .f32⟩ : BufTy).Contents (Elt F) → (⟨S1x20x300, .f32⟩ : BufTy).Contents (Elt F)),
    reshape main_v79 main_v80 rfl shapeCasts_S1x20x300_S20x300,
    unary main_v1 main_v81 ((extractStridedSlice S32x1x300 ![0, 0, 0] · slices_S32x64x300_S32x1x300_0_0_0) : (⟨S32x64x300, .f32⟩ : BufTy).Contents (Elt F) → (⟨S32x1x300, .f32⟩ : BufTy).Contents (Elt F)),
    reshape main_v81 main_v82 rfl shapeCasts_S32x1x300_S32x300,
    unary main_v82 main_v83 (broadcastInDim S32x1x300 ![0, 2] bcast_S32x300_S32x1x300_0_2 : (⟨S32x300, .f32⟩ : BufTy).Contents (Elt F) → (⟨S32x1x300, .f32⟩ : BufTy).Contents (Elt F)),
    unary main_v83 main_v84 (broadcastInDim S32x64x300 ![0, 1, 2] bcast_S32x1x300_S32x64x300_0_1_2 : (⟨S32x1x300, .f32⟩ : BufTy).Contents (Elt F) → (⟨S32x64x300, .f32⟩ : BufTy).Contents (Elt F)),
    unary main_v3 main_v85 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v80 main_v86 (broadcastInDim S1x20x1x300 ![1, 3] bcast_S20x300_S1x20x1x300_1_3 : (⟨S20x300, .f32⟩ : BufTy).Contents (Elt F) → (⟨S1x20x1x300, .f32⟩ : BufTy).Contents (Elt F)),
    unary main_v85 main_v87 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v86 main_v88 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v87 main_v88 main_v89 (mulf : (⟨S32x20x64x300, .f32⟩ : BufTy).Contents (Elt F) → (⟨S32x20x64x300, .f32⟩ : BufTy).Contents (Elt F) → (⟨S32x20x64x300, .f32⟩ : BufTy).Contents (Elt F)),
    unary main_v84 main_v90 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v80 main_v91 (broadcastInDim S1x20x1x300 ![1, 3] bcast_S20x300_S1x20x1x300_1_3 : (⟨S20x300, .f32⟩ : BufTy).Contents (Elt F) → (⟨S1x20x1x300, .f32⟩ : BufTy).Contents (Elt F)),
    unary main_v90 main_v92 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v91 main_v93 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v92 main_v93 main_v94 (mulf : (⟨S32x20x64x300, .f32⟩ : BufTy).Contents (Elt F) → (⟨S32x20x64x300, .f32⟩ : BufTy).Contents (Elt F) → (⟨S32x20x64x300, .f32⟩ : BufTy).Contents (Elt F)),
    binary main_v89 main_v94 main_v95 (mulf : (⟨S32x20x64x300, .f32⟩ : BufTy).Contents (Elt F) → (⟨S32x20x64x300, .f32⟩ : BufTy).Contents (Elt F) → (⟨S32x20x64x300, .f32⟩ : BufTy).Contents (Elt F)),
    nullary main_cst_5 (constant S_ .f32 0x00000000#32),
    binary main_v95 main_cst_5 main_v96 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v89) (TRef.of (T := ⟨S32x20x64x300, .f32⟩) main_v89) (TRef.of (T := ⟨S32x20x64x300, .f32⟩) main_call6_v0) mulf,
    TRef.nullary (TRef.of (T := ⟨S_, .f32⟩) main_call6_cst) (constant S_ .f32 0x00000000#32),
    TRef.binary (TRef.of (T := ⟨S32x20x64x300, .f32⟩) main_call6_v0) (TRef.of (T := ⟨S_, .f32⟩) main_call6_cst) (TRef.of (T := ⟨S32x20x64, .f32⟩) main_call6_v1) (fun x v => Host.reduceAdd x v reducesTo_S32x20x64x300_S32x20x64_d3 h_S_),
    TRef.unary (TRef.of (T := ⟨S32x20x64, .f32⟩) main_call6_v1) (TRef.of (T := ⟨S32x20x64, .f32⟩) main_v97) Host.sqrt,
    TRef.binary (TRef.of (T := ⟨S32x20x64x300, .f32⟩) main_v94) (TRef.of (T := ⟨S32x20x64x300, .f32⟩) main_v94) (TRef.of (T := ⟨S32x20x64x300, .f32⟩) main_call7_v0) mulf,
    TRef.nullary (TRef.of (T := ⟨S_, .f32⟩) main_call7_cst) (constant S_ .f32 0x00000000#32),
    TRef.binary (TRef.of (T := ⟨S32x20x64x300, .f32⟩) main_call7_v0) (TRef.of (T := ⟨S_, .f32⟩) main_call7_cst) (TRef.of (T := ⟨S32x20x64, .f32⟩) main_call7_v1) (fun x v => Host.reduceAdd x v reducesTo_S32x20x64x300_S32x20x64_d3 h_S_),
    TRef.unary (TRef.of (T := ⟨S32x20x64, .f32⟩) main_call7_v1) (TRef.of (T := ⟨S32x20x64, .f32⟩) main_v98) Host.sqrt,
    binary main_v97 main_v98 main_v99 (mulf : (⟨S32x20x64, .f32⟩ : BufTy).Contents (Elt F) → (⟨S32x20x64, .f32⟩ : BufTy).Contents (Elt F) → (⟨S32x20x64, .f32⟩ : BufTy).Contents (Elt F)),
    nullary main_cst_6 (constant S_ .f32 0x322BCC77#32),
    unary main_cst_6 main_v100 (broadcastInDim S32x20x64 ![] bcast_S_S32x20x64 : (⟨S_, .f32⟩ : BufTy).Contents (Elt F) → (⟨S32x20x64, .f32⟩ : BufTy).Contents (Elt F)),
    binary main_v99 main_v100 main_v101 (maximumf : (⟨S32x20x64, .f32⟩ : BufTy).Contents (Elt F) → (⟨S32x20x64, .f32⟩ : BufTy).Contents (Elt F) → (⟨S32x20x64, .f32⟩ : BufTy).Contents (Elt F)),
    binary main_v96 main_v101 main_v102 (Host.divf : (⟨S32x20x64, .f32⟩ : BufTy).Contents (Elt F) → (⟨S32x20x64, .f32⟩ : BufTy).Contents (Elt F) → (⟨S32x20x64, .f32⟩ : BufTy).Contents (Elt F)),
    unary main_v102 main_v103 ((transpose S32x64x20 [0, 2, 1] · transposes_S32x20x64_S32x64x20_0_2_1) : (⟨S32x20x64, .f32⟩ : BufTy).Contents (Elt F) → (⟨S32x64x20, .f32⟩ : BufTy).Contents (Elt F)),
    unary main_arg2 main_v104 ((extractStridedSlice S1x20x300 ![2, 0, 0] · slices_S8x20x300_S1x20x300_2_0_0) : (⟨S8x20x300, .f32⟩ : BufTy).Contents (Elt F) → (⟨S1x20x300, .f32⟩ : BufTy).Contents (Elt F)),
    reshape main_v104 main_v105 rfl shapeCasts_S1x20x300_S20x300,
    unary main_v0 main_v106 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v105 main_v107 (broadcastInDim S1x20x1x300 ![1, 3] bcast_S20x300_S1x20x1x300_1_3 : (⟨S20x300, .f32⟩ : BufTy).Contents (Elt F) → (⟨S1x20x1x300, .f32⟩ : BufTy).Contents (Elt F)),
    unary main_v106 main_v108 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v107 main_v109 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v108 main_v109 main_v110 (mulf : (⟨S32x20x64x300, .f32⟩ : BufTy).Contents (Elt F) → (⟨S32x20x64x300, .f32⟩ : BufTy).Contents (Elt F) → (⟨S32x20x64x300, .f32⟩ : BufTy).Contents (Elt F)),
    unary main_v2 main_v111 (broadcastInDim S32x1x64x300 ![0, 2, 3] bcast_S32x64x300_S32x1x64x300_0_2_3 : (⟨S32x64x300, .f32⟩ : BufTy).Contents (Elt F) → (⟨S32x1x64x300, .f32⟩ : BufTy).Contents (Elt F)) ]

set_option maxHeartbeats 4000000 in
theorem part1_eq (d : Dev nD) : main_part1 (F := F) d = seq P1 := rfl

/-- The operations of printed part 2. -/
abbrev P2 : List (HloOp τ sig (Elt F)) :=
  [ unary main_v105 main_v112 (broadcastInDim S1x20x1x300 ![1, 3] bcast_S20x300_S1x20x1x300_1_3 : (⟨S20x300, .f32⟩ : BufTy).Contents (Elt F) → (⟨S1x20x1x300, .f32⟩ : BufTy).Contents (Elt F)),
    unary main_v111 main_v113 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v112 main_v114 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v113 main_v114 main_v115 (mulf : (⟨S32x20x64x300, .f32⟩ : BufTy).Contents (Elt F) → (⟨S32x20x64x300, .f32⟩ : BufTy).Contents (Elt F) → (⟨S32x20x64x300, .f32⟩ : BufTy).Contents (Elt F)),
    binary main_v110 main_v115 main_v116 ((fun l r => Host.dotGeneral dot_S32x20x64x300_S32x20x64x300_S32x20x64x64_3_3_2_2_01_01 none l r) : (⟨S32x20x64x300, .f32⟩ : BufTy).Contents (Elt F) → (⟨S32x20x64x300, .f32⟩ : BufTy).Contents (Elt F) → (⟨S32x20x64x64, .f32⟩ : BufTy).Contents (Elt F)),
    TRef.binary (TRef.of (T := ⟨S32x20x64x300, .f32⟩) main_v110) (TRef.of (T := ⟨S32x20x64x300, .f32⟩) main_v110) (TRef.of (T := ⟨S32x20x64x300, .f32⟩) main_call8_v0) mulf,
    TRef.nullary (TRef.of (T := ⟨S_, .f32⟩) main_call8_cst) (constant S_ .f32 0x00000000#32),
    TRef.binary (TRef.of (T := ⟨S32x20x64x300, .f32⟩) main_call8_v0) (TRef.of (T := ⟨S_, .f32⟩) main_call8_cst) (TRef.of (T := ⟨S32x20x64, .f32⟩) main_call8_v1) (fun x v => Host.reduceAdd x v reducesTo_S32x20x64x300_S32x20x64_d3 h_S_),
    TRef.unary (TRef.of (T := ⟨S32x20x64, .f32⟩) main_call8_v1) (TRef.of (T := ⟨S32x20x64, .f32⟩) main_v117) Host.sqrt,
    unary main_v117 main_v118 (broadcastInDim S32x20x64x1 ![0, 1, 2] bcast_S32x20x64_S32x20x64x1_0_1_2 : (⟨S32x20x64, .f32⟩ : BufTy).Contents (Elt F) → (⟨S32x20x64x1, .f32⟩ : BufTy).Contents (Elt F)),
    TRef.binary (TRef.of (T := ⟨S32x20x64x300, .f32⟩) main_v115) (TRef.of (T := ⟨S32x20x64x300, .f32⟩) main_v115) (TRef.of (T := ⟨S32x20x64x300, .f32⟩) main_call9_v0) mulf,
    TRef.nullary (TRef.of (T := ⟨S_, .f32⟩) main_call9_cst) (constant S_ .f32 0x00000000#32),
    TRef.binary (TRef.of (T := ⟨S32x20x64x300, .f32⟩) main_call9_v0) (TRef.of (T := ⟨S_, .f32⟩) main_call9_cst) (TRef.of (T := ⟨S32x20x64, .f32⟩) main_call9_v1) (fun x v => Host.reduceAdd x v reducesTo_S32x20x64x300_S32x20x64_d3 h_S_),
    TRef.unary (TRef.of (T := ⟨S32x20x64, .f32⟩) main_call9_v1) (TRef.of (T := ⟨S32x20x64, .f32⟩) main_v119) Host.sqrt,
    unary main_v119 main_v120 (broadcastInDim S32x20x1x64 ![0, 1, 3] bcast_S32x20x64_S32x20x1x64_0_1_3 : (⟨S32x20x64, .f32⟩ : BufTy).Contents (Elt F) → (⟨S32x20x1x64, .f32⟩ : BufTy).Contents (Elt F)),
    unary main_v118 main_v121 (broadcastInDim S32x20x64x64 ![0, 1, 2, 3] bcast_S32x20x64x1_S32x20x64x64_0_1_2_3 : (⟨S32x20x64x1, .f32⟩ : BufTy).Contents (Elt F) → (⟨S32x20x64x64, .f32⟩ : BufTy).Contents (Elt F)),
    unary main_v120 main_v122 (broadcastInDim S32x20x64x64 ![0, 1, 2, 3] bcast_S32x20x1x64_S32x20x64x64_0_1_2_3 : (⟨S32x20x1x64, .f32⟩ : BufTy).Contents (Elt F) → (⟨S32x20x64x64, .f32⟩ : BufTy).Contents (Elt F)),
    binary main_v121 main_v122 main_v123 (mulf : (⟨S32x20x64x64, .f32⟩ : BufTy).Contents (Elt F) → (⟨S32x20x64x64, .f32⟩ : BufTy).Contents (Elt F) → (⟨S32x20x64x64, .f32⟩ : BufTy).Contents (Elt F)),
    binary main_v116 main_v123 main_v124 (Host.divf : (⟨S32x20x64x64, .f32⟩ : BufTy).Contents (Elt F) → (⟨S32x20x64x64, .f32⟩ : BufTy).Contents (Elt F) → (⟨S32x20x64x64, .f32⟩ : BufTy).Contents (Elt F)),
    unary main_v124 main_v125 ((transpose S32x64x64x20 [0, 2, 3, 1] · transposes_S32x20x64x64_S32x64x64x20_0_2_3_1) : (⟨S32x20x64x64, .f32⟩ : BufTy).Contents (Elt F) → (⟨S32x64x64x20, .f32⟩ : BufTy).Contents (Elt F)),
    nullary main_cst_7 (constant S_ .f32 0xFF800000#32),
    binary main_v125 main_cst_7 main_v126 ((fun x v => Host.reduce FloatOps.maximumf x v reducesTo_S32x64x64x20_S32x64x20_d2 h_S_) : (⟨S32x64x64x20, .f32⟩ : BufTy).Contents (Elt F) → (⟨S_, .f32⟩ : BufTy).Contents (Elt F) → (⟨S32x64x20, .f32⟩ : BufTy).Contents (Elt F)),
    nullary main_cst_8 (constant S_ .f32 0xFF800000#32),
    binary main_v125 main_cst_8 main_v127 ((fun x v => Host.reduce FloatOps.maximumf x v reducesTo_S32x64x64x20_S32x64x20_d1 h_S_) : (⟨S32x64x64x20, .f32⟩ : BufTy).Contents (Elt F) → (⟨S_, .f32⟩ : BufTy).Contents (Elt F) → (⟨S32x64x20, .f32⟩ : BufTy).Contents (Elt F)),
    unary main_arg2 main_v128 ((extractStridedSlice S1x20x300 ![3, 0, 0] · slices_S8x20x300_S1x20x300_3_0_0) : (⟨S8x20x300, .f32⟩ : BufTy).Contents (Elt F) → (⟨S1x20x300, .f32⟩ : BufTy).Contents (Elt F)),
    reshape main_v128 main_v129 rfl shapeCasts_S1x20x300_S20x300,
    unary main_v1 main_v130 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v129 main_v131 (broadcastInDim S1x20x1x300 ![1, 3] bcast_S20x300_S1x20x1x300_1_3 : (⟨S20x300, .f32⟩ : BufTy).Contents (Elt F) → (⟨S1x20x1x300, .f32⟩ : BufTy).Contents (Elt F)),
    unary main_v130 main_v132 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v131 main_v133 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v132 main_v133 main_v134 (mulf : (⟨S32x20x64x300, .f32⟩ : BufTy).Contents (Elt F) → (⟨S32x20x64x300, .f32⟩ : BufTy).Contents (Elt F) → (⟨S32x20x64x300, .f32⟩ : BufTy).Contents (Elt F)),
    unary main_v3 main_v135 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v129 main_v136 (broadcastInDim S1x20x1x300 ![1, 3] bcast_S20x300_S1x20x1x300_1_3 : (⟨S20x300, .f32⟩ : BufTy).Contents (Elt F) → (⟨S1x20x1x300, .f32⟩ : BufTy).Contents (Elt F)),
    unary main_v135 main_v137 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v136 main_v138 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v137 main_v138 main_v139 (mulf : (⟨S32x20x64x300, .f32⟩ : BufTy).Contents (Elt F) → (⟨S32x20x64x300, .f32⟩ : BufTy).Contents (Elt F) → (⟨S32x20x64x300, .f32⟩ : BufTy).Contents (Elt F)),
    binary main_v134 main_v139 main_v140 ((fun l r => Host.dotGeneral dot_S32x20x64x300_S32x20x64x300_S32x20x64x64_3_3_2_2_01_01 none l r) : (⟨S32x20x64x300, .f32⟩ : BufTy).Contents (Elt F) → (⟨S32x20x64x300, .f32⟩ : BufTy).Contents (Elt F) → (⟨S32x20x64x64, .f32⟩ : BufTy).Contents (Elt F)),
    TRef.binary (TRef.of (T := ⟨S32x20x64x300, .f32⟩) main_v134) (TRef.of (T := ⟨S32x20x64x300, .f32⟩) main_v134) (TRef.of (T := ⟨S32x20x64x300, .f32⟩) main_call10_v0) mulf,
    TRef.nullary (TRef.of (T := ⟨S_, .f32⟩) main_call10_cst) (constant S_ .f32 0x00000000#32),
    TRef.binary (TRef.of (T := ⟨S32x20x64x300, .f32⟩) main_call10_v0) (TRef.of (T := ⟨S_, .f32⟩) main_call10_cst) (TRef.of (T := ⟨S32x20x64, .f32⟩) main_call10_v1) (fun x v => Host.reduceAdd x v reducesTo_S32x20x64x300_S32x20x64_d3 h_S_),
    TRef.unary (TRef.of (T := ⟨S32x20x64, .f32⟩) main_call10_v1) (TRef.of (T := ⟨S32x20x64, .f32⟩) main_v141) Host.sqrt,
    unary main_v141 main_v142 (broadcastInDim S32x20x64x1 ![0, 1, 2] bcast_S32x20x64_S32x20x64x1_0_1_2 : (⟨S32x20x64, .f32⟩ : BufTy).Contents (Elt F) → (⟨S32x20x64x1, .f32⟩ : BufTy).Contents (Elt F)),
    TRef.binary (TRef.of (T := ⟨S32x20x64x300, .f32⟩) main_v139) (TRef.of (T := ⟨S32x20x64x300, .f32⟩) main_v139) (TRef.of (T := ⟨S32x20x64x300, .f32⟩) main_call11_v0) mulf,
    TRef.nullary (TRef.of (T := ⟨S_, .f32⟩) main_call11_cst) (constant S_ .f32 0x00000000#32),
    TRef.binary (TRef.of (T := ⟨S32x20x64x300, .f32⟩) main_call11_v0) (TRef.of (T := ⟨S_, .f32⟩) main_call11_cst) (TRef.of (T := ⟨S32x20x64, .f32⟩) main_call11_v1) (fun x v => Host.reduceAdd x v reducesTo_S32x20x64x300_S32x20x64_d3 h_S_),
    TRef.unary (TRef.of (T := ⟨S32x20x64, .f32⟩) main_call11_v1) (TRef.of (T := ⟨S32x20x64, .f32⟩) main_v143) Host.sqrt,
    unary main_v143 main_v144 (broadcastInDim S32x20x1x64 ![0, 1, 3] bcast_S32x20x64_S32x20x1x64_0_1_3 : (⟨S32x20x64, .f32⟩ : BufTy).Contents (Elt F) → (⟨S32x20x1x64, .f32⟩ : BufTy).Contents (Elt F)),
    unary main_v142 main_v145 (broadcastInDim S32x20x64x64 ![0, 1, 2, 3] bcast_S32x20x64x1_S32x20x64x64_0_1_2_3 : (⟨S32x20x64x1, .f32⟩ : BufTy).Contents (Elt F) → (⟨S32x20x64x64, .f32⟩ : BufTy).Contents (Elt F)),
    unary main_v144 main_v146 (broadcastInDim S32x20x64x64 ![0, 1, 2, 3] bcast_S32x20x1x64_S32x20x64x64_0_1_2_3 : (⟨S32x20x1x64, .f32⟩ : BufTy).Contents (Elt F) → (⟨S32x20x64x64, .f32⟩ : BufTy).Contents (Elt F)),
    binary main_v145 main_v146 main_v147 (mulf : (⟨S32x20x64x64, .f32⟩ : BufTy).Contents (Elt F) → (⟨S32x20x64x64, .f32⟩ : BufTy).Contents (Elt F) → (⟨S32x20x64x64, .f32⟩ : BufTy).Contents (Elt F)),
    binary main_v140 main_v147 main_v148 (Host.divf : (⟨S32x20x64x64, .f32⟩ : BufTy).Contents (Elt F) → (⟨S32x20x64x64, .f32⟩ : BufTy).Contents (Elt F) → (⟨S32x20x64x64, .f32⟩ : BufTy).Contents (Elt F)),
    unary main_v148 main_v149 ((transpose S32x64x64x20 [0, 2, 3, 1] · transposes_S32x20x64x64_S32x64x64x20_0_2_3_1) : (⟨S32x20x64x64, .f32⟩ : BufTy).Contents (Elt F) → (⟨S32x64x64x20, .f32⟩ : BufTy).Contents (Elt F)),
    nullary main_cst_9 (constant S_ .f32 0xFF800000#32),
    binary main_v149 main_cst_9 main_v150 ((fun x v => Host.reduce FloatOps.maximumf x v reducesTo_S32x64x64x20_S32x64x20_d2 h_S_) : (⟨S32x64x64x20, .f32⟩ : BufTy).Contents (Elt F) → (⟨S_, .f32⟩ : BufTy).Contents (Elt F) → (⟨S32x64x20, .f32⟩ : BufTy).Contents (Elt F)),
    nullary main_cst_10 (constant S_ .f32 0xFF800000#32),
    binary main_v149 main_cst_10 main_v151 ((fun x v => Host.reduce FloatOps.maximumf x v reducesTo_S32x64x64x20_S32x64x20_d1 h_S_) : (⟨S32x64x64x20, .f32⟩ : BufTy).Contents (Elt F) → (⟨S_, .f32⟩ : BufTy).Contents (Elt F) → (⟨S32x64x20, .f32⟩ : BufTy).Contents (Elt F)),
    unary main_arg2 main_v152 ((extractStridedSlice S1x20x300 ![4, 0, 0] · slices_S8x20x300_S1x20x300_4_0_0) : (⟨S8x20x300, .f32⟩ : BufTy).Contents (Elt F) → (⟨S1x20x300, .f32⟩ : BufTy).Contents (Elt F)),
    reshape main_v152 main_v153 rfl shapeCasts_S1x20x300_S20x300,
    TRef.binary (TRef.of (T := ⟨S32x64x300, .f32⟩) main_v0) (TRef.of (T := ⟨S32x64x300, .f32⟩) main_v0) (TRef.of (T := ⟨S32x64x300, .f32⟩) main_call12_v0) mulf,
    TRef.nullary (TRef.of (T := ⟨S_, .f32⟩) main_call12_cst) (constant S_ .f32 0x00000000#32),
    TRef.binary (TRef.of (T := ⟨S32x64x300, .f32⟩) main_call12_v0) (TRef.of (T := ⟨S_, .f32⟩) main_call12_cst) (TRef.of (T := ⟨S32x64, .f32⟩) main_call12_v1) (fun x v => Host.reduceAdd x v reducesTo_S32x64x300_S32x64_d2 h_S_),
    TRef.unary (TRef.of (T := ⟨S32x64, .f32⟩) main_call12_v1) (TRef.of (T := ⟨S32x64, .f32⟩) main_v154) Host.sqrt,
    TRef.binary (TRef.of (T := ⟨S32x64x300, .f32⟩) main_v2) (TRef.of (T := ⟨S32x64x300, .f32⟩) main_v2) (TRef.of (T := ⟨S32x64x300, .f32⟩) main_call13_v0) mulf,
    TRef.nullary (TRef.of (T := ⟨S_, .f32⟩) main_call13_cst) (constant S_ .f32 0x00000000#32),
    TRef.binary (TRef.of (T := ⟨S32x64x300, .f32⟩) main_call13_v0) (TRef.of (T := ⟨S_, .f32⟩) main_call13_cst) (TRef.of (T := ⟨S32x64, .f32⟩) main_call13_v1) (fun x v => Host.reduceAdd x v reducesTo_S32x64x300_S32x64_d2 h_S_),
    TRef.unary (TRef.of (T := ⟨S32x64, .f32⟩) main_call13_v1) (TRef.of (T := ⟨S32x64, .f32⟩) main_v155) Host.sqrt,
    binary main_v0 main_v2 main_v156 ((fun l r => Host.dotGeneral dot_S32x64x300_S32x64x300_S32x64x64_2_2_1_1_0_0 none l r) : (⟨S32x64x300, .f32⟩ : BufTy).Contents (Elt F) → (⟨S32x64x300, .f32⟩ : BufTy).Contents (Elt F) → (⟨S32x64x64, .f32⟩ : BufTy).Contents (Elt F)),
    unary main_v154 main_v157 (broadcastInDim S32x64x1 ![0, 1] bcast_S32x64_S32x64x1_0_1 : (⟨S32x64, .f32⟩ : BufTy).Contents (Elt F) → (⟨S32x64x1, .f32⟩ : BufTy).Contents (Elt F)),
    unary main_v155 main_v158 (broadcastInDim S32x1x64 ![0, 2] bcast_S32x64_S32x1x64_0_2 : (⟨S32x64, .f32⟩ : BufTy).Contents (Elt F) → (⟨S32x1x64, .f32⟩ : BufTy).Contents (Elt F)),
    unary main_v157 main_v159 (broadcastInDim S32x64x64 ![0, 1, 2] bcast_S32x64x1_S32x64x64_0_1_2 : (⟨S32x64x1, .f32⟩ : BufTy).Contents (Elt F) → (⟨S32x64x64, .f32⟩ : BufTy).Contents (Elt F)),
    unary main_v158 main_v160 (broadcastInDim S32x64x64 ![0, 1, 2] bcast_S32x1x64_S32x64x64_0_1_2 : (⟨S32x1x64, .f32⟩ : BufTy).Contents (Elt F) → (⟨S32x64x64, .f32⟩ : BufTy).Contents (Elt F)),
    binary main_v159 main_v160 main_v161 (mulf : (⟨S32x64x64, .f32⟩ : BufTy).Contents (Elt F) → (⟨S32x64x64, .f32⟩ : BufTy).Contents (Elt F) → (⟨S32x64x64, .f32⟩ : BufTy).Contents (Elt F)),
    binary main_v156 main_v161 main_v162 (Host.divf : (⟨S32x64x64, .f32⟩ : BufTy).Contents (Elt F) → (⟨S32x64x64, .f32⟩ : BufTy).Contents (Elt F) → (⟨S32x64x64, .f32⟩ : BufTy).Contents (Elt F)),
    binary main_v162 main_v0 main_v163 ((fun l r => Host.dotGeneral dot_S32x64x64_S32x64x300_S32x64x300_1_1_2_2_0_0 none l r) : (⟨S32x64x64, .f32⟩ : BufTy).Contents (Elt F) → (⟨S32x64x300, .f32⟩ : BufTy).Contents (Elt F) → (⟨S32x64x300, .f32⟩ : BufTy).Contents (Elt F)),
    nullary main_cst_11 (constant S_ .f32 0x00000000#32),
    binary main_v162 main_cst_11 main_v164 ((fun x v => Host.reduceAdd x v reducesTo_S32x64x64_S32x64_d1 h_S_) : (⟨S32x64x64, .f32⟩ : BufTy).Contents (Elt F) → (⟨S_, .f32⟩ : BufTy).Contents (Elt F) → (⟨S32x64, .f32⟩ : BufTy).Contents (Elt F)),
    unary main_v164 main_v165 (broadcastInDim S32x64x1 ![0, 1] bcast_S32x64_S32x64x1_0_1 : (⟨S32x64, .f32⟩ : BufTy).Contents (Elt F) → (⟨S32x64x1, .f32⟩ : BufTy).Contents (Elt F)),
    unary main_v165 main_v166 (broadcastInDim S32x64x300 ![0, 1, 2] bcast_S32x64x1_S32x64x300_0_1_2 : (⟨S32x64x1, .f32⟩ : BufTy).Contents (Elt F) → (⟨S32x64x300, .f32⟩ : BufTy).Contents (Elt F)) ]

set_option maxHeartbeats 4000000 in
theorem part2_eq (d : Dev nD) : main_part2 (F := F) d = seq P2 := rfl

/-- The operations of printed part 3. -/
abbrev P3 : List (HloOp τ sig (Elt F)) :=
  [ binary main_v163 main_v166 main_v167 (Host.divf : (⟨S32x64x300, .f32⟩ : BufTy).Contents (Elt F) → (⟨S32x64x300, .f32⟩ : BufTy).Contents (Elt F) → (⟨S32x64x300, .f32⟩ : BufTy).Contents (Elt F)),
    binary main_v162 main_v2 main_v168 ((fun l r => Host.dotGeneral dot_S32x64x64_S32x64x300_S32x64x300_2_1_1_2_0_0 none l r) : (⟨S32x64x64, .f32⟩ : BufTy).Contents (Elt F) → (⟨S32x64x300, .f32⟩ : BufTy).Contents (Elt F) → (⟨S32x64x300, .f32⟩ : BufTy).Contents (Elt F)),
    nullary main_cst_12 (constant S_ .f32 0x00000000#32),
    binary main_v162 main_cst_12 main_v169 ((fun x v => Host.reduceAdd x v reducesTo_S32x64x64_S32x64_d2 h_S_) : (⟨S32x64x64, .f32⟩ : BufTy).Contents (Elt F) → (⟨S_, .f32⟩ : BufTy).Contents (Elt F) → (⟨S32x64, .f32⟩ : BufTy).Contents (Elt F)),
    unary main_v169 main_v170 (broadcastInDim S32x64x1 ![0, 1] bcast_S32x64_S32x64x1_0_1 : (⟨S32x64, .f32⟩ : BufTy).Contents (Elt F) → (⟨S32x64x1, .f32⟩ : BufTy).Contents (Elt F)),
    unary main_v170 main_v171 (broadcastInDim S32x64x300 ![0, 1, 2] bcast_S32x64x1_S32x64x300_0_1_2 : (⟨S32x64x1, .f32⟩ : BufTy).Contents (Elt F) → (⟨S32x64x300, .f32⟩ : BufTy).Contents (Elt F)),
    binary main_v168 main_v171 main_v172 (Host.divf : (⟨S32x64x300, .f32⟩ : BufTy).Contents (Elt F) → (⟨S32x64x300, .f32⟩ : BufTy).Contents (Elt F) → (⟨S32x64x300, .f32⟩ : BufTy).Contents (Elt F)),
    unary main_v0 main_v173 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v153 main_v174 (broadcastInDim S1x20x1x300 ![1, 3] bcast_S20x300_S1x20x1x300_1_3 : (⟨S20x300, .f32⟩ : BufTy).Contents (Elt F) → (⟨S1x20x1x300, .f32⟩ : BufTy).Contents (Elt F)),
    unary main_v173 main_v175 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v174 main_v176 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v175 main_v176 main_v177 (mulf : (⟨S32x20x64x300, .f32⟩ : BufTy).Contents (Elt F) → (⟨S32x20x64x300, .f32⟩ : BufTy).Contents (Elt F) → (⟨S32x20x64x300, .f32⟩ : BufTy).Contents (Elt F)),
    unary main_v172 main_v178 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v153 main_v179 (broadcastInDim S1x20x1x300 ![1, 3] bcast_S20x300_S1x20x1x300_1_3 : (⟨S20x300, .f32⟩ : BufTy).Contents (Elt F) → (⟨S1x20x1x300, .f32⟩ : BufTy).Contents (Elt F)),
    unary main_v178 main_v180 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v179 main_v181 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v180 main_v181 main_v182 (mulf : (⟨S32x20x64x300, .f32⟩ : BufTy).Contents (Elt F) → (⟨S32x20x64x300, .f32⟩ : BufTy).Contents (Elt F) → (⟨S32x20x64x300, .f32⟩ : BufTy).Contents (Elt F)),
    binary main_v177 main_v182 main_v183 (mulf : (⟨S32x20x64x300, .f32⟩ : BufTy).Contents (Elt F) → (⟨S32x20x64x300, .f32⟩ : BufTy).Contents (Elt F) → (⟨S32x20x64x300, .f32⟩ : BufTy).Contents (Elt F)),
    nullary main_cst_13 (constant S_ .f32 0x00000000#32),
    binary main_v183 main_cst_13 main_v184 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v177) (TRef.of (T := ⟨S32x20x64x300, .f32⟩) main_v177) (TRef.of (T := ⟨S32x20x64x300, .f32⟩) main_call14_v0) mulf,
    TRef.nullary (TRef.of (T := ⟨S_, .f32⟩) main_call14_cst) (constant S_ .f32 0x00000000#32),
    TRef.binary (TRef.of (T := ⟨S32x20x64x300, .f32⟩) main_call14_v0) (TRef.of (T := ⟨S_, .f32⟩) main_call14_cst) (TRef.of (T := ⟨S32x20x64, .f32⟩) main_call14_v1) (fun x v => Host.reduceAdd x v reducesTo_S32x20x64x300_S32x20x64_d3 h_S_),
    TRef.unary (TRef.of (T := ⟨S32x20x64, .f32⟩) main_call14_v1) (TRef.of (T := ⟨S32x20x64, .f32⟩) main_v185) Host.sqrt,
    TRef.binary (TRef.of (T := ⟨S32x20x64x300, .f32⟩) main_v182) (TRef.of (T := ⟨S32x20x64x300, .f32⟩) main_v182) (TRef.of (T := ⟨S32x20x64x300, .f32⟩) main_call15_v0) mulf,
    TRef.nullary (TRef.of (T := ⟨S_, .f32⟩) main_call15_cst) (constant S_ .f32 0x00000000#32),
    TRef.binary (TRef.of (T := ⟨S32x20x64x300, .f32⟩) main_call15_v0) (TRef.of (T := ⟨S_, .f32⟩) main_call15_cst) (TRef.of (T := ⟨S32x20x64, .f32⟩) main_call15_v1) (fun x v => Host.reduceAdd x v reducesTo_S32x20x64x300_S32x20x64_d3 h_S_),
    TRef.unary (TRef.of (T := ⟨S32x20x64, .f32⟩) main_call15_v1) (TRef.of (T := ⟨S32x20x64, .f32⟩) main_v186) Host.sqrt,
    binary main_v185 main_v186 main_v187 (mulf : (⟨S32x20x64, .f32⟩ : BufTy).Contents (Elt F) → (⟨S32x20x64, .f32⟩ : BufTy).Contents (Elt F) → (⟨S32x20x64, .f32⟩ : BufTy).Contents (Elt F)),
    nullary main_cst_14 (constant S_ .f32 0x322BCC77#32),
    unary main_cst_14 main_v188 (broadcastInDim S32x20x64 ![] bcast_S_S32x20x64 : (⟨S_, .f32⟩ : BufTy).Contents (Elt F) → (⟨S32x20x64, .f32⟩ : BufTy).Contents (Elt F)),
    binary main_v187 main_v188 main_v189 (maximumf : (⟨S32x20x64, .f32⟩ : BufTy).Contents (Elt F) → (⟨S32x20x64, .f32⟩ : BufTy).Contents (Elt F) → (⟨S32x20x64, .f32⟩ : BufTy).Contents (Elt F)),
    binary main_v184 main_v189 main_v190 (Host.divf : (⟨S32x20x64, .f32⟩ : BufTy).Contents (Elt F) → (⟨S32x20x64, .f32⟩ : BufTy).Contents (Elt F) → (⟨S32x20x64, .f32⟩ : BufTy).Contents (Elt F)),
    unary main_v190 main_v191 ((transpose S32x64x20 [0, 2, 1] · transposes_S32x20x64_S32x64x20_0_2_1) : (⟨S32x20x64, .f32⟩ : BufTy).Contents (Elt F) → (⟨S32x64x20, .f32⟩ : BufTy).Contents (Elt F)),
    unary main_v2 main_v192 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v153 main_v193 (broadcastInDim S1x20x1x300 ![1, 3] bcast_S20x300_S1x20x1x300_1_3 : (⟨S20x300, .f32⟩ : BufTy).Contents (Elt F) → (⟨S1x20x1x300, .f32⟩ : BufTy).Contents (Elt F)),
    unary main_v192 main_v194 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v193 main_v195 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v194 main_v195 main_v196 (mulf : (⟨S32x20x64x300, .f32⟩ : BufTy).Contents (Elt F) → (⟨S32x20x64x300, .f32⟩ : BufTy).Contents (Elt F) → (⟨S32x20x64x300, .f32⟩ : BufTy).Contents (Elt F)),
    unary main_v167 main_v197 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v153 main_v198 (broadcastInDim S1x20x1x300 ![1, 3] bcast_S20x300_S1x20x1x300_1_3 : (⟨S20x300, .f32⟩ : BufTy).Contents (Elt F) → (⟨S1x20x1x300, .f32⟩ : BufTy).Contents (Elt F)),
    unary main_v197 main_v199 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v198 main_v200 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v199 main_v200 main_v201 (mulf : (⟨S32x20x64x300, .f32⟩ : BufTy).Contents (Elt F) → (⟨S32x20x64x300, .f32⟩ : BufTy).Contents (Elt F) → (⟨S32x20x64x300, .f32⟩ : BufTy).Contents (Elt F)),
    binary main_v196 main_v201 main_v202 (mulf : (⟨S32x20x64x300, .f32⟩ : BufTy).Contents (Elt F) → (⟨S32x20x64x300, .f32⟩ : BufTy).Contents (Elt F) → (⟨S32x20x64x300, .f32⟩ : BufTy).Contents (Elt F)),
    nullary main_cst_15 (constant S_ .f32 0x00000000#32),
    binary main_v202 main_cst_15 main_v203 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v196) (TRef.of (T := ⟨S32x20x64x300, .f32⟩) main_v196) (TRef.of (T := ⟨S32x20x64x300, .f32⟩) main_call16_v0) mulf,
    TRef.nullary (TRef.of (T := ⟨S_, .f32⟩) main_call16_cst) (constant S_ .f32 0x00000000#32),
    TRef.binary (TRef.of (T := ⟨S32x20x64x300, .f32⟩) main_call16_v0) (TRef.of (T := ⟨S_, .f32⟩) main_call16_cst) (TRef.of (T := ⟨S32x20x64, .f32⟩) main_call16_v1) (fun x v => Host.reduceAdd x v reducesTo_S32x20x64x300_S32x20x64_d3 h_S_),
    TRef.unary (TRef.of (T := ⟨S32x20x64, .f32⟩) main_call16_v1) (TRef.of (T := ⟨S32x20x64, .f32⟩) main_v204) Host.sqrt,
    TRef.binary (TRef.of (T := ⟨S32x20x64x300, .f32⟩) main_v201) (TRef.of (T := ⟨S32x20x64x300, .f32⟩) main_v201) (TRef.of (T := ⟨S32x20x64x300, .f32⟩) main_call17_v0) mulf,
    TRef.nullary (TRef.of (T := ⟨S_, .f32⟩) main_call17_cst) (constant S_ .f32 0x00000000#32),
    TRef.binary (TRef.of (T := ⟨S32x20x64x300, .f32⟩) main_call17_v0) (TRef.of (T := ⟨S_, .f32⟩) main_call17_cst) (TRef.of (T := ⟨S32x20x64, .f32⟩) main_call17_v1) (fun x v => Host.reduceAdd x v reducesTo_S32x20x64x300_S32x20x64_d3 h_S_),
    TRef.unary (TRef.of (T := ⟨S32x20x64, .f32⟩) main_call17_v1) (TRef.of (T := ⟨S32x20x64, .f32⟩) main_v205) Host.sqrt,
    binary main_v204 main_v205 main_v206 (mulf : (⟨S32x20x64, .f32⟩ : BufTy).Contents (Elt F) → (⟨S32x20x64, .f32⟩ : BufTy).Contents (Elt F) → (⟨S32x20x64, .f32⟩ : BufTy).Contents (Elt F)),
    nullary main_cst_16 (constant S_ .f32 0x322BCC77#32),
    unary main_cst_16 main_v207 (broadcastInDim S32x20x64 ![] bcast_S_S32x20x64 : (⟨S_, .f32⟩ : BufTy).Contents (Elt F) → (⟨S32x20x64, .f32⟩ : BufTy).Contents (Elt F)),
    binary main_v206 main_v207 main_v208 (maximumf : (⟨S32x20x64, .f32⟩ : BufTy).Contents (Elt F) → (⟨S32x20x64, .f32⟩ : BufTy).Contents (Elt F) → (⟨S32x20x64, .f32⟩ : BufTy).Contents (Elt F)),
    binary main_v203 main_v208 main_v209 (Host.divf : (⟨S32x20x64, .f32⟩ : BufTy).Contents (Elt F) → (⟨S32x20x64, .f32⟩ : BufTy).Contents (Elt F) → (⟨S32x20x64, .f32⟩ : BufTy).Contents (Elt F)),
    unary main_v209 main_v210 ((transpose S32x64x20 [0, 2, 1] · transposes_S32x20x64_S32x64x20_0_2_1) : (⟨S32x20x64, .f32⟩ : BufTy).Contents (Elt F) → (⟨S32x64x20, .f32⟩ : BufTy).Contents (Elt F)),
    unary main_arg2 main_v211 ((extractStridedSlice S1x20x300 ![5, 0, 0] · slices_S8x20x300_S1x20x300_5_0_0) : (⟨S8x20x300, .f32⟩ : BufTy).Contents (Elt F) → (⟨S1x20x300, .f32⟩ : BufTy).Contents (Elt F)),
    reshape main_v211 main_v212 rfl shapeCasts_S1x20x300_S20x300,
    TRef.binary (TRef.of (T := ⟨S32x64x300, .f32⟩) main_v1) (TRef.of (T := ⟨S32x64x300, .f32⟩) main_v1) (TRef.of (T := ⟨S32x64x300, .f32⟩) main_call18_v0) mulf,
    TRef.nullary (TRef.of (T := ⟨S_, .f32⟩) main_call18_cst) (constant S_ .f32 0x00000000#32),
    TRef.binary (TRef.of (T := ⟨S32x64x300, .f32⟩) main_call18_v0) (TRef.of (T := ⟨S_, .f32⟩) main_call18_cst) (TRef.of (T := ⟨S32x64, .f32⟩) main_call18_v1) (fun x v => Host.reduceAdd x v reducesTo_S32x64x300_S32x64_d2 h_S_),
    TRef.unary (TRef.of (T := ⟨S32x64, .f32⟩) main_call18_v1) (TRef.of (T := ⟨S32x64, .f32⟩) main_v213) Host.sqrt,
    TRef.binary (TRef.of (T := ⟨S32x64x300, .f32⟩) main_v3) (TRef.of (T := ⟨S32x64x300, .f32⟩) main_v3) (TRef.of (T := ⟨S32x64x300, .f32⟩) main_call19_v0) mulf,
    TRef.nullary (TRef.of (T := ⟨S_, .f32⟩) main_call19_cst) (constant S_ .f32 0x00000000#32),
    TRef.binary (TRef.of (T := ⟨S32x64x300, .f32⟩) main_call19_v0) (TRef.of (T := ⟨S_, .f32⟩) main_call19_cst) (TRef.of (T := ⟨S32x64, .f32⟩) main_call19_v1) (fun x v => Host.reduceAdd x v reducesTo_S32x64x300_S32x64_d2 h_S_),
    TRef.unary (TRef.of (T := ⟨S32x64, .f32⟩) main_call19_v1) (TRef.of (T := ⟨S32x64, .f32⟩) main_v214) Host.sqrt,
    binary main_v1 main_v3 main_v215 ((fun l r => Host.dotGeneral dot_S32x64x300_S32x64x300_S32x64x64_2_2_1_1_0_0 none l r) : (⟨S32x64x300, .f32⟩ : BufTy).Contents (Elt F) → (⟨S32x64x300, .f32⟩ : BufTy).Contents (Elt F) → (⟨S32x64x64, .f32⟩ : BufTy).Contents (Elt F)),
    unary main_v213 main_v216 (broadcastInDim S32x64x1 ![0, 1] bcast_S32x64_S32x64x1_0_1 : (⟨S32x64, .f32⟩ : BufTy).Contents (Elt F) → (⟨S32x64x1, .f32⟩ : BufTy).Contents (Elt F)),
    unary main_v214 main_v217 (broadcastInDim S32x1x64 ![0, 2] bcast_S32x64_S32x1x64_0_2 : (⟨S32x64, .f32⟩ : BufTy).Contents (Elt F) → (⟨S32x1x64, .f32⟩ : BufTy).Contents (Elt F)),
    unary main_v216 main_v218 (broadcastInDim S32x64x64 ![0, 1, 2] bcast_S32x64x1_S32x64x64_0_1_2 : (⟨S32x64x1, .f32⟩ : BufTy).Contents (Elt F) → (⟨S32x64x64, .f32⟩ : BufTy).Contents (Elt F)),
    unary main_v217 main_v219 (broadcastInDim S32x64x64 ![0, 1, 2] bcast_S32x1x64_S32x64x64_0_1_2 : (⟨S32x1x64, .f32⟩ : BufTy).Contents (Elt F) → (⟨S32x64x64, .f32⟩ : BufTy).Contents (Elt F)),
    binary main_v218 main_v219 main_v220 (mulf : (⟨S32x64x64, .f32⟩ : BufTy).Contents (Elt F) → (⟨S32x64x64, .f32⟩ : BufTy).Contents (Elt F) → (⟨S32x64x64, .f32⟩ : BufTy).Contents (Elt F)),
    binary main_v215 main_v220 main_v221 (Host.divf : (⟨S32x64x64, .f32⟩ : BufTy).Contents (Elt F) → (⟨S32x64x64, .f32⟩ : BufTy).Contents (Elt F) → (⟨S32x64x64, .f32⟩ : BufTy).Contents (Elt F)) ]

set_option maxHeartbeats 4000000 in
theorem part3_eq (d : Dev nD) : main_part3 (F := F) d = seq P3 := rfl

/-- The operations of printed part 4. -/
abbrev P4 : List (HloOp τ sig (Elt F)) :=
  [ binary main_v221 main_v1 main_v222 ((fun l r => Host.dotGeneral dot_S32x64x64_S32x64x300_S32x64x300_1_1_2_2_0_0 none l r) : (⟨S32x64x64, .f32⟩ : BufTy).Contents (Elt F) → (⟨S32x64x300, .f32⟩ : BufTy).Contents (Elt F) → (⟨S32x64x300, .f32⟩ : BufTy).Contents (Elt F)),
    nullary main_cst_17 (constant S_ .f32 0x00000000#32),
    binary main_v221 main_cst_17 main_v223 ((fun x v => Host.reduceAdd x v reducesTo_S32x64x64_S32x64_d1 h_S_) : (⟨S32x64x64, .f32⟩ : BufTy).Contents (Elt F) → (⟨S_, .f32⟩ : BufTy).Contents (Elt F) → (⟨S32x64, .f32⟩ : BufTy).Contents (Elt F)),
    unary main_v223 main_v224 (broadcastInDim S32x64x1 ![0, 1] bcast_S32x64_S32x64x1_0_1 : (⟨S32x64, .f32⟩ : BufTy).Contents (Elt F) → (⟨S32x64x1, .f32⟩ : BufTy).Contents (Elt F)),
    unary main_v224 main_v225 (broadcastInDim S32x64x300 ![0, 1, 2] bcast_S32x64x1_S32x64x300_0_1_2 : (⟨S32x64x1, .f32⟩ : BufTy).Contents (Elt F) → (⟨S32x64x300, .f32⟩ : BufTy).Contents (Elt F)),
    binary main_v222 main_v225 main_v226 (Host.divf : (⟨S32x64x300, .f32⟩ : BufTy).Contents (Elt F) → (⟨S32x64x300, .f32⟩ : BufTy).Contents (Elt F) → (⟨S32x64x300, .f32⟩ : BufTy).Contents (Elt F)),
    binary main_v221 main_v3 main_v227 ((fun l r => Host.dotGeneral dot_S32x64x64_S32x64x300_S32x64x300_2_1_1_2_0_0 none l r) : (⟨S32x64x64, .f32⟩ : BufTy).Contents (Elt F) → (⟨S32x64x300, .f32⟩ : BufTy).Contents (Elt F) → (⟨S32x64x300, .f32⟩ : BufTy).Contents (Elt F)),
    nullary main_cst_18 (constant S_ .f32 0x00000000#32),
    binary main_v221 main_cst_18 main_v228 ((fun x v => Host.reduceAdd x v reducesTo_S32x64x64_S32x64_d2 h_S_) : (⟨S32x64x64, .f32⟩ : BufTy).Contents (Elt F) → (⟨S_, .f32⟩ : BufTy).Contents (Elt F) → (⟨S32x64, .f32⟩ : BufTy).Contents (Elt F)),
    unary main_v228 main_v229 (broadcastInDim S32x64x1 ![0, 1] bcast_S32x64_S32x64x1_0_1 : (⟨S32x64, .f32⟩ : BufTy).Contents (Elt F) → (⟨S32x64x1, .f32⟩ : BufTy).Contents (Elt F)),
    unary main_v229 main_v230 (broadcastInDim S32x64x300 ![0, 1, 2] bcast_S32x64x1_S32x64x300_0_1_2 : (⟨S32x64x1, .f32⟩ : BufTy).Contents (Elt F) → (⟨S32x64x300, .f32⟩ : BufTy).Contents (Elt F)),
    binary main_v227 main_v230 main_v231 (Host.divf : (⟨S32x64x300, .f32⟩ : BufTy).Contents (Elt F) → (⟨S32x64x300, .f32⟩ : BufTy).Contents (Elt F) → (⟨S32x64x300, .f32⟩ : BufTy).Contents (Elt F)),
    unary main_v1 main_v232 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v212 main_v233 (broadcastInDim S1x20x1x300 ![1, 3] bcast_S20x300_S1x20x1x300_1_3 : (⟨S20x300, .f32⟩ : BufTy).Contents (Elt F) → (⟨S1x20x1x300, .f32⟩ : BufTy).Contents (Elt F)),
    unary main_v232 main_v234 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v233 main_v235 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v234 main_v235 main_v236 (mulf : (⟨S32x20x64x300, .f32⟩ : BufTy).Contents (Elt F) → (⟨S32x20x64x300, .f32⟩ : BufTy).Contents (Elt F) → (⟨S32x20x64x300, .f32⟩ : BufTy).Contents (Elt F)),
    unary main_v231 main_v237 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v212 main_v238 (broadcastInDim S1x20x1x300 ![1, 3] bcast_S20x300_S1x20x1x300_1_3 : (⟨S20x300, .f32⟩ : BufTy).Contents (Elt F) → (⟨S1x20x1x300, .f32⟩ : BufTy).Contents (Elt F)),
    unary main_v237 main_v239 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v238 main_v240 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v239 main_v240 main_v241 (mulf : (⟨S32x20x64x300, .f32⟩ : BufTy).Contents (Elt F) → (⟨S32x20x64x300, .f32⟩ : BufTy).Contents (Elt F) → (⟨S32x20x64x300, .f32⟩ : BufTy).Contents (Elt F)),
    binary main_v236 main_v241 main_v242 (mulf : (⟨S32x20x64x300, .f32⟩ : BufTy).Contents (Elt F) → (⟨S32x20x64x300, .f32⟩ : BufTy).Contents (Elt F) → (⟨S32x20x64x300, .f32⟩ : BufTy).Contents (Elt F)),
    nullary main_cst_19 (constant S_ .f32 0x00000000#32),
    binary main_v242 main_cst_19 main_v243 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v236) (TRef.of (T := ⟨S32x20x64x300, .f32⟩) main_v236) (TRef.of (T := ⟨S32x20x64x300, .f32⟩) main_call20_v0) mulf,
    TRef.nullary (TRef.of (T := ⟨S_, .f32⟩) main_call20_cst) (constant S_ .f32 0x00000000#32),
    TRef.binary (TRef.of (T := ⟨S32x20x64x300, .f32⟩) main_call20_v0) (TRef.of (T := ⟨S_, .f32⟩) main_call20_cst) (TRef.of (T := ⟨S32x20x64, .f32⟩) main_call20_v1) (fun x v => Host.reduceAdd x v reducesTo_S32x20x64x300_S32x20x64_d3 h_S_),
    TRef.unary (TRef.of (T := ⟨S32x20x64, .f32⟩) main_call20_v1) (TRef.of (T := ⟨S32x20x64, .f32⟩) main_v244) Host.sqrt,
    TRef.binary (TRef.of (T := ⟨S32x20x64x300, .f32⟩) main_v241) (TRef.of (T := ⟨S32x20x64x300, .f32⟩) main_v241) (TRef.of (T := ⟨S32x20x64x300, .f32⟩) main_call21_v0) mulf,
    TRef.nullary (TRef.of (T := ⟨S_, .f32⟩) main_call21_cst) (constant S_ .f32 0x00000000#32),
    TRef.binary (TRef.of (T := ⟨S32x20x64x300, .f32⟩) main_call21_v0) (TRef.of (T := ⟨S_, .f32⟩) main_call21_cst) (TRef.of (T := ⟨S32x20x64, .f32⟩) main_call21_v1) (fun x v => Host.reduceAdd x v reducesTo_S32x20x64x300_S32x20x64_d3 h_S_),
    TRef.unary (TRef.of (T := ⟨S32x20x64, .f32⟩) main_call21_v1) (TRef.of (T := ⟨S32x20x64, .f32⟩) main_v245) Host.sqrt,
    binary main_v244 main_v245 main_v246 (mulf : (⟨S32x20x64, .f32⟩ : BufTy).Contents (Elt F) → (⟨S32x20x64, .f32⟩ : BufTy).Contents (Elt F) → (⟨S32x20x64, .f32⟩ : BufTy).Contents (Elt F)),
    nullary main_cst_20 (constant S_ .f32 0x322BCC77#32),
    unary main_cst_20 main_v247 (broadcastInDim S32x20x64 ![] bcast_S_S32x20x64 : (⟨S_, .f32⟩ : BufTy).Contents (Elt F) → (⟨S32x20x64, .f32⟩ : BufTy).Contents (Elt F)),
    binary main_v246 main_v247 main_v248 (maximumf : (⟨S32x20x64, .f32⟩ : BufTy).Contents (Elt F) → (⟨S32x20x64, .f32⟩ : BufTy).Contents (Elt F) → (⟨S32x20x64, .f32⟩ : BufTy).Contents (Elt F)),
    binary main_v243 main_v248 main_v249 (Host.divf : (⟨S32x20x64, .f32⟩ : BufTy).Contents (Elt F) → (⟨S32x20x64, .f32⟩ : BufTy).Contents (Elt F) → (⟨S32x20x64, .f32⟩ : BufTy).Contents (Elt F)),
    unary main_v249 main_v250 ((transpose S32x64x20 [0, 2, 1] · transposes_S32x20x64_S32x64x20_0_2_1) : (⟨S32x20x64, .f32⟩ : BufTy).Contents (Elt F) → (⟨S32x64x20, .f32⟩ : BufTy).Contents (Elt F)),
    unary main_v3 main_v251 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v212 main_v252 (broadcastInDim S1x20x1x300 ![1, 3] bcast_S20x300_S1x20x1x300_1_3 : (⟨S20x300, .f32⟩ : BufTy).Contents (Elt F) → (⟨S1x20x1x300, .f32⟩ : BufTy).Contents (Elt F)),
    unary main_v251 main_v253 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v252 main_v254 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v253 main_v254 main_v255 (mulf : (⟨S32x20x64x300, .f32⟩ : BufTy).Contents (Elt F) → (⟨S32x20x64x300, .f32⟩ : BufTy).Contents (Elt F) → (⟨S32x20x64x300, .f32⟩ : BufTy).Contents (Elt F)),
    unary main_v226 main_v256 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v212 main_v257 (broadcastInDim S1x20x1x300 ![1, 3] bcast_S20x300_S1x20x1x300_1_3 : (⟨S20x300, .f32⟩ : BufTy).Contents (Elt F) → (⟨S1x20x1x300, .f32⟩ : BufTy).Contents (Elt F)),
    unary main_v256 main_v258 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v257 main_v259 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v258 main_v259 main_v260 (mulf : (⟨S32x20x64x300, .f32⟩ : BufTy).Contents (Elt F) → (⟨S32x20x64x300, .f32⟩ : BufTy).Contents (Elt F) → (⟨S32x20x64x300, .f32⟩ : BufTy).Contents (Elt F)),
    binary main_v255 main_v260 main_v261 (mulf : (⟨S32x20x64x300, .f32⟩ : BufTy).Contents (Elt F) → (⟨S32x20x64x300, .f32⟩ : BufTy).Contents (Elt F) → (⟨S32x20x64x300, .f32⟩ : BufTy).Contents (Elt F)),
    nullary main_cst_21 (constant S_ .f32 0x00000000#32),
    binary main_v261 main_cst_21 main_v262 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v255) (TRef.of (T := ⟨S32x20x64x300, .f32⟩) main_v255) (TRef.of (T := ⟨S32x20x64x300, .f32⟩) main_call22_v0) mulf,
    TRef.nullary (TRef.of (T := ⟨S_, .f32⟩) main_call22_cst) (constant S_ .f32 0x00000000#32),
    TRef.binary (TRef.of (T := ⟨S32x20x64x300, .f32⟩) main_call22_v0) (TRef.of (T := ⟨S_, .f32⟩) main_call22_cst) (TRef.of (T := ⟨S32x20x64, .f32⟩) main_call22_v1) (fun x v => Host.reduceAdd x v reducesTo_S32x20x64x300_S32x20x64_d3 h_S_),
    TRef.unary (TRef.of (T := ⟨S32x20x64, .f32⟩) main_call22_v1) (TRef.of (T := ⟨S32x20x64, .f32⟩) main_v263) Host.sqrt,
    TRef.binary (TRef.of (T := ⟨S32x20x64x300, .f32⟩) main_v260) (TRef.of (T := ⟨S32x20x64x300, .f32⟩) main_v260) (TRef.of (T := ⟨S32x20x64x300, .f32⟩) main_call23_v0) mulf,
    TRef.nullary (TRef.of (T := ⟨S_, .f32⟩) main_call23_cst) (constant S_ .f32 0x00000000#32),
    TRef.binary (TRef.of (T := ⟨S32x20x64x300, .f32⟩) main_call23_v0) (TRef.of (T := ⟨S_, .f32⟩) main_call23_cst) (TRef.of (T := ⟨S32x20x64, .f32⟩) main_call23_v1) (fun x v => Host.reduceAdd x v reducesTo_S32x20x64x300_S32x20x64_d3 h_S_),
    TRef.unary (TRef.of (T := ⟨S32x20x64, .f32⟩) main_call23_v1) (TRef.of (T := ⟨S32x20x64, .f32⟩) main_v264) Host.sqrt,
    binary main_v263 main_v264 main_v265 (mulf : (⟨S32x20x64, .f32⟩ : BufTy).Contents (Elt F) → (⟨S32x20x64, .f32⟩ : BufTy).Contents (Elt F) → (⟨S32x20x64, .f32⟩ : BufTy).Contents (Elt F)),
    nullary main_cst_22 (constant S_ .f32 0x322BCC77#32),
    unary main_cst_22 main_v266 (broadcastInDim S32x20x64 ![] bcast_S_S32x20x64 : (⟨S_, .f32⟩ : BufTy).Contents (Elt F) → (⟨S32x20x64, .f32⟩ : BufTy).Contents (Elt F)),
    binary main_v265 main_v266 main_v267 (maximumf : (⟨S32x20x64, .f32⟩ : BufTy).Contents (Elt F) → (⟨S32x20x64, .f32⟩ : BufTy).Contents (Elt F) → (⟨S32x20x64, .f32⟩ : BufTy).Contents (Elt F)),
    binary main_v262 main_v267 main_v268 (Host.divf : (⟨S32x20x64, .f32⟩ : BufTy).Contents (Elt F) → (⟨S32x20x64, .f32⟩ : BufTy).Contents (Elt F) → (⟨S32x20x64, .f32⟩ : BufTy).Contents (Elt F)),
    unary main_v268 main_v269 ((transpose S32x64x20 [0, 2, 1] · transposes_S32x20x64_S32x64x20_0_2_1) : (⟨S32x20x64, .f32⟩ : BufTy).Contents (Elt F) → (⟨S32x64x20, .f32⟩ : BufTy).Contents (Elt F)),
    unary main_arg2 main_v270 ((extractStridedSlice S1x20x300 ![6, 0, 0] · slices_S8x20x300_S1x20x300_6_0_0) : (⟨S8x20x300, .f32⟩ : BufTy).Contents (Elt F) → (⟨S1x20x300, .f32⟩ : BufTy).Contents (Elt F)),
    reshape main_v270 main_v271 rfl shapeCasts_S1x20x300_S20x300,
    TRef.binary (TRef.of (T := ⟨S32x64x300, .f32⟩) main_v0) (TRef.of (T := ⟨S32x64x300, .f32⟩) main_v0) (TRef.of (T := ⟨S32x64x300, .f32⟩) main_call24_v0) mulf,
    TRef.nullary (TRef.of (T := ⟨S_, .f32⟩) main_call24_cst) (constant S_ .f32 0x00000000#32),
    TRef.binary (TRef.of (T := ⟨S32x64x300, .f32⟩) main_call24_v0) (TRef.of (T := ⟨S_, .f32⟩) main_call24_cst) (TRef.of (T := ⟨S32x64, .f32⟩) main_call24_v1) (fun x v => Host.reduceAdd x v reducesTo_S32x64x300_S32x64_d2 h_S_),
    TRef.unary (TRef.of (T := ⟨S32x64, .f32⟩) main_call24_v1) (TRef.of (T := ⟨S32x64, .f32⟩) main_v272) Host.sqrt,
    TRef.binary (TRef.of (T := ⟨S32x64x300, .f32⟩) main_v2) (TRef.of (T := ⟨S32x64x300, .f32⟩) main_v2) (TRef.of (T := ⟨S32x64x300, .f32⟩) main_call25_v0) mulf,
    TRef.nullary (TRef.of (T := ⟨S_, .f32⟩) main_call25_cst) (constant S_ .f32 0x00000000#32),
    TRef.binary (TRef.of (T := ⟨S32x64x300, .f32⟩) main_call25_v0) (TRef.of (T := ⟨S_, .f32⟩) main_call25_cst) (TRef.of (T := ⟨S32x64, .f32⟩) main_call25_v1) (fun x v => Host.reduceAdd x v reducesTo_S32x64x300_S32x64_d2 h_S_),
    TRef.unary (TRef.of (T := ⟨S32x64, .f32⟩) main_call25_v1) (TRef.of (T := ⟨S32x64, .f32⟩) main_v273) Host.sqrt,
    binary main_v0 main_v2 main_v274 ((fun l r => Host.dotGeneral dot_S32x64x300_S32x64x300_S32x64x64_2_2_1_1_0_0 none l r) : (⟨S32x64x300, .f32⟩ : BufTy).Contents (Elt F) → (⟨S32x64x300, .f32⟩ : BufTy).Contents (Elt F) → (⟨S32x64x64, .f32⟩ : BufTy).Contents (Elt F)),
    unary main_v272 main_v275 (broadcastInDim S32x64x1 ![0, 1] bcast_S32x64_S32x64x1_0_1 : (⟨S32x64, .f32⟩ : BufTy).Contents (Elt F) → (⟨S32x64x1, .f32⟩ : BufTy).Contents (Elt F)) ]

set_option maxHeartbeats 4000000 in
theorem part4_eq (d : Dev nD) : main_part4 (F := F) d = seq P4 := rfl

/-- The operations of printed part 5. -/
abbrev P5 : List (HloOp τ sig (Elt F)) :=
  [ unary main_v273 main_v276 (broadcastInDim S32x1x64 ![0, 2] bcast_S32x64_S32x1x64_0_2 : (⟨S32x64, .f32⟩ : BufTy).Contents (Elt F) → (⟨S32x1x64, .f32⟩ : BufTy).Contents (Elt F)),
    unary main_v275 main_v277 (broadcastInDim S32x64x64 ![0, 1, 2] bcast_S32x64x1_S32x64x64_0_1_2 : (⟨S32x64x1, .f32⟩ : BufTy).Contents (Elt F) → (⟨S32x64x64, .f32⟩ : BufTy).Contents (Elt F)),
    unary main_v276 main_v278 (broadcastInDim S32x64x64 ![0, 1, 2] bcast_S32x1x64_S32x64x64_0_1_2 : (⟨S32x1x64, .f32⟩ : BufTy).Contents (Elt F) → (⟨S32x64x64, .f32⟩ : BufTy).Contents (Elt F)),
    binary main_v277 main_v278 main_v279 (mulf : (⟨S32x64x64, .f32⟩ : BufTy).Contents (Elt F) → (⟨S32x64x64, .f32⟩ : BufTy).Contents (Elt F) → (⟨S32x64x64, .f32⟩ : BufTy).Contents (Elt F)),
    binary main_v274 main_v279 main_v280 (Host.divf : (⟨S32x64x64, .f32⟩ : BufTy).Contents (Elt F) → (⟨S32x64x64, .f32⟩ : BufTy).Contents (Elt F) → (⟨S32x64x64, .f32⟩ : BufTy).Contents (Elt F)),
    unary main_v0 main_v281 (broadcastInDim S32x64x1x300 ![0, 1, 3] bcast_S32x64x300_S32x64x1x300_0_1_3 : (⟨S32x64x300, .f32⟩ : BufTy).Contents (Elt F) → (⟨S32x64x1x300, .f32⟩ : BufTy).Contents (Elt F)),
    unary main_v280 main_v282 (broadcastInDim S32x64x64x1 ![0, 1, 2] bcast_S32x64x64_S32x64x64x1_0_1_2 : (⟨S32x64x64, .f32⟩ : BufTy).Contents (Elt F) → (⟨S32x64x64x1, .f32⟩ : BufTy).Contents (Elt F)),
    unary main_v281 main_v283 (broadcastInDim S32x64x64x300 ![0, 1, 2, 3] bcast_S32x64x1x300_S32x64x64x300_0_1_2_3 : (⟨S32x64x1x300, .f32⟩ : BufTy).Contents (Elt F) → (⟨S32x64x64x300, .f32⟩ : BufTy).Contents (Elt F)),
    unary main_v282 main_v284 (broadcastInDim S32x64x64x300 ![0, 1, 2, 3] bcast_S32x64x64x1_S32x64x64x300_0_1_2_3 : (⟨S32x64x64x1, .f32⟩ : BufTy).Contents (Elt F) → (⟨S32x64x64x300, .f32⟩ : BufTy).Contents (Elt F)),
    binary main_v283 main_v284 main_v285 (mulf : (⟨S32x64x64x300, .f32⟩ : BufTy).Contents (Elt F) → (⟨S32x64x64x300, .f32⟩ : BufTy).Contents (Elt F) → (⟨S32x64x64x300, .f32⟩ : BufTy).Contents (Elt F)),
    nullary main_cst_23 (constant S_ .f32 0xFF800000#32),
    binary main_v285 main_cst_23 main_v286 ((fun x v => Host.reduce FloatOps.maximumf x v reducesTo_S32x64x64x300_S32x64x300_d1 h_S_) : (⟨S32x64x64x300, .f32⟩ : BufTy).Contents (Elt F) → (⟨S_, .f32⟩ : BufTy).Contents (Elt F) → (⟨S32x64x300, .f32⟩ : BufTy).Contents (Elt F)),
    unary main_v2 main_v287 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v280 main_v288 (broadcastInDim S32x64x64x1 ![0, 1, 2] bcast_S32x64x64_S32x64x64x1_0_1_2 : (⟨S32x64x64, .f32⟩ : BufTy).Contents (Elt F) → (⟨S32x64x64x1, .f32⟩ : BufTy).Contents (Elt F)),
    unary main_v287 main_v289 (broadcastInDim S32x64x64x300 ![0, 1, 2, 3] bcast_S32x1x64x300_S32x64x64x300_0_1_2_3 : (⟨S32x1x64x300, .f32⟩ : BufTy).Contents (Elt F) → (⟨S32x64x64x300, .f32⟩ : BufTy).Contents (Elt F)),
    unary main_v288 main_v290 (broadcastInDim S32x64x64x300 ![0, 1, 2, 3] bcast_S32x64x64x1_S32x64x64x300_0_1_2_3 : (⟨S32x64x64x1, .f32⟩ : BufTy).Contents (Elt F) → (⟨S32x64x64x300, .f32⟩ : BufTy).Contents (Elt F)),
    binary main_v289 main_v290 main_v291 (mulf : (⟨S32x64x64x300, .f32⟩ : BufTy).Contents (Elt F) → (⟨S32x64x64x300, .f32⟩ : BufTy).Contents (Elt F) → (⟨S32x64x64x300, .f32⟩ : BufTy).Contents (Elt F)),
    nullary main_cst_24 (constant S_ .f32 0xFF800000#32),
    binary main_v291 main_cst_24 main_v292 ((fun x v => Host.reduce FloatOps.maximumf x v reducesTo_S32x64x64x300_S32x64x300_d2 h_S_) : (⟨S32x64x64x300, .f32⟩ : BufTy).Contents (Elt F) → (⟨S_, .f32⟩ : BufTy).Contents (Elt F) → (⟨S32x64x300, .f32⟩ : BufTy).Contents (Elt F)),
    unary main_v0 main_v293 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v271 main_v294 (broadcastInDim S1x20x1x300 ![1, 3] bcast_S20x300_S1x20x1x300_1_3 : (⟨S20x300, .f32⟩ : BufTy).Contents (Elt F) → (⟨S1x20x1x300, .f32⟩ : BufTy).Contents (Elt F)),
    unary main_v293 main_v295 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v294 main_v296 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v295 main_v296 main_v297 (mulf : (⟨S32x20x64x300, .f32⟩ : BufTy).Contents (Elt F) → (⟨S32x20x64x300, .f32⟩ : BufTy).Contents (Elt F) → (⟨S32x20x64x300, .f32⟩ : BufTy).Contents (Elt F)),
    unary main_v292 main_v298 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v271 main_v299 (broadcastInDim S1x20x1x300 ![1, 3] bcast_S20x300_S1x20x1x300_1_3 : (⟨S20x300, .f32⟩ : BufTy).Contents (Elt F) → (⟨S1x20x1x300, .f32⟩ : BufTy).Contents (Elt F)),
    unary main_v298 main_v300 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v299 main_v301 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v300 main_v301 main_v302 (mulf : (⟨S32x20x64x300, .f32⟩ : BufTy).Contents (Elt F) → (⟨S32x20x64x300, .f32⟩ : BufTy).Contents (Elt F) → (⟨S32x20x64x300, .f32⟩ : BufTy).Contents (Elt F)),
    binary main_v297 main_v302 main_v303 (mulf : (⟨S32x20x64x300, .f32⟩ : BufTy).Contents (Elt F) → (⟨S32x20x64x300, .f32⟩ : BufTy).Contents (Elt F) → (⟨S32x20x64x300, .f32⟩ : BufTy).Contents (Elt F)),
    nullary main_cst_25 (constant S_ .f32 0x00000000#32),
    binary main_v303 main_cst_25 main_v304 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v297) (TRef.of (T := ⟨S32x20x64x300, .f32⟩) main_v297) (TRef.of (T := ⟨S32x20x64x300, .f32⟩) main_call26_v0) mulf,
    TRef.nullary (TRef.of (T := ⟨S_, .f32⟩) main_call26_cst) (constant S_ .f32 0x00000000#32),
    TRef.binary (TRef.of (T := ⟨S32x20x64x300, .f32⟩) main_call26_v0) (TRef.of (T := ⟨S_, .f32⟩) main_call26_cst) (TRef.of (T := ⟨S32x20x64, .f32⟩) main_call26_v1) (fun x v => Host.reduceAdd x v reducesTo_S32x20x64x300_S32x20x64_d3 h_S_),
    TRef.unary (TRef.of (T := ⟨S32x20x64, .f32⟩) main_call26_v1) (TRef.of (T := ⟨S32x20x64, .f32⟩) main_v305) Host.sqrt,
    TRef.binary (TRef.of (T := ⟨S32x20x64x300, .f32⟩) main_v302) (TRef.of (T := ⟨S32x20x64x300, .f32⟩) main_v302) (TRef.of (T := ⟨S32x20x64x300, .f32⟩) main_call27_v0) mulf,
    TRef.nullary (TRef.of (T := ⟨S_, .f32⟩) main_call27_cst) (constant S_ .f32 0x00000000#32),
    TRef.binary (TRef.of (T := ⟨S32x20x64x300, .f32⟩) main_call27_v0) (TRef.of (T := ⟨S_, .f32⟩) main_call27_cst) (TRef.of (T := ⟨S32x20x64, .f32⟩) main_call27_v1) (fun x v => Host.reduceAdd x v reducesTo_S32x20x64x300_S32x20x64_d3 h_S_),
    TRef.unary (TRef.of (T := ⟨S32x20x64, .f32⟩) main_call27_v1) (TRef.of (T := ⟨S32x20x64, .f32⟩) main_v306) Host.sqrt,
    binary main_v305 main_v306 main_v307 (mulf : (⟨S32x20x64, .f32⟩ : BufTy).Contents (Elt F) → (⟨S32x20x64, .f32⟩ : BufTy).Contents (Elt F) → (⟨S32x20x64, .f32⟩ : BufTy).Contents (Elt F)),
    nullary main_cst_26 (constant S_ .f32 0x322BCC77#32),
    unary main_cst_26 main_v308 (broadcastInDim S32x20x64 ![] bcast_S_S32x20x64 : (⟨S_, .f32⟩ : BufTy).Contents (Elt F) → (⟨S32x20x64, .f32⟩ : BufTy).Contents (Elt F)),
    binary main_v307 main_v308 main_v309 (maximumf : (⟨S32x20x64, .f32⟩ : BufTy).Contents (Elt F) → (⟨S32x20x64, .f32⟩ : BufTy).Contents (Elt F) → (⟨S32x20x64, .f32⟩ : BufTy).Contents (Elt F)),
    binary main_v304 main_v309 main_v310 (Host.divf : (⟨S32x20x64, .f32⟩ : BufTy).Contents (Elt F) → (⟨S32x20x64, .f32⟩ : BufTy).Contents (Elt F) → (⟨S32x20x64, .f32⟩ : BufTy).Contents (Elt F)),
    unary main_v310 main_v311 ((transpose S32x64x20 [0, 2, 1] · transposes_S32x20x64_S32x64x20_0_2_1) : (⟨S32x20x64, .f32⟩ : BufTy).Contents (Elt F) → (⟨S32x64x20, .f32⟩ : BufTy).Contents (Elt F)),
    unary main_v2 main_v312 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v271 main_v313 (broadcastInDim S1x20x1x300 ![1, 3] bcast_S20x300_S1x20x1x300_1_3 : (⟨S20x300, .f32⟩ : BufTy).Contents (Elt F) → (⟨S1x20x1x300, .f32⟩ : BufTy).Contents (Elt F)),
    unary main_v312 main_v314 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v313 main_v315 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v314 main_v315 main_v316 (mulf : (⟨S32x20x64x300, .f32⟩ : BufTy).Contents (Elt F) → (⟨S32x20x64x300, .f32⟩ : BufTy).Contents (Elt F) → (⟨S32x20x64x300, .f32⟩ : BufTy).Contents (Elt F)),
    unary main_v286 main_v317 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v271 main_v318 (broadcastInDim S1x20x1x300 ![1, 3] bcast_S20x300_S1x20x1x300_1_3 : (⟨S20x300, .f32⟩ : BufTy).Contents (Elt F) → (⟨S1x20x1x300, .f32⟩ : BufTy).Contents (Elt F)),
    unary main_v317 main_v319 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v318 main_v320 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v319 main_v320 main_v321 (mulf : (⟨S32x20x64x300, .f32⟩ : BufTy).Contents (Elt F) → (⟨S32x20x64x300, .f32⟩ : BufTy).Contents (Elt F) → (⟨S32x20x64x300, .f32⟩ : BufTy).Contents (Elt F)),
    binary main_v316 main_v321 main_v322 (mulf : (⟨S32x20x64x300, .f32⟩ : BufTy).Contents (Elt F) → (⟨S32x20x64x300, .f32⟩ : BufTy).Contents (Elt F) → (⟨S32x20x64x300, .f32⟩ : BufTy).Contents (Elt F)),
    nullary main_cst_27 (constant S_ .f32 0x00000000#32),
    binary main_v322 main_cst_27 main_v323 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v316) (TRef.of (T := ⟨S32x20x64x300, .f32⟩) main_v316) (TRef.of (T := ⟨S32x20x64x300, .f32⟩) main_call28_v0) mulf,
    TRef.nullary (TRef.of (T := ⟨S_, .f32⟩) main_call28_cst) (constant S_ .f32 0x00000000#32),
    TRef.binary (TRef.of (T := ⟨S32x20x64x300, .f32⟩) main_call28_v0) (TRef.of (T := ⟨S_, .f32⟩) main_call28_cst) (TRef.of (T := ⟨S32x20x64, .f32⟩) main_call28_v1) (fun x v => Host.reduceAdd x v reducesTo_S32x20x64x300_S32x20x64_d3 h_S_),
    TRef.unary (TRef.of (T := ⟨S32x20x64, .f32⟩) main_call28_v1) (TRef.of (T := ⟨S32x20x64, .f32⟩) main_v324) Host.sqrt,
    TRef.binary (TRef.of (T := ⟨S32x20x64x300, .f32⟩) main_v321) (TRef.of (T := ⟨S32x20x64x300, .f32⟩) main_v321) (TRef.of (T := ⟨S32x20x64x300, .f32⟩) main_call29_v0) mulf,
    TRef.nullary (TRef.of (T := ⟨S_, .f32⟩) main_call29_cst) (constant S_ .f32 0x00000000#32),
    TRef.binary (TRef.of (T := ⟨S32x20x64x300, .f32⟩) main_call29_v0) (TRef.of (T := ⟨S_, .f32⟩) main_call29_cst) (TRef.of (T := ⟨S32x20x64, .f32⟩) main_call29_v1) (fun x v => Host.reduceAdd x v reducesTo_S32x20x64x300_S32x20x64_d3 h_S_),
    TRef.unary (TRef.of (T := ⟨S32x20x64, .f32⟩) main_call29_v1) (TRef.of (T := ⟨S32x20x64, .f32⟩) main_v325) Host.sqrt,
    binary main_v324 main_v325 main_v326 (mulf : (⟨S32x20x64, .f32⟩ : BufTy).Contents (Elt F) → (⟨S32x20x64, .f32⟩ : BufTy).Contents (Elt F) → (⟨S32x20x64, .f32⟩ : BufTy).Contents (Elt F)),
    nullary main_cst_28 (constant S_ .f32 0x322BCC77#32),
    unary main_cst_28 main_v327 (broadcastInDim S32x20x64 ![] bcast_S_S32x20x64 : (⟨S_, .f32⟩ : BufTy).Contents (Elt F) → (⟨S32x20x64, .f32⟩ : BufTy).Contents (Elt F)),
    binary main_v326 main_v327 main_v328 (maximumf : (⟨S32x20x64, .f32⟩ : BufTy).Contents (Elt F) → (⟨S32x20x64, .f32⟩ : BufTy).Contents (Elt F) → (⟨S32x20x64, .f32⟩ : BufTy).Contents (Elt F)),
    binary main_v323 main_v328 main_v329 (Host.divf : (⟨S32x20x64, .f32⟩ : BufTy).Contents (Elt F) → (⟨S32x20x64, .f32⟩ : BufTy).Contents (Elt F) → (⟨S32x20x64, .f32⟩ : BufTy).Contents (Elt F)) ]

set_option maxHeartbeats 4000000 in
theorem part5_eq (d : Dev nD) : main_part5 (F := F) d = seq P5 := rfl

/-- The operations of printed part 6. -/
abbrev P6 : List (HloOp τ sig (Elt F)) :=
  [ unary main_v329 main_v330 ((transpose S32x64x20 [0, 2, 1] · transposes_S32x20x64_S32x64x20_0_2_1) : (⟨S32x20x64, .f32⟩ : BufTy).Contents (Elt F) → (⟨S32x64x20, .f32⟩ : BufTy).Contents (Elt F)),
    unary main_arg2 main_v331 ((extractStridedSlice S1x20x300 ![7, 0, 0] · slices_S8x20x300_S1x20x300_7_0_0) : (⟨S8x20x300, .f32⟩ : BufTy).Contents (Elt F) → (⟨S1x20x300, .f32⟩ : BufTy).Contents (Elt F)),
    reshape main_v331 main_v332 rfl shapeCasts_S1x20x300_S20x300,
    TRef.binary (TRef.of (T := ⟨S32x64x300, .f32⟩) main_v1) (TRef.of (T := ⟨S32x64x300, .f32⟩) main_v1) (TRef.of (T := ⟨S32x64x300, .f32⟩) main_call30_v0) mulf,
    TRef.nullary (TRef.of (T := ⟨S_, .f32⟩) main_call30_cst) (constant S_ .f32 0x00000000#32),
    TRef.binary (TRef.of (T := ⟨S32x64x300, .f32⟩) main_call30_v0) (TRef.of (T := ⟨S_, .f32⟩) main_call30_cst) (TRef.of (T := ⟨S32x64, .f32⟩) main_call30_v1) (fun x v => Host.reduceAdd x v reducesTo_S32x64x300_S32x64_d2 h_S_),
    TRef.unary (TRef.of (T := ⟨S32x64, .f32⟩) main_call30_v1) (TRef.of (T := ⟨S32x64, .f32⟩) main_v333) Host.sqrt,
    TRef.binary (TRef.of (T := ⟨S32x64x300, .f32⟩) main_v3) (TRef.of (T := ⟨S32x64x300, .f32⟩) main_v3) (TRef.of (T := ⟨S32x64x300, .f32⟩) main_call31_v0) mulf,
    TRef.nullary (TRef.of (T := ⟨S_, .f32⟩) main_call31_cst) (constant S_ .f32 0x00000000#32),
    TRef.binary (TRef.of (T := ⟨S32x64x300, .f32⟩) main_call31_v0) (TRef.of (T := ⟨S_, .f32⟩) main_call31_cst) (TRef.of (T := ⟨S32x64, .f32⟩) main_call31_v1) (fun x v => Host.reduceAdd x v reducesTo_S32x64x300_S32x64_d2 h_S_),
    TRef.unary (TRef.of (T := ⟨S32x64, .f32⟩) main_call31_v1) (TRef.of (T := ⟨S32x64, .f32⟩) main_v334) Host.sqrt,
    binary main_v1 main_v3 main_v335 ((fun l r => Host.dotGeneral dot_S32x64x300_S32x64x300_S32x64x64_2_2_1_1_0_0 none l r) : (⟨S32x64x300, .f32⟩ : BufTy).Contents (Elt F) → (⟨S32x64x300, .f32⟩ : BufTy).Contents (Elt F) → (⟨S32x64x64, .f32⟩ : BufTy).Contents (Elt F)),
    unary main_v333 main_v336 (broadcastInDim S32x64x1 ![0, 1] bcast_S32x64_S32x64x1_0_1 : (⟨S32x64, .f32⟩ : BufTy).Contents (Elt F) → (⟨S32x64x1, .f32⟩ : BufTy).Contents (Elt F)),
    unary main_v334 main_v337 (broadcastInDim S32x1x64 ![0, 2] bcast_S32x64_S32x1x64_0_2 : (⟨S32x64, .f32⟩ : BufTy).Contents (Elt F) → (⟨S32x1x64, .f32⟩ : BufTy).Contents (Elt F)),
    unary main_v336 main_v338 (broadcastInDim S32x64x64 ![0, 1, 2] bcast_S32x64x1_S32x64x64_0_1_2 : (⟨S32x64x1, .f32⟩ : BufTy).Contents (Elt F) → (⟨S32x64x64, .f32⟩ : BufTy).Contents (Elt F)),
    unary main_v337 main_v339 (broadcastInDim S32x64x64 ![0, 1, 2] bcast_S32x1x64_S32x64x64_0_1_2 : (⟨S32x1x64, .f32⟩ : BufTy).Contents (Elt F) → (⟨S32x64x64, .f32⟩ : BufTy).Contents (Elt F)),
    binary main_v338 main_v339 main_v340 (mulf : (⟨S32x64x64, .f32⟩ : BufTy).Contents (Elt F) → (⟨S32x64x64, .f32⟩ : BufTy).Contents (Elt F) → (⟨S32x64x64, .f32⟩ : BufTy).Contents (Elt F)),
    binary main_v335 main_v340 main_v341 (Host.divf : (⟨S32x64x64, .f32⟩ : BufTy).Contents (Elt F) → (⟨S32x64x64, .f32⟩ : BufTy).Contents (Elt F) → (⟨S32x64x64, .f32⟩ : BufTy).Contents (Elt F)),
    unary main_v1 main_v342 (broadcastInDim S32x64x1x300 ![0, 1, 3] bcast_S32x64x300_S32x64x1x300_0_1_3 : (⟨S32x64x300, .f32⟩ : BufTy).Contents (Elt F) → (⟨S32x64x1x300, .f32⟩ : BufTy).Contents (Elt F)),
    unary main_v341 main_v343 (broadcastInDim S32x64x64x1 ![0, 1, 2] bcast_S32x64x64_S32x64x64x1_0_1_2 : (⟨S32x64x64, .f32⟩ : BufTy).Contents (Elt F) → (⟨S32x64x64x1, .f32⟩ : BufTy).Contents (Elt F)),
    unary main_v342 main_v344 (broadcastInDim S32x64x64x300 ![0, 1, 2, 3] bcast_S32x64x1x300_S32x64x64x300_0_1_2_3 : (⟨S32x64x1x300, .f32⟩ : BufTy).Contents (Elt F) → (⟨S32x64x64x300, .f32⟩ : BufTy).Contents (Elt F)),
    unary main_v343 main_v345 (broadcastInDim S32x64x64x300 ![0, 1, 2, 3] bcast_S32x64x64x1_S32x64x64x300_0_1_2_3 : (⟨S32x64x64x1, .f32⟩ : BufTy).Contents (Elt F) → (⟨S32x64x64x300, .f32⟩ : BufTy).Contents (Elt F)),
    binary main_v344 main_v345 main_v346 (mulf : (⟨S32x64x64x300, .f32⟩ : BufTy).Contents (Elt F) → (⟨S32x64x64x300, .f32⟩ : BufTy).Contents (Elt F) → (⟨S32x64x64x300, .f32⟩ : BufTy).Contents (Elt F)),
    nullary main_cst_29 (constant S_ .f32 0xFF800000#32),
    binary main_v346 main_cst_29 main_v347 ((fun x v => Host.reduce FloatOps.maximumf x v reducesTo_S32x64x64x300_S32x64x300_d1 h_S_) : (⟨S32x64x64x300, .f32⟩ : BufTy).Contents (Elt F) → (⟨S_, .f32⟩ : BufTy).Contents (Elt F) → (⟨S32x64x300, .f32⟩ : BufTy).Contents (Elt F)),
    unary main_v3 main_v348 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v341 main_v349 (broadcastInDim S32x64x64x1 ![0, 1, 2] bcast_S32x64x64_S32x64x64x1_0_1_2 : (⟨S32x64x64, .f32⟩ : BufTy).Contents (Elt F) → (⟨S32x64x64x1, .f32⟩ : BufTy).Contents (Elt F)),
    unary main_v348 main_v350 (broadcastInDim S32x64x64x300 ![0, 1, 2, 3] bcast_S32x1x64x300_S32x64x64x300_0_1_2_3 : (⟨S32x1x64x300, .f32⟩ : BufTy).Contents (Elt F) → (⟨S32x64x64x300, .f32⟩ : BufTy).Contents (Elt F)),
    unary main_v349 main_v351 (broadcastInDim S32x64x64x300 ![0, 1, 2, 3] bcast_S32x64x64x1_S32x64x64x300_0_1_2_3 : (⟨S32x64x64x1, .f32⟩ : BufTy).Contents (Elt F) → (⟨S32x64x64x300, .f32⟩ : BufTy).Contents (Elt F)),
    binary main_v350 main_v351 main_v352 (mulf : (⟨S32x64x64x300, .f32⟩ : BufTy).Contents (Elt F) → (⟨S32x64x64x300, .f32⟩ : BufTy).Contents (Elt F) → (⟨S32x64x64x300, .f32⟩ : BufTy).Contents (Elt F)),
    nullary main_cst_30 (constant S_ .f32 0xFF800000#32),
    binary main_v352 main_cst_30 main_v353 ((fun x v => Host.reduce FloatOps.maximumf x v reducesTo_S32x64x64x300_S32x64x300_d2 h_S_) : (⟨S32x64x64x300, .f32⟩ : BufTy).Contents (Elt F) → (⟨S_, .f32⟩ : BufTy).Contents (Elt F) → (⟨S32x64x300, .f32⟩ : BufTy).Contents (Elt F)),
    unary main_v1 main_v354 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v332 main_v355 (broadcastInDim S1x20x1x300 ![1, 3] bcast_S20x300_S1x20x1x300_1_3 : (⟨S20x300, .f32⟩ : BufTy).Contents (Elt F) → (⟨S1x20x1x300, .f32⟩ : BufTy).Contents (Elt F)),
    unary main_v354 main_v356 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v355 main_v357 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v356 main_v357 main_v358 (mulf : (⟨S32x20x64x300, .f32⟩ : BufTy).Contents (Elt F) → (⟨S32x20x64x300, .f32⟩ : BufTy).Contents (Elt F) → (⟨S32x20x64x300, .f32⟩ : BufTy).Contents (Elt F)),
    unary main_v353 main_v359 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v332 main_v360 (broadcastInDim S1x20x1x300 ![1, 3] bcast_S20x300_S1x20x1x300_1_3 : (⟨S20x300, .f32⟩ : BufTy).Contents (Elt F) → (⟨S1x20x1x300, .f32⟩ : BufTy).Contents (Elt F)),
    unary main_v359 main_v361 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v360 main_v362 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v361 main_v362 main_v363 (mulf : (⟨S32x20x64x300, .f32⟩ : BufTy).Contents (Elt F) → (⟨S32x20x64x300, .f32⟩ : BufTy).Contents (Elt F) → (⟨S32x20x64x300, .f32⟩ : BufTy).Contents (Elt F)),
    binary main_v358 main_v363 main_v364 (mulf : (⟨S32x20x64x300, .f32⟩ : BufTy).Contents (Elt F) → (⟨S32x20x64x300, .f32⟩ : BufTy).Contents (Elt F) → (⟨S32x20x64x300, .f32⟩ : BufTy).Contents (Elt F)),
    nullary main_cst_31 (constant S_ .f32 0x00000000#32),
    binary main_v364 main_cst_31 main_v365 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)),
    TRef.binary (TRef.of (T := ⟨S32x20x64x300, .f32⟩) main_v358) (TRef.of (T := ⟨S32x20x64x300, .f32⟩) main_v358) (TRef.of (T := ⟨S32x20x64x300, .f32⟩) main_call32_v0) mulf,
    TRef.nullary (TRef.of (T := ⟨S_, .f32⟩) main_call32_cst) (constant S_ .f32 0x00000000#32),
    TRef.binary (TRef.of (T := ⟨S32x20x64x300, .f32⟩) main_call32_v0) (TRef.of (T := ⟨S_, .f32⟩) main_call32_cst) (TRef.of (T := ⟨S32x20x64, .f32⟩) main_call32_v1) (fun x v => Host.reduceAdd x v reducesTo_S32x20x64x300_S32x20x64_d3 h_S_),
    TRef.unary (TRef.of (T := ⟨S32x20x64, .f32⟩) main_call32_v1) (TRef.of (T := ⟨S32x20x64, .f32⟩) main_v366) Host.sqrt,
    TRef.binary (TRef.of (T := ⟨S32x20x64x300, .f32⟩) main_v363) (TRef.of (T := ⟨S32x20x64x300, .f32⟩) main_v363) (TRef.of (T := ⟨S32x20x64x300, .f32⟩) main_call33_v0) mulf,
    TRef.nullary (TRef.of (T := ⟨S_, .f32⟩) main_call33_cst) (constant S_ .f32 0x00000000#32),
    TRef.binary (TRef.of (T := ⟨S32x20x64x300, .f32⟩) main_call33_v0) (TRef.of (T := ⟨S_, .f32⟩) main_call33_cst) (TRef.of (T := ⟨S32x20x64, .f32⟩) main_call33_v1) (fun x v => Host.reduceAdd x v reducesTo_S32x20x64x300_S32x20x64_d3 h_S_),
    TRef.unary (TRef.of (T := ⟨S32x20x64, .f32⟩) main_call33_v1) (TRef.of (T := ⟨S32x20x64, .f32⟩) main_v367) Host.sqrt,
    binary main_v366 main_v367 main_v368 (mulf : (⟨S32x20x64, .f32⟩ : BufTy).Contents (Elt F) → (⟨S32x20x64, .f32⟩ : BufTy).Contents (Elt F) → (⟨S32x20x64, .f32⟩ : BufTy).Contents (Elt F)),
    nullary main_cst_32 (constant S_ .f32 0x322BCC77#32),
    unary main_cst_32 main_v369 (broadcastInDim S32x20x64 ![] bcast_S_S32x20x64 : (⟨S_, .f32⟩ : BufTy).Contents (Elt F) → (⟨S32x20x64, .f32⟩ : BufTy).Contents (Elt F)),
    binary main_v368 main_v369 main_v370 (maximumf : (⟨S32x20x64, .f32⟩ : BufTy).Contents (Elt F) → (⟨S32x20x64, .f32⟩ : BufTy).Contents (Elt F) → (⟨S32x20x64, .f32⟩ : BufTy).Contents (Elt F)),
    binary main_v365 main_v370 main_v371 (Host.divf : (⟨S32x20x64, .f32⟩ : BufTy).Contents (Elt F) → (⟨S32x20x64, .f32⟩ : BufTy).Contents (Elt F) → (⟨S32x20x64, .f32⟩ : BufTy).Contents (Elt F)),
    unary main_v371 main_v372 ((transpose S32x64x20 [0, 2, 1] · transposes_S32x20x64_S32x64x20_0_2_1) : (⟨S32x20x64, .f32⟩ : BufTy).Contents (Elt F) → (⟨S32x64x20, .f32⟩ : BufTy).Contents (Elt F)),
    unary main_v3 main_v373 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v332 main_v374 (broadcastInDim S1x20x1x300 ![1, 3] bcast_S20x300_S1x20x1x300_1_3 : (⟨S20x300, .f32⟩ : BufTy).Contents (Elt F) → (⟨S1x20x1x300, .f32⟩ : BufTy).Contents (Elt F)),
    unary main_v373 main_v375 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v374 main_v376 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v375 main_v376 main_v377 (mulf : (⟨S32x20x64x300, .f32⟩ : BufTy).Contents (Elt F) → (⟨S32x20x64x300, .f32⟩ : BufTy).Contents (Elt F) → (⟨S32x20x64x300, .f32⟩ : BufTy).Contents (Elt F)),
    unary main_v347 main_v378 (broadcastInDim S32x1x64x300 ![0, 2, 3] bcast_S32x64x300_S32x1x64x300_0_2_3 : (⟨S32x64x300, .f32⟩ : BufTy).Contents (Elt F) → (⟨S32x1x64x300, .f32⟩ : BufTy).Contents (Elt F)),
    unary main_v332 main_v379 (broadcastInDim S1x20x1x300 ![1, 3] bcast_S20x300_S1x20x1x300_1_3 : (⟨S20x300, .f32⟩ : BufTy).Contents (Elt F) → (⟨S1x20x1x300, .f32⟩ : BufTy).Contents (Elt F)),
    unary main_v378 main_v380 (broadcastInDim S32x20x64x300 ![0, 1, 2, 3] bcast_S32x1x64x300_S32x20x64x300_0_1_2_3 : (⟨S32x1x64x300, .f32⟩ : BufTy).Contents (Elt F) → (⟨S32x20x64x300, .f32⟩ : BufTy).Contents (Elt F)),
    unary main_v379 main_v381 (broadcastInDim S32x20x64x300 ![0, 1, 2, 3] bcast_S1x20x1x300_S32x20x64x300_0_1_2_3 : (⟨S1x20x1x300, .f32⟩ : BufTy).Contents (Elt F) → (⟨S32x20x64x300, .f32⟩ : BufTy).Contents (Elt F)),
    binary main_v380 main_v381 main_v382 (mulf : (⟨S32x20x64x300, .f32⟩ : BufTy).Contents (Elt F) → (⟨S32x20x64x300, .f32⟩ : BufTy).Contents (Elt F) → (⟨S32x20x64x300, .f32⟩ : BufTy).Contents (Elt F)),
    binary main_v377 main_v382 main_v383 (mulf : (⟨S32x20x64x300, .f32⟩ : BufTy).Contents (Elt F) → (⟨S32x20x64x300, .f32⟩ : BufTy).Contents (Elt F) → (⟨S32x20x64x300, .f32⟩ : BufTy).Contents (Elt F)),
    nullary main_cst_33 (constant S_ .f32 0x00000000#32),
    binary main_v383 main_cst_33 main_v384 ((fun x v => Host.reduceAdd x v reducesTo_S32x20x64x300_S32x20x64_d3 h_S_) : (⟨S32x20x64x300, .f32⟩ : BufTy).Contents (Elt F) → (⟨S_, .f32⟩ : BufTy).Contents (Elt F) → (⟨S32x20x64, .f32⟩ : BufTy).Contents (Elt F)) ]

set_option maxHeartbeats 4000000 in
theorem part6_eq (d : Dev nD) : main_part6 (F := F) d = seq P6 := rfl

/-- The operations of printed part 7. -/
abbrev P7 : List (HloOp τ sig (Elt F)) :=
  [ TRef.binary (TRef.of (T := ⟨S32x20x64x300, .f32⟩) main_v377) (TRef.of (T := ⟨S32x20x64x300, .f32⟩) main_v377) (TRef.of (T := ⟨S32x20x64x300, .f32⟩) main_call34_v0) mulf,
    TRef.nullary (TRef.of (T := ⟨S_, .f32⟩) main_call34_cst) (constant S_ .f32 0x00000000#32),
    TRef.binary (TRef.of (T := ⟨S32x20x64x300, .f32⟩) main_call34_v0) (TRef.of (T := ⟨S_, .f32⟩) main_call34_cst) (TRef.of (T := ⟨S32x20x64, .f32⟩) main_call34_v1) (fun x v => Host.reduceAdd x v reducesTo_S32x20x64x300_S32x20x64_d3 h_S_),
    TRef.unary (TRef.of (T := ⟨S32x20x64, .f32⟩) main_call34_v1) (TRef.of (T := ⟨S32x20x64, .f32⟩) main_v385) Host.sqrt,
    TRef.binary (TRef.of (T := ⟨S32x20x64x300, .f32⟩) main_v382) (TRef.of (T := ⟨S32x20x64x300, .f32⟩) main_v382) (TRef.of (T := ⟨S32x20x64x300, .f32⟩) main_call35_v0) mulf,
    TRef.nullary (TRef.of (T := ⟨S_, .f32⟩) main_call35_cst) (constant S_ .f32 0x00000000#32),
    TRef.binary (TRef.of (T := ⟨S32x20x64x300, .f32⟩) main_call35_v0) (TRef.of (T := ⟨S_, .f32⟩) main_call35_cst) (TRef.of (T := ⟨S32x20x64, .f32⟩) main_call35_v1) (fun x v => Host.reduceAdd x v reducesTo_S32x20x64x300_S32x20x64_d3 h_S_),
    TRef.unary (TRef.of (T := ⟨S32x20x64, .f32⟩) main_call35_v1) (TRef.of (T := ⟨S32x20x64, .f32⟩) main_v386) Host.sqrt,
    binary main_v385 main_v386 main_v387 (mulf : (⟨S32x20x64, .f32⟩ : BufTy).Contents (Elt F) → (⟨S32x20x64, .f32⟩ : BufTy).Contents (Elt F) → (⟨S32x20x64, .f32⟩ : BufTy).Contents (Elt F)),
    nullary main_cst_34 (constant S_ .f32 0x322BCC77#32),
    unary main_cst_34 main_v388 (broadcastInDim S32x20x64 ![] bcast_S_S32x20x64 : (⟨S_, .f32⟩ : BufTy).Contents (Elt F) → (⟨S32x20x64, .f32⟩ : BufTy).Contents (Elt F)),
    binary main_v387 main_v388 main_v389 (maximumf : (⟨S32x20x64, .f32⟩ : BufTy).Contents (Elt F) → (⟨S32x20x64, .f32⟩ : BufTy).Contents (Elt F) → (⟨S32x20x64, .f32⟩ : BufTy).Contents (Elt F)),
    binary main_v384 main_v389 main_v390 (Host.divf : (⟨S32x20x64, .f32⟩ : BufTy).Contents (Elt F) → (⟨S32x20x64, .f32⟩ : BufTy).Contents (Elt F) → (⟨S32x20x64, .f32⟩ : BufTy).Contents (Elt F)),
    unary main_v390 main_v391 ((transpose S32x64x20 [0, 2, 1] · transposes_S32x20x64_S32x64x20_0_2_1) : (⟨S32x20x64, .f32⟩ : BufTy).Contents (Elt F) → (⟨S32x64x20, .f32⟩ : BufTy).Contents (Elt F)),
    nary ![main_v28, main_v53, main_v126, main_v150, main_v191, main_v250, main_v311, main_v372] main_v392 (fun u => concatenate S32x64x160 2 [⟨S32x64x20, u 0⟩, ⟨S32x64x20, u 1⟩, ⟨S32x64x20, u 2⟩, ⟨S32x64x20, u 3⟩, ⟨S32x64x20, u 4⟩, ⟨S32x64x20, u 5⟩, ⟨S32x64x20, u 6⟩, ⟨S32x64x20, u 7⟩] concatenates_S32x64x20_S32x64x20_S32x64x20_S32x64x20_S32x64x20_S32x64x20_S32x64x20_S32x64x20_S32x64x160_d2),
    nary ![main_v78, main_v103, main_v127, main_v151, main_v210, main_v269, main_v330, main_v391] main_v393 (fun u => concatenate S32x64x160 2 [⟨S32x64x20, u 0⟩, ⟨S32x64x20, u 1⟩, ⟨S32x64x20, u 2⟩, ⟨S32x64x20, u 3⟩, ⟨S32x64x20, u 4⟩, ⟨S32x64x20, u 5⟩, ⟨S32x64x20, u 6⟩, ⟨S32x64x20, u 7⟩] concatenates_S32x64x20_S32x64x20_S32x64x20_S32x64x20_S32x64x20_S32x64x20_S32x64x20_S32x64x20_S32x64x160_d2) ]

set_option maxHeartbeats 4000000 in
theorem part7_eq (d : Dev nD) : main_part7 (F := F) d = seq P7 := rfl

/-- The eight parts' operations in order are the nineteen lists' operations in order. -/
theorem parts_eq : (P0 ++ (P1 ++ (P2 ++ (P3 ++ (P4 ++ (P5 ++ (P6 ++ P7)))))) : List (HloOp τ sig (Elt F))) = ops := rfl

/-- @main is the run of the 538 operations. -/
theorem main_eq (d : Dev nD) : main (F := F) d = seq ops := by
  rw [← parts_eq]
  simp only [seq_append]
  rw [← part0_eq d, ← part1_eq d, ← part2_eq d, ← part3_eq d, ← part4_eq d, ← part5_eq d, ← part6_eq d, ← part7_eq d]
  rfl

theorem scopedRefs_eq : (Finset.univ.filter fun b : Ref sig .tc => b.isScoped) = ∅ := by decide
theorem scopedSems_eq : (Finset.univ.filter fun sm : SemLoc sig => sm.isScoped .tc) = ∅ := by decide

/-- The run of the reference program: it terminates without a fault, its two results at the regrouped reference of
    the launch arguments, its arguments unchanged. -/
theorem runR (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v392) = Cert.ReferenceIdeal.MP.refP (m ((c.tc : Thread nD τ).loc main_arg0)) (m ((c.tc : Thread nD τ).loc main_arg1)) (m ((c.tc : Thread nD τ).loc main_arg2))
      ∧ r.2.mem ((c.tc : Thread nD τ).loc main_v393) = Cert.ReferenceIdeal.MP.refQ (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v392).trans (res392 (launchContents m c) _ _ _ rfl rfl rfl),
     (h c main_v393).trans (res393 (launchContents m c) _ _ _ rfl rfl rfl),
     (h c main_arg0).trans (kept0 (launchContents m c) _ _ _ rfl rfl rfl),
     (h c main_arg1).trans (kept1 (launchContents m c) _ _ _ rfl rfl rfl),
     (h c main_arg2).trans (kept2 (launchContents m c) _ _ _ rfl rfl rfl)⟩)
    (run_seq scopedRefs_eq scopedSems_eq defs main (fun _ => ops) main_eq (fun _ => ops_sub) m ρ (fun _ => ops_fresh))

end Cert.ReferenceIdeal.RunC

end
-- ==== Proof.lean ====
/-
  The proof of `Cert.Claim`.

  Both programs compute, for each of 32 batch entries, sixteen 64 x 20 blocks of cosines between weighted rows
  (Proof/Spec.lean).  The kernel pads every 300-lane row to 384 lanes with zeros and weights a product of two
  entries by the squared weight; the reference multiplies two weighted entries over the 300 lanes.  On the
  extended reals (x·y)·(w·w) = (x·w)·(y·w) by commutativity and associativity alone, and a padded lane contributes
  (x·y)·(0·0) = 0 whatever x and y are there, so the two agree entry by entry with no finiteness assumption
  (Proof/Algebra.lean).
    * The kernel program's run, its results named: Proof/KArr.lean over the regrouping of the printed body
      (Proof/KDefs.lean, Proof/KShape.lean), read entry by entry in Proof/KReadA.lean, Proof/KReadB.lean,
      Proof/KPieces.lean; the padded arrays the region finds: Proof/KPre.lean.
    * The reference program's run: its 538 host operations as nineteen lists (Proof/RunC1.lean … RunC19.lean),
      composed in Proof/RunAll.lean and Proof/RunMain.lean into the regrouping of Proof/RDefs.lean, read entry by
      entry in Proof/RReadA.lean, Proof/RReadB.lean, Proof/RPieces.lean.
    * The two meet in Proof/Bridge.lean.
  The three frames: the kernel programs' are the generated frame certificates; the reference's is its run with the
  results dropped.  The idealization rewrote nothing, so `preserves` is `True`.
-/
import proofs.«111495_j13082470383656_2_alg».proof.Defs
import proofs.«111495_j13082470383656_2_alg».proof.Proof.Gen.Kernel
import proofs.«111495_j13082470383656_2_alg».proof.Proof.Gen.Kernel.Skeleton
import proofs.«111495_j13082470383656_2_alg».proof.Proof.Gen.Kernel.Launch
import proofs.«111495_j13082470383656_2_alg».proof.Proof.Gen.Kernel.Points
import proofs.«111495_j13082470383656_2_alg».proof.Proof.Gen.Kernel.Frame
import proofs.«111495_j13082470383656_2_alg».proof.Proof.Gen.KernelIdeal
import proofs.«111495_j13082470383656_2_alg».proof.Proof.Gen.KernelIdeal.Skeleton
import proofs.«111495_j13082470383656_2_alg».proof.Proof.Gen.KernelIdeal.Launch
import proofs.«111495_j13082470383656_2_alg».proof.Proof.Gen.KernelIdeal.Points
import proofs.«111495_j13082470383656_2_alg».proof.Proof.Gen.KernelIdeal.Frame
import proofs.«111495_j13082470383656_2_alg».proof.Proof.Gen.ReferenceIdeal
import proofs.«111495_j13082470383656_2_alg».proof.Proof.Gen.Pre_finite_inputs
import proofs.«111495_j13082470383656_2_alg».proof.Proof.Bridge
import proofs.«111495_j13082470383656_2_alg».proof.Proof.RunMain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and its arguments end unchanged: its run, the results dropped. -/
theorem frame_ri : Cert.frame_ReferenceIdeal := fun m ρ _ =>
  (θ_run Cert.ReferenceIdeal.defs _ _).mono (fun _ h c => (h c).2.2) (Cert.ReferenceIdeal.RunC.runR (F := Ideal) m ρ)

theorem preserves : Cert.preserves_Kernel_KernelIdeal := trivial

/-- From memories agreeing on the arguments both programs run, and the kernel program's two results are the
    reference's: each is the regrouped reference of the common arguments (Proof/Bridge.lean). -/
theorem algebraic : Cert.algebraic_KernelIdeal_ReferenceIdeal := by
  intro m ρ m' ρ' _ hagree
  refine ⟨fun c => Cert.KernelIdeal.MP.KP m c, fun c => Cert.KernelIdeal.MP.KQ m c, Cert.KernelIdeal.MP.runK m ρ, ?_⟩
  refine (θ_run Cert.ReferenceIdeal.defs _ _).mono (fun _ h c => ?_) (Cert.ReferenceIdeal.RunC.runR (F := Ideal) m' ρ')
  obtain ⟨h392, h393, ha0, ha1, ha2⟩ := h c
  refine ⟨h392.trans ?_, h393.trans ?_, ha0, ha1, ha2⟩
  · rw [(hagree c).1, (hagree c).2.1, (hagree c).2.2]
    exact (Cert.KernelIdeal.MP.KP_eq m c).symm
  · rw [(hagree c).1, (hagree c).2.1, (hagree c).2.2]
    exact (Cert.KernelIdeal.MP.KQ_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
